-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x512 : Shape := ⟨2, ![1024, 512]⟩
abbrev S64x1024x256 : Shape := ⟨3, ![64, 1024, 256]⟩
abbrev S64x256 : Shape := ⟨2, ![64, 256]⟩
abbrev S64x256x256 : Shape := ⟨3, ![64, 256, 256]⟩
abbrev S64x256x1024 : Shape := ⟨3, ![64, 256, 1024]⟩
abbrev S64x1024 : Shape := ⟨2, ![64, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S64x1024x256 : S_.BroadcastsInDim S64x1024x256 (![] : Fin 0 → Fin S64x1024x256.rank)
  reducesTo_S64x1024x256_S_d0_1_2 : S64x1024x256.ReducesTo [0, 1, 2] S_
  bcast_S_S64x256 : S_.BroadcastsInDim S64x256 (![] : Fin 0 → Fin S64x256.rank)
  reducesTo_S64x256_S_d0_1 : S64x256.ReducesTo [0, 1] S_
  bcast_S_S64x256x256 : S_.BroadcastsInDim S64x256x256 (![] : Fin 0 → Fin S64x256x256.rank)
  reducesTo_S64x256x256_S_d0_1_2 : S64x256x256.ReducesTo [0, 1, 2] S_
  bcast_S_S64x256x1024 : S_.BroadcastsInDim S64x256x1024 (![] : Fin 0 → Fin S64x256x1024.rank)
  reducesTo_S64x256x1024_S_d0_1_2 : S64x256x1024.ReducesTo [0, 1, 2] S_
  bcast_S_S64x1024 : S_.BroadcastsInDim S64x1024 (![] : Fin 0 → Fin S64x1024.rank)
  reducesTo_S64x1024_S_d0_1 : S64x1024.ReducesTo [0, 1] S_

variable [Facts]

def fn_part2 {F : FTy → Type} [FloatOps F] (main_arg7 : FVec F S64x1024 .f32) (main_v33 : IVec S_ 1) : IVec S_ 1 :=
  let main_v34 : FVec F S64x1024 .f32 := Host.absf main_arg7
  let main_cst_12 : FVec F S_ .f32 := constant S_ .f32 0x7F800000#32
  let main_v35 : FVec F S64x1024 .f32 := broadcastInDim S64x1024 ![] bcast_S_S64x1024 main_cst_12
  let main_v36 : IVec S64x1024 1 := cmpf .olt main_v34 main_v35
  let main_c_13 : IVec S_ 1 := constantI S_ 1 1#1
  let main_v37 : IVec S_ 1 := (fun x v => Host.reduce IntOp.andi x v reducesTo_S64x1024_S_d0_1 h_S_) main_v36 main_c_13
  let main_v38 : IVec S_ 1 := andi main_v33 main_v37
  main_v38

def fn_part1 {F : FTy → Type} [FloatOps F] (main_arg4 : FVec F S64x256x256 .f32) (main_arg5 : FVec F S64x256 .f32) (main_arg6 : FVec F S64x256x1024 .f32) (main_arg7 : FVec F S64x1024 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64x256x256 .f32 := Host.absf main_arg4
  let main_cst_6 : FVec F S_ .f32 := constant S_ .f32 0x7F800000#32
  let main_v20 : FVec F S64x256x256 .f32 := broadcastInDim S64x256x256 ![] bcast_S_S64x256x256 main_cst_6
  let main_v21 : IVec S64x256x256 1 := cmpf .olt main_v19 main_v20
  let main_c_7 : IVec S_ 1 := constantI S_ 1 1#1
  let main_v22 : IVec S_ 1 := (fun x v => Host.reduce IntOp.andi x v reducesTo_S64x256x256_S_d0_1_2 h_S_) main_v21 main_c_7
  let main_v23 : IVec S_ 1 := andi main_v18 main_v22
  let main_v24 : FVec F S64x256 .f32 := Host.absf main_arg5
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S64x256x1024 .f32 := Host.absf main_arg6
  let main_cst_10 : FVec F S_ .f32 := constant S_ .f32 0x7F800000#32
  let main_v30 : FVec F S64x256x1024 .f32 := broadcastInDim S64x256x1024 ![] bcast_S_S64x256x1024 main_cst_10
  let main_v31 : IVec S64x256x1024 1 := cmpf .olt main_v29 main_v30
  let main_c_11 : IVec S_ 1 := constantI S_ 1 1#1
  let main_v32 : IVec S_ 1 := (fun x v => Host.reduce IntOp.andi x v reducesTo_S64x256x1024_S_d0_1_2 h_S_) main_v31 main_c_11
  let main_v33 : IVec S_ 1 := andi main_v28 main_v32
  fn_part2 (F := F) main_arg7 main_v33

def fn {F : FTy → Type} [FloatOps F] (main_arg0 : FVec F S8x4096x1024 .f32) (main_arg1 : FVec F S1024x512 .f32) (main_arg2 : FVec F S64x1024x256 .f32) (main_arg3 : FVec F S64x256 .f32) (main_arg4 : FVec F S64x256x256 .f32) (main_arg5 : FVec F S64x256 .f32) (main_arg6 : FVec F S64x256x1024 .f32) (main_arg7 : FVec F S64x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S64x1024x256 .f32 := Host.absf main_arg2
  let main_cst_2 : FVec F S_ .f32 := constant S_ .f32 0x7F800000#32
  let main_v10 : FVec F S64x1024x256 .f32 := broadcastInDim S64x1024x256 ![] bcast_S_S64x1024x256 main_cst_2
  let main_v11 : IVec S64x1024x256 1 := cmpf .olt main_v9 main_v10
  let main_c_3 : IVec S_ 1 := constantI S_ 1 1#1
  let main_v12 : IVec S_ 1 := (fun x v => Host.reduce IntOp.andi x v reducesTo_S64x1024x256_S_d0_1_2 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_arg5 main_arg6 main_arg7 main_v13 main_v16
-- ==== Kernel.lean ====
abbrev S8x4096x1024 : Shape := ⟨3, ![8, 4096, 1024]⟩
abbrev S1024x512 : Shape := ⟨2, ![1024, 512]⟩
abbrev S64x1024x256 : Shape := ⟨3, ![64, 1024, 256]⟩
abbrev S64x256 : Shape := ⟨2, ![64, 256]⟩
abbrev S64x256x256 : Shape := ⟨3, ![64, 256, 256]⟩
abbrev S64x256x1024 : Shape := ⟨3, ![64, 256, 1024]⟩
abbrev S64x1024 : Shape := ⟨2, ![64, 1024]⟩
abbrev S32768x1024 : Shape := ⟨2, ![32768, 1024]⟩
abbrev S512x1024 : Shape := ⟨2, ![512, 1024]⟩
abbrev S32768x512 : Shape := ⟨2, ![32768, 512]⟩
abbrev S2048x1024 : Shape := ⟨2, ![2048, 1024]⟩
abbrev S1024x256 : Shape := ⟨2, ![1024, 256]⟩
abbrev S256x1024 : Shape := ⟨2, ![256, 1024]⟩
abbrev S2048x256 : Shape := ⟨2, ![2048, 256]⟩
abbrev S1x256 : Shape := ⟨2, ![1, 256]⟩
abbrev S256 : Shape := ⟨1, ![256]⟩
abbrev S256x1 : Shape := ⟨2, ![256, 1]⟩
abbrev S64x8x1024 : Shape := ⟨3, ![64, 8, 1024]⟩
abbrev S8x8x1024 : Shape := ⟨3, ![8, 8, 1024]⟩
abbrev S8x1024x256 : Shape := ⟨3, ![8, 1024, 256]⟩
abbrev S8x256 : Shape := ⟨2, ![8, 256]⟩
abbrev S8x256x256 : Shape := ⟨3, ![8, 256, 256]⟩
abbrev S8x256x1024 : Shape := ⟨3, ![8, 256, 1024]⟩
abbrev S8x1024 : Shape := ⟨2, ![8, 1024]⟩
abbrev S8x8x256 : Shape := ⟨3, ![8, 8, 256]⟩
abbrev S8x1x256 : Shape := ⟨3, ![8, 1, 256]⟩
abbrev S8x1x1024 : Shape := ⟨3, ![8, 1, 1024]⟩
abbrev S2048x512 : Shape := ⟨2, ![2048, 512]⟩
abbrev S2048 : Shape := ⟨1, ![2048]⟩
abbrev S2048x1 : Shape := ⟨2, ![2048, 1]⟩

abbrev nBuf : Space → Nat
  | .hbm => 16
  | .vmem => 32
  | .smem => 0
  | _ => 0

abbrev bufTy : (tb : Table) → Fin (tcTables nBuf tb) → BufTy
  | .hbm, ⟨0, _⟩ => ⟨S8x4096x1024, .f32⟩
  | .hbm, ⟨1, _⟩ => ⟨S1024x512, .f32⟩
  | .hbm, ⟨2, _⟩ => ⟨S64x1024x256, .f32⟩
  | .hbm, ⟨3, _⟩ => ⟨S64x256, .f32⟩
  | .hbm, ⟨4, _⟩ => ⟨S64x256x256, .f32⟩
  | .hbm, ⟨5, _⟩ => ⟨S64x256, .f32⟩
  | .hbm, ⟨6, _⟩ => ⟨S64x256x1024, .f32⟩
  | .hbm, ⟨7, _⟩ => ⟨S64x1024, .f32⟩
  | .hbm, ⟨8, _⟩ => ⟨S32768x1024, .f32⟩
  | .hbm, ⟨9, _⟩ => ⟨S512x1024, .f32⟩
  | .hbm, ⟨10, _⟩ => ⟨S32768x512, .bf16⟩
  | .hbm, ⟨11, _⟩ => ⟨S64x8x1024, .f32⟩
  | .hbm, ⟨12, _⟩ => ⟨S64x8x1024, .f32⟩
  | .hbm, ⟨13, _⟩ => ⟨S512x1024, .f32⟩
  | .hbm, ⟨14, _⟩ => ⟨S32768x1024, .f32⟩
  | .hbm, ⟨15, _⟩ => ⟨S8x4096x1024, .f32⟩
  | .local _ .vmem, ⟨0, _⟩ => ⟨S2048x1024, .f32⟩
  | .local _ .vmem, ⟨1, _⟩ => ⟨S2048x1024, .f32⟩
  | .local _ .vmem, ⟨2, _⟩ => ⟨S1024x256, .f32⟩
  | .local _ .vmem, ⟨3, _⟩ => ⟨S1024x256, .f32⟩
  | .local _ .vmem, ⟨4, _⟩ => ⟨S256x1024, .f32⟩
  | .local _ .vmem, ⟨5, _⟩ => ⟨S256x1024, .f32⟩
  | .local _ .vmem, ⟨6, _⟩ => ⟨S2048x256, .bf16⟩
  | .local _ .vmem, ⟨7, _⟩ => ⟨S2048x256, .bf16⟩
  | .local _ .vmem, ⟨8, _⟩ => ⟨S1x256, .f32⟩
  | .local _ .vmem, ⟨9, _⟩ => ⟨S1x256, .f32⟩
  | .local _ .vmem, ⟨10, _⟩ => ⟨S256x1024, .f32⟩
  | .local _ .vmem, ⟨11, _⟩ => ⟨S8x8x1024, .f32⟩
  | .local _ .vmem, ⟨12, _⟩ => ⟨S8x8x1024, .f32⟩
  | .local _ .vmem, ⟨13, _⟩ => ⟨S8x1024x256, .f32⟩
  | .local _ .vmem, ⟨14, _⟩ => ⟨S8x1024x256, .f32⟩
  | .local _ .vmem, ⟨15, _⟩ => ⟨S8x256, .f32⟩
  | .local _ .vmem, ⟨16, _⟩ => ⟨S8x256, .f32⟩
  | .local _ .vmem, ⟨17, _⟩ => ⟨S8x256x256, .f32⟩
  | .local _ .vmem, ⟨18, _⟩ => ⟨S8x256x256, .f32⟩
  | .local _ .vmem, ⟨19, _⟩ => ⟨S8x256, .f32⟩
  | .local _ .vmem, ⟨20, _⟩ => ⟨S8x256, .f32⟩
  | .local _ .vmem, ⟨21, _⟩ => ⟨S8x256x1024, .f32⟩
  | .local _ .vmem, ⟨22, _⟩ => ⟨S8x256x1024, .f32⟩
  | .local _ .vmem, ⟨23, _⟩ => ⟨S8x1024, .f32⟩
  | .local _ .vmem, ⟨24, _⟩ => ⟨S8x1024, .f32⟩
  | .local _ .vmem, ⟨25, _⟩ => ⟨S8x8x1024, .f32⟩
  | .local _ .vmem, ⟨26, _⟩ => ⟨S8x8x1024, .f32⟩
  | .local _ .vmem, ⟨27, _⟩ => ⟨S2048x512, .bf16⟩
  | .local _ .vmem, ⟨28, _⟩ => ⟨S2048x512, .bf16⟩
  | .local _ .vmem, ⟨29, _⟩ => ⟨S512x1024, .f32⟩
  | .local _ .vmem, ⟨30, _⟩ => ⟨S2048x1024, .f32⟩
  | .local _ .vmem, ⟨31, _⟩ => ⟨S2048x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg2_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v42 : BitVec 1 := Scalar.cmpi .eq arg1 c15_i32
  let v43 : BitVec 32 := Scalar.extui v42
  let c0_i32_23 : BitVec 32 := 0#32
  let v44 : BitVec 1 := Scalar.cmpi .ne v43 c0_i32_23
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x8x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x8x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S8x4096x1024_S32768x1024 : S8x4096x1024.ShapeCasts S32768x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  reduces_S2048x256_S256 : S2048x256.Reduces [0] S256
  shapeCasts_S256_S1x256 : S256.ShapeCasts S1x256
  broadcasts_S1x256_S2048x256 : S1x256.Broadcasts S2048x256
  transposes_S1x256_p1_0_S256x1 : S1x256.Transposes [1, 0] S256x1
  broadcasts_S256x1_S256x1024 : S256x1.Broadcasts S256x1024
  shapeCasts_S512x1024_S64x8x1024 : S512x1024.ShapeCasts S64x8x1024
  inb_S8x8x1024_S8x8x1024_0_0_0 : ∀ a, (![0, 0, 0] : Fin 3 → Nat) a + S8x8x1024.size a ≤ S8x8x1024.size a
  h_S8x8x1024 : 0 < S8x8x1024.numel
  shapeCasts_S8x8x1024_S8x8x1024 : S8x8x1024.ShapeCasts S8x8x1024
  inb_S8x1024x256_S8x1024x256_0_0_0 : ∀ a, (![0, 0, 0] : Fin 3 → Nat) a + S8x1024x256.size a ≤ S8x1024x256.size a
  h_S8x1024x256 : 0 < S8x1024x256.numel
  inb_S8x256_S8x256_0_0 : ∀ a, (![0, 0] : Fin 2 → Nat) a + S8x256.size a ≤ S8x256.size a
  h_S8x256 : 0 < S8x256.numel
  shapeCasts_S8x256_S8x1x256 : S8x256.ShapeCasts S8x1x256
  broadcasts_S8x1x256_S8x8x256 : S8x1x256.Broadcasts S8x8x256
  inb_S8x256x256_S8x256x256_0_0_0 : ∀ a, (![0, 0, 0] : Fin 3 → Nat) a + S8x256x256.size a ≤ S8x256x256.size a
  h_S8x256x256 : 0 < S8x256x256.numel
  inb_S8x256x1024_S8x256x1024_0_0_0 : ∀ a, (![0, 0, 0] : Fin 3 → Nat) a + S8x256x1024.size a ≤ S8x256x1024.size a
  h_S8x256x1024 : 0 < S8x256x1024.numel
  inb_S8x1024_S8x1024_0_0 : ∀ a, (![0, 0] : Fin 2 → Nat) a + S8x1024.size a ≤ S8x1024.size a
  h_S8x1024 : 0 < S8x1024.numel
  shapeCasts_S8x1024_S8x1x1024 : S8x1024.ShapeCasts S8x1x1024
  broadcasts_S8x1x1024_S8x8x1024 : S8x1x1024.Broadcasts S8x8x1024
  shapeCasts_S64x8x1024_S512x1024 : S64x8x1024.ShapeCasts S512x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S2048x512_S2048 : S2048x512.Reduces [1] S2048
  shapeCasts_S2048_S2048x1 : S2048.ShapeCasts S2048x1
  broadcasts_S2048x1_S2048x512 : S2048x1.Broadcasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S32768x1024_S8x4096x1024 : S32768x1024.ShapeCasts S8x4096x1024
  dot_S2048x1024_S1024x256_S2048x256_1_0_0_1_n_n_wf : DotDims.WF S2048x1024 S1024x256 S2048x256 [1] [0] [0] [1] [] []
  dot_S2048x256_S2048x1024_S256x1024_0_0_1_1_n_n_wf : DotDims.WF S2048x256 S2048x1024 S256x1024 [0] [0] [1] [1] [] []
  dot_S8x8x1024_S8x1024x256_S8x8x256_2_1_1_2_0_0_wf : DotDims.WF S8x8x1024 S8x1024x256 S8x8x256 [2] [1] [1] [2] [0] [0]
  dot_S8x8x256_S8x256x256_S8x8x256_2_1_1_2_0_0_wf : DotDims.WF S8x8x256 S8x256x256 S8x8x256 [2] [1] [1] [2] [0] [0]
  dot_S8x8x256_S8x256x1024_S8x8x1024_2_1_1_2_0_0_wf : DotDims.WF S8x8x256 S8x256x1024 S8x8x1024 [2] [1] [1] [2] [0] [0]
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x512.size a
  hwx0_1 : ∀ i : grid0.Coords, EltTy.bits .f32 = 32 ∨ (Rect.block (s := S1024x512) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S512x1024.size a
  hwx0_2 : ∀ i : grid0.Coords, EltTy.bits .f32 = 32 ∨ (Rect.block (s := S512x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S32768x512.size a
  hwx0_3 : ∀ i : grid0.Coords, EltTy.bits .bf16 = 32 ∨ (Rect.block (s := S32768x512) S2048x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x8x1024.size a ≤ S64x8x1024.size a
  hwx1_0 : ∀ i : grid1.Coords, EltTy.bits .f32 = 32 ∨ (Rect.block (s := S64x8x1024) S8x8x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x1024x256.size a ≤ S64x1024x256.size a
  hwx1_1 : ∀ i : grid1.Coords, EltTy.bits .f32 = 32 ∨ (Rect.block (s := S64x1024x256) S8x1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256.size a ≤ S64x256.size a
  hwx1_2 : ∀ i : grid1.Coords, EltTy.bits .f32 = 32 ∨ (Rect.block (s := S64x256) S8x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x256x256.size a ≤ S64x256x256.size a
  hwx1_3 : ∀ i : grid1.Coords, EltTy.bits .f32 = 32 ∨ (Rect.block (s := S64x256x256) S8x256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x256.size a ≤ S64x256.size a
  hwx1_4 : ∀ i : grid1.Coords, EltTy.bits .f32 = 32 ∨ (Rect.block (s := S64x256) S8x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x256x1024.size a ≤ S64x256x1024.size a
  hwx1_5 : ∀ i : grid1.Coords, EltTy.bits .f32 = 32 ∨ (Rect.block (s := S64x256x1024) S8x256x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x1024.size a ≤ S64x1024.size a
  hwx1_6 : ∀ i : grid1.Coords, EltTy.bits .f32 = 32 ∨ (Rect.block (s := S64x1024) S8x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x8x1024.size a ≤ S64x8x1024.size a
  hwx1_7 : ∀ i : grid1.Coords, EltTy.bits .f32 = 32 ∨ (Rect.block (s := S64x8x1024) S8x8x1024.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S32768x512.size a
  hwx2_0 : ∀ i : grid2.Coords, EltTy.bits .bf16 = 32 ∨ (Rect.block (s := S32768x512) S2048x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S512x1024.size a
  hwx2_1 : ∀ i : grid2.Coords, EltTy.bits .f32 = 32 ∨ (Rect.block (s := S512x1024) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1024.size a ≤ S32768x1024.size a
  hwx2_2 : ∀ i : grid2.Coords, EltTy.bits .f32 = 32 ∨ (Rect.block (s := S32768x1024) S2048x1024.size (cc2_transform_2 i) (hinb2_2 i)).WholeWords (EltTy.packing .f32)

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S2048x1024_S256x1024_0_0_1_1_n_n : DotDims S2048x256 S2048x1024 S256x1024 where
  lhsContracting := [0]
  rhsContracting := [0]
  lhsNonContracting := [1]
  rhsNonContracting := [1]
  lhsBatch := []
  rhsBatch := []
  wf := dot_S2048x256_S2048x1024_S256x1024_0_0_1_1_n_n_wf
def dot_S8x8x1024_S8x1024x256_S8x8x256_2_1_1_2_0_0 : DotDims S8x8x1024 S8x1024x256 S8x8x256 where
  lhsContracting := [2]
  rhsContracting := [1]
  lhsNonContracting := [1]
  rhsNonContracting := [2]
  lhsBatch := [0]
  rhsBatch := [0]
  wf := dot_S8x8x1024_S8x1024x256_S8x8x256_2_1_1_2_0_0_wf
def dot_S8x8x256_S8x256x256_S8x8x256_2_1_1_2_0_0 : DotDims S8x8x256 S8x256x256 S8x8x256 where
  lhsContracting := [2]
  rhsContracting := [1]
  lhsNonContracting := [1]
  rhsNonContracting := [2]
  lhsBatch := [0]
  rhsBatch := [0]
  wf := dot_S8x8x256_S8x256x256_S8x8x256_2_1_1_2_0_0_wf
def dot_S8x8x256_S8x256x1024_S8x8x1024_2_1_1_2_0_0 : DotDims S8x8x256 S8x256x1024 S8x8x1024 where
  lhsContracting := [2]
  rhsContracting := [1]
  lhsNonContracting := [1]
  rhsNonContracting := [2]
  lhsBatch := [0]
  rhsBatch := [0]
  wf := dot_S8x8x256_S8x256x1024_S8x8x1024_2_1_1_2_0_0_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S256x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

abbrev win1_0 : Pipeline.Window sig grid1 :=
  Pipeline.Window.ofSpec (Memref.whole main_v2) S8x8x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S8x1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S8x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S8x256x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S8x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S8x256x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S8x1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v3) S8x8x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v1_1) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S512x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S2048x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8x4096x1024 : Shape := ⟨3, ![8, 4096, 1024]⟩
abbrev S1024x512 : Shape := ⟨2, ![1024, 512]⟩
abbrev S64x1024x256 : Shape := ⟨3, ![64, 1024, 256]⟩
abbrev S64x256 : Shape := ⟨2, ![64, 256]⟩
abbrev S64x256x256 : Shape := ⟨3, ![64, 256, 256]⟩
abbrev S64x256x1024 : Shape := ⟨3, ![64, 256, 1024]⟩
abbrev S64x1024 : Shape := ⟨2, ![64, 1024]⟩
abbrev S32768x1024 : Shape := ⟨2, ![32768, 1024]⟩
abbrev S32768x512 : Shape := ⟨2, ![32768, 512]⟩
abbrev S_ : Shape := ⟨0, ![]⟩
abbrev S512 : Shape := ⟨1, ![512]⟩
abbrev S1x512 : Shape := ⟨2, ![1, 512]⟩
abbrev S32768 : Shape := ⟨1, ![32768]⟩
abbrev S32768x1 : Shape := ⟨2, ![32768, 1]⟩
abbrev S512x32768 : Shape := ⟨2, ![512, 32768]⟩
abbrev S512x1024 : Shape := ⟨2, ![512, 1024]⟩
abbrev S64x8x1024 : Shape := ⟨3, ![64, 8, 1024]⟩
abbrev S64x8x256 : Shape := ⟨3, ![64, 8, 256]⟩
abbrev S64x1x256 : Shape := ⟨3, ![64, 1, 256]⟩
abbrev S64x1x1024 : Shape := ⟨3, ![64, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x512, .f32⟩
  | .hbm, ⟨2, _⟩ => ⟨S64x1024x256, .f32⟩
  | .hbm, ⟨3, _⟩ => ⟨S64x256, .f32⟩
  | .hbm, ⟨4, _⟩ => ⟨S64x256x256, .f32⟩
  | .hbm, ⟨5, _⟩ => ⟨S64x256, .f32⟩
  | .hbm, ⟨6, _⟩ => ⟨S64x256x1024, .f32⟩
  | .hbm, ⟨7, _⟩ => ⟨S64x1024, .f32⟩
  | .hbm, ⟨8, _⟩ => ⟨S32768x1024, .f32⟩
  | .hbm, ⟨9, _⟩ => ⟨S32768x512, .f32⟩
  | .hbm, ⟨10, _⟩ => ⟨S_, .f32⟩
  | .hbm, ⟨11, _⟩ => ⟨S512, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S1x512, .f32⟩
  | .hbm, ⟨16, _⟩ => ⟨S32768x512, .f32⟩
  | .hbm, ⟨17, _⟩ => ⟨S32768x512, .f32⟩
  | .hbm, ⟨18, _⟩ => ⟨S32768x512, .f32⟩
  | .hbm, ⟨19, _⟩ => ⟨S_, .f32⟩
  | .hbm, ⟨20, _⟩ => ⟨S512, .f32⟩
  | .hbm, ⟨21, _⟩ => ⟨S1x512, .f32⟩
  | .hbm, ⟨22, _⟩ => ⟨S32768x512, .f32⟩
  | .hbm, ⟨23, _⟩ => ⟨S32768x512, .f32⟩
  | .hbm, ⟨24, _⟩ => ⟨S_, .f32⟩
  | .hbm, ⟨25, _⟩ => ⟨S32768, .f32⟩
  | .hbm, ⟨26, _⟩ => ⟨S_, .f32⟩
  | .hbm, ⟨27, _⟩ => ⟨S32768, .f32⟩
  | .hbm, ⟨28, _⟩ => ⟨S32768, .f32⟩
  | .hbm, ⟨29, _⟩ => ⟨S32768x1, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S32768x512, .f32⟩
  | .hbm, ⟨37, _⟩ => ⟨S32768x512, .f32⟩
  | .hbm, ⟨38, _⟩ => ⟨S512x32768, .f32⟩
  | .hbm, ⟨39, _⟩ => ⟨S512x1024, .f32⟩
  | .hbm, ⟨40, _⟩ => ⟨S64x8x1024, .f32⟩
  | .hbm, ⟨41, _⟩ => ⟨S64x8x256, .f32⟩
  | .hbm, ⟨42, _⟩ => ⟨S64x1x256, .f32⟩
  | .hbm, ⟨43, _⟩ => ⟨S64x8x256, .f32⟩
  | .hbm, ⟨44, _⟩ => ⟨S64x8x256, .f32⟩
  | .hbm, ⟨45, _⟩ => ⟨S_, .f32⟩
  | .hbm, ⟨46, _⟩ => ⟨S64x8x256, .f32⟩
  | .hbm, ⟨47, _⟩ => ⟨S64x8x256, .f32⟩
  | .hbm, ⟨48, _⟩ => ⟨S64x8x256, .f32⟩
  | .hbm, ⟨49, _⟩ => ⟨S64x1x256, .f32⟩
  | .hbm, ⟨50, _⟩ => ⟨S64x8x256, .f32⟩
  | .hbm, ⟨51, _⟩ => ⟨S64x8x256, .f32⟩
  | .hbm, ⟨52, _⟩ => ⟨S_, .f32⟩
  | .hbm, ⟨53, _⟩ => ⟨S64x8x256, .f32⟩
  | .hbm, ⟨54, _⟩ => ⟨S64x8x256, .f32⟩
  | .hbm, ⟨55, _⟩ => ⟨S64x8x1024, .f32⟩
  | .hbm, ⟨56, _⟩ => ⟨S64x1x1024, .f32⟩
  | .hbm, ⟨57, _⟩ => ⟨S64x8x1024, .f32⟩
  | .hbm, ⟨58, _⟩ => ⟨S64x8x1024, .f32⟩
  | .hbm, ⟨59, _⟩ => ⟨S512x1024, .f32⟩
  | .hbm, ⟨60, _⟩ => ⟨S32768x1024, .f32⟩
  | .hbm, ⟨61, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call1_cst : Ref sig .tc := ⟨.hbm, 52, rfl⟩
abbrev main_call1_v0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]

class Facts₀ : Prop where
  shapeCasts_S8x4096x1024_S32768x1024 : S8x4096x1024.ShapeCasts S32768x1024
  reducesTo_S32768x512_S512_d0 : S32768x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  reducesTo_S32768x512_S32768_d1 : S32768x512.ReducesTo [1] S32768
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x512_0_1 : S32768x1.BroadcastsInDim S32768x512 (![0, 1] : Fin 2 → Fin S32768x512.rank)
  transposes_S32768x512_S512x32768_1_0 : S32768x512.Transposes [1, 0] S512x32768
  shapeCasts_S512x1024_S64x8x1024 : S512x1024.ShapeCasts S64x8x1024
  bcast_S64x256_S64x1x256_0_2 : S64x256.BroadcastsInDim S64x1x256 (![0, 2] : Fin 2 → Fin S64x1x256.rank)
  bcast_S64x1x256_S64x8x256_0_1_2 : S64x1x256.BroadcastsInDim S64x8x256 (![0, 1, 2] : Fin 3 → Fin S64x8x256.rank)
  bcast_S_S64x8x256 : S_.BroadcastsInDim S64x8x256 (![] : Fin 0 → Fin S64x8x256.rank)
  bcast_S64x1024_S64x1x1024_0_2 : S64x1024.BroadcastsInDim S64x1x1024 (![0, 2] : Fin 2 → Fin S64x1x1024.rank)
  bcast_S64x1x1024_S64x8x1024_0_1_2 : S64x1x1024.BroadcastsInDim S64x8x1024 (![0, 1, 2] : Fin 3 → Fin S64x8x1024.rank)
  shapeCasts_S64x8x1024_S512x1024 : S64x8x1024.ShapeCasts S512x1024
  shapeCasts_S32768x1024_S8x4096x1024 : S32768x1024.ShapeCasts S8x4096x1024
  dot_S32768x1024_S1024x512_S32768x512_1_0_0_1_n_n_wf : DotDims.WF S32768x1024 S1024x512 S32768x512 [1] [0] [0] [1] [] []
  dot_S512x32768_S32768x1024_S512x1024_1_0_0_1_n_n_wf : DotDims.WF S512x32768 S32768x1024 S512x1024 [1] [0] [0] [1] [] []
  dot_S64x8x1024_S64x1024x256_S64x8x256_2_1_1_2_0_0_wf : DotDims.WF S64x8x1024 S64x1024x256 S64x8x256 [2] [1] [1] [2] [0] [0]
  dot_S64x8x256_S64x256x256_S64x8x256_2_1_1_2_0_0_wf : DotDims.WF S64x8x256 S64x256x256 S64x8x256 [2] [1] [1] [2] [0] [0]
  dot_S64x8x256_S64x256x1024_S64x8x1024_2_1_1_2_0_0_wf : DotDims.WF S64x8x256 S64x256x1024 S64x8x1024 [2] [1] [1] [2] [0] [0]
  dot_S32768x512_S512x1024_S32768x1024_1_0_0_1_n_n_wf : DotDims.WF S32768x512 S512x1024 S32768x1024 [1] [0] [0] [1] [] []

variable [Facts₀]

def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def dot_S512x32768_S32768x1024_S512x1024_1_0_0_1_n_n : DotDims S512x32768 S32768x1024 S512x1024 where
  lhsContracting := [1]
  rhsContracting := [0]
  lhsNonContracting := [0]
  rhsNonContracting := [1]
  lhsBatch := []
  rhsBatch := []
  wf := dot_S512x32768_S32768x1024_S512x1024_1_0_0_1_n_n_wf
def dot_S64x8x1024_S64x1024x256_S64x8x256_2_1_1_2_0_0 : DotDims S64x8x1024 S64x1024x256 S64x8x256 where
  lhsContracting := [2]
  rhsContracting := [1]
  lhsNonContracting := [1]
  rhsNonContracting := [2]
  lhsBatch := [0]
  rhsBatch := [0]
  wf := dot_S64x8x1024_S64x1024x256_S64x8x256_2_1_1_2_0_0_wf
def dot_S64x8x256_S64x256x256_S64x8x256_2_1_1_2_0_0 : DotDims S64x8x256 S64x256x256 S64x8x256 where
  lhsContracting := [2]
  rhsContracting := [1]
  lhsNonContracting := [1]
  rhsNonContracting := [2]
  lhsBatch := [0]
  rhsBatch := [0]
  wf := dot_S64x8x256_S64x256x256_S64x8x256_2_1_1_2_0_0_wf
def dot_S64x8x256_S64x256x1024_S64x8x1024_2_1_1_2_0_0 : DotDims S64x8x256 S64x256x1024 S64x8x1024 where
  lhsContracting := [2]
  rhsContracting := [1]
  lhsNonContracting := [1]
  rhsNonContracting := [2]
  lhsBatch := [0]
  rhsBatch := [0]
  wf := dot_S64x8x256_S64x256x1024_S64x8x1024_2_1_1_2_0_0_wf
def dot_S32768x512_S512x1024_S32768x1024_1_0_0_1_n_n : DotDims S32768x512 S512x1024 S32768x1024 where
  lhsContracting := [1]
  rhsContracting := [0]
  lhsNonContracting := [0]
  rhsNonContracting := [1]
  lhsBatch := []
  rhsBatch := []
  wf := dot_S32768x512_S512x1024_S32768x1024_1_0_0_1_n_n_wf

class Facts : Prop extends Facts₀ where

variable [Facts]
-- ==== Proof.Bits.Run.lean ====
/-
  The run of a program of three kernel regions among four stretches of host operations, from the proof data of each
  region. Between two items a core holds every unscoped buffer at a known valuation: the launch memory, then each host
  stretch applied to it, then, after a region, the region's arrays at what its write-backs leave. Each region is a
  segment entered from the valuation before it and left at the one after it; the segments chain; so every weakly
  fair execution of @main terminates and the final memory is the last valuation, buffer by buffer. The regions'
  proof data, body obligations and invariants are parameters here: a class-A region's invariant is the scratch at
  anything, a region that carries scratch between grid points supplies the two entailments to and from that.
-/
import proofs.«181279_j10471130267897_2_alg».proof.Proof.Gen.Kernel.Launch
import proofs.«181279_j10471130267897_2_alg».proof.Proof.Gen.Kernel.Skeleton
import proofs.«181279_j10471130267897_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A core's TensorCore buffers at some contents: what a region's proof data are stated at. -/
abbrev Vals : Type := (c : Dev nD) → (b : Ref sig .tc) → Buf (Elt F) ((c : Thread nD τ).loc b)

section Run

/-- The three regions' proof data, each as a function of the contents its region is entered at, and the launch memory. -/
structure Data where
  dat0 : Vals (F := F) → (c : Dev nD) → Dat τ (Elt F) Unit ℕ (UR sig nD τ) ℕ cfg0 c
  dat1 : Vals (F := F) → (c : Dev nD) → Dat τ (Elt F) Unit ℕ (UR sig nD τ) ℕ cfg1 c
  dat2 : Vals (F := F) → (c : Dev nD) → Dat τ (Elt F) Unit ℕ (UR sig nD τ) ℕ cfg2 c
  m : (ℓ : Loc nD τ sig) → Buf (Elt F) ℓ

variable (D : Data (F := F))

/-! ## The buffer contents at each boundary: a fold through @main -/

/-- Core `c`'s buffers at launch. -/
abbrev W0 : Dev nD → Valuation τ sig (Elt F) := fun c b => D.m (c, b)

/-- After the host stretch `hostOps0`. -/
abbrev W1 : Dev nD → Valuation τ sig (Elt F) := fun c => StableHlo.after hostOps0 (W0 D c)
/-- The same read at the TensorCore's references: what the next region's proof data take. -/
abbrev V1 : Vals (F := F) := fun c b => W1 D c b

/-- After region 0: its arrays at what the pipeline leaves (an input as entered, an output's write-backs folded),
    every other buffer as entered. -/
def W2 (c : Dev nD) : Valuation τ sig (Elt F) :=
  Pipeline.withArrays spec0 c (W1 D c) fun w => (D.dat0 (V1 D) c).arrAt w cfg0.N
theorem W2_arr (c : Dev nD) (w : Fin cfg0.W) :
    W2 D c (Proc.devRef .tc (Pipeline.arrRef spec0 w)) = (D.dat0 (V1 D) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 D c (Proc.devRef .tc b) = W1 D c (Proc.devRef .tc b) := by
  unfold W2; exact Pipeline.withArrays_of_ne spec0 c _ _ b hb
/-- The same read at the TensorCore's references. -/
abbrev V2 : Vals (F := F) := fun c b => W2 D c b
theorem hF0 (c : Dev nD) (w : Fin cfg0.W) : (D.dat0 (V1 D) c).arrAt w cfg0.N = V2 D c (Pipeline.arrRef spec0 w) :=
  (W2_arr D c w).symm
theorem hrest0 (c : Dev nD) : ∀ b, b ∉ Finset.univ.image (Pipeline.arrRef spec0) → V2 D c b = V1 D c b :=
  fun b hb => W2_of_ne D c b fun w e => hb (Finset.mem_image.mpr ⟨w, Finset.mem_univ _, e⟩)

/-- After the host stretch `hostOps1`. -/
abbrev W3 : Dev nD → Valuation τ sig (Elt F) := fun c => StableHlo.after hostOps1 (W2 D c)
/-- The same read at the TensorCore's references: what the next region's proof data take. -/
abbrev V3 : Vals (F := F) := fun c b => W3 D c b

/-- After region 1: its arrays at what the pipeline leaves (an input as entered, an output's write-backs folded),
    every other buffer as entered. -/
def W4 (c : Dev nD) : Valuation τ sig (Elt F) :=
  Pipeline.withArrays spec1 c (W3 D c) fun w => (D.dat1 (V3 D) c).arrAt w cfg1.N
theorem W4_arr (c : Dev nD) (w : Fin cfg1.W) :
    W4 D c (Proc.devRef .tc (Pipeline.arrRef spec1 w)) = (D.dat1 (V3 D) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 D c (Proc.devRef .tc b) = W3 D c (Proc.devRef .tc b) := by
  unfold W4; exact Pipeline.withArrays_of_ne spec1 c _ _ b hb
/-- The same read at the TensorCore's references. -/
abbrev V4 : Vals (F := F) := fun c b => W4 D c b
theorem hF1 (c : Dev nD) (w : Fin cfg1.W) : (D.dat1 (V3 D) c).arrAt w cfg1.N = V4 D c (Pipeline.arrRef spec1 w) :=
  (W4_arr D c w).symm
theorem hrest1 (c : Dev nD) : ∀ b, b ∉ Finset.univ.image (Pipeline.arrRef spec1) → V4 D c b = V3 D c b :=
  fun b hb => W4_of_ne D c b fun w e => hb (Finset.mem_image.mpr ⟨w, Finset.mem_univ _, e⟩)

/-- After the host stretch `hostOps2`. -/
abbrev W5 : Dev nD → Valuation τ sig (Elt F) := fun c => StableHlo.after hostOps2 (W4 D c)
/-- The same read at the TensorCore's references: what the next region's proof data take. -/
abbrev V5 : Vals (F := F) := fun c b => W5 D c b

/-- After region 2: its arrays at what the pipeline leaves (an input as entered, an output's write-backs folded),
    every other buffer as entered. -/
def W6 (c : Dev nD) : Valuation τ sig (Elt F) :=
  Pipeline.withArrays spec2 c (W5 D c) fun w => (D.dat2 (V5 D) c).arrAt w cfg2.N
theorem W6_arr (c : Dev nD) (w : Fin cfg2.W) :
    W6 D c (Proc.devRef .tc (Pipeline.arrRef spec2 w)) = (D.dat2 (V5 D) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 D c (Proc.devRef .tc b) = W5 D c (Proc.devRef .tc b) := by
  unfold W6; exact Pipeline.withArrays_of_ne spec2 c _ _ b hb
/-- The same read at the TensorCore's references. -/
abbrev V6 : Vals (F := F) := fun c b => W6 D c b
theorem hF2 (c : Dev nD) (w : Fin cfg2.W) : (D.dat2 (V5 D) c).arrAt w cfg2.N = V6 D c (Pipeline.arrRef spec2 w) :=
  (W6_arr D c w).symm
theorem hrest2 (c : Dev nD) : ∀ b, b ∉ Finset.univ.image (Pipeline.arrRef spec2) → V6 D c b = V5 D c b :=
  fun b hb => W6_of_ne D c b fun w e => hb (Finset.mem_image.mpr ⟨w, Finset.mem_univ _, e⟩)

/-- After the last host stretch: the contents the program returns with. -/
abbrev W7 : Dev nD → Valuation τ sig (Elt F) := fun c => StableHlo.after hostOps3 (W6 D c)

/-! ## The proof data family and the thread state -/

/-- No pipeline has a prefetched table. -/
abbrev adm : (p : Fin 3) → (pcfgs (F := F) p).Adm := fun p => (cfgs p).toPCfg_adm
/-- Every pipeline's proof data, each at its region's entry contents: a literal match on the pipeline's number. -/
def pdats : (p : Fin 3) → (c : Dev nD) → Dat τ (Elt F) Unit ℕ (UR sig nD τ) ℕ (Pipeline.pin (pcfgs (F := F)) adm p) c
  | ⟨0, _⟩ => fun c => D.dat0 (V1 D) c
  | ⟨1, _⟩ => fun c => D.dat1 (V3 D) c
  | ⟨2, _⟩ => fun c => D.dat2 (V5 D) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

/-- What the run asks of the regions' proof data: the arrays are the entry contents; full shares; nothing owed; the
    body obligation; and the region's invariant is reached from, and gives back, "the scratch at anything". -/
structure Data.Facts : Prop where
  A_eq0 : ∀ (V : Vals (F := F)) c w, (D.dat0 V c).A w = V c (Pipeline.arrRef spec0 w)
  hq0 : ∀ (V : Vals (F := F)) c w, (D.dat0 V c).q w = fullShare
  howed0 : ∀ (V : Vals (F := F)) c t, (D.dat0 V c).owed t = 0
  hrec0 : ∀ (V : Vals (F := F)) c t, (D.dat0 V c).recorded t = Set.univ
  hbody0 : ∀ (V : Vals (F := F)) c, BodyObligation (D.dat0 V c) (defs₀ (F := F)) Variants.none () Set.univ
  hin0 : ∀ (V : Vals (F := F)) c, (Pipeline.ΦA spec0 c : sProp 𝕄) ⊢ (D.dat0 V c).Φ 0
  hout0 : ∀ (V : Vals (F := F)) c, (D.dat0 V c).Φ (Fin.last cfg0.N) ⊢ (Pipeline.ΦA spec0 c : sProp 𝕄)
  A_eq1 : ∀ (V : Vals (F := F)) c w, (D.dat1 V c).A w = V c (Pipeline.arrRef spec1 w)
  hq1 : ∀ (V : Vals (F := F)) c w, (D.dat1 V c).q w = fullShare
  howed1 : ∀ (V : Vals (F := F)) c t, (D.dat1 V c).owed t = 0
  hrec1 : ∀ (V : Vals (F := F)) c t, (D.dat1 V c).recorded t = Set.univ
  hbody1 : ∀ (V : Vals (F := F)) c, BodyObligation (D.dat1 V c) (defs₀ (F := F)) Variants.none () Set.univ
  hin1 : ∀ (V : Vals (F := F)) c, (Pipeline.ΦA spec1 c : sProp 𝕄) ⊢ (D.dat1 V c).Φ 0
  hout1 : ∀ (V : Vals (F := F)) c, (D.dat1 V c).Φ (Fin.last cfg1.N) ⊢ (Pipeline.ΦA spec1 c : sProp 𝕄)
  A_eq2 : ∀ (V : Vals (F := F)) c w, (D.dat2 V c).A w = V c (Pipeline.arrRef spec2 w)
  hq2 : ∀ (V : Vals (F := F)) c w, (D.dat2 V c).q w = fullShare
  howed2 : ∀ (V : Vals (F := F)) c t, (D.dat2 V c).owed t = 0
  hrec2 : ∀ (V : Vals (F := F)) c t, (D.dat2 V c).recorded t = Set.univ
  hbody2 : ∀ (V : Vals (F := F)) c, BodyObligation (D.dat2 V c) (defs₀ (F := F)) Variants.none () Set.univ
  hin2 : ∀ (V : Vals (F := F)) c, (Pipeline.ΦA spec2 c : sProp 𝕄) ⊢ (D.dat2 V c).Φ 0
  hout2 : ∀ (V : Vals (F := F)) c, (D.dat2 V c).Φ (Fin.last cfg2.N) ⊢ (Pipeline.ΦA spec2 c : sProp 𝕄)

variable (hD : D.Facts)

set_option backward.isDefEq.respectTransparency.types false in
/-- Region 0 as a segment: entered with every unscoped buffer at the contents before it, left with the region's arrays
    at what its write-backs leave and every other buffer as entered. The arrays are split out of the unscoped buffers
    on entry and put back on exit; the generator register goes into the region's invariant and comes back; the scratch
    buffers are the invariant's; nothing is owed; the kernel has no semaphore of its own. -/
def reg0 : Pipeline.RegionSeg (pcfgs (F := F)) adm (pdats D) () defs₀ 𝒱₀ L lv 0 where
  win := launch0.win.to₀
  block_pos := launch0.block_pos
  stage_whole := launch0.stage_whole
  K := PEmpty
  osem k := k.elim
  ho := Pipeline.OwnSemFacts.none _
  hbody c := (hD.hbody0 (V1 D) c).loose
  hwaits := Pipeline.hwaits_of_owed_zero _ _ _ _ L lv 0 fun c t => hD.howed0 (V1 D) c t
  pre c := iprop(StableHlo.held (c : Thread nD τ) (Pipeline.ucRefs τ sig) (W1 D c) ∗ R c)
  post c := iprop(StableHlo.held (c : Thread nD τ) (Pipeline.ucRefs τ sig) (W2 D c) ∗ R c)
  X c := iprop(∃ r, prngReg c r)
  Y c := iprop(∃ r, prngReg c r)
  Z c := Pipeline.unscopedRest (Ix := Unit) (Name := ℕ) (U := UR sig nD τ) (Lvl := ℕ) spec0 c (V1 D c)
  hentry c := by
    rw [Pipeline.ownSems0_none]
    have ho : (pdats D 0 c).owed 0 = 0 := hD.howed0 (V1 D) c 0
    have hrec : (pdats D 0 c).recorded 0 = Set.univ := hD.hrec0 (V1 D) c 0
    have hsplit := Pipeline.arrays_of_unscopedBufs (p := 0) (pcfgs (F := F)) adm (pdats D) launch0.win launch0.arr_whole c
      ((pdats D 0 c).share_full fun w => hD.hq0 (V1 D) c w) (V1 D c) fun w => hD.A_eq0 (V1 D) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun x _ => Or.inl (by rw [hrec]; exact Set.mem_univ x)
      iexact HO
    isplitl [Hp]; · iexact Hp
    iexact Hrest
  hin c := (show _ ⊢ (Pipeline.ΦA spec0 c : sProp 𝕄) from by
    unfold Pipeline.ΦA
    iintro ⟨Hp, -, Hr⟩
    isplitl [Hr]; · iexact Hr
    iexact Hp).trans (hD.hin0 (V1 D) c)
  hout c := (hD.hout0 (V1 D) c).trans (show (Pipeline.ΦA spec0 c : sProp 𝕄) ⊢ _ from by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 0) (pcfgs (F := F)) adm (Ix := Unit) (Name := ℕ) (U := UR sig nD τ) (Lvl := ℕ)
      launch0.win launch0.arr_whole c (pdats D) ((pdats D 0 c).share_full fun w => hD.hq0 (V1 D) c w)
      (V1 D c) (V2 D c) ((pdats D 0 c).arrAt · cfg0.N) (hF0 D c) (hrest0 D c)
    rw [Pipeline.unscopedBufs_held] at hjoin
    have ho : (pdats D 0 c).owed (Fin.last (Pipeline.pin (pcfgs (F := F)) adm 0).N) = 0 := hD.howed0 (V1 D) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

set_option backward.isDefEq.respectTransparency.types false in
/-- Region 1 as a segment: entered with every unscoped buffer at the contents before it, left with the region's arrays
    at what its write-backs leave and every other buffer as entered. The arrays are split out of the unscoped buffers
    on entry and put back on exit; the generator register goes into the region's invariant and comes back; the scratch
    buffers are the invariant's; nothing is owed; the kernel has no semaphore of its own. -/
def reg1 : Pipeline.RegionSeg (pcfgs (F := F)) adm (pdats D) () defs₀ 𝒱₀ L lv 1 where
  win := launch1.win.to₀
  block_pos := launch1.block_pos
  stage_whole := launch1.stage_whole
  K := PEmpty
  osem k := k.elim
  ho := Pipeline.OwnSemFacts.none _
  hbody c := (hD.hbody1 (V3 D) c).loose
  hwaits := Pipeline.hwaits_of_owed_zero _ _ _ _ L lv 1 fun c t => hD.howed1 (V3 D) c t
  pre c := iprop(StableHlo.held (c : Thread nD τ) (Pipeline.ucRefs τ sig) (W3 D c) ∗ R c)
  post c := iprop(StableHlo.held (c : Thread nD τ) (Pipeline.ucRefs τ sig) (W4 D c) ∗ R c)
  X c := iprop(∃ r, prngReg c r)
  Y c := iprop(∃ r, prngReg c r)
  Z c := Pipeline.unscopedRest (Ix := Unit) (Name := ℕ) (U := UR sig nD τ) (Lvl := ℕ) spec1 c (V3 D c)
  hentry c := by
    rw [Pipeline.ownSems0_none]
    have ho : (pdats D 1 c).owed 0 = 0 := hD.howed1 (V3 D) c 0
    have hrec : (pdats D 1 c).recorded 0 = Set.univ := hD.hrec1 (V3 D) c 0
    have hsplit := Pipeline.arrays_of_unscopedBufs (p := 1) (pcfgs (F := F)) adm (pdats D) launch1.win launch1.arr_whole c
      ((pdats D 1 c).share_full fun w => hD.hq1 (V3 D) c w) (V3 D c) fun w => hD.A_eq1 (V3 D) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun x _ => Or.inl (by rw [hrec]; exact Set.mem_univ x)
      iexact HO
    isplitl [Hp]; · iexact Hp
    iexact Hrest
  hin c := (show _ ⊢ (Pipeline.ΦA spec1 c : sProp 𝕄) from by
    unfold Pipeline.ΦA
    iintro ⟨Hp, -, Hr⟩
    isplitl [Hr]; · iexact Hr
    iexact Hp).trans (hD.hin1 (V3 D) c)
  hout c := (hD.hout1 (V3 D) c).trans (show (Pipeline.ΦA spec1 c : sProp 𝕄) ⊢ _ from by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 1) (pcfgs (F := F)) adm (Ix := Unit) (Name := ℕ) (U := UR sig nD τ) (Lvl := ℕ)
      launch1.win launch1.arr_whole c (pdats D) ((pdats D 1 c).share_full fun w => hD.hq1 (V3 D) c w)
      (V3 D c) (V4 D c) ((pdats D 1 c).arrAt · cfg1.N) (hF1 D c) (hrest1 D c)
    rw [Pipeline.unscopedBufs_held] at hjoin
    have ho : (pdats D 1 c).owed (Fin.last (Pipeline.pin (pcfgs (F := F)) adm 1).N) = 0 := hD.howed1 (V3 D) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

set_option backward.isDefEq.respectTransparency.types false in
/-- Region 2 as a segment: entered with every unscoped buffer at the contents before it, left with the region's arrays
    at what its write-backs leave and every other buffer as entered. The arrays are split out of the unscoped buffers
    on entry and put back on exit; the generator register goes into the region's invariant and comes back; the scratch
    buffers are the invariant's; nothing is owed; the kernel has no semaphore of its own. -/
def reg2 : Pipeline.RegionSeg (pcfgs (F := F)) adm (pdats D) () defs₀ 𝒱₀ L lv 2 where
  win := launch2.win.to₀
  block_pos := launch2.block_pos
  stage_whole := launch2.stage_whole
  K := PEmpty
  osem k := k.elim
  ho := Pipeline.OwnSemFacts.none _
  hbody c := (hD.hbody2 (V5 D) c).loose
  hwaits := Pipeline.hwaits_of_owed_zero _ _ _ _ L lv 2 fun c t => hD.howed2 (V5 D) c t
  pre c := iprop(StableHlo.held (c : Thread nD τ) (Pipeline.ucRefs τ sig) (W5 D c) ∗ R c)
  post c := iprop(StableHlo.held (c : Thread nD τ) (Pipeline.ucRefs τ sig) (W6 D c) ∗ R c)
  X c := iprop(∃ r, prngReg c r)
  Y c := iprop(∃ r, prngReg c r)
  Z c := Pipeline.unscopedRest (Ix := Unit) (Name := ℕ) (U := UR sig nD τ) (Lvl := ℕ) spec2 c (V5 D c)
  hentry c := by
    rw [Pipeline.ownSems0_none]
    have ho : (pdats D 2 c).owed 0 = 0 := hD.howed2 (V5 D) c 0
    have hrec : (pdats D 2 c).recorded 0 = Set.univ := hD.hrec2 (V5 D) c 0
    have hsplit := Pipeline.arrays_of_unscopedBufs (p := 2) (pcfgs (F := F)) adm (pdats D) launch2.win launch2.arr_whole c
      ((pdats D 2 c).share_full fun w => hD.hq2 (V5 D) c w) (V5 D c) fun w => hD.A_eq2 (V5 D) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun x _ => Or.inl (by rw [hrec]; exact Set.mem_univ x)
      iexact HO
    isplitl [Hp]; · iexact Hp
    iexact Hrest
  hin c := (show _ ⊢ (Pipeline.ΦA spec2 c : sProp 𝕄) from by
    unfold Pipeline.ΦA
    iintro ⟨Hp, -, Hr⟩
    isplitl [Hr]; · iexact Hr
    iexact Hp).trans (hD.hin2 (V5 D) c)
  hout c := (hD.hout2 (V5 D) c).trans (show (Pipeline.ΦA spec2 c : sProp 𝕄) ⊢ _ from by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 2) (pcfgs (F := F)) adm (Ix := Unit) (Name := ℕ) (U := UR sig nD τ) (Lvl := ℕ)
      launch2.win launch2.arr_whole c (pdats D) ((pdats D 2 c).share_full fun w => hD.hq2 (V5 D) c w)
      (V5 D c) (V6 D c) ((pdats D 2 c).arrAt · cfg2.N) (hF2 D c) (hrest2 D c)
    rw [Pipeline.unscopedBufs_held] at hjoin
    have ho : (pdats D 2 c).owed (Fin.last (Pipeline.pin (pcfgs (F := F)) adm 2).N) = 0 := hD.howed2 (V5 D) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

/-! ## @main as segments, and the run -/

/-- @main's seven segments in order: a host segment per stretch from its boundary's contents, a region per call. -/
abbrev segs : List (Pipeline.Seg (pcfgs (F := F)) adm (pdats D) () defs₀ 𝒱₀ L lv) :=
  [ .host (hseg hostOps0 hostOps0_sub hostOps0_fresh (W0 D)),
    .region (reg0 D hD),
    .host (hseg hostOps1 hostOps1_sub hostOps1_fresh (W2 D)),
    .region (reg1 D hD),
    .host (hseg hostOps2 hostOps2_sub hostOps2_fresh (W4 D)),
    .region (reg2 D hD),
    .host (hseg hostOps3 hostOps3_sub hostOps3_fresh (W6 D)) ]

include hD in
/-- @main is the run of the segments. -/
theorem main_run (c : Dev nD) : main (F := F) c = Pipeline.Seg.run (segs D hD) := (main_chain c).trans (by chain_rfl)

include hD in
set_option backward.isDefEq.respectTransparency.types false in
/-- THE RUN. From the launch memory with zero counters every weakly fair execution of @main terminates, nothing
    faulting, and the final memory holds every unscoped buffer at the last valuation of the fold. -/
theorem run (ρ : Dev nD → PrngReg) : θ_run defs (onTc (τ := τ) (main (F := F))) ⟨D.m, fun _ => 0, ρ⟩ (fun r => ∀ c : Dev nD,
      ∀ b ∈ Pipeline.ucRefs τ sig, r.2.mem (((c : Thread nD τ)).1, b) = W7 D c b) :=
  Pipeline.θ_run_regions_kit (pcfgs (F := F)) adm (pdats D) () cellOf_inj emb₁ defs₀ 𝒱₀ L lv D.m ρ main (segs D hD)
    (fun c Q => by rw [main_run D hD c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 D c) ∗ R c))
    (Tₙ := fun c => iprop(StableHlo.held (c : Thread nD τ) (Pipeline.ucRefs τ sig) (W7 D c) ∗ ∃ r, prngReg c r))
    (hch := ⟨fun _ => .rfl, fun _ => .rfl, fun _ => .rfl, fun _ => .rfl, fun _ => .rfl, fun _ => .rfl, fun _ => .rfl,
      fun c => (show iprop(StableHlo.held (c : Thread nD τ) (Pipeline.ucRefs τ sig) (W7 D c) ∗ R c)
          ⊢ (iprop(iprop(StableHlo.held (c : Thread nD τ) (Pipeline.ucRefs τ sig) (W7 D c) ∗ ∃ r, prngReg c r)
              ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => D.m ((c : Thread nD τ).loc b)) = StableHlo.held (c : Thread nD τ) (Pipeline.ucRefs τ sig) (W0 D c)
        from Pipeline.unscopedBufs_held c (W0 D c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 D c b)
    (hfin := fun c s' => by
      iintro ⟨⟨Hh, -⟩, HSI⟩
      unfold StableHlo.held
      imodintro
      iapply (pointsTo_read_all (Pipeline.ucRefs τ sig) (fun b => (((c : Thread nD τ)).1, b)) (W7 D c) s')
      isplitl [Hh] <;> iassumption)
    (hQ := fun s h => h)

end Run

end Cert.Kernel.Hand

end
-- ==== Proof.Bits.ReadBack.lean ====
/-
  Reading the fold of buffer contents back, buffer by buffer. A host stretch here is one reshape, which writes one
  buffer; a region changes only its own arrays, and leaves an input array as it found it. So every argument array
  reaches the end of @main holding its launch contents, and the contents each region is entered at — and the result —
  are the reshape of what the region before left in its output array.
-/
import proofs.«181279_j10471130267897_2_alg».proof.Proof.Bits.Run
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.Sem
open Idealize.ShloMosaic.Pipeline (Dat)
open Cert.Kernel Cert.Kernel.Gen

variable {F : FTy → Type} [FloatOps F] (D : Data (F := F))

/-! ## What a host stretch leaves alone -/

/-- The stretch `hostOps0` writes `main_v0` and nothing else. -/
theorem hostOps0_writes : (hostOps0 : List (HloOp τ sig (Elt F))).Forall fun op => op.writes ⊆ ((([main_v0] : List (Ref sig .tc))).map (Proc.devRef (τ := τ) .tc)).toFinset := by
  simp only [List.Forall]; exact (by simp only [StableHlo.reshape_writes, Finset.singleton_subset_iff, List.mem_toFinset]; exact List.mem_map_of_mem (by decide))
theorem W1_of (c : Dev nD) (r : Ref sig .tc) (h : r ∉ ([main_v0] : List (Ref sig .tc))) : W1 D c (Proc.devRef .tc r) = W0 D c (Proc.devRef .tc r) :=
  StableHlo.after_of_writes_sub hostOps0 _ hostOps0_writes h

/-- The stretch `hostOps1` writes `main_v2` and nothing else. -/
theorem hostOps1_writes : (hostOps1 : List (HloOp τ sig (Elt F))).Forall fun op => op.writes ⊆ ((([main_v2] : List (Ref sig .tc))).map (Proc.devRef (τ := τ) .tc)).toFinset := by
  simp only [List.Forall]; exact (by simp only [StableHlo.reshape_writes, Finset.singleton_subset_iff, List.mem_toFinset]; exact List.mem_map_of_mem (by decide))
theorem W3_of (c : Dev nD) (r : Ref sig .tc) (h : r ∉ ([main_v2] : List (Ref sig .tc))) : W3 D c (Proc.devRef .tc r) = W2 D c (Proc.devRef .tc r) :=
  StableHlo.after_of_writes_sub hostOps1 _ hostOps1_writes h

/-- The stretch `hostOps2` writes `main_v4` and nothing else. -/
theorem hostOps2_writes : (hostOps2 : List (HloOp τ sig (Elt F))).Forall fun op => op.writes ⊆ ((([main_v4] : List (Ref sig .tc))).map (Proc.devRef (τ := τ) .tc)).toFinset := by
  simp only [List.Forall]; exact (by simp only [StableHlo.reshape_writes, Finset.singleton_subset_iff, List.mem_toFinset]; exact List.mem_map_of_mem (by decide))
theorem W5_of (c : Dev nD) (r : Ref sig .tc) (h : r ∉ ([main_v4] : List (Ref sig .tc))) : W5 D c (Proc.devRef .tc r) = W4 D c (Proc.devRef .tc r) :=
  StableHlo.after_of_writes_sub hostOps2 _ hostOps2_writes h

/-- The stretch `hostOps3` writes `main_v6` and nothing else. -/
theorem hostOps3_writes : (hostOps3 : List (HloOp τ sig (Elt F))).Forall fun op => op.writes ⊆ ((([main_v6] : List (Ref sig .tc))).map (Proc.devRef (τ := τ) .tc)).toFinset := by
  simp only [List.Forall]; exact (by simp only [StableHlo.reshape_writes, Finset.singleton_subset_iff, List.mem_toFinset]; exact List.mem_map_of_mem (by decide))
theorem W7_of (c : Dev nD) (r : Ref sig .tc) (h : r ∉ ([main_v6] : List (Ref sig .tc))) : W7 D c (Proc.devRef .tc r) = W6 D c (Proc.devRef .tc r) :=
  StableHlo.after_of_writes_sub hostOps3 _ hostOps3_writes h

/-! ## The arguments end as launched -/

variable (hD : D.Facts)

include hD in
/-- `main_arg0` reaches the end as launched: no stretch writes it, and a region that reads it leaves it in place. -/
theorem W7_main_arg0 (c : Dev nD) : W7 D c (Proc.devRef .tc main_arg0) = D.m ((c : Thread nD τ).loc main_arg0) :=
  (W7_of D c main_arg0 (by decide)).trans <|
  (W6_of_ne D c main_arg0 (by decide)).trans <|
  (W5_of D c main_arg0 (by decide)).trans <|
  (W4_of_ne D c main_arg0 (by decide)).trans <|
  (W3_of D c main_arg0 (by decide)).trans <|
  (W2_of_ne D c main_arg0 (by decide)).trans <|
  (W1_of D c main_arg0 (by decide)).trans <| rfl

include hD in
/-- `main_arg1` reaches the end as launched: no stretch writes it, and a region that reads it leaves it in place. -/
theorem W7_main_arg1 (c : Dev nD) : W7 D c (Proc.devRef .tc main_arg1) = D.m ((c : Thread nD τ).loc main_arg1) :=
  (W7_of D c main_arg1 (by decide)).trans <|
  (W6_of_ne D c main_arg1 (by decide)).trans <|
  (W5_of D c main_arg1 (by decide)).trans <|
  (W4_of_ne D c main_arg1 (by decide)).trans <|
  (W3_of D c main_arg1 (by decide)).trans <|
  ((W2_arr D c 1).trans (((D.dat0 (V1 D) c).arrAt_in 1 rfl _).trans (hD.A_eq0 (V1 D) c 1))).trans <|
  (W1_of D c main_arg1 (by decide)).trans <| rfl

include hD in
/-- `main_arg2` reaches the end as launched: no stretch writes it, and a region that reads it leaves it in place. -/
theorem W7_main_arg2 (c : Dev nD) : W7 D c (Proc.devRef .tc main_arg2) = D.m ((c : Thread nD τ).loc main_arg2) :=
  (W7_of D c main_arg2 (by decide)).trans <|
  (W6_of_ne D c main_arg2 (by decide)).trans <|
  (W5_of D c main_arg2 (by decide)).trans <|
  ((W4_arr D c 1).trans (((D.dat1 (V3 D) c).arrAt_in 1 rfl _).trans (hD.A_eq1 (V3 D) c 1))).trans <|
  (W3_of D c main_arg2 (by decide)).trans <|
  (W2_of_ne D c main_arg2 (by decide)).trans <|
  (W1_of D c main_arg2 (by decide)).trans <| rfl

include hD in
/-- `main_arg3` reaches the end as launched: no stretch writes it, and a region that reads it leaves it in place. -/
theorem W7_main_arg3 (c : Dev nD) : W7 D c (Proc.devRef .tc main_arg3) = D.m ((c : Thread nD τ).loc main_arg3) :=
  (W7_of D c main_arg3 (by decide)).trans <|
  (W6_of_ne D c main_arg3 (by decide)).trans <|
  (W5_of D c main_arg3 (by decide)).trans <|
  ((W4_arr D c 2).trans (((D.dat1 (V3 D) c).arrAt_in 2 rfl _).trans (hD.A_eq1 (V3 D) c 2))).trans <|
  (W3_of D c main_arg3 (by decide)).trans <|
  (W2_of_ne D c main_arg3 (by decide)).trans <|
  (W1_of D c main_arg3 (by decide)).trans <| rfl

include hD in
/-- `main_arg4` reaches the end as launched: no stretch writes it, and a region that reads it leaves it in place. -/
theorem W7_main_arg4 (c : Dev nD) : W7 D c (Proc.devRef .tc main_arg4) = D.m ((c : Thread nD τ).loc main_arg4) :=
  (W7_of D c main_arg4 (by decide)).trans <|
  (W6_of_ne D c main_arg4 (by decide)).trans <|
  (W5_of D c main_arg4 (by decide)).trans <|
  ((W4_arr D c 3).trans (((D.dat1 (V3 D) c).arrAt_in 3 rfl _).trans (hD.A_eq1 (V3 D) c 3))).trans <|
  (W3_of D c main_arg4 (by decide)).trans <|
  (W2_of_ne D c main_arg4 (by decide)).trans <|
  (W1_of D c main_arg4 (by decide)).trans <| rfl

include hD in
/-- `main_arg5` reaches the end as launched: no stretch writes it, and a region that reads it leaves it in place. -/
theorem W7_main_arg5 (c : Dev nD) : W7 D c (Proc.devRef .tc main_arg5) = D.m ((c : Thread nD τ).loc main_arg5) :=
  (W7_of D c main_arg5 (by decide)).trans <|
  (W6_of_ne D c main_arg5 (by decide)).trans <|
  (W5_of D c main_arg5 (by decide)).trans <|
  ((W4_arr D c 4).trans (((D.dat1 (V3 D) c).arrAt_in 4 rfl _).trans (hD.A_eq1 (V3 D) c 4))).trans <|
  (W3_of D c main_arg5 (by decide)).trans <|
  (W2_of_ne D c main_arg5 (by decide)).trans <|
  (W1_of D c main_arg5 (by decide)).trans <| rfl

include hD in
/-- `main_arg6` reaches the end as launched: no stretch writes it, and a region that reads it leaves it in place. -/
theorem W7_main_arg6 (c : Dev nD) : W7 D c (Proc.devRef .tc main_arg6) = D.m ((c : Thread nD τ).loc main_arg6) :=
  (W7_of D c main_arg6 (by decide)).trans <|
  (W6_of_ne D c main_arg6 (by decide)).trans <|
  (W5_of D c main_arg6 (by decide)).trans <|
  ((W4_arr D c 5).trans (((D.dat1 (V3 D) c).arrAt_in 5 rfl _).trans (hD.A_eq1 (V3 D) c 5))).trans <|
  (W3_of D c main_arg6 (by decide)).trans <|
  (W2_of_ne D c main_arg6 (by decide)).trans <|
  (W1_of D c main_arg6 (by decide)).trans <| rfl

include hD in
/-- `main_arg7` reaches the end as launched: no stretch writes it, and a region that reads it leaves it in place. -/
theorem W7_main_arg7 (c : Dev nD) : W7 D c (Proc.devRef .tc main_arg7) = D.m ((c : Thread nD τ).loc main_arg7) :=
  (W7_of D c main_arg7 (by decide)).trans <|
  (W6_of_ne D c main_arg7 (by decide)).trans <|
  (W5_of D c main_arg7 (by decide)).trans <|
  ((W4_arr D c 6).trans (((D.dat1 (V3 D) c).arrAt_in 6 rfl _).trans (hD.A_eq1 (V3 D) c 6))).trans <|
  (W3_of D c main_arg7 (by decide)).trans <|
  (W2_of_ne D c main_arg7 (by decide)).trans <|
  (W1_of D c main_arg7 (by decide)).trans <| rfl

/-! ## The contents each region is entered at, and the result -/

/-- Region 0 finds the tokens reshaped to [32768, 1024] in `main_v0`, -/
theorem V1_main_v0 (c : Dev nD) : (V1 D c main_v0 : S32768x1024.Idx → Elt F .f32)
    = shapeCast S32768x1024 (D.m ((c : Thread nD τ).loc main_arg0)) shapeCasts_S8x4096x1024_S32768x1024 := by
  show StableHlo.after hostOps0 (W0 D c) (Proc.devRef .tc main_v0) = _
  after_results
  rfl
/-- and the mixture as launched. -/
theorem V1_main_arg1 (c : Dev nD) : V1 D c main_arg1 = D.m ((c : Thread nD τ).loc main_arg1) :=
  (W1_of D c main_arg1 (by decide)).trans rfl

/-- Region 1 finds region 0's first output reshaped to [64, 8, 1024] in `main_v2`, -/
theorem V3_main_v2 (c : Dev nD) : (V3 D c main_v2 : S64x8x1024.Idx → Elt F .f32)
    = shapeCast S64x8x1024 ((D.dat0 (V1 D) c).arrAt 2 cfg0.N) shapeCasts_S512x1024_S64x8x1024 := by
  show StableHlo.after hostOps1 (W2 D c) (Proc.devRef .tc main_v2) = _
  after_results
  rw [show W2 D c (Proc.devRef .tc main_v1_0) = (D.dat0 (V1 D) c).arrAt 2 cfg0.N from W2_arr D c 2]
  rfl
/-- and `main_arg2` as launched. -/
theorem V3_main_arg2 (c : Dev nD) : V3 D c main_arg2 = D.m ((c : Thread nD τ).loc main_arg2) :=
  (W3_of D c main_arg2 (by decide)).trans <| (W2_of_ne D c main_arg2 (by decide)).trans <| (W1_of D c main_arg2 (by decide)).trans rfl
/-- and `main_arg3` as launched. -/
theorem V3_main_arg3 (c : Dev nD) : V3 D c main_arg3 = D.m ((c : Thread nD τ).loc main_arg3) :=
  (W3_of D c main_arg3 (by decide)).trans <| (W2_of_ne D c main_arg3 (by decide)).trans <| (W1_of D c main_arg3 (by decide)).trans rfl
/-- and `main_arg4` as launched. -/
theorem V3_main_arg4 (c : Dev nD) : V3 D c main_arg4 = D.m ((c : Thread nD τ).loc main_arg4) :=
  (W3_of D c main_arg4 (by decide)).trans <| (W2_of_ne D c main_arg4 (by decide)).trans <| (W1_of D c main_arg4 (by decide)).trans rfl
/-- and `main_arg5` as launched. -/
theorem V3_main_arg5 (c : Dev nD) : V3 D c main_arg5 = D.m ((c : Thread nD τ).loc main_arg5) :=
  (W3_of D c main_arg5 (by decide)).trans <| (W2_of_ne D c main_arg5 (by decide)).trans <| (W1_of D c main_arg5 (by decide)).trans rfl
/-- and `main_arg6` as launched. -/
theorem V3_main_arg6 (c : Dev nD) : V3 D c main_arg6 = D.m ((c : Thread nD τ).loc main_arg6) :=
  (W3_of D c main_arg6 (by decide)).trans <| (W2_of_ne D c main_arg6 (by decide)).trans <| (W1_of D c main_arg6 (by decide)).trans rfl
/-- and `main_arg7` as launched. -/
theorem V3_main_arg7 (c : Dev nD) : V3 D c main_arg7 = D.m ((c : Thread nD τ).loc main_arg7) :=
  (W3_of D c main_arg7 (by decide)).trans <| (W2_of_ne D c main_arg7 (by decide)).trans <| (W1_of D c main_arg7 (by decide)).trans rfl

/-- Region 2 finds region 0's second output, the logits, in `main_v1_1`, -/
theorem V5_main_v1_1 (c : Dev nD) : V5 D c main_v1_1 = (D.dat0 (V1 D) c).arrAt 3 cfg0.N :=
  (W5_of D c main_v1_1 (by decide)).trans <| (W4_of_ne D c main_v1_1 (by decide)).trans <| (W3_of D c main_v1_1 (by decide)).trans <| W2_arr D c 3
/-- and region 1's output reshaped to [512, 1024] in `main_v4`. -/
theorem V5_main_v4 (c : Dev nD) : (V5 D c main_v4 : S512x1024.Idx → Elt F .f32)
    = shapeCast S512x1024 ((D.dat1 (V3 D) c).arrAt 7 cfg1.N) shapeCasts_S64x8x1024_S512x1024 := by
  show StableHlo.after hostOps2 (W4 D c) (Proc.devRef .tc main_v4) = _
  after_results
  rw [show W4 D c (Proc.devRef .tc main_v3) = (D.dat1 (V3 D) c).arrAt 7 cfg1.N from W4_arr D c 7]
  rfl

/-- The result is region 2's output reshaped to [8, 4096, 1024]. -/
theorem W7_main_v6 (c : Dev nD) : (W7 D c (Proc.devRef .tc main_v6) : S8x4096x1024.Idx → Elt F .f32)
    = shapeCast S8x4096x1024 ((D.dat2 (V5 D) c).arrAt 2 cfg2.N) shapeCasts_S32768x1024_S8x4096x1024 := by
  show StableHlo.after hostOps3 (W6 D c) (Proc.devRef .tc main_v6) = _
  after_results
  rw [show W6 D c (Proc.devRef .tc main_v5) = (D.dat2 (V5 D) c).arrAt 2 cfg2.N from W6_arr D c 2]
  rfl

end Cert.Kernel.Hand

end
-- ==== Proof.Bits.Dispatch.Runs.lean ====
/- What the three whole-body runs of the dispatch kernel (region 0) and its frame share: the windows' blocks read
   off the region-entry contents, the input windows' buffers at their blocks at every point, the two branch
   conditions of the body in closed form over the grid, where output window 2 is idle, the staging and scratch
   memrefs as the pipeline passes them, and the region invariant with the three scratch operands named. -/
import proofs.«181279_j10471130267897_2_alg».proof.Proof.Gen.Kernel.Launch
import proofs.«181279_j10471130267897_2_alg».proof.Proof.Gen.Kernel.Skeleton
import proofs.«181279_j10471130267897_2_alg».proof.Proof.Gen.Kernel.Points
import Idealize.ShloMosaic.Lib.Pipeline.FrameBody
import Idealize.ShloMosaic.Lib.Ring
import Idealize.ShloMosaic.Lib.Tactic

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: a parameter, instantiated by the run of @main
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place: the window is an input, never idle and uncut. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (it is fetched
    only where the first coordinate moves: at the other points its block index is the previous point's). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Regions

/-! ## The body's branch conditions -/

/-- The condition of the body's first `scf.if` (the scratch is reset): the second grid coordinate is 0. -/
abbrev cond0_0 (i : grid0.Coords) : Prop := (Scalar.cmpi .ne (Scalar.extui (Scalar.cmpi .eq (BitVec.ofNat 32 (i 1).val) 0#32)) 0#32) = 1#1
/-- It holds exactly at the points whose position is a multiple of 16. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's last `scf.if` (output window 2 is stored): the second grid coordinate is 15. -/
abbrev cond0_1 (i : grid0.Coords) : Prop := k0_cond2 i = 1#1
/-- It holds exactly at the points whose position is 15 modulo 16. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- Windows 0, 1 (inputs) and 3 (an output stored at every point) are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
/-- Where the last condition fails, output window 2 is idle (nothing is stored into it) -/
theorem idleAt0_2 : ∀ t : Fin cfg0.N, ¬cond0_1 (grid0.coords t) → cfg0.idle 2 (grid0.coords t) = true := by decide +kernel
/-- and its block is not written back; -/
theorem noFlush0_2 : ∀ t : Fin cfg0.N, ¬cond0_1 (grid0.coords t) → (cfg0.win 2).flush t = false := by decide +kernel
/-- where it holds, the window is live. -/
theorem liveAt0_2 : ∀ t : Fin cfg0.N, cond0_1 (grid0.coords t) → cfg0.idle 2 (grid0.coords t) = false := by decide +kernel

/-! ## The memrefs the body is called with -/

/-- One staging buffer of each output window, through which its contents are stated (the choice does not matter). -/
abbrev VO0_2 : View sig .tc .vmem S256x1024 .f32 := (Memref.whole cc0_stg2_0 : Memref sig .tc .vmem S256x1024 .f32).view
abbrev VO0_3 : View sig .tc .vmem S2048x256 .bf16 := (Memref.whole cc0_stg3_0 : Memref sig .tc .vmem S2048x256 .bf16).view
/-- Each window's current staging memref at point `t`, spelled as the pipeline passes it, and its wholeness. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .bf16 := win0_3.stage (cfg0.slots t 3)
abbrev hs0_3 (t : Fin cfg0.N) : (ms0_3 t).IsWhole := hstage0_3 ((cfg0.slots t 3).cast nbuf0_3)
/-- The three scratch operands: whole scoped buffers of the kernel's own, passed beside the windows, -/
abbrev scM0_0 : Memref sig .tc .vmem S1x256 .f32 := Memref.whole cc0_scratch0
abbrev scM0_1 : Memref sig .tc .vmem S1x256 .f32 := Memref.whole cc0_scratch1
abbrev scM0_2 : Memref sig .tc .vmem S256x1024 .f32 := Memref.whole cc0_scratch2
/-- and as views: what each holds between points is stated through them. -/
abbrev VS0_0 : View sig .tc .vmem S1x256 .f32 := scM0_0.view
abbrev VS0_1 : View sig .tc .vmem S1x256 .f32 := scM0_1.view
abbrev VS0_2 : View sig .tc .vmem S256x1024 .f32 := scM0_2.view

/-! ## The region invariant -/

/-- The core's scoped buffers that are neither a staging buffer of this region nor one of its three scratch
    operands (the other regions' staging buffers), each whole at some contents: the body never names them. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

/-- The region invariant of the class with the scratch operands as memrefs owned at some contents: what the body
    obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ otherScoped0 c) ∗ (∃ r, prngReg c r)) := by
  unfold Pipeline.ΦA; rw [scopedRest0_eq]; simp only [scM0_0, scM0_1, scM0_2, owns_whole]; try rfl

end Cert.Kernel.Hand

end
-- ==== Proof.Bits.Dispatch.RunFirst.lean ====
/- The whole-body run of the dispatch kernel (region 0) at the points whose second grid coordinate is 0: the body's
   triple by symbolic execution over its skeleton, through the call of its first part; the pieces each stored buffer
   ends with are the witness. One module per control case, so that each elaborates on its own. -/
import proofs.«181279_j10471130267897_2_alg».proof.Proof.Bits.Dispatch.Runs

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- THE BODY AT A POINT WHERE THE SECOND COORDINATE IS 0 (the first `scf.if` taken, the last not). What the body's
    stores leave in output window 3's staging memref and in the three scratch memrefs, as pieces (last first), WITH the
    proof that on whole memrefs — the inputs' at their contents `x0`, `x1`, output window 2's (idle here: no store) at
    contents `xi2` handed back untouched, output window 3's and the three scratch operands' at anything (each scratch is
    stored whole before its first use) — the body runs to the continuation holding the inputs' as they were and every
    stored buffer with its pieces written. The pieces are the witness the run finds. -/
noncomputable def kernelRun0_First (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) :
    Σ' (L2 : List (View.Piece (Elt F) S256x1024 .f32)) (L3 : List (View.Piece (Elt F) S2048x256 .bf16)) (LS0 : List (View.Piece (Elt F) S1x256 .f32)) (LS1 : List (View.Piece (Elt F) S1x256 .f32)), { LS2 : List (View.Piece (Elt F) S256x1024 .f32) //
      ∀ (xi2 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__dispatch_kernel i arg2 harg2 arg3 harg3 arg4 harg4 arg5 harg5 arg6 harg6 arg7 harg7 arg8 harg8) K } := by
  refine ⟨[], ?_, ?_, ?_, ?_, fun xi2 E K => ?run⟩
  case run =>
    simp only [cc0__dispatch_kernel_eq_skeleton]; unfold cc0__dispatch_kernel_skel
    simp only [k0_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.Bits.Dispatch.RunMid.lean ====
/- The whole-body run of the dispatch kernel (region 0) at the points whose second grid coordinate is neither 0 nor 15: the body's
   triple by symbolic execution over its skeleton, through the call of its first part; the pieces each stored buffer
   ends with are the witness. One module per control case, so that each elaborates on its own. -/
import proofs.«181279_j10471130267897_2_alg».proof.Proof.Bits.Dispatch.Runs

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- THE BODY AT A POINT WHERE THE SECOND COORDINATE IS NEITHER 0 NOR 15 (neither `scf.if` taken). What the body's
    stores leave in output window 3's staging memref and in the three scratch memrefs, as pieces (last first), WITH the
    proof that on whole memrefs — the inputs' at their contents `x0`, `x1`, output window 2's (idle here: no store) at
    contents `xi2` handed back untouched, output window 3's at anything, the three scratch operands' at the contents the
    point before left (`xs0`, `xs1`, `xs2`) — the body runs to the continuation holding the inputs' as they were and
    every stored buffer with its pieces written. The pieces are the witness the run finds. -/
noncomputable def kernelRun0_Mid (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) :
    Σ' (L2 : List (View.Piece (Elt F) S256x1024 .f32)) (L3 : List (View.Piece (Elt F) S2048x256 .bf16)) (LS0 : List (View.Piece (Elt F) S1x256 .f32)) (LS1 : List (View.Piece (Elt F) S1x256 .f32)), { LS2 : List (View.Piece (Elt F) S256x1024 .f32) //
      ∀ (xi2 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__dispatch_kernel i arg2 harg2 arg3 harg3 arg4 harg4 arg5 harg5 arg6 harg6 arg7 harg7 arg8 harg8) K } := by
  refine ⟨[], ?_, ?_, ?_, ?_, fun xi2 E K => ?run⟩
  case run =>
    simp only [cc0__dispatch_kernel_eq_skeleton]; unfold cc0__dispatch_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.Bits.Dispatch.RunLast.lean ====
/- The whole-body run of the dispatch kernel (region 0) at the points whose second grid coordinate is 15: the body's
   triple by symbolic execution over its skeleton, through the call of its first part; the pieces each stored buffer
   ends with are the witness. One module per control case, so that each elaborates on its own. -/
import proofs.«181279_j10471130267897_2_alg».proof.Proof.Bits.Dispatch.Runs

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- THE BODY AT A POINT WHERE THE SECOND COORDINATE IS 15 (the last `scf.if` taken, the first not). What the body's
    stores leave in both output windows' staging memrefs and in the three scratch memrefs, as pieces (last first), WITH
    the proof that on whole memrefs — the inputs' at their contents `x0`, `x1`, the outputs' at anything, the three
    scratch operands' at the contents the point before left (`xs0`, `xs1`, `xs2`) — the body runs to the continuation
    holding the inputs' as they were and every stored buffer with its pieces written. The pieces are the witness the
    run finds. -/
noncomputable def kernelRun0_Last (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) :
    Σ' (L2 : List (View.Piece (Elt F) S256x1024 .f32)) (L3 : List (View.Piece (Elt F) S2048x256 .bf16)) (LS0 : List (View.Piece (Elt F) S1x256 .f32)) (LS1 : List (View.Piece (Elt F) S1x256 .f32)), { LS2 : List (View.Piece (Elt F) S256x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__dispatch_kernel i arg2 harg2 arg3 harg3 arg4 harg4 arg5 harg5 arg6 harg6 arg7 harg7 arg8 harg8) K } := by
  refine ⟨?_, ?_, ?_, ?_, ?_, fun E K => ?run⟩
  case run =>
    simp only [cc0__dispatch_kernel_eq_skeleton]; unfold cc0__dispatch_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]; · iexists _; iexact H3
    isplitl [HS0]; · iexists _; iexact HS0
    isplitl [HS1]; · iexists _; iexact HS1
    iexists _; iexact HS2

end Cert.Kernel.Hand

end
-- ==== Proof.Bits.FrameDispatch.lean ====
/- The class-R half of the frame of region 0 (the dispatch kernel): what the two outputs and the three scratch
   operands the kernel carries between points hold per control case (the covers and the named contents) and point by
   point (`outsAt0`), the region invariant with the scratch operands at those contents (`PhiS`), the proof data
   (`dat0`) at a parameter `V` — the TensorCore's buffer contents when the region is entered —, and the body
   obligation with the invariant's two ends. -/
import proofs.«181279_j10471130267897_2_alg».proof.Proof.Bits.Dispatch.RunFirst
import proofs.«181279_j10471130267897_2_alg».proof.Proof.Bits.Dispatch.RunMid
import proofs.«181279_j10471130267897_2_alg».proof.Proof.Bits.Dispatch.RunLast

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each control case leaves -/

/-! ### Where the second coordinate is 0 -/

/-- Nothing is stored into output window 2 here (the window is idle and not written back): no pieces — a
    placeholder (junk read back) that nothing consults. -/
def out0_First_2 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) : Vec F S256x1024 .f32 :=
  VO0_2.read (Elt F) (VO0_2.writes (Elt F) VO0_2.junk (kernelRun0_First c i arg2 harg2 arg3 harg3 arg4 harg4 arg5 harg5 arg6 harg6 arg7 harg7 arg8 harg8 hc0 hc1 x0 x1).1)

/-- The pieces stored into output window 3's staging buffer tile it, so they cover it. -/
theorem cover0_First_3 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) (y : S2048x256.Idx) :
    ∃ pc ∈ (kernelRun0_First c i arg2 harg2 arg3 harg3 arg4 harg4 arg5 harg5 arg6 harg6 arg7 harg7 arg8 harg8 hc0 hc1 x0 x1).2.1, y ∈ pc.1.set :=
  View.cover_of_tiledL (kernelRun0_First c i arg2 harg2 arg3 harg3 arg4 harg4 arg5 harg5 arg6 harg6 arg7 harg7 arg8 harg8 hc0 hc1 x0 x1).2.1 S2048x256.size (by sl_kernel_rfl) y

/-- What the body leaves in output window 3's staging buffer: its pieces read back over junk. -/
def out0_First_3 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) : Vec F S2048x256 .bf16 :=
  VO0_3.read (Elt F) (VO0_3.writes (Elt F) VO0_3.junk (kernelRun0_First c i arg2 harg2 arg3 harg3 arg4 harg4 arg5 harg5 arg6 harg6 arg7 harg7 arg8 harg8 hc0 hc1 x0 x1).2.1)

/-- The pieces stored into scratch operand 0 (the running maximum, payload `k0_pay13`) tile it, so they cover it. -/
theorem scover0_First_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) (y : S1x256.Idx) :
    ∃ pc ∈ (kernelRun0_First c i arg2 harg2 arg3 harg3 arg4 harg4 arg5 harg5 arg6 harg6 arg7 harg7 arg8 harg8 hc0 hc1 x0 x1).2.2.1, y ∈ pc.1.set :=
  View.cover_of_tiledL (kernelRun0_First c i arg2 harg2 arg3 harg3 arg4 harg4 arg5 harg5 arg6 harg6 arg7 harg7 arg8 harg8 hc0 hc1 x0 x1).2.2.1 S1x256.size (by sl_kernel_rfl) y

/-- What the body leaves in scratch operand 0 (the running maximum, payload `k0_pay13`): its pieces read back over junk. -/
def sout0_First_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) : Vec F S1x256 .f32 :=
  VS0_0.read (Elt F) (VS0_0.writes (Elt F) VS0_0.junk (kernelRun0_First c i arg2 harg2 arg3 harg3 arg4 harg4 arg5 harg5 arg6 harg6 arg7 harg7 arg8 harg8 hc0 hc1 x0 x1).2.2.1)

/-- The pieces stored into scratch operand 1 (the running sum, payload `k0_pay12`) tile it, so they cover it. -/
theorem scover0_First_1 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) (y : S1x256.Idx) :
    ∃ pc ∈ (kernelRun0_First c i arg2 harg2 arg3 harg3 arg4 harg4 arg5 harg5 arg6 harg6 arg7 harg7 arg8 harg8 hc0 hc1 x0 x1).2.2.2.1, y ∈ pc.1.set :=
  View.cover_of_tiledL (kernelRun0_First c i arg2 harg2 arg3 harg3 arg4 harg4 arg5 harg5 arg6 harg6 arg7 harg7 arg8 harg8 hc0 hc1 x0 x1).2.2.2.1 S1x256.size (by sl_kernel_rfl) y

/-- What the body leaves in scratch operand 1 (the running sum, payload `k0_pay12`): its pieces read back over junk. -/
def sout0_First_1 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) : Vec F S1x256 .f32 :=
  VS0_1.read (Elt F) (VS0_1.writes (Elt F) VS0_1.junk (kernelRun0_First c i arg2 harg2 arg3 harg3 arg4 harg4 arg5 harg5 arg6 harg6 arg7 harg7 arg8 harg8 hc0 hc1 x0 x1).2.2.2.1)

/-- The pieces stored into scratch operand 2 (the running accumulator, payload `k0_pay1`) tile it, so they cover it. -/
theorem scover0_First_2 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) (y : S256x1024.Idx) :
    ∃ pc ∈ (kernelRun0_First c i arg2 harg2 arg3 harg3 arg4 harg4 arg5 harg5 arg6 harg6 arg7 harg7 arg8 harg8 hc0 hc1 x0 x1).2.2.2.2.1, y ∈ pc.1.set :=
  View.cover_of_tiledL (kernelRun0_First c i arg2 harg2 arg3 harg3 arg4 harg4 arg5 harg5 arg6 harg6 arg7 harg7 arg8 harg8 hc0 hc1 x0 x1).2.2.2.2.1 S256x1024.size (by sl_kernel_rfl) y

/-- What the body leaves in scratch operand 2 (the running accumulator, payload `k0_pay1`): its pieces read back over junk. -/
def sout0_First_2 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) : Vec F S256x1024 .f32 :=
  VS0_2.read (Elt F) (VS0_2.writes (Elt F) VS0_2.junk (kernelRun0_First c i arg2 harg2 arg3 harg3 arg4 harg4 arg5 harg5 arg6 harg6 arg7 harg7 arg8 harg8 hc0 hc1 x0 x1).2.2.2.2.1)

/-! ### Where the second coordinate is neither 0 nor 15 -/

/-- Nothing is stored into output window 2 here (the window is idle and not written back): no pieces — a
    placeholder (junk read back) that nothing consults. -/
def out0_Mid_2 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) : Vec F S256x1024 .f32 :=
  VO0_2.read (Elt F) (VO0_2.writes (Elt F) VO0_2.junk (kernelRun0_Mid c i arg2 harg2 arg3 harg3 arg4 harg4 arg5 harg5 arg6 harg6 arg7 harg7 arg8 harg8 hc0 hc1 x0 x1 xs0 xs1 xs2).1)

/-- The pieces stored into output window 3's staging buffer tile it, so they cover it. -/
theorem cover0_Mid_3 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) (y : S2048x256.Idx) :
    ∃ pc ∈ (kernelRun0_Mid c i arg2 harg2 arg3 harg3 arg4 harg4 arg5 harg5 arg6 harg6 arg7 harg7 arg8 harg8 hc0 hc1 x0 x1 xs0 xs1 xs2).2.1, y ∈ pc.1.set :=
  View.cover_of_tiledL (kernelRun0_Mid c i arg2 harg2 arg3 harg3 arg4 harg4 arg5 harg5 arg6 harg6 arg7 harg7 arg8 harg8 hc0 hc1 x0 x1 xs0 xs1 xs2).2.1 S2048x256.size (by sl_kernel_rfl) y

/-- What the body leaves in output window 3's staging buffer: its pieces read back over junk. -/
def out0_Mid_3 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) : Vec F S2048x256 .bf16 :=
  VO0_3.read (Elt F) (VO0_3.writes (Elt F) VO0_3.junk (kernelRun0_Mid c i arg2 harg2 arg3 harg3 arg4 harg4 arg5 harg5 arg6 harg6 arg7 harg7 arg8 harg8 hc0 hc1 x0 x1 xs0 xs1 xs2).2.1)

/-- The pieces stored into scratch operand 0 (the running maximum, payload `k0_pay13`) tile it, so they cover it. -/
theorem scover0_Mid_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) (y : S1x256.Idx) :
    ∃ pc ∈ (kernelRun0_Mid c i arg2 harg2 arg3 harg3 arg4 harg4 arg5 harg5 arg6 harg6 arg7 harg7 arg8 harg8 hc0 hc1 x0 x1 xs0 xs1 xs2).2.2.1, y ∈ pc.1.set :=
  View.cover_of_tiledL (kernelRun0_Mid c i arg2 harg2 arg3 harg3 arg4 harg4 arg5 harg5 arg6 harg6 arg7 harg7 arg8 harg8 hc0 hc1 x0 x1 xs0 xs1 xs2).2.2.1 S1x256.size (by sl_kernel_rfl) y

/-- What the body leaves in scratch operand 0 (the running maximum, payload `k0_pay13`): its pieces read back over junk. -/
def sout0_Mid_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) : Vec F S1x256 .f32 :=
  VS0_0.read (Elt F) (VS0_0.writes (Elt F) VS0_0.junk (kernelRun0_Mid c i arg2 harg2 arg3 harg3 arg4 harg4 arg5 harg5 arg6 harg6 arg7 harg7 arg8 harg8 hc0 hc1 x0 x1 xs0 xs1 xs2).2.2.1)

/-- The pieces stored into scratch operand 1 (the running sum, payload `k0_pay12`) tile it, so they cover it. -/
theorem scover0_Mid_1 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) (y : S1x256.Idx) :
    ∃ pc ∈ (kernelRun0_Mid c i arg2 harg2 arg3 harg3 arg4 harg4 arg5 harg5 arg6 harg6 arg7 harg7 arg8 harg8 hc0 hc1 x0 x1 xs0 xs1 xs2).2.2.2.1, y ∈ pc.1.set :=
  View.cover_of_tiledL (kernelRun0_Mid c i arg2 harg2 arg3 harg3 arg4 harg4 arg5 harg5 arg6 harg6 arg7 harg7 arg8 harg8 hc0 hc1 x0 x1 xs0 xs1 xs2).2.2.2.1 S1x256.size (by sl_kernel_rfl) y

/-- What the body leaves in scratch operand 1 (the running sum, payload `k0_pay12`): its pieces read back over junk. -/
def sout0_Mid_1 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) : Vec F S1x256 .f32 :=
  VS0_1.read (Elt F) (VS0_1.writes (Elt F) VS0_1.junk (kernelRun0_Mid c i arg2 harg2 arg3 harg3 arg4 harg4 arg5 harg5 arg6 harg6 arg7 harg7 arg8 harg8 hc0 hc1 x0 x1 xs0 xs1 xs2).2.2.2.1)

/-- The pieces stored into scratch operand 2 (the running accumulator, payload `k0_pay1`) tile it, so they cover it. -/
theorem scover0_Mid_2 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) (y : S256x1024.Idx) :
    ∃ pc ∈ (kernelRun0_Mid c i arg2 harg2 arg3 harg3 arg4 harg4 arg5 harg5 arg6 harg6 arg7 harg7 arg8 harg8 hc0 hc1 x0 x1 xs0 xs1 xs2).2.2.2.2.1, y ∈ pc.1.set :=
  View.cover_of_tiledL (kernelRun0_Mid c i arg2 harg2 arg3 harg3 arg4 harg4 arg5 harg5 arg6 harg6 arg7 harg7 arg8 harg8 hc0 hc1 x0 x1 xs0 xs1 xs2).2.2.2.2.1 S256x1024.size (by sl_kernel_rfl) y

/-- What the body leaves in scratch operand 2 (the running accumulator, payload `k0_pay1`): its pieces read back over junk. -/
def sout0_Mid_2 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) : Vec F S256x1024 .f32 :=
  VS0_2.read (Elt F) (VS0_2.writes (Elt F) VS0_2.junk (kernelRun0_Mid c i arg2 harg2 arg3 harg3 arg4 harg4 arg5 harg5 arg6 harg6 arg7 harg7 arg8 harg8 hc0 hc1 x0 x1 xs0 xs1 xs2).2.2.2.2.1)

/-! ### Where the second coordinate is 15 -/

/-- The pieces stored into output window 2's staging buffer tile it, so they cover it. -/
theorem cover0_Last_2 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) (y : S256x1024.Idx) :
    ∃ pc ∈ (kernelRun0_Last c i arg2 harg2 arg3 harg3 arg4 harg4 arg5 harg5 arg6 harg6 arg7 harg7 arg8 harg8 hc0 hc1 x0 x1 xs0 xs1 xs2).1, y ∈ pc.1.set :=
  View.cover_of_tiledL (kernelRun0_Last c i arg2 harg2 arg3 harg3 arg4 harg4 arg5 harg5 arg6 harg6 arg7 harg7 arg8 harg8 hc0 hc1 x0 x1 xs0 xs1 xs2).1 S256x1024.size (by sl_kernel_rfl) y

/-- What the body leaves in output window 2's staging buffer: its pieces read back over junk. -/
def out0_Last_2 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) : Vec F S256x1024 .f32 :=
  VO0_2.read (Elt F) (VO0_2.writes (Elt F) VO0_2.junk (kernelRun0_Last c i arg2 harg2 arg3 harg3 arg4 harg4 arg5 harg5 arg6 harg6 arg7 harg7 arg8 harg8 hc0 hc1 x0 x1 xs0 xs1 xs2).1)

/-- The pieces stored into output window 3's staging buffer tile it, so they cover it. -/
theorem cover0_Last_3 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) (y : S2048x256.Idx) :
    ∃ pc ∈ (kernelRun0_Last c i arg2 harg2 arg3 harg3 arg4 harg4 arg5 harg5 arg6 harg6 arg7 harg7 arg8 harg8 hc0 hc1 x0 x1 xs0 xs1 xs2).2.1, y ∈ pc.1.set :=
  View.cover_of_tiledL (kernelRun0_Last c i arg2 harg2 arg3 harg3 arg4 harg4 arg5 harg5 arg6 harg6 arg7 harg7 arg8 harg8 hc0 hc1 x0 x1 xs0 xs1 xs2).2.1 S2048x256.size (by sl_kernel_rfl) y

/-- What the body leaves in output window 3's staging buffer: its pieces read back over junk. -/
def out0_Last_3 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) : Vec F S2048x256 .bf16 :=
  VO0_3.read (Elt F) (VO0_3.writes (Elt F) VO0_3.junk (kernelRun0_Last c i arg2 harg2 arg3 harg3 arg4 harg4 arg5 harg5 arg6 harg6 arg7 harg7 arg8 harg8 hc0 hc1 x0 x1 xs0 xs1 xs2).2.1)

/-- The pieces stored into scratch operand 0 (the running maximum, payload `k0_pay13`) tile it, so they cover it. -/
theorem scover0_Last_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) (y : S1x256.Idx) :
    ∃ pc ∈ (kernelRun0_Last c i arg2 harg2 arg3 harg3 arg4 harg4 arg5 harg5 arg6 harg6 arg7 harg7 arg8 harg8 hc0 hc1 x0 x1 xs0 xs1 xs2).2.2.1, y ∈ pc.1.set :=
  View.cover_of_tiledL (kernelRun0_Last c i arg2 harg2 arg3 harg3 arg4 harg4 arg5 harg5 arg6 harg6 arg7 harg7 arg8 harg8 hc0 hc1 x0 x1 xs0 xs1 xs2).2.2.1 S1x256.size (by sl_kernel_rfl) y

/-- What the body leaves in scratch operand 0 (the running maximum, payload `k0_pay13`): its pieces read back over junk. -/
def sout0_Last_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) : Vec F S1x256 .f32 :=
  VS0_0.read (Elt F) (VS0_0.writes (Elt F) VS0_0.junk (kernelRun0_Last c i arg2 harg2 arg3 harg3 arg4 harg4 arg5 harg5 arg6 harg6 arg7 harg7 arg8 harg8 hc0 hc1 x0 x1 xs0 xs1 xs2).2.2.1)

/-- The pieces stored into scratch operand 1 (the running sum, payload `k0_pay12`) tile it, so they cover it. -/
theorem scover0_Last_1 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) (y : S1x256.Idx) :
    ∃ pc ∈ (kernelRun0_Last c i arg2 harg2 arg3 harg3 arg4 harg4 arg5 harg5 arg6 harg6 arg7 harg7 arg8 harg8 hc0 hc1 x0 x1 xs0 xs1 xs2).2.2.2.1, y ∈ pc.1.set :=
  View.cover_of_tiledL (kernelRun0_Last c i arg2 harg2 arg3 harg3 arg4 harg4 arg5 harg5 arg6 harg6 arg7 harg7 arg8 harg8 hc0 hc1 x0 x1 xs0 xs1 xs2).2.2.2.1 S1x256.size (by sl_kernel_rfl) y

/-- What the body leaves in scratch operand 1 (the running sum, payload `k0_pay12`): its pieces read back over junk. -/
def sout0_Last_1 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) : Vec F S1x256 .f32 :=
  VS0_1.read (Elt F) (VS0_1.writes (Elt F) VS0_1.junk (kernelRun0_Last c i arg2 harg2 arg3 harg3 arg4 harg4 arg5 harg5 arg6 harg6 arg7 harg7 arg8 harg8 hc0 hc1 x0 x1 xs0 xs1 xs2).2.2.2.1)

/-- The pieces stored into scratch operand 2 (the running accumulator, payload `k0_pay1`) tile it, so they cover it. -/
theorem scover0_Last_2 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) (y : S256x1024.Idx) :
    ∃ pc ∈ (kernelRun0_Last c i arg2 harg2 arg3 harg3 arg4 harg4 arg5 harg5 arg6 harg6 arg7 harg7 arg8 harg8 hc0 hc1 x0 x1 xs0 xs1 xs2).2.2.2.2.1, y ∈ pc.1.set :=
  View.cover_of_tiledL (kernelRun0_Last c i arg2 harg2 arg3 harg3 arg4 harg4 arg5 harg5 arg6 harg6 arg7 harg7 arg8 harg8 hc0 hc1 x0 x1 xs0 xs1 xs2).2.2.2.2.1 S256x1024.size (by sl_kernel_rfl) y

/-- What the body leaves in scratch operand 2 (the running accumulator, payload `k0_pay1`): its pieces read back over junk. -/
def sout0_Last_2 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) : Vec F S256x1024 .f32 :=
  VS0_2.read (Elt F) (VS0_2.writes (Elt F) VS0_2.junk (kernelRun0_Last c i arg2 harg2 arg3 harg3 arg4 harg4 arg5 harg5 arg6 harg6 arg7 harg7 arg8 harg8 hc0 hc1 x0 x1 xs0 xs1 xs2).2.2.2.2.1)

section Regions
-- the TensorCore's buffer contents when the region is entered: a parameter, instantiated by the run of @main
variable (V : (c : Dev nD) → (b : Ref sig .tc) → Buf (Elt F) ((c : Thread nD τ).loc b))

/-! ## What the outputs and the scratch operands hold after each point -/

/-- THE ACCUMULATION. What the two outputs' staging buffers and the three scratch operands hold after the body at
    position `n` (a tuple: output windows 2 and 3, then scratch 0, 1, 2): the case the closed forms select at `n`, run at
    the point's memrefs and input blocks; where the second coordinate is not 0, over what the scratch operands held after
    position `n - 1` (they are the kernel's own and nothing touches them between points). Where the second coordinate is
    0 — position 0 and position 16, where the first coordinate has moved — nothing of the earlier contents is taken.
    Both conditions at once hold at no point (`False.elim`). -/
def outsAt0 (c : Dev nD) : (n : ℕ) → n < cfg0.N → Vec F S256x1024 .f32 × Vec F S2048x256 .bf16 × Vec F S1x256 .f32 × Vec F S1x256 .f32 × Vec F S256x1024 .f32
  | 0, hn =>
    (out0_First_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
      out0_First_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
      sout0_First_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
      sout0_First_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
      sout0_First_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (out0_First_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
      out0_First_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
      sout0_First_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
      sout0_First_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
      sout0_First_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_Last_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
      out0_Last_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
      sout0_Last_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
      sout0_Last_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
      sout0_Last_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2)
      else
        (out0_Mid_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
      out0_Mid_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
      sout0_Mid_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
      sout0_Mid_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
      sout0_Mid_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2)

/-- `outsAt0` at a point whose second coordinate is 0: that case's contents (nothing of the point before). -/
theorem outsAt0_First (c : Dev nD) (t : Fin cfg0.N) (h0 : t.val % 16 = 0) (h1 : ¬t.val % 16 = 15) :
    outsAt0 V c t.val t.isLt = (out0_First_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t),
      out0_First_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t),
      sout0_First_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t),
      sout0_First_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t),
      sout0_First_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point whose second coordinate is neither 0 nor 15: that case's contents, over what the point
    before left in the scratch operands. -/
theorem outsAt0_Mid (c : Dev nD) (t : Fin cfg0.N) (h0 : ¬t.val % 16 = 0) (h1 : ¬t.val % 16 = 15) :
    outsAt0 V c t.val t.isLt = (out0_Mid_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_Mid_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_Mid_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_Mid_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_Mid_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point whose second coordinate is 15: that case's contents, over what the point before left in
    the scratch operands. -/
theorem outsAt0_Last (c : Dev nD) (t : Fin cfg0.N) (h0 : ¬t.val % 16 = 0) (h1 : t.val % 16 = 15) :
    outsAt0 V c t.val t.isLt = (out0_Last_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_Last_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_Last_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_Last_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_Last_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The region invariant before position `n`: before the first point the class's (every scoped buffer that is no
    staging buffer of this region at anything, the generator register at some state); afterwards the same with the
    three scratch operands at what the point before left in them (`outsAt0`'s scratch components). -/
def PhiS (c : Dev nD) : (n : ℕ) → n ≤ cfg0.N → sProp 𝕄
  | 0, _ => Pipeline.ΦA spec0 c
  | n + 1, hn => iprop(iprop(owns (c : Thread nD τ) scM0_0 fullShare (outsAt0 V c n hn).2.2.1 ∗ owns (c : Thread nD τ) scM0_1 fullShare (outsAt0 V c n hn).2.2.2.1 ∗ owns (c : Thread nD τ) scM0_2 fullShare (outsAt0 V c n hn).2.2.2.2 ∗ otherScoped0 c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the scratch operands at that point's contents. -/
theorem PhiS_succ (c : Dev nD) (n : ℕ) (hn : n < cfg0.N) :
    PhiS V c (n + 1) hn = iprop(iprop(owns (c : Thread nD τ) scM0_0 fullShare (outsAt0 V c n hn).2.2.1 ∗ owns (c : Thread nD τ) scM0_1 fullShare (outsAt0 V c n hn).2.2.2.1 ∗ owns (c : Thread nD τ) scM0_2 fullShare (outsAt0 V c n hn).2.2.2.2 ∗ otherScoped0 c) ∗ (∃ r, prngReg c r)) := rfl

/-- Before a point that is not the first: the scratch operands at what the point before left. -/
theorem PhiS_pos (c : Dev nD) (n : ℕ) (h : n ≤ cfg0.N) (hz : n ≠ 0) :
    PhiS V c n h = iprop(iprop(owns (c : Thread nD τ) scM0_0 fullShare (outsAt0 V c (n - 1) (by omega)).2.2.1 ∗ owns (c : Thread nD τ) scM0_1 fullShare (outsAt0 V c (n - 1) (by omega)).2.2.2.1 ∗ owns (c : Thread nD τ) scM0_2 fullShare (outsAt0 V c (n - 1) (by omega)).2.2.2.2 ∗ otherScoped0 c) ∗ (∃ r, prngReg c r)) := by
  cases n with
  | zero => exact absurd rfl hz
  | succ n => rfl

/-! ## The pipeline's proof data -/

/-- The proof data of pipeline 0 on core `c`: the arrays as the region finds them (`V`); after the body at point
    `t` each input's buffer at its block and the outputs' at `outsAt0`'s components; the invariant `PhiS`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in; so
    that case's run applies. The invariant hands the body the three scratch operands at what the point before left
    (at anything at the first point, and the case whose second coordinate is 0 takes them at anything), the other
    scoped buffers and the generator register untouched, and takes the scratch operands back at this point's
    contents (their pieces cover them); output window 2 is handed back as found where it is idle; the core owes
    nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    ·
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [Dat.leavesExact_idle (dat0 V c) 2 t (idleAt0_2 t (fun h => h1 ((hcond0_1 t).mp h))) (noFlush0_2 t (fun h => h1 ((hcond0_1 t).mp h)))]
        rw [show (dat0 V c).leavesExact 3 t = owns (c : Thread nD τ) (ms0_3 t) fullShare ((dat0 V c).after 3 t) from by
          unfold Dat.leavesExact; rw [liveAt0_3 t], after0_3]
        rw [outsAt0_First V c t h0 h1]
        unfold out0_First_3 sout0_First_0 sout0_First_1 sout0_First_2; (try dsimp only)
        by_cases hz : t.val = 0
        · rw [PhiS_castSucc V c t, PhiS_zero V c _ _ hz, PhiA0_eq]
          iintro ⟨⟨⟨HS0, HS1, HS2, Hr⟩, Hg⟩, Ho, ⟨%d0, H0⟩, ⟨%d1, H1⟩, ⟨%d2, H2⟩, ⟨%d3, H3⟩⟩
          iapply ((kernelRun0_First c (grid0.coords t) _ _ _ _ _ _ _ _ _ _ _ _ _ _ ((hcond0_0 t).mpr h0) (fun h => h1 ((hcond0_1 t).mp h)) (iblk0 V c 0 t) (iblk0 V c 1 t)).2.2.2.2.2 _ Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, ⟨%es0, HS0⟩, ⟨%es1, HS1⟩, ⟨%es2, HS2⟩⟩
          isplitl [HS0 HS1 HS2 Hr Hg]
          · isplitr [Hg]
            · isplitl [HS0]
              · unfold owns; iexists _; isplitr
                swap; · iexact HS0
                ipureintro; exact View.read_writes_of_cover _ _ _ _ _ (scover0_First_0 c _ _ _ _ _ _ _ _ _ _ _ _ _ _ _ _ _ _ _)
              isplitl [HS1]
              · unfold owns; iexists _; isplitr
                swap; · iexact HS1
                ipureintro; exact View.read_writes_of_cover _ _ _ _ _ (scover0_First_1 c _ _ _ _ _ _ _ _ _ _ _ _ _ _ _ _ _ _ _)
              isplitl [HS2]
              · unfold owns; iexists _; isplitr
                swap; · iexact HS2
                ipureintro; exact View.read_writes_of_cover _ _ _ _ _ (scover0_First_2 c _ _ _ _ _ _ _ _ _ _ _ _ _ _ _ _ _ _ _)
              iexact Hr
            iexact Hg
          isplitl [Ho]; · iexact Ho
          isplitl [H0]; · iexact H0
          isplitl [H1]; · iexact H1
          isplitl [H2]
          · iexists _; iexact H2
          unfold owns; iexists _; isplitr
          swap; · iexact H3
          ipureintro; exact View.read_writes_of_cover _ _ _ _ _ (cover0_First_3 c _ _ _ _ _ _ _ _ _ _ _ _ _ _ _ _ _ _ _)
        · rw [PhiS_castSucc V c t, PhiS_pos V c _ _ hz]
          iintro ⟨⟨⟨HS0, HS1, HS2, Hr⟩, Hg⟩, Ho, ⟨%d0, H0⟩, ⟨%d1, H1⟩, ⟨%d2, H2⟩, ⟨%d3, H3⟩⟩
          iapply ((kernelRun0_First c (grid0.coords t) _ _ _ _ _ _ _ _ _ _ _ _ _ _ ((hcond0_0 t).mpr h0) (fun h => h1 ((hcond0_1 t).mp h)) (iblk0 V c 0 t) (iblk0 V c 1 t)).2.2.2.2.2 _ Set.univ _)
          isplitl [H0]; · iexact H0
          isplitl [H1]; · iexact H1
          isplitl [H2]; · iexact H2
          isplitl [H3]; · iexists _; iexact H3
          isplitl [HS0]; · iexists _; iexact HS0
          isplitl [HS1]; · iexists _; iexact HS1
          isplitl [HS2]; · iexists _; iexact HS2
          iintro ⟨H0, H1, H2, ⟨%e3, H3⟩, ⟨%es0, HS0⟩, ⟨%es1, HS1⟩, ⟨%es2, HS2⟩⟩
          isplitl [HS0 HS1 HS2 Hr Hg]
          · isplitr [Hg]
            · isplitl [HS0]
              · unfold owns; iexists _; isplitr
                swap; · iexact HS0
                ipureintro; exact View.read_writes_of_cover _ _ _ _ _ (scover0_First_0 c _ _ _ _ _ _ _ _ _ _ _ _ _ _ _ _ _ _ _)
              isplitl [HS1]
              · unfold owns; iexists _; isplitr
                swap; · iexact HS1
                ipureintro; exact View.read_writes_of_cover _ _ _ _ _ (scover0_First_1 c _ _ _ _ _ _ _ _ _ _ _ _ _ _ _ _ _ _ _)
              isplitl [HS2]
              · unfold owns; iexists _; isplitr
                swap; · iexact HS2
                ipureintro; exact View.read_writes_of_cover _ _ _ _ _ (scover0_First_2 c _ _ _ _ _ _ _ _ _ _ _ _ _ _ _ _ _ _ _)
              iexact Hr
            iexact Hg
          isplitl [Ho]; · iexact Ho
          isplitl [H0]; · iexact H0
          isplitl [H1]; · iexact H1
          isplitl [H2]
          · iexists _; iexact H2
          unfold owns; iexists _; isplitr
          swap; · iexact H3
          ipureintro; exact View.read_writes_of_cover _ _ _ _ _ (cover0_First_3 c _ _ _ _ _ _ _ _ _ _ _ _ _ _ _ _ _ _ _)

  · by_cases h1 : t.val % 16 = 15
    ·
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [show (dat0 V c).leavesExact 2 t = owns (c : Thread nD τ) (ms0_2 t) fullShare ((dat0 V c).after 2 t) from by
          unfold Dat.leavesExact; rw [liveAt0_2 t ((hcond0_1 t).mpr h1)], after0_2]
        rw [show (dat0 V c).leavesExact 3 t = owns (c : Thread nD τ) (ms0_3 t) fullShare ((dat0 V c).after 3 t) from by
          unfold Dat.leavesExact; rw [liveAt0_3 t], after0_3]
        rw [outsAt0_Last V c t h0 h1]
        unfold out0_Last_2 out0_Last_3 sout0_Last_0 sout0_Last_1 sout0_Last_2; (try dsimp only)
        by_cases hz : t.val = 0
        · exfalso; omega
        · rw [PhiS_castSucc V c t, PhiS_pos V c _ _ hz]
          iintro ⟨⟨⟨HS0, HS1, HS2, Hr⟩, Hg⟩, Ho, ⟨%d0, H0⟩, ⟨%d1, H1⟩, ⟨%d2, H2⟩, ⟨%d3, H3⟩⟩
          iapply ((kernelRun0_Last c (grid0.coords t) _ _ _ _ _ _ _ _ _ _ _ _ _ _ (fun h => h0 ((hcond0_0 t).mp h)) ((hcond0_1 t).mpr h1) (iblk0 V c 0 t) (iblk0 V c 1 t) _ _ _).2.2.2.2.2 Set.univ _)
          isplitl [H0]; · iexact H0
          isplitl [H1]; · iexact H1
          isplitl [H2]; · iexists _; iexact H2
          isplitl [H3]; · iexists _; iexact H3
          isplitl [HS0]; · iexact HS0
          isplitl [HS1]; · iexact HS1
          isplitl [HS2]; · iexact HS2
          iintro ⟨H0, H1, ⟨%e2, H2⟩, ⟨%e3, H3⟩, ⟨%es0, HS0⟩, ⟨%es1, HS1⟩, ⟨%es2, HS2⟩⟩
          isplitl [HS0 HS1 HS2 Hr Hg]
          · isplitr [Hg]
            · isplitl [HS0]
              · unfold owns; iexists _; isplitr
                swap; · iexact HS0
                ipureintro; exact View.read_writes_of_cover _ _ _ _ _ (scover0_Last_0 c _ _ _ _ _ _ _ _ _ _ _ _ _ _ _ _ _ _ _ _ _ _)
              isplitl [HS1]
              · unfold owns; iexists _; isplitr
                swap; · iexact HS1
                ipureintro; exact View.read_writes_of_cover _ _ _ _ _ (scover0_Last_1 c _ _ _ _ _ _ _ _ _ _ _ _ _ _ _ _ _ _ _ _ _ _)
              isplitl [HS2]
              · unfold owns; iexists _; isplitr
                swap; · iexact HS2
                ipureintro; exact View.read_writes_of_cover _ _ _ _ _ (scover0_Last_2 c _ _ _ _ _ _ _ _ _ _ _ _ _ _ _ _ _ _ _ _ _ _)
              iexact Hr
            iexact Hg
          isplitl [Ho]; · iexact Ho
          isplitl [H0]; · iexact H0
          isplitl [H1]; · iexact H1
          isplitl [H2]
          · unfold owns; iexists _; isplitr
            swap; · iexact H2
            ipureintro; exact View.read_writes_of_cover _ _ _ _ _ (cover0_Last_2 c _ _ _ _ _ _ _ _ _ _ _ _ _ _ _ _ _ _ _ _ _ _)
          unfold owns; iexists _; isplitr
          swap; · iexact H3
          ipureintro; exact View.read_writes_of_cover _ _ _ _ _ (cover0_Last_3 c _ _ _ _ _ _ _ _ _ _ _ _ _ _ _ _ _ _ _ _ _ _)

    ·
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [Dat.leavesExact_idle (dat0 V c) 2 t (idleAt0_2 t (fun h => h1 ((hcond0_1 t).mp h))) (noFlush0_2 t (fun h => h1 ((hcond0_1 t).mp h)))]
        rw [show (dat0 V c).leavesExact 3 t = owns (c : Thread nD τ) (ms0_3 t) fullShare ((dat0 V c).after 3 t) from by
          unfold Dat.leavesExact; rw [liveAt0_3 t], after0_3]
        rw [outsAt0_Mid V c t h0 h1]
        unfold out0_Mid_3 sout0_Mid_0 sout0_Mid_1 sout0_Mid_2; (try dsimp only)
        by_cases hz : t.val = 0
        · exfalso; omega
        · rw [PhiS_castSucc V c t, PhiS_pos V c _ _ hz]
          iintro ⟨⟨⟨HS0, HS1, HS2, Hr⟩, Hg⟩, Ho, ⟨%d0, H0⟩, ⟨%d1, H1⟩, ⟨%d2, H2⟩, ⟨%d3, H3⟩⟩
          iapply ((kernelRun0_Mid c (grid0.coords t) _ _ _ _ _ _ _ _ _ _ _ _ _ _ (fun h => h0 ((hcond0_0 t).mp h)) (fun h => h1 ((hcond0_1 t).mp h)) (iblk0 V c 0 t) (iblk0 V c 1 t) _ _ _).2.2.2.2.2 _ Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, ⟨%es0, HS0⟩, ⟨%es1, HS1⟩, ⟨%es2, HS2⟩⟩
          isplitl [HS0 HS1 HS2 Hr Hg]
          · isplitr [Hg]
            · isplitl [HS0]
              · unfold owns; iexists _; isplitr
                swap; · iexact HS0
                ipureintro; exact View.read_writes_of_cover _ _ _ _ _ (scover0_Mid_0 c _ _ _ _ _ _ _ _ _ _ _ _ _ _ _ _ _ _ _ _ _ _)
              isplitl [HS1]
              · unfold owns; iexists _; isplitr
                swap; · iexact HS1
                ipureintro; exact View.read_writes_of_cover _ _ _ _ _ (scover0_Mid_1 c _ _ _ _ _ _ _ _ _ _ _ _ _ _ _ _ _ _ _ _ _ _)
              isplitl [HS2]
              · unfold owns; iexists _; isplitr
                swap; · iexact HS2
                ipureintro; exact View.read_writes_of_cover _ _ _ _ _ (scover0_Mid_2 c _ _ _ _ _ _ _ _ _ _ _ _ _ _ _ _ _ _ _ _ _ _)
              iexact Hr
            iexact Hg
          isplitl [Ho]; · iexact Ho
          isplitl [H0]; · iexact H0
          isplitl [H1]; · iexact H1
          isplitl [H2]
          · iexists _; iexact H2
          unfold owns; iexists _; isplitr
          swap; · iexact H3
          ipureintro; exact View.read_writes_of_cover _ _ _ _ _ (cover0_Mid_3 c _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class's invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the scratch operands' named contents are
    forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, Hr⟩, Hg⟩
  isplitr [Hg]
  · isplitl [HS0]; · iexists _; iexact HS0
    isplitl [HS1]; · iexists _; iexact HS1
    isplitl [HS2]; · iexists _; iexact HS2
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Regions

end Cert.Kernel.Hand

end
-- ==== Proof.Bits.FrameMlp.lean ====
/- The class-A half of the second pallas_call (the per-expert three-layer network, `cc1__mlp_kernel`, pipeline 1 of @main), at ANY contents `V` of the TensorCore's buffers when the region is
   entered and at any float model `F`: each window's block at a grid point, what the body leaves in the output
   window's staging buffer as a closed function of the input blocks, the body's triple, the pipeline's proof data and
   its body obligation. -/
import proofs.«181279_j10471130267897_2_alg».proof.Proof.Gen.Kernel.Launch
import proofs.«181279_j10471130267897_2_alg».proof.Proof.Gen.Kernel.Skeleton
import proofs.«181279_j10471130267897_2_alg».proof.Proof.Gen.Kernel.Points
import Idealize.ShloMosaic.Lib.Pipeline.FrameBody
import Idealize.ShloMosaic.Lib.Ring
import Idealize.ShloMosaic.Lib.Tactic

-- membership in a rectangle with axes of a thousand and more coordinates: the structural check recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! # REGION 1 of @main: custom_call 1, `cc1__mlp_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, whether or not the block was
    fetched at that point (where it was not, the block index has not moved since the last fetch), for ANY proof data
    whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds the window's block at every point, whether or not the block was
    fetched at that point (where it was not, the block index has not moved since the last fetch), for ANY proof data
    whose array is `V`'s (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds the window's block at every point, whether or not the block was
    fetched at that point (where it was not, the block index has not moved since the last fetch), for ANY proof data
    whose array is `V`'s (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds the window's block at every point, whether or not the block was
    fetched at that point (where it was not, the block index has not moved since the last fetch), for ANY proof data
    whose array is `V`'s (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds the window's block at every point, whether or not the block was
    fetched at that point (where it was not, the block index has not moved since the last fetch), for ANY proof data
    whose array is `V`'s (`hA`) and whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds the window's block at every point, whether or not the block was
    fetched at that point (where it was not, the block index has not moved since the last fetch), for ANY proof data
    whose array is `V`'s (`hA`) and whose body leaves the block in place (`hafter`). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds the window's block at every point, whether or not the block was
    fetched at that point (where it was not, the block index has not moved since the last fetch), for ANY proof data
    whose array is `V`'s (`hA`) and whose body leaves the block in place (`hafter`). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store go through the whole staging buffer -/

abbrev r1_0 : Rect S8x8x1024 := Rect.unit (s := S8x8x1024) ![0, 0, 0] S8x8x1024.size inb_S8x8x1024_S8x8x1024_0_0_0
abbrev r1_1 : Rect S8x1024x256 := Rect.unit (s := S8x1024x256) ![0, 0, 0] S8x1024x256.size inb_S8x1024x256_S8x1024x256_0_0_0
abbrev r1_2 : Rect S8x256 := Rect.unit (s := S8x256) ![0, 0] S8x256.size inb_S8x256_S8x256_0_0
abbrev r1_3 : Rect S8x256x256 := Rect.unit (s := S8x256x256) ![0, 0, 0] S8x256x256.size inb_S8x256x256_S8x256x256_0_0_0
abbrev r1_4 : Rect S8x256 := Rect.unit (s := S8x256) ![0, 0] S8x256.size inb_S8x256_S8x256_0_0
abbrev r1_5 : Rect S8x256x1024 := Rect.unit (s := S8x256x1024) ![0, 0, 0] S8x256x1024.size inb_S8x256x1024_S8x256x1024_0_0_0
abbrev r1_6 : Rect S8x1024 := Rect.unit (s := S8x1024) ![0, 0] S8x1024.size inb_S8x1024_S8x1024_0_0
abbrev r1_7 : Rect S8x8x1024 := Rect.unit (s := S8x8x1024) ![0, 0, 0] S8x8x1024.size inb_S8x8x1024_S8x8x1024_0_0_0

/-! ## What the body leaves in the output window's buffer -/

/-- Window 7's staging buffer after the body, from the input windows' blocks: the body's one store, whose
    payload is the kernel's value of what its loads read, laid over the whole buffer. -/
def out1_7 (x0 : Vec F S8x8x1024 .f32) (x1 : Vec F S8x1024x256 .f32) (x2 : Vec F S8x256 .f32) (x3 : Vec F S8x256x256 .f32) (x4 : Vec F S8x256 .f32) (x5 : Vec F S8x256x1024 .f32) (x6 : Vec F S8x1024 .f32) : Vec F S8x8x1024 .f32 :=
  View.canon [⟨r1_7, k1_pay1 (View.ld x0 r1_0) (View.ld x1 r1_1) (View.ld x2 r1_2) (View.ld x3 r1_3) (View.ld x4 r1_4) (View.ld x5 r1_5) (View.ld x6 r1_6)⟩]

/-- The store's rectangle is the whole buffer, so it covers it. -/
theorem cover1_7 (p0 : Vec F S8x8x1024 .f32) (y : S8x8x1024.Idx) :
    ∃ pc ∈ ([⟨r1_7, p0⟩] : List (View.Piece (Elt F) S8x8x1024 .f32)), y ∈ pc.1.set :=
  View.cover_of_tiled [⟨r1_7, p0⟩] S8x8x1024.size (by rfl) y

/-! ## The body's triple -/

set_option maxHeartbeats 1000000 in
/-- The kernel body on whole staging memrefs — the inputs' at read contents `xW`, the output's at anything — runs to
    the continuation holding the inputs' as they were and the output's at `out1_7` of the inputs'. The printed
    function is its skeleton of loads and one store; the load of the output buffer that precedes the store reads a value
    nothing uses. -/
theorem sound_kernel1 (c : Dev nD) (E : Set ℕ) (i₀ : grid1.Coords) (arg0 : Memref sig .tc .vmem S8x8x1024 .f32) (harg0 : arg0.IsWhole) (arg1 : Memref sig .tc .vmem S8x1024x256 .f32) (harg1 : arg1.IsWhole) (arg2 : Memref sig .tc .vmem S8x256 .f32) (harg2 : arg2.IsWhole) (arg3 : Memref sig .tc .vmem S8x256x256 .f32) (harg3 : arg3.IsWhole) (arg4 : Memref sig .tc .vmem S8x256 .f32) (harg4 : arg4.IsWhole) (arg5 : Memref sig .tc .vmem S8x256x1024 .f32) (harg5 : arg5.IsWhole) (arg6 : Memref sig .tc .vmem S8x1024 .f32) (harg6 : arg6.IsWhole) (arg7 : Memref sig .tc .vmem S8x8x1024 .f32) (harg7 : arg7.IsWhole)
    (x0 : Vec F S8x8x1024 .f32) (x1 : Vec F S8x1024x256 .f32) (x2 : Vec F S8x256 .f32) (x3 : Vec F S8x256x256 .f32) (x4 : Vec F S8x256 .f32) (x5 : Vec F S8x256x1024 .f32) (x6 : Vec F S8x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__mlp_kernel i₀ arg0 harg0 arg1 harg1 arg2 harg2 arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the pipeline on core `c`: the arrays as the region finds them (`V`); after the body at point
    `t` each input's buffer at its block and the output's at `out1_7` of the input blocks; the invariant the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.FrameCombine.lean ====
/- The class-A half of the third pallas_call (the softmax-weighted combination, `cc2__combine_kernel`, pipeline 2 of @main), at ANY contents `V` of the TensorCore's buffers when the region is
   entered and at any float model `F`: each window's block at a grid point, what the body leaves in the output
   window's staging buffer as a closed function of the input blocks, the body's triple, the pipeline's proof data and
   its body obligation. -/
import proofs.«181279_j10471130267897_2_alg».proof.Proof.Gen.Kernel.Launch
import proofs.«181279_j10471130267897_2_alg».proof.Proof.Gen.Kernel.Skeleton
import proofs.«181279_j10471130267897_2_alg».proof.Proof.Gen.Kernel.Points
import Idealize.ShloMosaic.Lib.Pipeline.FrameBody
import Idealize.ShloMosaic.Lib.Ring
import Idealize.ShloMosaic.Lib.Tactic

-- membership in a rectangle with axes of a thousand and more coordinates: the structural check recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! # REGION 2 of @main: custom_call 2, `cc2__combine_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, whether or not the block was
    fetched at that point (where it was not, the block index has not moved since the last fetch), for ANY proof data
    whose array is `V`'s (`hA`) and whose body leaves the block in place (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds the window's block at every point, whether or not the block was
    fetched at that point (where it was not, the block index has not moved since the last fetch), for ANY proof data
    whose array is `V`'s (`hA`) and whose body leaves the block in place (`hafter`). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store go through the whole staging buffer -/

abbrev r2_0 : Rect S2048x512 := Rect.unit (s := S2048x512) ![0, 0] S2048x512.size inb_S2048x512_S2048x512_0_0
abbrev r2_1 : Rect S512x1024 := Rect.unit (s := S512x1024) ![0, 0] S512x1024.size inb_S512x1024_S512x1024_0_0
abbrev r2_2 : Rect S2048x1024 := Rect.unit (s := S2048x1024) ![0, 0] S2048x1024.size inb_S2048x1024_S2048x1024_0_0

/-! ## What the body leaves in the output window's buffer -/

/-- Window 2's staging buffer after the body, from the input windows' blocks: the body's one store, whose
    payload is the kernel's value of what its loads read, laid over the whole buffer. -/
def out2_2 (x0 : Vec F S2048x512 .bf16) (x1 : Vec F S512x1024 .f32) : Vec F S2048x1024 .f32 :=
  View.canon [⟨r2_2, k2_pay1 (View.ld x0 r2_0) (View.ld x1 r2_1)⟩]

/-- The store's rectangle is the whole buffer, so it covers it. -/
theorem cover2_2 (p0 : Vec F S2048x1024 .f32) (y : S2048x1024.Idx) :
    ∃ pc ∈ ([⟨r2_2, p0⟩] : List (View.Piece (Elt F) S2048x1024 .f32)), y ∈ pc.1.set :=
  View.cover_of_tiled [⟨r2_2, p0⟩] S2048x1024.size (by rfl) y

/-! ## The body's triple -/

set_option maxHeartbeats 1000000 in
/-- The kernel body on whole staging memrefs — the inputs' at read contents `xW`, the output's at anything — runs to
    the continuation holding the inputs' as they were and the output's at `out2_2` of the inputs'. The printed
    function is its skeleton of loads and one store; the load of the output buffer that precedes the store reads a value
    nothing uses. -/
theorem sound_kernel2 (c : Dev nD) (E : Set ℕ) (i₀ : grid2.Coords) (arg0 : Memref sig .tc .vmem S2048x512 .bf16) (harg0 : arg0.IsWhole) (arg1 : Memref sig .tc .vmem S512x1024 .f32) (harg1 : arg1.IsWhole) (arg2 : Memref sig .tc .vmem S2048x1024 .f32) (harg2 : arg2.IsWhole)
    (x0 : Vec F S2048x512 .bf16) (x1 : Vec F S512x1024 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__combine_kernel i₀ arg0 harg0 arg1 harg1 arg2 harg2) K := by
  simp only [cc2__combine_kernel_eq_skeleton]; unfold cc2__combine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the pipeline on core `c`: the arrays as the region finds them (`V`); after the body at point
    `t` each input's buffer at its block and the output's at `out2_2` of the input blocks; the invariant the
    class's (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Bits.Instance.lean ====
/-
  This program's run. The three regions' proof data — the streaming-softmax dispatch, which carries three scratch
  buffers between grid points, and the two regions whose bodies are one case — instantiate the run of a three-region
  program; every argument array then ends as launched (the frame, at any instance of the float operations), and the
  result buffer ends at the reshape of what the last region leaves in its output array.
-/
import proofs.«181279_j10471130267897_2_alg».proof.Proof.Bits.Run
import proofs.«181279_j10471130267897_2_alg».proof.Proof.Bits.ReadBack
import proofs.«181279_j10471130267897_2_alg».proof.Proof.Bits.FrameDispatch
import proofs.«181279_j10471130267897_2_alg».proof.Proof.Bits.FrameMlp
import proofs.«181279_j10471130267897_2_alg».proof.Proof.Bits.FrameCombine

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

variable (m : (ℓ : Loc nD τ sig) → Buf (Elt F) ℓ)

/-- The three regions of this program, from the launch memory `m`. -/
def theData : Data (F := F) := ⟨fun V c => dat0 V c, fun V c => dat1 V c, fun V c => dat2 V c, m⟩

/-- They meet what the run asks. For regions 1 and 2 the invariant IS "the scratch at anything"; region 0's
    is reached from it before the first point and gives it back after the last. -/
theorem theFacts : (theData m).Facts where
  A_eq0 := fun V c w => A_eq0 V c w
  hq0 := fun _ _ _ => rfl
  howed0 := fun _ _ _ => rfl
  hrec0 := fun _ _ _ => rfl
  hbody0 := fun V c => body_obligation0 V c
  hin0 := fun V c => hin0 V c
  hout0 := fun V c => hout0 V c
  A_eq1 := fun V c w => A_eq1 V c w
  hq1 := fun _ _ _ => rfl
  howed1 := fun _ _ _ => rfl
  hrec1 := fun _ _ _ => rfl
  hbody1 := fun V c => body_obligation1 V c
  hin1 := fun V c => .rfl
  hout1 := fun V c => .rfl
  A_eq2 := fun V c w => A_eq2 V c w
  hq2 := fun _ _ _ => rfl
  howed2 := fun _ _ _ => rfl
  hrec2 := fun _ _ _ => rfl
  hbody2 := fun V c => body_obligation2 V c
  hin2 := fun V c => .rfl
  hout2 := fun V c => .rfl

/-- The run with the result named: every weakly fair execution of @main terminates, nothing faulting; the result
    buffer ends at the reshape of region 2's output array, and every argument array ends as launched. -/
theorem run_named (ρ : Dev nD → PrngReg) : θ_run defs (onTc (τ := τ) (main (F := F))) ⟨m, fun _ => 0, ρ⟩ (fun r => ∀ c : Dev nD,
      r.2.mem ((c.tc : Thread nD τ).loc main_v6) = W7 (theData m) c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v6 (by decide)),
     (h c _ (mem_uc main_arg0 (by decide))).trans (W7_main_arg0 (theData m) (theFacts m) c),
     (h c _ (mem_uc main_arg1 (by decide))).trans (W7_main_arg1 (theData m) (theFacts m) c),
     (h c _ (mem_uc main_arg2 (by decide))).trans (W7_main_arg2 (theData m) (theFacts m) c),
     (h c _ (mem_uc main_arg3 (by decide))).trans (W7_main_arg3 (theData m) (theFacts m) c),
     (h c _ (mem_uc main_arg4 (by decide))).trans (W7_main_arg4 (theData m) (theFacts m) c),
     (h c _ (mem_uc main_arg5 (by decide))).trans (W7_main_arg5 (theData m) (theFacts m) c),
     (h c _ (mem_uc main_arg6 (by decide))).trans (W7_main_arg6 (theData m) (theFacts m) c),
     (h c _ (mem_uc main_arg7 (by decide))).trans (W7_main_arg7 (theData m) (theFacts m) c)⟩)
    (run (theData m) (theFacts m) ρ)

/-- THE FRAME, at any instance of the float operations: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run_named m ρ)

end Cert.Kernel.Hand

end
-- ==== Proof.Ideal.Run.lean ====
/-
  The run of a program of three kernel regions among four stretches of host operations, from the proof data of each
  region. Between two items a core holds every unscoped buffer at a known valuation: the launch memory, then each host
  stretch applied to it, then, after a region, the region's arrays at what its write-backs leave. Each region is a
  segment entered from the valuation before it and left at the one after it; the segments chain; so every weakly
  fair execution of @main terminates and the final memory is the last valuation, buffer by buffer. The regions'
  proof data, body obligations and invariants are parameters here: a class-A region's invariant is the scratch at
  anything, a region that carries scratch between grid points supplies the two entailments to and from that.
-/
import proofs.«181279_j10471130267897_2_alg».proof.Proof.Gen.KernelIdeal.Launch
import proofs.«181279_j10471130267897_2_alg».proof.Proof.Gen.KernelIdeal.Skeleton
import proofs.«181279_j10471130267897_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A core's TensorCore buffers at some contents: what a region's proof data are stated at. -/
abbrev Vals : Type := (c : Dev nD) → (b : Ref sig .tc) → Buf (Elt F) ((c : Thread nD τ).loc b)

section Run

/-- The three regions' proof data, each as a function of the contents its region is entered at, and the launch memory. -/
structure Data where
  dat0 : Vals (F := F) → (c : Dev nD) → Dat τ (Elt F) Unit ℕ (UR sig nD τ) ℕ cfg0 c
  dat1 : Vals (F := F) → (c : Dev nD) → Dat τ (Elt F) Unit ℕ (UR sig nD τ) ℕ cfg1 c
  dat2 : Vals (F := F) → (c : Dev nD) → Dat τ (Elt F) Unit ℕ (UR sig nD τ) ℕ cfg2 c
  m : (ℓ : Loc nD τ sig) → Buf (Elt F) ℓ

variable (D : Data (F := F))

/-! ## The buffer contents at each boundary: a fold through @main -/

/-- Core `c`'s buffers at launch. -/
abbrev W0 : Dev nD → Valuation τ sig (Elt F) := fun c b => D.m (c, b)

/-- After the host stretch `hostOps0`. -/
abbrev W1 : Dev nD → Valuation τ sig (Elt F) := fun c => StableHlo.after hostOps0 (W0 D c)
/-- The same read at the TensorCore's references: what the next region's proof data take. -/
abbrev V1 : Vals (F := F) := fun c b => W1 D c b

/-- After region 0: its arrays at what the pipeline leaves (an input as entered, an output's write-backs folded),
    every other buffer as entered. -/
def W2 (c : Dev nD) : Valuation τ sig (Elt F) :=
  Pipeline.withArrays spec0 c (W1 D c) fun w => (D.dat0 (V1 D) c).arrAt w cfg0.N
theorem W2_arr (c : Dev nD) (w : Fin cfg0.W) :
    W2 D c (Proc.devRef .tc (Pipeline.arrRef spec0 w)) = (D.dat0 (V1 D) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 D c (Proc.devRef .tc b) = W1 D c (Proc.devRef .tc b) := by
  unfold W2; exact Pipeline.withArrays_of_ne spec0 c _ _ b hb
/-- The same read at the TensorCore's references. -/
abbrev V2 : Vals (F := F) := fun c b => W2 D c b
theorem hF0 (c : Dev nD) (w : Fin cfg0.W) : (D.dat0 (V1 D) c).arrAt w cfg0.N = V2 D c (Pipeline.arrRef spec0 w) :=
  (W2_arr D c w).symm
theorem hrest0 (c : Dev nD) : ∀ b, b ∉ Finset.univ.image (Pipeline.arrRef spec0) → V2 D c b = V1 D c b :=
  fun b hb => W2_of_ne D c b fun w e => hb (Finset.mem_image.mpr ⟨w, Finset.mem_univ _, e⟩)

/-- After the host stretch `hostOps1`. -/
abbrev W3 : Dev nD → Valuation τ sig (Elt F) := fun c => StableHlo.after hostOps1 (W2 D c)
/-- The same read at the TensorCore's references: what the next region's proof data take. -/
abbrev V3 : Vals (F := F) := fun c b => W3 D c b

/-- After region 1: its arrays at what the pipeline leaves (an input as entered, an output's write-backs folded),
    every other buffer as entered. -/
def W4 (c : Dev nD) : Valuation τ sig (Elt F) :=
  Pipeline.withArrays spec1 c (W3 D c) fun w => (D.dat1 (V3 D) c).arrAt w cfg1.N
theorem W4_arr (c : Dev nD) (w : Fin cfg1.W) :
    W4 D c (Proc.devRef .tc (Pipeline.arrRef spec1 w)) = (D.dat1 (V3 D) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 D c (Proc.devRef .tc b) = W3 D c (Proc.devRef .tc b) := by
  unfold W4; exact Pipeline.withArrays_of_ne spec1 c _ _ b hb
/-- The same read at the TensorCore's references. -/
abbrev V4 : Vals (F := F) := fun c b => W4 D c b
theorem hF1 (c : Dev nD) (w : Fin cfg1.W) : (D.dat1 (V3 D) c).arrAt w cfg1.N = V4 D c (Pipeline.arrRef spec1 w) :=
  (W4_arr D c w).symm
theorem hrest1 (c : Dev nD) : ∀ b, b ∉ Finset.univ.image (Pipeline.arrRef spec1) → V4 D c b = V3 D c b :=
  fun b hb => W4_of_ne D c b fun w e => hb (Finset.mem_image.mpr ⟨w, Finset.mem_univ _, e⟩)

/-- After the host stretch `hostOps2`. -/
abbrev W5 : Dev nD → Valuation τ sig (Elt F) := fun c => StableHlo.after hostOps2 (W4 D c)
/-- The same read at the TensorCore's references: what the next region's proof data take. -/
abbrev V5 : Vals (F := F) := fun c b => W5 D c b

/-- After region 2: its arrays at what the pipeline leaves (an input as entered, an output's write-backs folded),
    every other buffer as entered. -/
def W6 (c : Dev nD) : Valuation τ sig (Elt F) :=
  Pipeline.withArrays spec2 c (W5 D c) fun w => (D.dat2 (V5 D) c).arrAt w cfg2.N
theorem W6_arr (c : Dev nD) (w : Fin cfg2.W) :
    W6 D c (Proc.devRef .tc (Pipeline.arrRef spec2 w)) = (D.dat2 (V5 D) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 D c (Proc.devRef .tc b) = W5 D c (Proc.devRef .tc b) := by
  unfold W6; exact Pipeline.withArrays_of_ne spec2 c _ _ b hb
/-- The same read at the TensorCore's references. -/
abbrev V6 : Vals (F := F) := fun c b => W6 D c b
theorem hF2 (c : Dev nD) (w : Fin cfg2.W) : (D.dat2 (V5 D) c).arrAt w cfg2.N = V6 D c (Pipeline.arrRef spec2 w) :=
  (W6_arr D c w).symm
theorem hrest2 (c : Dev nD) : ∀ b, b ∉ Finset.univ.image (Pipeline.arrRef spec2) → V6 D c b = V5 D c b :=
  fun b hb => W6_of_ne D c b fun w e => hb (Finset.mem_image.mpr ⟨w, Finset.mem_univ _, e⟩)

/-- After the last host stretch: the contents the program returns with. -/
abbrev W7 : Dev nD → Valuation τ sig (Elt F) := fun c => StableHlo.after hostOps3 (W6 D c)

/-! ## The proof data family and the thread state -/

/-- No pipeline has a prefetched table. -/
abbrev adm : (p : Fin 3) → (pcfgs (F := F) p).Adm := fun p => (cfgs p).toPCfg_adm
/-- Every pipeline's proof data, each at its region's entry contents: a literal match on the pipeline's number. -/
def pdats : (p : Fin 3) → (c : Dev nD) → Dat τ (Elt F) Unit ℕ (UR sig nD τ) ℕ (Pipeline.pin (pcfgs (F := F)) adm p) c
  | ⟨0, _⟩ => fun c => D.dat0 (V1 D) c
  | ⟨1, _⟩ => fun c => D.dat1 (V3 D) c
  | ⟨2, _⟩ => fun c => D.dat2 (V5 D) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

/-- What the run asks of the regions' proof data: the arrays are the entry contents; full shares; nothing owed; the
    body obligation; and the region's invariant is reached from, and gives back, "the scratch at anything". -/
structure Data.Facts : Prop where
  A_eq0 : ∀ (V : Vals (F := F)) c w, (D.dat0 V c).A w = V c (Pipeline.arrRef spec0 w)
  hq0 : ∀ (V : Vals (F := F)) c w, (D.dat0 V c).q w = fullShare
  howed0 : ∀ (V : Vals (F := F)) c t, (D.dat0 V c).owed t = 0
  hrec0 : ∀ (V : Vals (F := F)) c t, (D.dat0 V c).recorded t = Set.univ
  hbody0 : ∀ (V : Vals (F := F)) c, BodyObligation (D.dat0 V c) (defs₀ (F := F)) Variants.none () Set.univ
  hin0 : ∀ (V : Vals (F := F)) c, (Pipeline.ΦA spec0 c : sProp 𝕄) ⊢ (D.dat0 V c).Φ 0
  hout0 : ∀ (V : Vals (F := F)) c, (D.dat0 V c).Φ (Fin.last cfg0.N) ⊢ (Pipeline.ΦA spec0 c : sProp 𝕄)
  A_eq1 : ∀ (V : Vals (F := F)) c w, (D.dat1 V c).A w = V c (Pipeline.arrRef spec1 w)
  hq1 : ∀ (V : Vals (F := F)) c w, (D.dat1 V c).q w = fullShare
  howed1 : ∀ (V : Vals (F := F)) c t, (D.dat1 V c).owed t = 0
  hrec1 : ∀ (V : Vals (F := F)) c t, (D.dat1 V c).recorded t = Set.univ
  hbody1 : ∀ (V : Vals (F := F)) c, BodyObligation (D.dat1 V c) (defs₀ (F := F)) Variants.none () Set.univ
  hin1 : ∀ (V : Vals (F := F)) c, (Pipeline.ΦA spec1 c : sProp 𝕄) ⊢ (D.dat1 V c).Φ 0
  hout1 : ∀ (V : Vals (F := F)) c, (D.dat1 V c).Φ (Fin.last cfg1.N) ⊢ (Pipeline.ΦA spec1 c : sProp 𝕄)
  A_eq2 : ∀ (V : Vals (F := F)) c w, (D.dat2 V c).A w = V c (Pipeline.arrRef spec2 w)
  hq2 : ∀ (V : Vals (F := F)) c w, (D.dat2 V c).q w = fullShare
  howed2 : ∀ (V : Vals (F := F)) c t, (D.dat2 V c).owed t = 0
  hrec2 : ∀ (V : Vals (F := F)) c t, (D.dat2 V c).recorded t = Set.univ
  hbody2 : ∀ (V : Vals (F := F)) c, BodyObligation (D.dat2 V c) (defs₀ (F := F)) Variants.none () Set.univ
  hin2 : ∀ (V : Vals (F := F)) c, (Pipeline.ΦA spec2 c : sProp 𝕄) ⊢ (D.dat2 V c).Φ 0
  hout2 : ∀ (V : Vals (F := F)) c, (D.dat2 V c).Φ (Fin.last cfg2.N) ⊢ (Pipeline.ΦA spec2 c : sProp 𝕄)

variable (hD : D.Facts)

set_option backward.isDefEq.respectTransparency.types false in
/-- Region 0 as a segment: entered with every unscoped buffer at the contents before it, left with the region's arrays
    at what its write-backs leave and every other buffer as entered. The arrays are split out of the unscoped buffers
    on entry and put back on exit; the generator register goes into the region's invariant and comes back; the scratch
    buffers are the invariant's; nothing is owed; the kernel has no semaphore of its own. -/
def reg0 : Pipeline.RegionSeg (pcfgs (F := F)) adm (pdats D) () defs₀ 𝒱₀ L lv 0 where
  win := launch0.win.to₀
  block_pos := launch0.block_pos
  stage_whole := launch0.stage_whole
  K := PEmpty
  osem k := k.elim
  ho := Pipeline.OwnSemFacts.none _
  hbody c := (hD.hbody0 (V1 D) c).loose
  hwaits := Pipeline.hwaits_of_owed_zero _ _ _ _ L lv 0 fun c t => hD.howed0 (V1 D) c t
  pre c := iprop(StableHlo.held (c : Thread nD τ) (Pipeline.ucRefs τ sig) (W1 D c) ∗ R c)
  post c := iprop(StableHlo.held (c : Thread nD τ) (Pipeline.ucRefs τ sig) (W2 D c) ∗ R c)
  X c := iprop(∃ r, prngReg c r)
  Y c := iprop(∃ r, prngReg c r)
  Z c := Pipeline.unscopedRest (Ix := Unit) (Name := ℕ) (U := UR sig nD τ) (Lvl := ℕ) spec0 c (V1 D c)
  hentry c := by
    rw [Pipeline.ownSems0_none]
    have ho : (pdats D 0 c).owed 0 = 0 := hD.howed0 (V1 D) c 0
    have hrec : (pdats D 0 c).recorded 0 = Set.univ := hD.hrec0 (V1 D) c 0
    have hsplit := Pipeline.arrays_of_unscopedBufs (p := 0) (pcfgs (F := F)) adm (pdats D) launch0.win launch0.arr_whole c
      ((pdats D 0 c).share_full fun w => hD.hq0 (V1 D) c w) (V1 D c) fun w => hD.A_eq0 (V1 D) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun x _ => Or.inl (by rw [hrec]; exact Set.mem_univ x)
      iexact HO
    isplitl [Hp]; · iexact Hp
    iexact Hrest
  hin c := (show _ ⊢ (Pipeline.ΦA spec0 c : sProp 𝕄) from by
    unfold Pipeline.ΦA
    iintro ⟨Hp, -, Hr⟩
    isplitl [Hr]; · iexact Hr
    iexact Hp).trans (hD.hin0 (V1 D) c)
  hout c := (hD.hout0 (V1 D) c).trans (show (Pipeline.ΦA spec0 c : sProp 𝕄) ⊢ _ from by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 0) (pcfgs (F := F)) adm (Ix := Unit) (Name := ℕ) (U := UR sig nD τ) (Lvl := ℕ)
      launch0.win launch0.arr_whole c (pdats D) ((pdats D 0 c).share_full fun w => hD.hq0 (V1 D) c w)
      (V1 D c) (V2 D c) ((pdats D 0 c).arrAt · cfg0.N) (hF0 D c) (hrest0 D c)
    rw [Pipeline.unscopedBufs_held] at hjoin
    have ho : (pdats D 0 c).owed (Fin.last (Pipeline.pin (pcfgs (F := F)) adm 0).N) = 0 := hD.howed0 (V1 D) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

set_option backward.isDefEq.respectTransparency.types false in
/-- Region 1 as a segment: entered with every unscoped buffer at the contents before it, left with the region's arrays
    at what its write-backs leave and every other buffer as entered. The arrays are split out of the unscoped buffers
    on entry and put back on exit; the generator register goes into the region's invariant and comes back; the scratch
    buffers are the invariant's; nothing is owed; the kernel has no semaphore of its own. -/
def reg1 : Pipeline.RegionSeg (pcfgs (F := F)) adm (pdats D) () defs₀ 𝒱₀ L lv 1 where
  win := launch1.win.to₀
  block_pos := launch1.block_pos
  stage_whole := launch1.stage_whole
  K := PEmpty
  osem k := k.elim
  ho := Pipeline.OwnSemFacts.none _
  hbody c := (hD.hbody1 (V3 D) c).loose
  hwaits := Pipeline.hwaits_of_owed_zero _ _ _ _ L lv 1 fun c t => hD.howed1 (V3 D) c t
  pre c := iprop(StableHlo.held (c : Thread nD τ) (Pipeline.ucRefs τ sig) (W3 D c) ∗ R c)
  post c := iprop(StableHlo.held (c : Thread nD τ) (Pipeline.ucRefs τ sig) (W4 D c) ∗ R c)
  X c := iprop(∃ r, prngReg c r)
  Y c := iprop(∃ r, prngReg c r)
  Z c := Pipeline.unscopedRest (Ix := Unit) (Name := ℕ) (U := UR sig nD τ) (Lvl := ℕ) spec1 c (V3 D c)
  hentry c := by
    rw [Pipeline.ownSems0_none]
    have ho : (pdats D 1 c).owed 0 = 0 := hD.howed1 (V3 D) c 0
    have hrec : (pdats D 1 c).recorded 0 = Set.univ := hD.hrec1 (V3 D) c 0
    have hsplit := Pipeline.arrays_of_unscopedBufs (p := 1) (pcfgs (F := F)) adm (pdats D) launch1.win launch1.arr_whole c
      ((pdats D 1 c).share_full fun w => hD.hq1 (V3 D) c w) (V3 D c) fun w => hD.A_eq1 (V3 D) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun x _ => Or.inl (by rw [hrec]; exact Set.mem_univ x)
      iexact HO
    isplitl [Hp]; · iexact Hp
    iexact Hrest
  hin c := (show _ ⊢ (Pipeline.ΦA spec1 c : sProp 𝕄) from by
    unfold Pipeline.ΦA
    iintro ⟨Hp, -, Hr⟩
    isplitl [Hr]; · iexact Hr
    iexact Hp).trans (hD.hin1 (V3 D) c)
  hout c := (hD.hout1 (V3 D) c).trans (show (Pipeline.ΦA spec1 c : sProp 𝕄) ⊢ _ from by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 1) (pcfgs (F := F)) adm (Ix := Unit) (Name := ℕ) (U := UR sig nD τ) (Lvl := ℕ)
      launch1.win launch1.arr_whole c (pdats D) ((pdats D 1 c).share_full fun w => hD.hq1 (V3 D) c w)
      (V3 D c) (V4 D c) ((pdats D 1 c).arrAt · cfg1.N) (hF1 D c) (hrest1 D c)
    rw [Pipeline.unscopedBufs_held] at hjoin
    have ho : (pdats D 1 c).owed (Fin.last (Pipeline.pin (pcfgs (F := F)) adm 1).N) = 0 := hD.howed1 (V3 D) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

set_option backward.isDefEq.respectTransparency.types false in
/-- Region 2 as a segment: entered with every unscoped buffer at the contents before it, left with the region's arrays
    at what its write-backs leave and every other buffer as entered. The arrays are split out of the unscoped buffers
    on entry and put back on exit; the generator register goes into the region's invariant and comes back; the scratch
    buffers are the invariant's; nothing is owed; the kernel has no semaphore of its own. -/
def reg2 : Pipeline.RegionSeg (pcfgs (F := F)) adm (pdats D) () defs₀ 𝒱₀ L lv 2 where
  win := launch2.win.to₀
  block_pos := launch2.block_pos
  stage_whole := launch2.stage_whole
  K := PEmpty
  osem k := k.elim
  ho := Pipeline.OwnSemFacts.none _
  hbody c := (hD.hbody2 (V5 D) c).loose
  hwaits := Pipeline.hwaits_of_owed_zero _ _ _ _ L lv 2 fun c t => hD.howed2 (V5 D) c t
  pre c := iprop(StableHlo.held (c : Thread nD τ) (Pipeline.ucRefs τ sig) (W5 D c) ∗ R c)
  post c := iprop(StableHlo.held (c : Thread nD τ) (Pipeline.ucRefs τ sig) (W6 D c) ∗ R c)
  X c := iprop(∃ r, prngReg c r)
  Y c := iprop(∃ r, prngReg c r)
  Z c := Pipeline.unscopedRest (Ix := Unit) (Name := ℕ) (U := UR sig nD τ) (Lvl := ℕ) spec2 c (V5 D c)
  hentry c := by
    rw [Pipeline.ownSems0_none]
    have ho : (pdats D 2 c).owed 0 = 0 := hD.howed2 (V5 D) c 0
    have hrec : (pdats D 2 c).recorded 0 = Set.univ := hD.hrec2 (V5 D) c 0
    have hsplit := Pipeline.arrays_of_unscopedBufs (p := 2) (pcfgs (F := F)) adm (pdats D) launch2.win launch2.arr_whole c
      ((pdats D 2 c).share_full fun w => hD.hq2 (V5 D) c w) (V5 D c) fun w => hD.A_eq2 (V5 D) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun x _ => Or.inl (by rw [hrec]; exact Set.mem_univ x)
      iexact HO
    isplitl [Hp]; · iexact Hp
    iexact Hrest
  hin c := (show _ ⊢ (Pipeline.ΦA spec2 c : sProp 𝕄) from by
    unfold Pipeline.ΦA
    iintro ⟨Hp, -, Hr⟩
    isplitl [Hr]; · iexact Hr
    iexact Hp).trans (hD.hin2 (V5 D) c)
  hout c := (hD.hout2 (V5 D) c).trans (show (Pipeline.ΦA spec2 c : sProp 𝕄) ⊢ _ from by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 2) (pcfgs (F := F)) adm (Ix := Unit) (Name := ℕ) (U := UR sig nD τ) (Lvl := ℕ)
      launch2.win launch2.arr_whole c (pdats D) ((pdats D 2 c).share_full fun w => hD.hq2 (V5 D) c w)
      (V5 D c) (V6 D c) ((pdats D 2 c).arrAt · cfg2.N) (hF2 D c) (hrest2 D c)
    rw [Pipeline.unscopedBufs_held] at hjoin
    have ho : (pdats D 2 c).owed (Fin.last (Pipeline.pin (pcfgs (F := F)) adm 2).N) = 0 := hD.howed2 (V5 D) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

/-! ## @main as segments, and the run -/

/-- @main's seven segments in order: a host segment per stretch from its boundary's contents, a region per call. -/
abbrev segs : List (Pipeline.Seg (pcfgs (F := F)) adm (pdats D) () defs₀ 𝒱₀ L lv) :=
  [ .host (hseg hostOps0 hostOps0_sub hostOps0_fresh (W0 D)),
    .region (reg0 D hD),
    .host (hseg hostOps1 hostOps1_sub hostOps1_fresh (W2 D)),
    .region (reg1 D hD),
    .host (hseg hostOps2 hostOps2_sub hostOps2_fresh (W4 D)),
    .region (reg2 D hD),
    .host (hseg hostOps3 hostOps3_sub hostOps3_fresh (W6 D)) ]

include hD in
/-- @main is the run of the segments. -/
theorem main_run (c : Dev nD) : main (F := F) c = Pipeline.Seg.run (segs D hD) := (main_chain c).trans (by chain_rfl)

include hD in
set_option backward.isDefEq.respectTransparency.types false in
/-- THE RUN. From the launch memory with zero counters every weakly fair execution of @main terminates, nothing
    faulting, and the final memory holds every unscoped buffer at the last valuation of the fold. -/
theorem run (ρ : Dev nD → PrngReg) : θ_run defs (onTc (τ := τ) (main (F := F))) ⟨D.m, fun _ => 0, ρ⟩ (fun r => ∀ c : Dev nD,
      ∀ b ∈ Pipeline.ucRefs τ sig, r.2.mem (((c : Thread nD τ)).1, b) = W7 D c b) :=
  Pipeline.θ_run_regions_kit (pcfgs (F := F)) adm (pdats D) () cellOf_inj emb₁ defs₀ 𝒱₀ L lv D.m ρ main (segs D hD)
    (fun c Q => by rw [main_run D hD c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 D c) ∗ R c))
    (Tₙ := fun c => iprop(StableHlo.held (c : Thread nD τ) (Pipeline.ucRefs τ sig) (W7 D c) ∗ ∃ r, prngReg c r))
    (hch := ⟨fun _ => .rfl, fun _ => .rfl, fun _ => .rfl, fun _ => .rfl, fun _ => .rfl, fun _ => .rfl, fun _ => .rfl,
      fun c => (show iprop(StableHlo.held (c : Thread nD τ) (Pipeline.ucRefs τ sig) (W7 D c) ∗ R c)
          ⊢ (iprop(iprop(StableHlo.held (c : Thread nD τ) (Pipeline.ucRefs τ sig) (W7 D c) ∗ ∃ r, prngReg c r)
              ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => D.m ((c : Thread nD τ).loc b)) = StableHlo.held (c : Thread nD τ) (Pipeline.ucRefs τ sig) (W0 D c)
        from Pipeline.unscopedBufs_held c (W0 D c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 D c b)
    (hfin := fun c s' => by
      iintro ⟨⟨Hh, -⟩, HSI⟩
      unfold StableHlo.held
      imodintro
      iapply (pointsTo_read_all (Pipeline.ucRefs τ sig) (fun b => (((c : Thread nD τ)).1, b)) (W7 D c) s')
      isplitl [Hh] <;> iassumption)
    (hQ := fun s h => h)

end Run

end Cert.KernelIdeal.Hand

end
-- ==== Proof.Ideal.ReadBack.lean ====
/-
  Reading the fold of buffer contents back, buffer by buffer. A host stretch here is one reshape, which writes one
  buffer; a region changes only its own arrays, and leaves an input array as it found it. So every argument array
  reaches the end of @main holding its launch contents, and the contents each region is entered at — and the result —
  are the reshape of what the region before left in its output array.
-/
import proofs.«181279_j10471130267897_2_alg».proof.Proof.Ideal.Run
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Cert.KernelIdeal Cert.KernelIdeal.Gen

variable {F : FTy → Type} [FloatOps F] (D : Data (F := F))

/-! ## What a host stretch leaves alone -/

/-- The stretch `hostOps0` writes `main_v0` and nothing else. -/
theorem hostOps0_writes : (hostOps0 : List (HloOp τ sig (Elt F))).Forall fun op => op.writes ⊆ ((([main_v0] : List (Ref sig .tc))).map (Proc.devRef (τ := τ) .tc)).toFinset := by
  simp only [List.Forall]; exact (by simp only [StableHlo.reshape_writes, Finset.singleton_subset_iff, List.mem_toFinset]; exact List.mem_map_of_mem (by decide))
theorem W1_of (c : Dev nD) (r : Ref sig .tc) (h : r ∉ ([main_v0] : List (Ref sig .tc))) : W1 D c (Proc.devRef .tc r) = W0 D c (Proc.devRef .tc r) :=
  StableHlo.after_of_writes_sub hostOps0 _ hostOps0_writes h

/-- The stretch `hostOps1` writes `main_v2` and nothing else. -/
theorem hostOps1_writes : (hostOps1 : List (HloOp τ sig (Elt F))).Forall fun op => op.writes ⊆ ((([main_v2] : List (Ref sig .tc))).map (Proc.devRef (τ := τ) .tc)).toFinset := by
  simp only [List.Forall]; exact (by simp only [StableHlo.reshape_writes, Finset.singleton_subset_iff, List.mem_toFinset]; exact List.mem_map_of_mem (by decide))
theorem W3_of (c : Dev nD) (r : Ref sig .tc) (h : r ∉ ([main_v2] : List (Ref sig .tc))) : W3 D c (Proc.devRef .tc r) = W2 D c (Proc.devRef .tc r) :=
  StableHlo.after_of_writes_sub hostOps1 _ hostOps1_writes h

/-- The stretch `hostOps2` writes `main_v4` and nothing else. -/
theorem hostOps2_writes : (hostOps2 : List (HloOp τ sig (Elt F))).Forall fun op => op.writes ⊆ ((([main_v4] : List (Ref sig .tc))).map (Proc.devRef (τ := τ) .tc)).toFinset := by
  simp only [List.Forall]; exact (by simp only [StableHlo.reshape_writes, Finset.singleton_subset_iff, List.mem_toFinset]; exact List.mem_map_of_mem (by decide))
theorem W5_of (c : Dev nD) (r : Ref sig .tc) (h : r ∉ ([main_v4] : List (Ref sig .tc))) : W5 D c (Proc.devRef .tc r) = W4 D c (Proc.devRef .tc r) :=
  StableHlo.after_of_writes_sub hostOps2 _ hostOps2_writes h

/-- The stretch `hostOps3` writes `main_v6` and nothing else. -/
theorem hostOps3_writes : (hostOps3 : List (HloOp τ sig (Elt F))).Forall fun op => op.writes ⊆ ((([main_v6] : List (Ref sig .tc))).map (Proc.devRef (τ := τ) .tc)).toFinset := by
  simp only [List.Forall]; exact (by simp only [StableHlo.reshape_writes, Finset.singleton_subset_iff, List.mem_toFinset]; exact List.mem_map_of_mem (by decide))
theorem W7_of (c : Dev nD) (r : Ref sig .tc) (h : r ∉ ([main_v6] : List (Ref sig .tc))) : W7 D c (Proc.devRef .tc r) = W6 D c (Proc.devRef .tc r) :=
  StableHlo.after_of_writes_sub hostOps3 _ hostOps3_writes h

/-! ## The arguments end as launched -/

variable (hD : D.Facts)

include hD in
/-- `main_arg0` reaches the end as launched: no stretch writes it, and a region that reads it leaves it in place. -/
theorem W7_main_arg0 (c : Dev nD) : W7 D c (Proc.devRef .tc main_arg0) = D.m ((c : Thread nD τ).loc main_arg0) :=
  (W7_of D c main_arg0 (by decide)).trans <|
  (W6_of_ne D c main_arg0 (by decide)).trans <|
  (W5_of D c main_arg0 (by decide)).trans <|
  (W4_of_ne D c main_arg0 (by decide)).trans <|
  (W3_of D c main_arg0 (by decide)).trans <|
  (W2_of_ne D c main_arg0 (by decide)).trans <|
  (W1_of D c main_arg0 (by decide)).trans <| rfl

include hD in
/-- `main_arg1` reaches the end as launched: no stretch writes it, and a region that reads it leaves it in place. -/
theorem W7_main_arg1 (c : Dev nD) : W7 D c (Proc.devRef .tc main_arg1) = D.m ((c : Thread nD τ).loc main_arg1) :=
  (W7_of D c main_arg1 (by decide)).trans <|
  (W6_of_ne D c main_arg1 (by decide)).trans <|
  (W5_of D c main_arg1 (by decide)).trans <|
  (W4_of_ne D c main_arg1 (by decide)).trans <|
  (W3_of D c main_arg1 (by decide)).trans <|
  ((W2_arr D c 1).trans (((D.dat0 (V1 D) c).arrAt_in 1 rfl _).trans (hD.A_eq0 (V1 D) c 1))).trans <|
  (W1_of D c main_arg1 (by decide)).trans <| rfl

include hD in
/-- `main_arg2` reaches the end as launched: no stretch writes it, and a region that reads it leaves it in place. -/
theorem W7_main_arg2 (c : Dev nD) : W7 D c (Proc.devRef .tc main_arg2) = D.m ((c : Thread nD τ).loc main_arg2) :=
  (W7_of D c main_arg2 (by decide)).trans <|
  (W6_of_ne D c main_arg2 (by decide)).trans <|
  (W5_of D c main_arg2 (by decide)).trans <|
  ((W4_arr D c 1).trans (((D.dat1 (V3 D) c).arrAt_in 1 rfl _).trans (hD.A_eq1 (V3 D) c 1))).trans <|
  (W3_of D c main_arg2 (by decide)).trans <|
  (W2_of_ne D c main_arg2 (by decide)).trans <|
  (W1_of D c main_arg2 (by decide)).trans <| rfl

include hD in
/-- `main_arg3` reaches the end as launched: no stretch writes it, and a region that reads it leaves it in place. -/
theorem W7_main_arg3 (c : Dev nD) : W7 D c (Proc.devRef .tc main_arg3) = D.m ((c : Thread nD τ).loc main_arg3) :=
  (W7_of D c main_arg3 (by decide)).trans <|
  (W6_of_ne D c main_arg3 (by decide)).trans <|
  (W5_of D c main_arg3 (by decide)).trans <|
  ((W4_arr D c 2).trans (((D.dat1 (V3 D) c).arrAt_in 2 rfl _).trans (hD.A_eq1 (V3 D) c 2))).trans <|
  (W3_of D c main_arg3 (by decide)).trans <|
  (W2_of_ne D c main_arg3 (by decide)).trans <|
  (W1_of D c main_arg3 (by decide)).trans <| rfl

include hD in
/-- `main_arg4` reaches the end as launched: no stretch writes it, and a region that reads it leaves it in place. -/
theorem W7_main_arg4 (c : Dev nD) : W7 D c (Proc.devRef .tc main_arg4) = D.m ((c : Thread nD τ).loc main_arg4) :=
  (W7_of D c main_arg4 (by decide)).trans <|
  (W6_of_ne D c main_arg4 (by decide)).trans <|
  (W5_of D c main_arg4 (by decide)).trans <|
  ((W4_arr D c 3).trans (((D.dat1 (V3 D) c).arrAt_in 3 rfl _).trans (hD.A_eq1 (V3 D) c 3))).trans <|
  (W3_of D c main_arg4 (by decide)).trans <|
  (W2_of_ne D c main_arg4 (by decide)).trans <|
  (W1_of D c main_arg4 (by decide)).trans <| rfl

include hD in
/-- `main_arg5` reaches the end as launched: no stretch writes it, and a region that reads it leaves it in place. -/
theorem W7_main_arg5 (c : Dev nD) : W7 D c (Proc.devRef .tc main_arg5) = D.m ((c : Thread nD τ).loc main_arg5) :=
  (W7_of D c main_arg5 (by decide)).trans <|
  (W6_of_ne D c main_arg5 (by decide)).trans <|
  (W5_of D c main_arg5 (by decide)).trans <|
  ((W4_arr D c 4).trans (((D.dat1 (V3 D) c).arrAt_in 4 rfl _).trans (hD.A_eq1 (V3 D) c 4))).trans <|
  (W3_of D c main_arg5 (by decide)).trans <|
  (W2_of_ne D c main_arg5 (by decide)).trans <|
  (W1_of D c main_arg5 (by decide)).trans <| rfl

include hD in
/-- `main_arg6` reaches the end as launched: no stretch writes it, and a region that reads it leaves it in place. -/
theorem W7_main_arg6 (c : Dev nD) : W7 D c (Proc.devRef .tc main_arg6) = D.m ((c : Thread nD τ).loc main_arg6) :=
  (W7_of D c main_arg6 (by decide)).trans <|
  (W6_of_ne D c main_arg6 (by decide)).trans <|
  (W5_of D c main_arg6 (by decide)).trans <|
  ((W4_arr D c 5).trans (((D.dat1 (V3 D) c).arrAt_in 5 rfl _).trans (hD.A_eq1 (V3 D) c 5))).trans <|
  (W3_of D c main_arg6 (by decide)).trans <|
  (W2_of_ne D c main_arg6 (by decide)).trans <|
  (W1_of D c main_arg6 (by decide)).trans <| rfl

include hD in
/-- `main_arg7` reaches the end as launched: no stretch writes it, and a region that reads it leaves it in place. -/
theorem W7_main_arg7 (c : Dev nD) : W7 D c (Proc.devRef .tc main_arg7) = D.m ((c : Thread nD τ).loc main_arg7) :=
  (W7_of D c main_arg7 (by decide)).trans <|
  (W6_of_ne D c main_arg7 (by decide)).trans <|
  (W5_of D c main_arg7 (by decide)).trans <|
  ((W4_arr D c 6).trans (((D.dat1 (V3 D) c).arrAt_in 6 rfl _).trans (hD.A_eq1 (V3 D) c 6))).trans <|
  (W3_of D c main_arg7 (by decide)).trans <|
  (W2_of_ne D c main_arg7 (by decide)).trans <|
  (W1_of D c main_arg7 (by decide)).trans <| rfl

/-! ## The contents each region is entered at, and the result -/

/-- Region 0 finds the tokens reshaped to [32768, 1024] in `main_v0`, -/
theorem V1_main_v0 (c : Dev nD) : (V1 D c main_v0 : S32768x1024.Idx → Elt F .f32)
    = shapeCast S32768x1024 (D.m ((c : Thread nD τ).loc main_arg0)) shapeCasts_S8x4096x1024_S32768x1024 := by
  show StableHlo.after hostOps0 (W0 D c) (Proc.devRef .tc main_v0) = _
  after_results
  rfl
/-- and the mixture as launched. -/
theorem V1_main_arg1 (c : Dev nD) : V1 D c main_arg1 = D.m ((c : Thread nD τ).loc main_arg1) :=
  (W1_of D c main_arg1 (by decide)).trans rfl

/-- Region 1 finds region 0's first output reshaped to [64, 8, 1024] in `main_v2`, -/
theorem V3_main_v2 (c : Dev nD) : (V3 D c main_v2 : S64x8x1024.Idx → Elt F .f32)
    = shapeCast S64x8x1024 ((D.dat0 (V1 D) c).arrAt 2 cfg0.N) shapeCasts_S512x1024_S64x8x1024 := by
  show StableHlo.after hostOps1 (W2 D c) (Proc.devRef .tc main_v2) = _
  after_results
  rw [show W2 D c (Proc.devRef .tc main_v1_0) = (D.dat0 (V1 D) c).arrAt 2 cfg0.N from W2_arr D c 2]
  rfl
/-- and `main_arg2` as launched. -/
theorem V3_main_arg2 (c : Dev nD) : V3 D c main_arg2 = D.m ((c : Thread nD τ).loc main_arg2) :=
  (W3_of D c main_arg2 (by decide)).trans <| (W2_of_ne D c main_arg2 (by decide)).trans <| (W1_of D c main_arg2 (by decide)).trans rfl
/-- and `main_arg3` as launched. -/
theorem V3_main_arg3 (c : Dev nD) : V3 D c main_arg3 = D.m ((c : Thread nD τ).loc main_arg3) :=
  (W3_of D c main_arg3 (by decide)).trans <| (W2_of_ne D c main_arg3 (by decide)).trans <| (W1_of D c main_arg3 (by decide)).trans rfl
/-- and `main_arg4` as launched. -/
theorem V3_main_arg4 (c : Dev nD) : V3 D c main_arg4 = D.m ((c : Thread nD τ).loc main_arg4) :=
  (W3_of D c main_arg4 (by decide)).trans <| (W2_of_ne D c main_arg4 (by decide)).trans <| (W1_of D c main_arg4 (by decide)).trans rfl
/-- and `main_arg5` as launched. -/
theorem V3_main_arg5 (c : Dev nD) : V3 D c main_arg5 = D.m ((c : Thread nD τ).loc main_arg5) :=
  (W3_of D c main_arg5 (by decide)).trans <| (W2_of_ne D c main_arg5 (by decide)).trans <| (W1_of D c main_arg5 (by decide)).trans rfl
/-- and `main_arg6` as launched. -/
theorem V3_main_arg6 (c : Dev nD) : V3 D c main_arg6 = D.m ((c : Thread nD τ).loc main_arg6) :=
  (W3_of D c main_arg6 (by decide)).trans <| (W2_of_ne D c main_arg6 (by decide)).trans <| (W1_of D c main_arg6 (by decide)).trans rfl
/-- and `main_arg7` as launched. -/
theorem V3_main_arg7 (c : Dev nD) : V3 D c main_arg7 = D.m ((c : Thread nD τ).loc main_arg7) :=
  (W3_of D c main_arg7 (by decide)).trans <| (W2_of_ne D c main_arg7 (by decide)).trans <| (W1_of D c main_arg7 (by decide)).trans rfl

/-- Region 2 finds region 0's second output, the logits, in `main_v1_1`, -/
theorem V5_main_v1_1 (c : Dev nD) : V5 D c main_v1_1 = (D.dat0 (V1 D) c).arrAt 3 cfg0.N :=
  (W5_of D c main_v1_1 (by decide)).trans <| (W4_of_ne D c main_v1_1 (by decide)).trans <| (W3_of D c main_v1_1 (by decide)).trans <| W2_arr D c 3
/-- and region 1's output reshaped to [512, 1024] in `main_v4`. -/
theorem V5_main_v4 (c : Dev nD) : (V5 D c main_v4 : S512x1024.Idx → Elt F .f32)
    = shapeCast S512x1024 ((D.dat1 (V3 D) c).arrAt 7 cfg1.N) shapeCasts_S64x8x1024_S512x1024 := by
  show StableHlo.after hostOps2 (W4 D c) (Proc.devRef .tc main_v4) = _
  after_results
  rw [show W4 D c (Proc.devRef .tc main_v3) = (D.dat1 (V3 D) c).arrAt 7 cfg1.N from W4_arr D c 7]
  rfl

/-- The result is region 2's output reshaped to [8, 4096, 1024]. -/
theorem W7_main_v6 (c : Dev nD) : (W7 D c (Proc.devRef .tc main_v6) : S8x4096x1024.Idx → Elt F .f32)
    = shapeCast S8x4096x1024 ((D.dat2 (V5 D) c).arrAt 2 cfg2.N) shapeCasts_S32768x1024_S8x4096x1024 := by
  show StableHlo.after hostOps3 (W6 D c) (Proc.devRef .tc main_v6) = _
  after_results
  rw [show W6 D c (Proc.devRef .tc main_v5) = (D.dat2 (V5 D) c).arrAt 2 cfg2.N from W6_arr D c 2]
  rfl

end Cert.KernelIdeal.Hand

end
-- ==== Proof.Ideal.Dispatch.Runs.lean ====
/- What the three whole-body runs of the dispatch kernel (region 0) and its frame share: the windows' blocks read
   off the region-entry contents, the input windows' buffers at their blocks at every point, the two branch
   conditions of the body in closed form over the grid, where output window 2 is idle, the staging and scratch
   memrefs as the pipeline passes them, and the region invariant with the three scratch operands named. -/
import proofs.«181279_j10471130267897_2_alg».proof.Proof.Gen.KernelIdeal.Launch
import proofs.«181279_j10471130267897_2_alg».proof.Proof.Gen.KernelIdeal.Skeleton
import proofs.«181279_j10471130267897_2_alg».proof.Proof.Gen.KernelIdeal.Points
import Idealize.ShloMosaic.Lib.Pipeline.FrameBody
import Idealize.ShloMosaic.Lib.Ring
import Idealize.ShloMosaic.Lib.Tactic

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: a parameter, instantiated by the run of @main
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place: the window is an input, never idle and uncut. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (it is fetched
    only where the first coordinate moves: at the other points its block index is the previous point's). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Regions

/-! ## The body's branch conditions -/

/-- The condition of the body's first `scf.if` (the scratch is reset): the second grid coordinate is 0. -/
abbrev cond0_0 (i : grid0.Coords) : Prop := (Scalar.cmpi .ne (Scalar.extui (Scalar.cmpi .eq (BitVec.ofNat 32 (i 1).val) 0#32)) 0#32) = 1#1
/-- It holds exactly at the points whose position is a multiple of 16. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's last `scf.if` (output window 2 is stored): the second grid coordinate is 15. -/
abbrev cond0_1 (i : grid0.Coords) : Prop := k0_cond2 i = 1#1
/-- It holds exactly at the points whose position is 15 modulo 16. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- Windows 0, 1 (inputs) and 3 (an output stored at every point) are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
/-- Where the last condition fails, output window 2 is idle (nothing is stored into it) -/
theorem idleAt0_2 : ∀ t : Fin cfg0.N, ¬cond0_1 (grid0.coords t) → cfg0.idle 2 (grid0.coords t) = true := by decide +kernel
/-- and its block is not written back; -/
theorem noFlush0_2 : ∀ t : Fin cfg0.N, ¬cond0_1 (grid0.coords t) → (cfg0.win 2).flush t = false := by decide +kernel
/-- where it holds, the window is live. -/
theorem liveAt0_2 : ∀ t : Fin cfg0.N, cond0_1 (grid0.coords t) → cfg0.idle 2 (grid0.coords t) = false := by decide +kernel

/-! ## The memrefs the body is called with -/

/-- One staging buffer of each output window, through which its contents are stated (the choice does not matter). -/
abbrev VO0_2 : View sig .tc .vmem S256x1024 .f32 := (Memref.whole cc0_stg2_0 : Memref sig .tc .vmem S256x1024 .f32).view
abbrev VO0_3 : View sig .tc .vmem S2048x256 .bf16 := (Memref.whole cc0_stg3_0 : Memref sig .tc .vmem S2048x256 .bf16).view
/-- Each window's current staging memref at point `t`, spelled as the pipeline passes it, and its wholeness. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .bf16 := win0_3.stage (cfg0.slots t 3)
abbrev hs0_3 (t : Fin cfg0.N) : (ms0_3 t).IsWhole := hstage0_3 ((cfg0.slots t 3).cast nbuf0_3)
/-- The three scratch operands: whole scoped buffers of the kernel's own, passed beside the windows, -/
abbrev scM0_0 : Memref sig .tc .vmem S1x256 .f32 := Memref.whole cc0_scratch0
abbrev scM0_1 : Memref sig .tc .vmem S1x256 .f32 := Memref.whole cc0_scratch1
abbrev scM0_2 : Memref sig .tc .vmem S256x1024 .f32 := Memref.whole cc0_scratch2
/-- and as views: what each holds between points is stated through them. -/
abbrev VS0_0 : View sig .tc .vmem S1x256 .f32 := scM0_0.view
abbrev VS0_1 : View sig .tc .vmem S1x256 .f32 := scM0_1.view
abbrev VS0_2 : View sig .tc .vmem S256x1024 .f32 := scM0_2.view

/-! ## The region invariant -/

/-- The core's scoped buffers that are neither a staging buffer of this region nor one of its three scratch
    operands (the other regions' staging buffers), each whole at some contents: the body never names them. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

/-- The region invariant of the class with the scratch operands as memrefs owned at some contents: what the body
    obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ otherScoped0 c) ∗ (∃ r, prngReg c r)) := by
  unfold Pipeline.ΦA; rw [scopedRest0_eq]; simp only [scM0_0, scM0_1, scM0_2, owns_whole]; try rfl

end Cert.KernelIdeal.Hand

end
-- ==== Proof.Ideal.Dispatch.RunFirst.lean ====
/- The whole-body run of the dispatch kernel (region 0) at the points whose second grid coordinate is 0: the body's
   triple by symbolic execution over its skeleton, through the call of its first part; the pieces each stored buffer
   ends with are the witness. One module per control case, so that each elaborates on its own. -/
import proofs.«181279_j10471130267897_2_alg».proof.Proof.Ideal.Dispatch.Runs

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- THE BODY AT A POINT WHERE THE SECOND COORDINATE IS 0 (the first `scf.if` taken, the last not). What the body's
    stores leave in output window 3's staging memref and in the three scratch memrefs, as pieces (last first), WITH the
    proof that on whole memrefs — the inputs' at their contents `x0`, `x1`, output window 2's (idle here: no store) at
    contents `xi2` handed back untouched, output window 3's and the three scratch operands' at anything (each scratch is
    stored whole before its first use) — the body runs to the continuation holding the inputs' as they were and every
    stored buffer with its pieces written. The pieces are the witness the run finds. -/
noncomputable def kernelRun0_First (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) :
    Σ' (L2 : List (View.Piece (Elt F) S256x1024 .f32)) (L3 : List (View.Piece (Elt F) S2048x256 .bf16)) (LS0 : List (View.Piece (Elt F) S1x256 .f32)) (LS1 : List (View.Piece (Elt F) S1x256 .f32)), { LS2 : List (View.Piece (Elt F) S256x1024 .f32) //
      ∀ (xi2 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__dispatch_kernel i arg2 harg2 arg3 harg3 arg4 harg4 arg5 harg5 arg6 harg6 arg7 harg7 arg8 harg8) K } := by
  refine ⟨[], ?_, ?_, ?_, ?_, fun xi2 E K => ?run⟩
  case run =>
    simp only [cc0__dispatch_kernel_eq_skeleton]; unfold cc0__dispatch_kernel_skel
    simp only [k0_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.Ideal.Dispatch.RunMid.lean ====
/- The whole-body run of the dispatch kernel (region 0) at the points whose second grid coordinate is neither 0 nor 15: the body's
   triple by symbolic execution over its skeleton, through the call of its first part; the pieces each stored buffer
   ends with are the witness. One module per control case, so that each elaborates on its own. -/
import proofs.«181279_j10471130267897_2_alg».proof.Proof.Ideal.Dispatch.Runs

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- THE BODY AT A POINT WHERE THE SECOND COORDINATE IS NEITHER 0 NOR 15 (neither `scf.if` taken). What the body's
    stores leave in output window 3's staging memref and in the three scratch memrefs, as pieces (last first), WITH the
    proof that on whole memrefs — the inputs' at their contents `x0`, `x1`, output window 2's (idle here: no store) at
    contents `xi2` handed back untouched, output window 3's at anything, the three scratch operands' at the contents the
    point before left (`xs0`, `xs1`, `xs2`) — the body runs to the continuation holding the inputs' as they were and
    every stored buffer with its pieces written. The pieces are the witness the run finds. -/
noncomputable def kernelRun0_Mid (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) :
    Σ' (L2 : List (View.Piece (Elt F) S256x1024 .f32)) (L3 : List (View.Piece (Elt F) S2048x256 .bf16)) (LS0 : List (View.Piece (Elt F) S1x256 .f32)) (LS1 : List (View.Piece (Elt F) S1x256 .f32)), { LS2 : List (View.Piece (Elt F) S256x1024 .f32) //
      ∀ (xi2 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__dispatch_kernel i arg2 harg2 arg3 harg3 arg4 harg4 arg5 harg5 arg6 harg6 arg7 harg7 arg8 harg8) K } := by
  refine ⟨[], ?_, ?_, ?_, ?_, fun xi2 E K => ?run⟩
  case run =>
    simp only [cc0__dispatch_kernel_eq_skeleton]; unfold cc0__dispatch_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.Ideal.Dispatch.RunLast.lean ====
/- The whole-body run of the dispatch kernel (region 0) at the points whose second grid coordinate is 15: the body's
   triple by symbolic execution over its skeleton, through the call of its first part; the pieces each stored buffer
   ends with are the witness. One module per control case, so that each elaborates on its own. -/
import proofs.«181279_j10471130267897_2_alg».proof.Proof.Ideal.Dispatch.Runs

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- THE BODY AT A POINT WHERE THE SECOND COORDINATE IS 15 (the last `scf.if` taken, the first not). What the body's
    stores leave in both output windows' staging memrefs and in the three scratch memrefs, as pieces (last first), WITH
    the proof that on whole memrefs — the inputs' at their contents `x0`, `x1`, the outputs' at anything, the three
    scratch operands' at the contents the point before left (`xs0`, `xs1`, `xs2`) — the body runs to the continuation
    holding the inputs' as they were and every stored buffer with its pieces written. The pieces are the witness the
    run finds. -/
noncomputable def kernelRun0_Last (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) :
    Σ' (L2 : List (View.Piece (Elt F) S256x1024 .f32)) (L3 : List (View.Piece (Elt F) S2048x256 .bf16)) (LS0 : List (View.Piece (Elt F) S1x256 .f32)) (LS1 : List (View.Piece (Elt F) S1x256 .f32)), { LS2 : List (View.Piece (Elt F) S256x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__dispatch_kernel i arg2 harg2 arg3 harg3 arg4 harg4 arg5 harg5 arg6 harg6 arg7 harg7 arg8 harg8) K } := by
  refine ⟨?_, ?_, ?_, ?_, ?_, fun E K => ?run⟩
  case run =>
    simp only [cc0__dispatch_kernel_eq_skeleton]; unfold cc0__dispatch_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]; · iexists _; iexact H3
    isplitl [HS0]; · iexists _; iexact HS0
    isplitl [HS1]; · iexists _; iexact HS1
    iexists _; iexact HS2

end Cert.KernelIdeal.Hand

end
-- ==== Proof.Ideal.FrameDispatch.lean ====
/- The class-R half of the frame of region 0 (the dispatch kernel): what the two outputs and the three scratch
   operands the kernel carries between points hold per control case (the covers and the named contents) and point by
   point (`outsAt0`), the region invariant with the scratch operands at those contents (`PhiS`), the proof data
   (`dat0`) at a parameter `V` — the TensorCore's buffer contents when the region is entered —, and the body
   obligation with the invariant's two ends. -/
import proofs.«181279_j10471130267897_2_alg».proof.Proof.Ideal.Dispatch.RunFirst
import proofs.«181279_j10471130267897_2_alg».proof.Proof.Ideal.Dispatch.RunMid
import proofs.«181279_j10471130267897_2_alg».proof.Proof.Ideal.Dispatch.RunLast

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each control case leaves -/

/-! ### Where the second coordinate is 0 -/

/-- Nothing is stored into output window 2 here (the window is idle and not written back): no pieces — a
    placeholder (junk read back) that nothing consults. -/
def out0_First_2 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) : Vec F S256x1024 .f32 :=
  VO0_2.read (Elt F) (VO0_2.writes (Elt F) VO0_2.junk (kernelRun0_First c i arg2 harg2 arg3 harg3 arg4 harg4 arg5 harg5 arg6 harg6 arg7 harg7 arg8 harg8 hc0 hc1 x0 x1).1)

/-- The pieces stored into output window 3's staging buffer tile it, so they cover it. -/
theorem cover0_First_3 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) (y : S2048x256.Idx) :
    ∃ pc ∈ (kernelRun0_First c i arg2 harg2 arg3 harg3 arg4 harg4 arg5 harg5 arg6 harg6 arg7 harg7 arg8 harg8 hc0 hc1 x0 x1).2.1, y ∈ pc.1.set :=
  View.cover_of_tiledL (kernelRun0_First c i arg2 harg2 arg3 harg3 arg4 harg4 arg5 harg5 arg6 harg6 arg7 harg7 arg8 harg8 hc0 hc1 x0 x1).2.1 S2048x256.size (by sl_kernel_rfl) y

/-- What the body leaves in output window 3's staging buffer: its pieces read back over junk. -/
def out0_First_3 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) : Vec F S2048x256 .bf16 :=
  VO0_3.read (Elt F) (VO0_3.writes (Elt F) VO0_3.junk (kernelRun0_First c i arg2 harg2 arg3 harg3 arg4 harg4 arg5 harg5 arg6 harg6 arg7 harg7 arg8 harg8 hc0 hc1 x0 x1).2.1)

/-- The pieces stored into scratch operand 0 (the running maximum, payload `k0_pay13`) tile it, so they cover it. -/
theorem scover0_First_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) (y : S1x256.Idx) :
    ∃ pc ∈ (kernelRun0_First c i arg2 harg2 arg3 harg3 arg4 harg4 arg5 harg5 arg6 harg6 arg7 harg7 arg8 harg8 hc0 hc1 x0 x1).2.2.1, y ∈ pc.1.set :=
  View.cover_of_tiledL (kernelRun0_First c i arg2 harg2 arg3 harg3 arg4 harg4 arg5 harg5 arg6 harg6 arg7 harg7 arg8 harg8 hc0 hc1 x0 x1).2.2.1 S1x256.size (by sl_kernel_rfl) y

/-- What the body leaves in scratch operand 0 (the running maximum, payload `k0_pay13`): its pieces read back over junk. -/
def sout0_First_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) : Vec F S1x256 .f32 :=
  VS0_0.read (Elt F) (VS0_0.writes (Elt F) VS0_0.junk (kernelRun0_First c i arg2 harg2 arg3 harg3 arg4 harg4 arg5 harg5 arg6 harg6 arg7 harg7 arg8 harg8 hc0 hc1 x0 x1).2.2.1)

/-- The pieces stored into scratch operand 1 (the running sum, payload `k0_pay12`) tile it, so they cover it. -/
theorem scover0_First_1 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) (y : S1x256.Idx) :
    ∃ pc ∈ (kernelRun0_First c i arg2 harg2 arg3 harg3 arg4 harg4 arg5 harg5 arg6 harg6 arg7 harg7 arg8 harg8 hc0 hc1 x0 x1).2.2.2.1, y ∈ pc.1.set :=
  View.cover_of_tiledL (kernelRun0_First c i arg2 harg2 arg3 harg3 arg4 harg4 arg5 harg5 arg6 harg6 arg7 harg7 arg8 harg8 hc0 hc1 x0 x1).2.2.2.1 S1x256.size (by sl_kernel_rfl) y

/-- What the body leaves in scratch operand 1 (the running sum, payload `k0_pay12`): its pieces read back over junk. -/
def sout0_First_1 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) : Vec F S1x256 .f32 :=
  VS0_1.read (Elt F) (VS0_1.writes (Elt F) VS0_1.junk (kernelRun0_First c i arg2 harg2 arg3 harg3 arg4 harg4 arg5 harg5 arg6 harg6 arg7 harg7 arg8 harg8 hc0 hc1 x0 x1).2.2.2.1)

/-- The pieces stored into scratch operand 2 (the running accumulator, payload `k0_pay1`) tile it, so they cover it. -/
theorem scover0_First_2 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) (y : S256x1024.Idx) :
    ∃ pc ∈ (kernelRun0_First c i arg2 harg2 arg3 harg3 arg4 harg4 arg5 harg5 arg6 harg6 arg7 harg7 arg8 harg8 hc0 hc1 x0 x1).2.2.2.2.1, y ∈ pc.1.set :=
  View.cover_of_tiledL (kernelRun0_First c i arg2 harg2 arg3 harg3 arg4 harg4 arg5 harg5 arg6 harg6 arg7 harg7 arg8 harg8 hc0 hc1 x0 x1).2.2.2.2.1 S256x1024.size (by sl_kernel_rfl) y

/-- What the body leaves in scratch operand 2 (the running accumulator, payload `k0_pay1`): its pieces read back over junk. -/
def sout0_First_2 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) : Vec F S256x1024 .f32 :=
  VS0_2.read (Elt F) (VS0_2.writes (Elt F) VS0_2.junk (kernelRun0_First c i arg2 harg2 arg3 harg3 arg4 harg4 arg5 harg5 arg6 harg6 arg7 harg7 arg8 harg8 hc0 hc1 x0 x1).2.2.2.2.1)

/-! ### Where the second coordinate is neither 0 nor 15 -/

/-- Nothing is stored into output window 2 here (the window is idle and not written back): no pieces — a
    placeholder (junk read back) that nothing consults. -/
def out0_Mid_2 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) : Vec F S256x1024 .f32 :=
  VO0_2.read (Elt F) (VO0_2.writes (Elt F) VO0_2.junk (kernelRun0_Mid c i arg2 harg2 arg3 harg3 arg4 harg4 arg5 harg5 arg6 harg6 arg7 harg7 arg8 harg8 hc0 hc1 x0 x1 xs0 xs1 xs2).1)

/-- The pieces stored into output window 3's staging buffer tile it, so they cover it. -/
theorem cover0_Mid_3 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) (y : S2048x256.Idx) :
    ∃ pc ∈ (kernelRun0_Mid c i arg2 harg2 arg3 harg3 arg4 harg4 arg5 harg5 arg6 harg6 arg7 harg7 arg8 harg8 hc0 hc1 x0 x1 xs0 xs1 xs2).2.1, y ∈ pc.1.set :=
  View.cover_of_tiledL (kernelRun0_Mid c i arg2 harg2 arg3 harg3 arg4 harg4 arg5 harg5 arg6 harg6 arg7 harg7 arg8 harg8 hc0 hc1 x0 x1 xs0 xs1 xs2).2.1 S2048x256.size (by sl_kernel_rfl) y

/-- What the body leaves in output window 3's staging buffer: its pieces read back over junk. -/
def out0_Mid_3 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) : Vec F S2048x256 .bf16 :=
  VO0_3.read (Elt F) (VO0_3.writes (Elt F) VO0_3.junk (kernelRun0_Mid c i arg2 harg2 arg3 harg3 arg4 harg4 arg5 harg5 arg6 harg6 arg7 harg7 arg8 harg8 hc0 hc1 x0 x1 xs0 xs1 xs2).2.1)

/-- The pieces stored into scratch operand 0 (the running maximum, payload `k0_pay13`) tile it, so they cover it. -/
theorem scover0_Mid_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) (y : S1x256.Idx) :
    ∃ pc ∈ (kernelRun0_Mid c i arg2 harg2 arg3 harg3 arg4 harg4 arg5 harg5 arg6 harg6 arg7 harg7 arg8 harg8 hc0 hc1 x0 x1 xs0 xs1 xs2).2.2.1, y ∈ pc.1.set :=
  View.cover_of_tiledL (kernelRun0_Mid c i arg2 harg2 arg3 harg3 arg4 harg4 arg5 harg5 arg6 harg6 arg7 harg7 arg8 harg8 hc0 hc1 x0 x1 xs0 xs1 xs2).2.2.1 S1x256.size (by sl_kernel_rfl) y

/-- What the body leaves in scratch operand 0 (the running maximum, payload `k0_pay13`): its pieces read back over junk. -/
def sout0_Mid_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) : Vec F S1x256 .f32 :=
  VS0_0.read (Elt F) (VS0_0.writes (Elt F) VS0_0.junk (kernelRun0_Mid c i arg2 harg2 arg3 harg3 arg4 harg4 arg5 harg5 arg6 harg6 arg7 harg7 arg8 harg8 hc0 hc1 x0 x1 xs0 xs1 xs2).2.2.1)

/-- The pieces stored into scratch operand 1 (the running sum, payload `k0_pay12`) tile it, so they cover it. -/
theorem scover0_Mid_1 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) (y : S1x256.Idx) :
    ∃ pc ∈ (kernelRun0_Mid c i arg2 harg2 arg3 harg3 arg4 harg4 arg5 harg5 arg6 harg6 arg7 harg7 arg8 harg8 hc0 hc1 x0 x1 xs0 xs1 xs2).2.2.2.1, y ∈ pc.1.set :=
  View.cover_of_tiledL (kernelRun0_Mid c i arg2 harg2 arg3 harg3 arg4 harg4 arg5 harg5 arg6 harg6 arg7 harg7 arg8 harg8 hc0 hc1 x0 x1 xs0 xs1 xs2).2.2.2.1 S1x256.size (by sl_kernel_rfl) y

/-- What the body leaves in scratch operand 1 (the running sum, payload `k0_pay12`): its pieces read back over junk. -/
def sout0_Mid_1 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) : Vec F S1x256 .f32 :=
  VS0_1.read (Elt F) (VS0_1.writes (Elt F) VS0_1.junk (kernelRun0_Mid c i arg2 harg2 arg3 harg3 arg4 harg4 arg5 harg5 arg6 harg6 arg7 harg7 arg8 harg8 hc0 hc1 x0 x1 xs0 xs1 xs2).2.2.2.1)

/-- The pieces stored into scratch operand 2 (the running accumulator, payload `k0_pay1`) tile it, so they cover it. -/
theorem scover0_Mid_2 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) (y : S256x1024.Idx) :
    ∃ pc ∈ (kernelRun0_Mid c i arg2 harg2 arg3 harg3 arg4 harg4 arg5 harg5 arg6 harg6 arg7 harg7 arg8 harg8 hc0 hc1 x0 x1 xs0 xs1 xs2).2.2.2.2.1, y ∈ pc.1.set :=
  View.cover_of_tiledL (kernelRun0_Mid c i arg2 harg2 arg3 harg3 arg4 harg4 arg5 harg5 arg6 harg6 arg7 harg7 arg8 harg8 hc0 hc1 x0 x1 xs0 xs1 xs2).2.2.2.2.1 S256x1024.size (by sl_kernel_rfl) y

/-- What the body leaves in scratch operand 2 (the running accumulator, payload `k0_pay1`): its pieces read back over junk. -/
def sout0_Mid_2 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) : Vec F S256x1024 .f32 :=
  VS0_2.read (Elt F) (VS0_2.writes (Elt F) VS0_2.junk (kernelRun0_Mid c i arg2 harg2 arg3 harg3 arg4 harg4 arg5 harg5 arg6 harg6 arg7 harg7 arg8 harg8 hc0 hc1 x0 x1 xs0 xs1 xs2).2.2.2.2.1)

/-! ### Where the second coordinate is 15 -/

/-- The pieces stored into output window 2's staging buffer tile it, so they cover it. -/
theorem cover0_Last_2 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) (y : S256x1024.Idx) :
    ∃ pc ∈ (kernelRun0_Last c i arg2 harg2 arg3 harg3 arg4 harg4 arg5 harg5 arg6 harg6 arg7 harg7 arg8 harg8 hc0 hc1 x0 x1 xs0 xs1 xs2).1, y ∈ pc.1.set :=
  View.cover_of_tiledL (kernelRun0_Last c i arg2 harg2 arg3 harg3 arg4 harg4 arg5 harg5 arg6 harg6 arg7 harg7 arg8 harg8 hc0 hc1 x0 x1 xs0 xs1 xs2).1 S256x1024.size (by sl_kernel_rfl) y

/-- What the body leaves in output window 2's staging buffer: its pieces read back over junk. -/
def out0_Last_2 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) : Vec F S256x1024 .f32 :=
  VO0_2.read (Elt F) (VO0_2.writes (Elt F) VO0_2.junk (kernelRun0_Last c i arg2 harg2 arg3 harg3 arg4 harg4 arg5 harg5 arg6 harg6 arg7 harg7 arg8 harg8 hc0 hc1 x0 x1 xs0 xs1 xs2).1)

/-- The pieces stored into output window 3's staging buffer tile it, so they cover it. -/
theorem cover0_Last_3 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) (y : S2048x256.Idx) :
    ∃ pc ∈ (kernelRun0_Last c i arg2 harg2 arg3 harg3 arg4 harg4 arg5 harg5 arg6 harg6 arg7 harg7 arg8 harg8 hc0 hc1 x0 x1 xs0 xs1 xs2).2.1, y ∈ pc.1.set :=
  View.cover_of_tiledL (kernelRun0_Last c i arg2 harg2 arg3 harg3 arg4 harg4 arg5 harg5 arg6 harg6 arg7 harg7 arg8 harg8 hc0 hc1 x0 x1 xs0 xs1 xs2).2.1 S2048x256.size (by sl_kernel_rfl) y

/-- What the body leaves in output window 3's staging buffer: its pieces read back over junk. -/
def out0_Last_3 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) : Vec F S2048x256 .bf16 :=
  VO0_3.read (Elt F) (VO0_3.writes (Elt F) VO0_3.junk (kernelRun0_Last c i arg2 harg2 arg3 harg3 arg4 harg4 arg5 harg5 arg6 harg6 arg7 harg7 arg8 harg8 hc0 hc1 x0 x1 xs0 xs1 xs2).2.1)

/-- The pieces stored into scratch operand 0 (the running maximum, payload `k0_pay13`) tile it, so they cover it. -/
theorem scover0_Last_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) (y : S1x256.Idx) :
    ∃ pc ∈ (kernelRun0_Last c i arg2 harg2 arg3 harg3 arg4 harg4 arg5 harg5 arg6 harg6 arg7 harg7 arg8 harg8 hc0 hc1 x0 x1 xs0 xs1 xs2).2.2.1, y ∈ pc.1.set :=
  View.cover_of_tiledL (kernelRun0_Last c i arg2 harg2 arg3 harg3 arg4 harg4 arg5 harg5 arg6 harg6 arg7 harg7 arg8 harg8 hc0 hc1 x0 x1 xs0 xs1 xs2).2.2.1 S1x256.size (by sl_kernel_rfl) y

/-- What the body leaves in scratch operand 0 (the running maximum, payload `k0_pay13`): its pieces read back over junk. -/
def sout0_Last_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) : Vec F S1x256 .f32 :=
  VS0_0.read (Elt F) (VS0_0.writes (Elt F) VS0_0.junk (kernelRun0_Last c i arg2 harg2 arg3 harg3 arg4 harg4 arg5 harg5 arg6 harg6 arg7 harg7 arg8 harg8 hc0 hc1 x0 x1 xs0 xs1 xs2).2.2.1)

/-- The pieces stored into scratch operand 1 (the running sum, payload `k0_pay12`) tile it, so they cover it. -/
theorem scover0_Last_1 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) (y : S1x256.Idx) :
    ∃ pc ∈ (kernelRun0_Last c i arg2 harg2 arg3 harg3 arg4 harg4 arg5 harg5 arg6 harg6 arg7 harg7 arg8 harg8 hc0 hc1 x0 x1 xs0 xs1 xs2).2.2.2.1, y ∈ pc.1.set :=
  View.cover_of_tiledL (kernelRun0_Last c i arg2 harg2 arg3 harg3 arg4 harg4 arg5 harg5 arg6 harg6 arg7 harg7 arg8 harg8 hc0 hc1 x0 x1 xs0 xs1 xs2).2.2.2.1 S1x256.size (by sl_kernel_rfl) y

/-- What the body leaves in scratch operand 1 (the running sum, payload `k0_pay12`): its pieces read back over junk. -/
def sout0_Last_1 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) : Vec F S1x256 .f32 :=
  VS0_1.read (Elt F) (VS0_1.writes (Elt F) VS0_1.junk (kernelRun0_Last c i arg2 harg2 arg3 harg3 arg4 harg4 arg5 harg5 arg6 harg6 arg7 harg7 arg8 harg8 hc0 hc1 x0 x1 xs0 xs1 xs2).2.2.2.1)

/-- The pieces stored into scratch operand 2 (the running accumulator, payload `k0_pay1`) tile it, so they cover it. -/
theorem scover0_Last_2 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) (y : S256x1024.Idx) :
    ∃ pc ∈ (kernelRun0_Last c i arg2 harg2 arg3 harg3 arg4 harg4 arg5 harg5 arg6 harg6 arg7 harg7 arg8 harg8 hc0 hc1 x0 x1 xs0 xs1 xs2).2.2.2.2.1, y ∈ pc.1.set :=
  View.cover_of_tiledL (kernelRun0_Last c i arg2 harg2 arg3 harg3 arg4 harg4 arg5 harg5 arg6 harg6 arg7 harg7 arg8 harg8 hc0 hc1 x0 x1 xs0 xs1 xs2).2.2.2.2.1 S256x1024.size (by sl_kernel_rfl) y

/-- What the body leaves in scratch operand 2 (the running accumulator, payload `k0_pay1`): its pieces read back over junk. -/
def sout0_Last_2 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) : Vec F S256x1024 .f32 :=
  VS0_2.read (Elt F) (VS0_2.writes (Elt F) VS0_2.junk (kernelRun0_Last c i arg2 harg2 arg3 harg3 arg4 harg4 arg5 harg5 arg6 harg6 arg7 harg7 arg8 harg8 hc0 hc1 x0 x1 xs0 xs1 xs2).2.2.2.2.1)

section Regions
-- the TensorCore's buffer contents when the region is entered: a parameter, instantiated by the run of @main
variable (V : (c : Dev nD) → (b : Ref sig .tc) → Buf (Elt F) ((c : Thread nD τ).loc b))

/-! ## What the outputs and the scratch operands hold after each point -/

/-- THE ACCUMULATION. What the two outputs' staging buffers and the three scratch operands hold after the body at
    position `n` (a tuple: output windows 2 and 3, then scratch 0, 1, 2): the case the closed forms select at `n`, run at
    the point's memrefs and input blocks; where the second coordinate is not 0, over what the scratch operands held after
    position `n - 1` (they are the kernel's own and nothing touches them between points). Where the second coordinate is
    0 — position 0 and position 16, where the first coordinate has moved — nothing of the earlier contents is taken.
    Both conditions at once hold at no point (`False.elim`). -/
def outsAt0 (c : Dev nD) : (n : ℕ) → n < cfg0.N → Vec F S256x1024 .f32 × Vec F S2048x256 .bf16 × Vec F S1x256 .f32 × Vec F S1x256 .f32 × Vec F S256x1024 .f32
  | 0, hn =>
    (out0_First_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
      out0_First_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
      sout0_First_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
      sout0_First_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
      sout0_First_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (out0_First_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
      out0_First_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
      sout0_First_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
      sout0_First_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
      sout0_First_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_Last_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
      out0_Last_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
      sout0_Last_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
      sout0_Last_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
      sout0_Last_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2)
      else
        (out0_Mid_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
      out0_Mid_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
      sout0_Mid_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
      sout0_Mid_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
      sout0_Mid_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2)

/-- `outsAt0` at a point whose second coordinate is 0: that case's contents (nothing of the point before). -/
theorem outsAt0_First (c : Dev nD) (t : Fin cfg0.N) (h0 : t.val % 16 = 0) (h1 : ¬t.val % 16 = 15) :
    outsAt0 V c t.val t.isLt = (out0_First_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t),
      out0_First_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t),
      sout0_First_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t),
      sout0_First_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t),
      sout0_First_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point whose second coordinate is neither 0 nor 15: that case's contents, over what the point
    before left in the scratch operands. -/
theorem outsAt0_Mid (c : Dev nD) (t : Fin cfg0.N) (h0 : ¬t.val % 16 = 0) (h1 : ¬t.val % 16 = 15) :
    outsAt0 V c t.val t.isLt = (out0_Mid_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_Mid_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_Mid_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_Mid_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_Mid_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point whose second coordinate is 15: that case's contents, over what the point before left in
    the scratch operands. -/
theorem outsAt0_Last (c : Dev nD) (t : Fin cfg0.N) (h0 : ¬t.val % 16 = 0) (h1 : t.val % 16 = 15) :
    outsAt0 V c t.val t.isLt = (out0_Last_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_Last_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_Last_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_Last_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_Last_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The region invariant before position `n`: before the first point the class's (every scoped buffer that is no
    staging buffer of this region at anything, the generator register at some state); afterwards the same with the
    three scratch operands at what the point before left in them (`outsAt0`'s scratch components). -/
def PhiS (c : Dev nD) : (n : ℕ) → n ≤ cfg0.N → sProp 𝕄
  | 0, _ => Pipeline.ΦA spec0 c
  | n + 1, hn => iprop(iprop(owns (c : Thread nD τ) scM0_0 fullShare (outsAt0 V c n hn).2.2.1 ∗ owns (c : Thread nD τ) scM0_1 fullShare (outsAt0 V c n hn).2.2.2.1 ∗ owns (c : Thread nD τ) scM0_2 fullShare (outsAt0 V c n hn).2.2.2.2 ∗ otherScoped0 c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the scratch operands at that point's contents. -/
theorem PhiS_succ (c : Dev nD) (n : ℕ) (hn : n < cfg0.N) :
    PhiS V c (n + 1) hn = iprop(iprop(owns (c : Thread nD τ) scM0_0 fullShare (outsAt0 V c n hn).2.2.1 ∗ owns (c : Thread nD τ) scM0_1 fullShare (outsAt0 V c n hn).2.2.2.1 ∗ owns (c : Thread nD τ) scM0_2 fullShare (outsAt0 V c n hn).2.2.2.2 ∗ otherScoped0 c) ∗ (∃ r, prngReg c r)) := rfl

/-- Before a point that is not the first: the scratch operands at what the point before left. -/
theorem PhiS_pos (c : Dev nD) (n : ℕ) (h : n ≤ cfg0.N) (hz : n ≠ 0) :
    PhiS V c n h = iprop(iprop(owns (c : Thread nD τ) scM0_0 fullShare (outsAt0 V c (n - 1) (by omega)).2.2.1 ∗ owns (c : Thread nD τ) scM0_1 fullShare (outsAt0 V c (n - 1) (by omega)).2.2.2.1 ∗ owns (c : Thread nD τ) scM0_2 fullShare (outsAt0 V c (n - 1) (by omega)).2.2.2.2 ∗ otherScoped0 c) ∗ (∃ r, prngReg c r)) := by
  cases n with
  | zero => exact absurd rfl hz
  | succ n => rfl

/-! ## The pipeline's proof data -/

/-- The proof data of pipeline 0 on core `c`: the arrays as the region finds them (`V`); after the body at point
    `t` each input's buffer at its block and the outputs' at `outsAt0`'s components; the invariant `PhiS`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in; so
    that case's run applies. The invariant hands the body the three scratch operands at what the point before left
    (at anything at the first point, and the case whose second coordinate is 0 takes them at anything), the other
    scoped buffers and the generator register untouched, and takes the scratch operands back at this point's
    contents (their pieces cover them); output window 2 is handed back as found where it is idle; the core owes
    nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    ·
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [Dat.leavesExact_idle (dat0 V c) 2 t (idleAt0_2 t (fun h => h1 ((hcond0_1 t).mp h))) (noFlush0_2 t (fun h => h1 ((hcond0_1 t).mp h)))]
        rw [show (dat0 V c).leavesExact 3 t = owns (c : Thread nD τ) (ms0_3 t) fullShare ((dat0 V c).after 3 t) from by
          unfold Dat.leavesExact; rw [liveAt0_3 t], after0_3]
        rw [outsAt0_First V c t h0 h1]
        unfold out0_First_3 sout0_First_0 sout0_First_1 sout0_First_2; (try dsimp only)
        by_cases hz : t.val = 0
        · rw [PhiS_castSucc V c t, PhiS_zero V c _ _ hz, PhiA0_eq]
          iintro ⟨⟨⟨HS0, HS1, HS2, Hr⟩, Hg⟩, Ho, ⟨%d0, H0⟩, ⟨%d1, H1⟩, ⟨%d2, H2⟩, ⟨%d3, H3⟩⟩
          iapply ((kernelRun0_First c (grid0.coords t) _ _ _ _ _ _ _ _ _ _ _ _ _ _ ((hcond0_0 t).mpr h0) (fun h => h1 ((hcond0_1 t).mp h)) (iblk0 V c 0 t) (iblk0 V c 1 t)).2.2.2.2.2 _ Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, ⟨%es0, HS0⟩, ⟨%es1, HS1⟩, ⟨%es2, HS2⟩⟩
          isplitl [HS0 HS1 HS2 Hr Hg]
          · isplitr [Hg]
            · isplitl [HS0]
              · unfold owns; iexists _; isplitr
                swap; · iexact HS0
                ipureintro; exact View.read_writes_of_cover _ _ _ _ _ (scover0_First_0 c _ _ _ _ _ _ _ _ _ _ _ _ _ _ _ _ _ _ _)
              isplitl [HS1]
              · unfold owns; iexists _; isplitr
                swap; · iexact HS1
                ipureintro; exact View.read_writes_of_cover _ _ _ _ _ (scover0_First_1 c _ _ _ _ _ _ _ _ _ _ _ _ _ _ _ _ _ _ _)
              isplitl [HS2]
              · unfold owns; iexists _; isplitr
                swap; · iexact HS2
                ipureintro; exact View.read_writes_of_cover _ _ _ _ _ (scover0_First_2 c _ _ _ _ _ _ _ _ _ _ _ _ _ _ _ _ _ _ _)
              iexact Hr
            iexact Hg
          isplitl [Ho]; · iexact Ho
          isplitl [H0]; · iexact H0
          isplitl [H1]; · iexact H1
          isplitl [H2]
          · iexists _; iexact H2
          unfold owns; iexists _; isplitr
          swap; · iexact H3
          ipureintro; exact View.read_writes_of_cover _ _ _ _ _ (cover0_First_3 c _ _ _ _ _ _ _ _ _ _ _ _ _ _ _ _ _ _ _)
        · rw [PhiS_castSucc V c t, PhiS_pos V c _ _ hz]
          iintro ⟨⟨⟨HS0, HS1, HS2, Hr⟩, Hg⟩, Ho, ⟨%d0, H0⟩, ⟨%d1, H1⟩, ⟨%d2, H2⟩, ⟨%d3, H3⟩⟩
          iapply ((kernelRun0_First c (grid0.coords t) _ _ _ _ _ _ _ _ _ _ _ _ _ _ ((hcond0_0 t).mpr h0) (fun h => h1 ((hcond0_1 t).mp h)) (iblk0 V c 0 t) (iblk0 V c 1 t)).2.2.2.2.2 _ Set.univ _)
          isplitl [H0]; · iexact H0
          isplitl [H1]; · iexact H1
          isplitl [H2]; · iexact H2
          isplitl [H3]; · iexists _; iexact H3
          isplitl [HS0]; · iexists _; iexact HS0
          isplitl [HS1]; · iexists _; iexact HS1
          isplitl [HS2]; · iexists _; iexact HS2
          iintro ⟨H0, H1, H2, ⟨%e3, H3⟩, ⟨%es0, HS0⟩, ⟨%es1, HS1⟩, ⟨%es2, HS2⟩⟩
          isplitl [HS0 HS1 HS2 Hr Hg]
          · isplitr [Hg]
            · isplitl [HS0]
              · unfold owns; iexists _; isplitr
                swap; · iexact HS0
                ipureintro; exact View.read_writes_of_cover _ _ _ _ _ (scover0_First_0 c _ _ _ _ _ _ _ _ _ _ _ _ _ _ _ _ _ _ _)
              isplitl [HS1]
              · unfold owns; iexists _; isplitr
                swap; · iexact HS1
                ipureintro; exact View.read_writes_of_cover _ _ _ _ _ (scover0_First_1 c _ _ _ _ _ _ _ _ _ _ _ _ _ _ _ _ _ _ _)
              isplitl [HS2]
              · unfold owns; iexists _; isplitr
                swap; · iexact HS2
                ipureintro; exact View.read_writes_of_cover _ _ _ _ _ (scover0_First_2 c _ _ _ _ _ _ _ _ _ _ _ _ _ _ _ _ _ _ _)
              iexact Hr
            iexact Hg
          isplitl [Ho]; · iexact Ho
          isplitl [H0]; · iexact H0
          isplitl [H1]; · iexact H1
          isplitl [H2]
          · iexists _; iexact H2
          unfold owns; iexists _; isplitr
          swap; · iexact H3
          ipureintro; exact View.read_writes_of_cover _ _ _ _ _ (cover0_First_3 c _ _ _ _ _ _ _ _ _ _ _ _ _ _ _ _ _ _ _)

  · by_cases h1 : t.val % 16 = 15
    ·
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [show (dat0 V c).leavesExact 2 t = owns (c : Thread nD τ) (ms0_2 t) fullShare ((dat0 V c).after 2 t) from by
          unfold Dat.leavesExact; rw [liveAt0_2 t ((hcond0_1 t).mpr h1)], after0_2]
        rw [show (dat0 V c).leavesExact 3 t = owns (c : Thread nD τ) (ms0_3 t) fullShare ((dat0 V c).after 3 t) from by
          unfold Dat.leavesExact; rw [liveAt0_3 t], after0_3]
        rw [outsAt0_Last V c t h0 h1]
        unfold out0_Last_2 out0_Last_3 sout0_Last_0 sout0_Last_1 sout0_Last_2; (try dsimp only)
        by_cases hz : t.val = 0
        · exfalso; omega
        · rw [PhiS_castSucc V c t, PhiS_pos V c _ _ hz]
          iintro ⟨⟨⟨HS0, HS1, HS2, Hr⟩, Hg⟩, Ho, ⟨%d0, H0⟩, ⟨%d1, H1⟩, ⟨%d2, H2⟩, ⟨%d3, H3⟩⟩
          iapply ((kernelRun0_Last c (grid0.coords t) _ _ _ _ _ _ _ _ _ _ _ _ _ _ (fun h => h0 ((hcond0_0 t).mp h)) ((hcond0_1 t).mpr h1) (iblk0 V c 0 t) (iblk0 V c 1 t) _ _ _).2.2.2.2.2 Set.univ _)
          isplitl [H0]; · iexact H0
          isplitl [H1]; · iexact H1
          isplitl [H2]; · iexists _; iexact H2
          isplitl [H3]; · iexists _; iexact H3
          isplitl [HS0]; · iexact HS0
          isplitl [HS1]; · iexact HS1
          isplitl [HS2]; · iexact HS2
          iintro ⟨H0, H1, ⟨%e2, H2⟩, ⟨%e3, H3⟩, ⟨%es0, HS0⟩, ⟨%es1, HS1⟩, ⟨%es2, HS2⟩⟩
          isplitl [HS0 HS1 HS2 Hr Hg]
          · isplitr [Hg]
            · isplitl [HS0]
              · unfold owns; iexists _; isplitr
                swap; · iexact HS0
                ipureintro; exact View.read_writes_of_cover _ _ _ _ _ (scover0_Last_0 c _ _ _ _ _ _ _ _ _ _ _ _ _ _ _ _ _ _ _ _ _ _)
              isplitl [HS1]
              · unfold owns; iexists _; isplitr
                swap; · iexact HS1
                ipureintro; exact View.read_writes_of_cover _ _ _ _ _ (scover0_Last_1 c _ _ _ _ _ _ _ _ _ _ _ _ _ _ _ _ _ _ _ _ _ _)
              isplitl [HS2]
              · unfold owns; iexists _; isplitr
                swap; · iexact HS2
                ipureintro; exact View.read_writes_of_cover _ _ _ _ _ (scover0_Last_2 c _ _ _ _ _ _ _ _ _ _ _ _ _ _ _ _ _ _ _ _ _ _)
              iexact Hr
            iexact Hg
          isplitl [Ho]; · iexact Ho
          isplitl [H0]; · iexact H0
          isplitl [H1]; · iexact H1
          isplitl [H2]
          · unfold owns; iexists _; isplitr
            swap; · iexact H2
            ipureintro; exact View.read_writes_of_cover _ _ _ _ _ (cover0_Last_2 c _ _ _ _ _ _ _ _ _ _ _ _ _ _ _ _ _ _ _ _ _ _)
          unfold owns; iexists _; isplitr
          swap; · iexact H3
          ipureintro; exact View.read_writes_of_cover _ _ _ _ _ (cover0_Last_3 c _ _ _ _ _ _ _ _ _ _ _ _ _ _ _ _ _ _ _ _ _ _)

    ·
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [Dat.leavesExact_idle (dat0 V c) 2 t (idleAt0_2 t (fun h => h1 ((hcond0_1 t).mp h))) (noFlush0_2 t (fun h => h1 ((hcond0_1 t).mp h)))]
        rw [show (dat0 V c).leavesExact 3 t = owns (c : Thread nD τ) (ms0_3 t) fullShare ((dat0 V c).after 3 t) from by
          unfold Dat.leavesExact; rw [liveAt0_3 t], after0_3]
        rw [outsAt0_Mid V c t h0 h1]
        unfold out0_Mid_3 sout0_Mid_0 sout0_Mid_1 sout0_Mid_2; (try dsimp only)
        by_cases hz : t.val = 0
        · exfalso; omega
        · rw [PhiS_castSucc V c t, PhiS_pos V c _ _ hz]
          iintro ⟨⟨⟨HS0, HS1, HS2, Hr⟩, Hg⟩, Ho, ⟨%d0, H0⟩, ⟨%d1, H1⟩, ⟨%d2, H2⟩, ⟨%d3, H3⟩⟩
          iapply ((kernelRun0_Mid c (grid0.coords t) _ _ _ _ _ _ _ _ _ _ _ _ _ _ (fun h => h0 ((hcond0_0 t).mp h)) (fun h => h1 ((hcond0_1 t).mp h)) (iblk0 V c 0 t) (iblk0 V c 1 t) _ _ _).2.2.2.2.2 _ Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, ⟨%es0, HS0⟩, ⟨%es1, HS1⟩, ⟨%es2, HS2⟩⟩
          isplitl [HS0 HS1 HS2 Hr Hg]
          · isplitr [Hg]
            · isplitl [HS0]
              · unfold owns; iexists _; isplitr
                swap; · iexact HS0
                ipureintro; exact View.read_writes_of_cover _ _ _ _ _ (scover0_Mid_0 c _ _ _ _ _ _ _ _ _ _ _ _ _ _ _ _ _ _ _ _ _ _)
              isplitl [HS1]
              · unfold owns; iexists _; isplitr
                swap; · iexact HS1
                ipureintro; exact View.read_writes_of_cover _ _ _ _ _ (scover0_Mid_1 c _ _ _ _ _ _ _ _ _ _ _ _ _ _ _ _ _ _ _ _ _ _)
              isplitl [HS2]
              · unfold owns; iexists _; isplitr
                swap; · iexact HS2
                ipureintro; exact View.read_writes_of_cover _ _ _ _ _ (scover0_Mid_2 c _ _ _ _ _ _ _ _ _ _ _ _ _ _ _ _ _ _ _ _ _ _)
              iexact Hr
            iexact Hg
          isplitl [Ho]; · iexact Ho
          isplitl [H0]; · iexact H0
          isplitl [H1]; · iexact H1
          isplitl [H2]
          · iexists _; iexact H2
          unfold owns; iexists _; isplitr
          swap; · iexact H3
          ipureintro; exact View.read_writes_of_cover _ _ _ _ _ (cover0_Mid_3 c _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class's invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the scratch operands' named contents are
    forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, Hr⟩, Hg⟩
  isplitr [Hg]
  · isplitl [HS0]; · iexists _; iexact HS0
    isplitl [HS1]; · iexists _; iexact HS1
    isplitl [HS2]; · iexists _; iexact HS2
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Regions

end Cert.KernelIdeal.Hand

end
-- ==== Proof.Ideal.FrameMlp.lean ====
/- The class-A half of the second pallas_call (the per-expert three-layer network, `cc1__mlp_kernel`, pipeline 1 of @main), at ANY contents `V` of the TensorCore's buffers when the region is
   entered and at any float model `F`: each window's block at a grid point, what the body leaves in the output
   window's staging buffer as a closed function of the input blocks, the body's triple, the pipeline's proof data and
   its body obligation. -/
import proofs.«181279_j10471130267897_2_alg».proof.Proof.Gen.KernelIdeal.Launch
import proofs.«181279_j10471130267897_2_alg».proof.Proof.Gen.KernelIdeal.Skeleton
import proofs.«181279_j10471130267897_2_alg».proof.Proof.Gen.KernelIdeal.Points
import Idealize.ShloMosaic.Lib.Pipeline.FrameBody
import Idealize.ShloMosaic.Lib.Ring
import Idealize.ShloMosaic.Lib.Tactic

-- membership in a rectangle with axes of a thousand and more coordinates: the structural check recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! # REGION 1 of @main: custom_call 1, `cc1__mlp_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, whether or not the block was
    fetched at that point (where it was not, the block index has not moved since the last fetch), for ANY proof data
    whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds the window's block at every point, whether or not the block was
    fetched at that point (where it was not, the block index has not moved since the last fetch), for ANY proof data
    whose array is `V`'s (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds the window's block at every point, whether or not the block was
    fetched at that point (where it was not, the block index has not moved since the last fetch), for ANY proof data
    whose array is `V`'s (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds the window's block at every point, whether or not the block was
    fetched at that point (where it was not, the block index has not moved since the last fetch), for ANY proof data
    whose array is `V`'s (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds the window's block at every point, whether or not the block was
    fetched at that point (where it was not, the block index has not moved since the last fetch), for ANY proof data
    whose array is `V`'s (`hA`) and whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds the window's block at every point, whether or not the block was
    fetched at that point (where it was not, the block index has not moved since the last fetch), for ANY proof data
    whose array is `V`'s (`hA`) and whose body leaves the block in place (`hafter`). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds the window's block at every point, whether or not the block was
    fetched at that point (where it was not, the block index has not moved since the last fetch), for ANY proof data
    whose array is `V`'s (`hA`) and whose body leaves the block in place (`hafter`). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store go through the whole staging buffer -/

abbrev r1_0 : Rect S8x8x1024 := Rect.unit (s := S8x8x1024) ![0, 0, 0] S8x8x1024.size inb_S8x8x1024_S8x8x1024_0_0_0
abbrev r1_1 : Rect S8x1024x256 := Rect.unit (s := S8x1024x256) ![0, 0, 0] S8x1024x256.size inb_S8x1024x256_S8x1024x256_0_0_0
abbrev r1_2 : Rect S8x256 := Rect.unit (s := S8x256) ![0, 0] S8x256.size inb_S8x256_S8x256_0_0
abbrev r1_3 : Rect S8x256x256 := Rect.unit (s := S8x256x256) ![0, 0, 0] S8x256x256.size inb_S8x256x256_S8x256x256_0_0_0
abbrev r1_4 : Rect S8x256 := Rect.unit (s := S8x256) ![0, 0] S8x256.size inb_S8x256_S8x256_0_0
abbrev r1_5 : Rect S8x256x1024 := Rect.unit (s := S8x256x1024) ![0, 0, 0] S8x256x1024.size inb_S8x256x1024_S8x256x1024_0_0_0
abbrev r1_6 : Rect S8x1024 := Rect.unit (s := S8x1024) ![0, 0] S8x1024.size inb_S8x1024_S8x1024_0_0
abbrev r1_7 : Rect S8x8x1024 := Rect.unit (s := S8x8x1024) ![0, 0, 0] S8x8x1024.size inb_S8x8x1024_S8x8x1024_0_0_0

/-! ## What the body leaves in the output window's buffer -/

/-- Window 7's staging buffer after the body, from the input windows' blocks: the body's one store, whose
    payload is the kernel's value of what its loads read, laid over the whole buffer. -/
def out1_7 (x0 : Vec F S8x8x1024 .f32) (x1 : Vec F S8x1024x256 .f32) (x2 : Vec F S8x256 .f32) (x3 : Vec F S8x256x256 .f32) (x4 : Vec F S8x256 .f32) (x5 : Vec F S8x256x1024 .f32) (x6 : Vec F S8x1024 .f32) : Vec F S8x8x1024 .f32 :=
  View.canon [⟨r1_7, k1_pay1 (View.ld x0 r1_0) (View.ld x1 r1_1) (View.ld x2 r1_2) (View.ld x3 r1_3) (View.ld x4 r1_4) (View.ld x5 r1_5) (View.ld x6 r1_6)⟩]

/-- The store's rectangle is the whole buffer, so it covers it. -/
theorem cover1_7 (p0 : Vec F S8x8x1024 .f32) (y : S8x8x1024.Idx) :
    ∃ pc ∈ ([⟨r1_7, p0⟩] : List (View.Piece (Elt F) S8x8x1024 .f32)), y ∈ pc.1.set :=
  View.cover_of_tiled [⟨r1_7, p0⟩] S8x8x1024.size (by rfl) y

/-! ## The body's triple -/

set_option maxHeartbeats 1000000 in
/-- The kernel body on whole staging memrefs — the inputs' at read contents `xW`, the output's at anything — runs to
    the continuation holding the inputs' as they were and the output's at `out1_7` of the inputs'. The printed
    function is its skeleton of loads and one store; the load of the output buffer that precedes the store reads a value
    nothing uses. -/
theorem sound_kernel1 (c : Dev nD) (E : Set ℕ) (i₀ : grid1.Coords) (arg0 : Memref sig .tc .vmem S8x8x1024 .f32) (harg0 : arg0.IsWhole) (arg1 : Memref sig .tc .vmem S8x1024x256 .f32) (harg1 : arg1.IsWhole) (arg2 : Memref sig .tc .vmem S8x256 .f32) (harg2 : arg2.IsWhole) (arg3 : Memref sig .tc .vmem S8x256x256 .f32) (harg3 : arg3.IsWhole) (arg4 : Memref sig .tc .vmem S8x256 .f32) (harg4 : arg4.IsWhole) (arg5 : Memref sig .tc .vmem S8x256x1024 .f32) (harg5 : arg5.IsWhole) (arg6 : Memref sig .tc .vmem S8x1024 .f32) (harg6 : arg6.IsWhole) (arg7 : Memref sig .tc .vmem S8x8x1024 .f32) (harg7 : arg7.IsWhole)
    (x0 : Vec F S8x8x1024 .f32) (x1 : Vec F S8x1024x256 .f32) (x2 : Vec F S8x256 .f32) (x3 : Vec F S8x256x256 .f32) (x4 : Vec F S8x256 .f32) (x5 : Vec F S8x256x1024 .f32) (x6 : Vec F S8x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__mlp_kernel i₀ arg0 harg0 arg1 harg1 arg2 harg2 arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the pipeline on core `c`: the arrays as the region finds them (`V`); after the body at point
    `t` each input's buffer at its block and the output's at `out1_7` of the input blocks; the invariant the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Ideal.FrameCombine.lean ====
/- The class-A half of the third pallas_call (the softmax-weighted combination, `cc2__combine_kernel`, pipeline 2 of @main), at ANY contents `V` of the TensorCore's buffers when the region is
   entered and at any float model `F`: each window's block at a grid point, what the body leaves in the output
   window's staging buffer as a closed function of the input blocks, the body's triple, the pipeline's proof data and
   its body obligation. -/
import proofs.«181279_j10471130267897_2_alg».proof.Proof.Gen.KernelIdeal.Launch
import proofs.«181279_j10471130267897_2_alg».proof.Proof.Gen.KernelIdeal.Skeleton
import proofs.«181279_j10471130267897_2_alg».proof.Proof.Gen.KernelIdeal.Points
import Idealize.ShloMosaic.Lib.Pipeline.FrameBody
import Idealize.ShloMosaic.Lib.Ring
import Idealize.ShloMosaic.Lib.Tactic

-- membership in a rectangle with axes of a thousand and more coordinates: the structural check recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! # REGION 2 of @main: custom_call 2, `cc2__combine_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, whether or not the block was
    fetched at that point (where it was not, the block index has not moved since the last fetch), for ANY proof data
    whose array is `V`'s (`hA`) and whose body leaves the block in place (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds the window's block at every point, whether or not the block was
    fetched at that point (where it was not, the block index has not moved since the last fetch), for ANY proof data
    whose array is `V`'s (`hA`) and whose body leaves the block in place (`hafter`). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store go through the whole staging buffer -/

abbrev r2_0 : Rect S2048x512 := Rect.unit (s := S2048x512) ![0, 0] S2048x512.size inb_S2048x512_S2048x512_0_0
abbrev r2_1 : Rect S512x1024 := Rect.unit (s := S512x1024) ![0, 0] S512x1024.size inb_S512x1024_S512x1024_0_0
abbrev r2_2 : Rect S2048x1024 := Rect.unit (s := S2048x1024) ![0, 0] S2048x1024.size inb_S2048x1024_S2048x1024_0_0

/-! ## What the body leaves in the output window's buffer -/

/-- Window 2's staging buffer after the body, from the input windows' blocks: the body's one store, whose
    payload is the kernel's value of what its loads read, laid over the whole buffer. -/
def out2_2 (x0 : Vec F S2048x512 .bf16) (x1 : Vec F S512x1024 .f32) : Vec F S2048x1024 .f32 :=
  View.canon [⟨r2_2, k2_pay1 (View.ld x0 r2_0) (View.ld x1 r2_1)⟩]

/-- The store's rectangle is the whole buffer, so it covers it. -/
theorem cover2_2 (p0 : Vec F S2048x1024 .f32) (y : S2048x1024.Idx) :
    ∃ pc ∈ ([⟨r2_2, p0⟩] : List (View.Piece (Elt F) S2048x1024 .f32)), y ∈ pc.1.set :=
  View.cover_of_tiled [⟨r2_2, p0⟩] S2048x1024.size (by rfl) y

/-! ## The body's triple -/

set_option maxHeartbeats 1000000 in
/-- The kernel body on whole staging memrefs — the inputs' at read contents `xW`, the output's at anything — runs to
    the continuation holding the inputs' as they were and the output's at `out2_2` of the inputs'. The printed
    function is its skeleton of loads and one store; the load of the output buffer that precedes the store reads a value
    nothing uses. -/
theorem sound_kernel2 (c : Dev nD) (E : Set ℕ) (i₀ : grid2.Coords) (arg0 : Memref sig .tc .vmem S2048x512 .bf16) (harg0 : arg0.IsWhole) (arg1 : Memref sig .tc .vmem S512x1024 .f32) (harg1 : arg1.IsWhole) (arg2 : Memref sig .tc .vmem S2048x1024 .f32) (harg2 : arg2.IsWhole)
    (x0 : Vec F S2048x512 .bf16) (x1 : Vec F S512x1024 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__combine_kernel i₀ arg0 harg0 arg1 harg1 arg2 harg2) K := by
  simp only [cc2__combine_kernel_eq_skeleton]; unfold cc2__combine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the pipeline on core `c`: the arrays as the region finds them (`V`); after the body at point
    `t` each input's buffer at its block and the output's at `out2_2` of the input blocks; the invariant the
    class's (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Ideal.Instance.lean ====
/-
  This program's run. The three regions' proof data — the streaming-softmax dispatch, which carries three scratch
  buffers between grid points, and the two regions whose bodies are one case — instantiate the run of a three-region
  program; every argument array then ends as launched (the frame, at any instance of the float operations), and the
  result buffer ends at the reshape of what the last region leaves in its output array.
-/
import proofs.«181279_j10471130267897_2_alg».proof.Proof.Ideal.Run
import proofs.«181279_j10471130267897_2_alg».proof.Proof.Ideal.ReadBack
import proofs.«181279_j10471130267897_2_alg».proof.Proof.Ideal.FrameDispatch
import proofs.«181279_j10471130267897_2_alg».proof.Proof.Ideal.FrameMlp
import proofs.«181279_j10471130267897_2_alg».proof.Proof.Ideal.FrameCombine

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

variable (m : (ℓ : Loc nD τ sig) → Buf (Elt F) ℓ)

/-- The three regions of this program, from the launch memory `m`. -/
def theData : Data (F := F) := ⟨fun V c => dat0 V c, fun V c => dat1 V c, fun V c => dat2 V c, m⟩

/-- They meet what the run asks. For regions 1 and 2 the invariant IS "the scratch at anything"; region 0's
    is reached from it before the first point and gives it back after the last. -/
theorem theFacts : (theData m).Facts where
  A_eq0 := fun V c w => A_eq0 V c w
  hq0 := fun _ _ _ => rfl
  howed0 := fun _ _ _ => rfl
  hrec0 := fun _ _ _ => rfl
  hbody0 := fun V c => body_obligation0 V c
  hin0 := fun V c => hin0 V c
  hout0 := fun V c => hout0 V c
  A_eq1 := fun V c w => A_eq1 V c w
  hq1 := fun _ _ _ => rfl
  howed1 := fun _ _ _ => rfl
  hrec1 := fun _ _ _ => rfl
  hbody1 := fun V c => body_obligation1 V c
  hin1 := fun V c => .rfl
  hout1 := fun V c => .rfl
  A_eq2 := fun V c w => A_eq2 V c w
  hq2 := fun _ _ _ => rfl
  howed2 := fun _ _ _ => rfl
  hrec2 := fun _ _ _ => rfl
  hbody2 := fun V c => body_obligation2 V c
  hin2 := fun V c => .rfl
  hout2 := fun V c => .rfl

/-- The run with the result named: every weakly fair execution of @main terminates, nothing faulting; the result
    buffer ends at the reshape of region 2's output array, and every argument array ends as launched. -/
theorem run_named (ρ : Dev nD → PrngReg) : θ_run defs (onTc (τ := τ) (main (F := F))) ⟨m, fun _ => 0, ρ⟩ (fun r => ∀ c : Dev nD,
      r.2.mem ((c.tc : Thread nD τ).loc main_v6) = W7 (theData m) c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v6 (by decide)),
     (h c _ (mem_uc main_arg0 (by decide))).trans (W7_main_arg0 (theData m) (theFacts m) c),
     (h c _ (mem_uc main_arg1 (by decide))).trans (W7_main_arg1 (theData m) (theFacts m) c),
     (h c _ (mem_uc main_arg2 (by decide))).trans (W7_main_arg2 (theData m) (theFacts m) c),
     (h c _ (mem_uc main_arg3 (by decide))).trans (W7_main_arg3 (theData m) (theFacts m) c),
     (h c _ (mem_uc main_arg4 (by decide))).trans (W7_main_arg4 (theData m) (theFacts m) c),
     (h c _ (mem_uc main_arg5 (by decide))).trans (W7_main_arg5 (theData m) (theFacts m) c),
     (h c _ (mem_uc main_arg6 (by decide))).trans (W7_main_arg6 (theData m) (theFacts m) c),
     (h c _ (mem_uc main_arg7 (by decide))).trans (W7_main_arg7 (theData m) (theFacts m) c)⟩)
    (run (theData m) (theFacts m) ρ)

/-- THE FRAME, at any instance of the float operations: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run_named m ρ)

end Cert.KernelIdeal.Hand

end
-- ==== Proof.Ideal.Spec.lean ====
/-
  The soft mixture-of-experts layer as plain mathematics on the extended reals, stage by stage, over the literal
  shapes: 32768 = 8 * 4096 tokens of 1024 features, 512 = 64 * 8 slots (64 experts with 8 slots each), hidden
  width 256.

    logits      mat(t,s)  = sum over d < 1024 of X(t,d) * M(d,s)
    dispatch    xhat(s,d) = sum over t of (exp(mat(t,s) - colMax s) / colDen s) * X(t,d)      (softmax over the tokens)
    experts     per expert n, slot p: relu(relu(xs W1 + b1) W2 + b2) W3 + b3                  (relu = max with 0)
    combine     y(t,d)    = sum over s of (exp(mat(t,s) - rowMax t) / rowDen t) * yhat(s,d)   (softmax over the slots)

  with the row-major regroupings [8,4096,1024] <-> [32768,1024] (row 4096 b + t is token t of batch b) and
  [512,1024] <-> [64,8,1024] (row 8 n + p is slot p of expert n). The quotient is the extended reals' division
  (x * y⁻¹ off zero), the exponential the extended reals' (exp of -inf is 0), a maximum over an axis the supremum.
-/
import Idealize.ShloMosaic.PureOps.Ideal
import Idealize.ShloMosaic.Lib.ValueIdx

noncomputable section

open scoped BigOperators

namespace Cert.Hand.Spec

open Idealize.ShloMosaic Idealize.ShloMosaic.ValueIdx

/-! ## The regroupings -/

/-- The tokens [8,4096,1024] as a matrix [32768,1024]: row r is token r % 4096 of batch r / 4096. -/
def flat (tok : (⟨3, ![8, 4096, 1024]⟩ : Shape).Idx → EReal) : (⟨2, ![32768, 1024]⟩ : Shape).Idx → EReal :=
  fun i => tok (ix3 (⟨(i 0).val / 4096, by have := idx2_lt0 i; omega⟩ : Fin 8)
    (⟨(i 0).val % 4096, Nat.mod_lt _ (by decide)⟩ : Fin 4096) (⟨(i 1).val, idx2_lt1 i⟩ : Fin 1024))

/-- A matrix [32768,1024] regrouped to [8,4096,1024]: entry (b,t,d) is row 4096 b + t. -/
def unflat (y : (⟨2, ![32768, 1024]⟩ : Shape).Idx → EReal) : (⟨3, ![8, 4096, 1024]⟩ : Shape).Idx → EReal :=
  fun i => y (ix2 (⟨(i 0).val * 4096 + (i 1).val, by
    have h0 : (i 0).val < 8 := (i 0).isLt
    have h1 : (i 1).val < 4096 := (i 1).isLt
    omega⟩ : Fin 32768) (⟨(i 2).val, (i 2).isLt⟩ : Fin 1024))

/-- The slot rows [512,1024] grouped by expert, [64,8,1024]: entry (n,p,d) is row 8 n + p. -/
def split (x : (⟨2, ![512, 1024]⟩ : Shape).Idx → EReal) : (⟨3, ![64, 8, 1024]⟩ : Shape).Idx → EReal :=
  fun i => x (ix2 (⟨(i 0).val * 8 + (i 1).val, by
    have h0 : (i 0).val < 64 := (i 0).isLt
    have h1 : (i 1).val < 8 := (i 1).isLt
    omega⟩ : Fin 512) (⟨(i 2).val, (i 2).isLt⟩ : Fin 1024))

/-- The experts' outputs [64,8,1024] as slot rows [512,1024]: row r is slot r % 8 of expert r / 8. -/
def merge (y : (⟨3, ![64, 8, 1024]⟩ : Shape).Idx → EReal) : (⟨2, ![512, 1024]⟩ : Shape).Idx → EReal :=
  fun i => y (ix3 (⟨(i 0).val / 8, by have := idx2_lt0 i; omega⟩ : Fin 64)
    (⟨(i 0).val % 8, Nat.mod_lt _ (by decide)⟩ : Fin 8) (⟨(i 1).val, idx2_lt1 i⟩ : Fin 1024))

/-! ## The logits -/

/-- mat(t,s) = sum over d of X(t,d) * M(d,s). -/
def mat (X : (⟨2, ![32768, 1024]⟩ : Shape).Idx → EReal) (M : (⟨2, ![1024, 512]⟩ : Shape).Idx → EReal) :
    (⟨2, ![32768, 512]⟩ : Shape).Idx → EReal :=
  fun i => ∑ d : Fin 1024, X (ix2 (⟨(i 0).val, idx2_lt0 i⟩ : Fin 32768) d) * M (ix2 d (⟨(i 1).val, idx2_lt1 i⟩ : Fin 512))

/-! ## Dispatch: the softmax over the tokens (down each column of the logits), then its transpose times the tokens -/

/-- The largest logit of slot s over all tokens. -/
def colMax (mt : (⟨2, ![32768, 512]⟩ : Shape).Idx → EReal) (s : Fin 512) : EReal := ⨆ t : Fin 32768, mt (ix2 t s)

/-- The softmax denominator of slot s: sum over the tokens of exp(mat(t,s) - colMax s). -/
def colDen (mt : (⟨2, ![32768, 512]⟩ : Shape).Idx → EReal) (s : Fin 512) : EReal :=
  ∑ t : Fin 32768, Ideal.exp (mt (ix2 t s) - colMax mt s)

/-- The dispatch weight of token t for slot s: exp(mat(t,s) - colMax s) / colDen s. -/
def dispatchW (mt : (⟨2, ![32768, 512]⟩ : Shape).Idx → EReal) (t : Fin 32768) (s : Fin 512) : EReal :=
  Ideal.div (Ideal.exp (mt (ix2 t s) - colMax mt s)) (colDen mt s)

/-- The slot inputs from the logits mt and the tokens X: xhat(s,d) = sum over t of dispatchW(t,s) * X(t,d). -/
def dispatch (mt : (⟨2, ![32768, 512]⟩ : Shape).Idx → EReal) (X : (⟨2, ![32768, 1024]⟩ : Shape).Idx → EReal) :
    (⟨2, ![512, 1024]⟩ : Shape).Idx → EReal :=
  fun i => ∑ t : Fin 32768, dispatchW mt t (⟨(i 0).val, idx2_lt0 i⟩ : Fin 512) * X (ix2 t (⟨(i 1).val, idx2_lt1 i⟩ : Fin 1024))

/-- xhat = the dispatch with the logits of X and M themselves. -/
def xhat (X : (⟨2, ![32768, 1024]⟩ : Shape).Idx → EReal) (M : (⟨2, ![1024, 512]⟩ : Shape).Idx → EReal) :
    (⟨2, ![512, 1024]⟩ : Shape).Idx → EReal := dispatch (mat X M) X

/-! ## The experts: three dense layers per expert, relu after the first two -/

/-- First layer: relu(sum over d of xs(n,p,d) * W1(n,d,h) + b1(n,h)). -/
def hid1 (xs : (⟨3, ![64, 8, 1024]⟩ : Shape).Idx → EReal) (W1 : (⟨3, ![64, 1024, 256]⟩ : Shape).Idx → EReal)
    (b1 : (⟨2, ![64, 256]⟩ : Shape).Idx → EReal) : (⟨3, ![64, 8, 256]⟩ : Shape).Idx → EReal :=
  fun i => max ((∑ d : Fin 1024, xs (ix3 (⟨(i 0).val, (i 0).isLt⟩ : Fin 64) (⟨(i 1).val, (i 1).isLt⟩ : Fin 8) d)
      * W1 (ix3 (⟨(i 0).val, (i 0).isLt⟩ : Fin 64) d (⟨(i 2).val, (i 2).isLt⟩ : Fin 256)))
    + b1 (ix2 (⟨(i 0).val, (i 0).isLt⟩ : Fin 64) (⟨(i 2).val, (i 2).isLt⟩ : Fin 256))) 0

/-- Second layer: relu(sum over h of h1(n,p,h) * W2(n,h,k) + b2(n,k)). -/
def hid2 (h1 : (⟨3, ![64, 8, 256]⟩ : Shape).Idx → EReal) (W2 : (⟨3, ![64, 256, 256]⟩ : Shape).Idx → EReal)
    (b2 : (⟨2, ![64, 256]⟩ : Shape).Idx → EReal) : (⟨3, ![64, 8, 256]⟩ : Shape).Idx → EReal :=
  fun i => max ((∑ h : Fin 256, h1 (ix3 (⟨(i 0).val, (i 0).isLt⟩ : Fin 64) (⟨(i 1).val, (i 1).isLt⟩ : Fin 8) h)
      * W2 (ix3 (⟨(i 0).val, (i 0).isLt⟩ : Fin 64) h (⟨(i 2).val, (i 2).isLt⟩ : Fin 256)))
    + b2 (ix2 (⟨(i 0).val, (i 0).isLt⟩ : Fin 64) (⟨(i 2).val, (i 2).isLt⟩ : Fin 256))) 0

/-- Third layer: sum over k of h2(n,p,k) * W3(n,k,d) + b3(n,d). -/
def out3 (h2 : (⟨3, ![64, 8, 256]⟩ : Shape).Idx → EReal) (W3 : (⟨3, ![64, 256, 1024]⟩ : Shape).Idx → EReal)
    (b3 : (⟨2, ![64, 1024]⟩ : Shape).Idx → EReal) : (⟨3, ![64, 8, 1024]⟩ : Shape).Idx → EReal :=
  fun i => (∑ k : Fin 256, h2 (ix3 (⟨(i 0).val, (i 0).isLt⟩ : Fin 64) (⟨(i 1).val, (i 1).isLt⟩ : Fin 8) k)
      * W3 (ix3 (⟨(i 0).val, (i 0).isLt⟩ : Fin 64) k (⟨(i 2).val, (i 2).isLt⟩ : Fin 1024)))
    + b3 (ix2 (⟨(i 0).val, (i 0).isLt⟩ : Fin 64) (⟨(i 2).val, (i 2).isLt⟩ : Fin 1024))

/-- The experts' three layers in a row. -/
def mlp (xs : (⟨3, ![64, 8, 1024]⟩ : Shape).Idx → EReal)
    (W1 : (⟨3, ![64, 1024, 256]⟩ : Shape).Idx → EReal) (b1 : (⟨2, ![64, 256]⟩ : Shape).Idx → EReal)
    (W2 : (⟨3, ![64, 256, 256]⟩ : Shape).Idx → EReal) (b2 : (⟨2, ![64, 256]⟩ : Shape).Idx → EReal)
    (W3 : (⟨3, ![64, 256, 1024]⟩ : Shape).Idx → EReal) (b3 : (⟨2, ![64, 1024]⟩ : Shape).Idx → EReal) :
    (⟨3, ![64, 8, 1024]⟩ : Shape).Idx → EReal :=
  out3 (hid2 (hid1 xs W1 b1) W2 b2) W3 b3

/-! ## Combine: the softmax over the slots (along each row of the logits), then times the experts' outputs -/

/-- The largest logit of token t over all slots. -/
def rowMax (mt : (⟨2, ![32768, 512]⟩ : Shape).Idx → EReal) (t : Fin 32768) : EReal := ⨆ s : Fin 512, mt (ix2 t s)

/-- The softmax denominator of token t: sum over the slots of exp(mat(t,s) - rowMax t). -/
def rowDen (mt : (⟨2, ![32768, 512]⟩ : Shape).Idx → EReal) (t : Fin 32768) : EReal :=
  ∑ s : Fin 512, Ideal.exp (mt (ix2 t s) - rowMax mt t)

/-- The combine weight of slot s for token t: exp(mat(t,s) - rowMax t) / rowDen t. -/
def combineW (mt : (⟨2, ![32768, 512]⟩ : Shape).Idx → EReal) (t : Fin 32768) (s : Fin 512) : EReal :=
  Ideal.div (Ideal.exp (mt (ix2 t s) - rowMax mt t)) (rowDen mt t)

/-- The tokens' outputs from the logits mt and the slot outputs yh: y(t,d) = sum over s of combineW(t,s) * yh(s,d). -/
def comb (mt : (⟨2, ![32768, 512]⟩ : Shape).Idx → EReal) (yh : (⟨2, ![512, 1024]⟩ : Shape).Idx → EReal) :
    (⟨2, ![32768, 1024]⟩ : Shape).Idx → EReal :=
  fun i => ∑ s : Fin 512, combineW mt (⟨(i 0).val, idx2_lt0 i⟩ : Fin 32768) s * yh (ix2 s (⟨(i 1).val, idx2_lt1 i⟩ : Fin 1024))

/-! ## The whole layer -/

/-- The result [8,4096,1024] of the eight argument arrays. -/
def result (tok : (⟨3, ![8, 4096, 1024]⟩ : Shape).Idx → EReal) (M : (⟨2, ![1024, 512]⟩ : Shape).Idx → EReal)
    (W1 : (⟨3, ![64, 1024, 256]⟩ : Shape).Idx → EReal) (b1 : (⟨2, ![64, 256]⟩ : Shape).Idx → EReal)
    (W2 : (⟨3, ![64, 256, 256]⟩ : Shape).Idx → EReal) (b2 : (⟨2, ![64, 256]⟩ : Shape).Idx → EReal)
    (W3 : (⟨3, ![64, 256, 1024]⟩ : Shape).Idx → EReal) (b3 : (⟨2, ![64, 1024]⟩ : Shape).Idx → EReal) :
    (⟨3, ![8, 4096, 1024]⟩ : Shape).Idx → EReal :=
  unflat (comb (mat (flat tok) M) (merge (mlp (split (xhat (flat tok) M)) W1 b1 W2 b2 W3 b3)))

/-! ## Each stage read at an index given by its coordinates (all by unfolding) -/

theorem flat_apply (tok : (⟨3, ![8, 4096, 1024]⟩ : Shape).Idx → EReal) (b : Fin 8) (t : Fin 4096) (d : Fin 1024) :
    flat tok (ix2 (⟨b.val * 4096 + t.val, by omega⟩ : Fin 32768) d) = tok (ix3 b t d) := by
  unfold flat
  congr 1
  funext a
  match a with
  | ⟨0, _⟩ => exact Fin.ext (by show (b.val * 4096 + t.val) / 4096 = b.val; omega)
  | ⟨1, _⟩ => exact Fin.ext (by show (b.val * 4096 + t.val) % 4096 = t.val; omega)
  | ⟨2, _⟩ => rfl

theorem unflat_apply (y : (⟨2, ![32768, 1024]⟩ : Shape).Idx → EReal) (b : Fin 8) (t : Fin 4096) (d : Fin 1024) :
    unflat y (ix3 b t d) = y (ix2 (⟨b.val * 4096 + t.val, by omega⟩ : Fin 32768) d) := rfl

theorem split_apply (x : (⟨2, ![512, 1024]⟩ : Shape).Idx → EReal) (n : Fin 64) (p : Fin 8) (d : Fin 1024) :
    split x (ix3 n p d) = x (ix2 (⟨n.val * 8 + p.val, by omega⟩ : Fin 512) d) := rfl

theorem merge_apply (y : (⟨3, ![64, 8, 1024]⟩ : Shape).Idx → EReal) (n : Fin 64) (p : Fin 8) (d : Fin 1024) :
    merge y (ix2 (⟨n.val * 8 + p.val, by omega⟩ : Fin 512) d) = y (ix3 n p d) := by
  unfold merge
  congr 1
  funext a
  match a with
  | ⟨0, _⟩ => exact Fin.ext (by show (n.val * 8 + p.val) / 8 = n.val; omega)
  | ⟨1, _⟩ => exact Fin.ext (by show (n.val * 8 + p.val) % 8 = p.val; omega)
  | ⟨2, _⟩ => rfl

theorem mat_apply (X : (⟨2, ![32768, 1024]⟩ : Shape).Idx → EReal) (M : (⟨2, ![1024, 512]⟩ : Shape).Idx → EReal)
    (t : Fin 32768) (s : Fin 512) : mat X M (ix2 t s) = ∑ d : Fin 1024, X (ix2 t d) * M (ix2 d s) := rfl

theorem dispatch_apply (mt : (⟨2, ![32768, 512]⟩ : Shape).Idx → EReal) (X : (⟨2, ![32768, 1024]⟩ : Shape).Idx → EReal)
    (s : Fin 512) (d : Fin 1024) : dispatch mt X (ix2 s d) = ∑ t : Fin 32768, dispatchW mt t s * X (ix2 t d) := rfl

theorem xhat_apply (X : (⟨2, ![32768, 1024]⟩ : Shape).Idx → EReal) (M : (⟨2, ![1024, 512]⟩ : Shape).Idx → EReal)
    (s : Fin 512) (d : Fin 1024) : xhat X M (ix2 s d) = ∑ t : Fin 32768, dispatchW (mat X M) t s * X (ix2 t d) := rfl

theorem hid1_apply (xs : (⟨3, ![64, 8, 1024]⟩ : Shape).Idx → EReal) (W1 : (⟨3, ![64, 1024, 256]⟩ : Shape).Idx → EReal)
    (b1 : (⟨2, ![64, 256]⟩ : Shape).Idx → EReal) (n : Fin 64) (p : Fin 8) (h : Fin 256) :
    hid1 xs W1 b1 (ix3 n p h) = max ((∑ d : Fin 1024, xs (ix3 n p d) * W1 (ix3 n d h)) + b1 (ix2 n h)) 0 := rfl

theorem hid2_apply (h1 : (⟨3, ![64, 8, 256]⟩ : Shape).Idx → EReal) (W2 : (⟨3, ![64, 256, 256]⟩ : Shape).Idx → EReal)
    (b2 : (⟨2, ![64, 256]⟩ : Shape).Idx → EReal) (n : Fin 64) (p : Fin 8) (k : Fin 256) :
    hid2 h1 W2 b2 (ix3 n p k) = max ((∑ h : Fin 256, h1 (ix3 n p h) * W2 (ix3 n h k)) + b2 (ix2 n k)) 0 := rfl

theorem out3_apply (h2 : (⟨3, ![64, 8, 256]⟩ : Shape).Idx → EReal) (W3 : (⟨3, ![64, 256, 1024]⟩ : Shape).Idx → EReal)
    (b3 : (⟨2, ![64, 1024]⟩ : Shape).Idx → EReal) (n : Fin 64) (p : Fin 8) (d : Fin 1024) :
    out3 h2 W3 b3 (ix3 n p d) = (∑ k : Fin 256, h2 (ix3 n p k) * W3 (ix3 n k d)) + b3 (ix2 n d) := rfl

theorem comb_apply (mt : (⟨2, ![32768, 512]⟩ : Shape).Idx → EReal) (yh : (⟨2, ![512, 1024]⟩ : Shape).Idx → EReal)
    (t : Fin 32768) (d : Fin 1024) : comb mt yh (ix2 t d) = ∑ s : Fin 512, combineW mt t s * yh (ix2 s d) := rfl

end Cert.Hand.Spec

end
-- ==== Proof.LibMaxReduce.lean ====
/-
  Maxima at the extended reals, for any shapes.

  A float maximum-reduction over ONE axis started from -inf (the word 0xFF800000), read at a reduced index, is the
  supremum over that axis's coordinates of the operand at the index with the coordinate put back. It rests on two
  small facts: the word 0xFF800000 denotes -inf, the least extended real, and a fold of max started from the least
  element over a whole finite range is the supremum over the range.
-/
import Idealize.ShloMosaic.PureOps.Ideal.Laws
import Idealize.ShloMosaic.PureOps.Reduce

noncomputable section

open scoped BigOperators

namespace Cert.Lib.MaxReduce

open Idealize.ShloMosaic

/-- The f32 word 0xFF800000 denotes -inf. -/
theorem ofBits_neg_inf_f32 : Ideal.ofBits .f32 0xFF800000#32 = (⊥ : EReal) := by
  simp [Ideal.ofBits, Ideal.ieee]

/-- A fold of max started from -inf over all of a finite index range is the supremum over the range. -/
theorem fold_max_bot_eq_iSup {K : Nat} (f : Fin K → EReal) :
    (Finset.univ : Finset (Fin K)).fold max (⊥ : EReal) f = ⨆ k, f k := by
  rw [← Finset.sup_univ_eq_iSup]
  rfl

/-- The host's one-operand reduce with a maximum body over one axis, its initial value the -inf constant, at reduced
    index j: the supremum over that axis's coordinates k of the operand at j with k put back (`h'` is the host's
    shape fact, `h` the lane form of the same fact, which names the index with the coordinate put back). -/
theorem hostMaxReduce_single {s t u : Shape} {a : Fin s.rank} (x : FVec Ideal s .f32) (h' : s.ReducesTo [a] t)
    (h : s.Reduces [a] t) (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu]
  show (Finset.univ : Finset (Fin (s.size a))).fold max (Ideal.ofBits .f32 0xFF800000#32) (fun k => x (h.lift j k)) = _
  rw [ofBits_neg_inf_f32]
  exact fold_max_bot_eq_iSup _

end Cert.Lib.MaxReduce

end
-- ==== Proof.Ideal.RefIsSpec.lean ====
/-
  The reference program computes the soft mixture-of-experts layer of Spec.lean: each of its operations, read at an
  index, is the corresponding stage of the specification.

  Logits: the flattened tokens times the mixture matrix. The softmax over the tokens (down a column): the column
  maximum is a maximum-reduction started from -inf, then max with -inf again; the exponentials of the differences;
  their sum started from 0; the quotient; transposed and multiplied with the tokens this is the dispatch. The experts:
  three batched products with a bias added, a maximum with 0 after the first two. The softmax over the slots (along a
  row) likewise, and the product with the experts' outputs regrouped to rows is the combine.
-/
import proofs.«181279_j10471130267897_2_alg».proof.Proof.Gen.ReferenceIdeal.Read
import proofs.«181279_j10471130267897_2_alg».proof.Proof.Ideal.Spec
import proofs.«181279_j10471130267897_2_alg».proof.Proof.LibMaxReduce

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Hand

variable (x0 : (⟨S8x4096x1024, .f32⟩ : BufTy).Contents (Elt Ideal)) (x1 : (⟨S1024x512, .f32⟩ : BufTy).Contents (Elt Ideal))
  (x2 : (⟨S64x1024x256, .f32⟩ : BufTy).Contents (Elt Ideal)) (x3 : (⟨S64x256, .f32⟩ : BufTy).Contents (Elt Ideal))
  (x4 : (⟨S64x256x256, .f32⟩ : BufTy).Contents (Elt Ideal)) (x5 : (⟨S64x256, .f32⟩ : BufTy).Contents (Elt Ideal))
  (x6 : (⟨S64x256x1024, .f32⟩ : BufTy).Contents (Elt Ideal)) (x7 : (⟨S64x1024, .f32⟩ : BufTy).Contents (Elt Ideal))

/-! ## The logits -/

/-- The reshape of the tokens is the row-major flattening. -/
theorem v0_eq : val_main_v0 (F := Ideal) x0 = Spec.flat x0 := by
  funext i
  rw [val_main_v0_apply]
  unfold Spec.flat
  refine congrArg x0 (funext fun a => Fin.ext ?_)
  have h0 : (i 0).val < 32768 := (i 0).isLt
  have h1 : (i 1).val < 1024 := (i 1).isLt
  match a with
  | ⟨0, _⟩ => show ((i 0).val * 1024 + (i 1).val) / 4194304 = (i 0).val / 4096; omega
  | ⟨1, _⟩ => show ((i 0).val * 1024 + (i 1).val) / 1024 % 4096 = (i 0).val % 4096; omega
  | ⟨2, _⟩ => show ((i 0).val * 1024 + (i 1).val) % 1024 = (i 1).val; omega

/-- The first product is the logits. -/
theorem v1_eq : val_main_v1 (F := Ideal) x0 x1 = Spec.mat (Spec.flat x0) x1 := by
  funext i
  rw [val_main_v1_apply, v0_eq]
  unfold Spec.mat
  refine Finset.sum_congr rfl fun k _ => ?_
  have el : lidx_main_v1 i k = ix2 (⟨(i 0).val, idx2_lt0 i⟩ : Fin 32768) k :=
    funext fun a => Fin.ext (by match a with | ⟨0, _⟩ => rfl | ⟨1, _⟩ => rfl)
  have er : ridx_main_v1 i k = ix2 k (⟨(i 1).val, idx2_lt1 i⟩ : Fin 512) :=
    funext fun a => Fin.ext (by match a with | ⟨0, _⟩ => rfl | ⟨1, _⟩ => rfl)
  rw [el, er]

/-! ## The softmax over the tokens and the dispatch -/

/-- The column maximum: the maximum-reduction over the token axis from -inf, then max with -inf. -/
theorem v4_apply (s : Fin 512) :
    val_main_v4 (F := Ideal) x0 x1 (ix1 s) = Spec.colMax (Spec.mat (Spec.flat x0) x1) s := by
  rw [val_main_v4_apply, val_main_v3_apply, val_main_cst_0_apply]
  unfold val_main_v2 val_main_cst
  rw [Cert.Lib.MaxReduce.hostMaxReduce_single _ reducesTo_S32768x512_S512_d0 (by decide) h_S_, v1_eq,
    Ideal.maximumf_def, Ideal.ofBits_def, Cert.Lib.MaxReduce.ofBits_neg_inf_f32, max_eq_right bot_le]
  unfold Spec.colMax
  refine iSup_congr fun t => congrArg _ (funext fun a => Fin.ext ?_)
  match a with
  | ⟨0, _⟩ => rfl
  | ⟨1, _⟩ => rfl

/-- The exponential of a logit less its column's maximum. -/
theorem v8_apply (t : Fin 32768) (s : Fin 512) :
    val_main_v8 (F := Ideal) x0 x1 (ix2 t s)
      = Ideal.exp (Spec.mat (Spec.flat x0) x1 (ix2 t s) - Spec.colMax (Spec.mat (Spec.flat x0) x1) s) := by
  have e : idx_main_v5 (idx_main_v6 (ix2 t s)) = ix1 s := funext fun a => Fin.ext (by match a with | ⟨0, _⟩ => rfl)
  rw [val_main_v8_apply, val_main_v7_apply, val_main_v6_apply, val_main_v5_apply, e, v4_apply, v1_eq,
    Ideal.hostUnary_exp_def, Ideal.subf_def]

/-- The column's softmax denominator: the sum from 0 of those exponentials over the tokens. -/
theorem v9_apply (s : Fin 512) :
    val_main_v9 (F := Ideal) x0 x1 (ix1 s) = Spec.colDen (Spec.mat (Spec.flat x0) x1) s := by
  rw [val_main_v9_apply, val_main_cst_1_apply, Ideal.ofBits_def, Ideal.ofBits_zero_f32, zero_add]
  unfold Spec.colDen
  refine Finset.sum_congr rfl fun t _ => ?_
  have e : idx_main_v9 (ix1 s) t = ix2 t s := funext fun a => Fin.ext (by match a with | ⟨0, _⟩ => rfl | ⟨1, _⟩ => rfl)
  rw [e, v8_apply]

/-- The softmax over the tokens at (t, s) is the dispatch weight. -/
theorem v12_apply (t : Fin 32768) (s : Fin 512) :
    val_main_v12 (F := Ideal) x0 x1 (ix2 t s) = Spec.dispatchW (Spec.mat (Spec.flat x0) x1) t s := by
  have e : idx_main_v10 (idx_main_v11 (ix2 t s)) = ix1 s := funext fun a => Fin.ext (by match a with | ⟨0, _⟩ => rfl)
  rw [val_main_v12_apply, val_main_v11_apply, val_main_v10_apply, e, v9_apply, v8_apply, Ideal.hostDivf_def]
  rfl

/-- Its transpose times the tokens is the dispatch. -/
theorem v25_eq : val_main_v25 (F := Ideal) x0 x1 = Spec.xhat (Spec.flat x0) x1 := by
  funext i
  obtain ⟨s, d, rfl⟩ : ∃ (s : Fin 512) (d : Fin 1024), i = ix2 s d := ⟨i 0, i 1, eq_ix2 i⟩
  rw [val_main_v25_apply, Spec.xhat_apply, v0_eq]
  refine Finset.sum_congr rfl fun t _ => ?_
  have e1 : idx_main_v24 (lidx_main_v25 (ix2 s d) t) = ix2 t s :=
    funext fun a => Fin.ext (by match a with | ⟨0, _⟩ => rfl | ⟨1, _⟩ => rfl)
  have e2 : ridx_main_v25 (ix2 s d) t = ix2 t d :=
    funext fun a => Fin.ext (by match a with | ⟨0, _⟩ => rfl | ⟨1, _⟩ => rfl)
  rw [val_main_v24_apply, e1, e2, v12_apply]

/-! ## The experts -/

/-- The reshape of the slot rows groups them by expert. -/
theorem v26_eq : val_main_v26 (F := Ideal) x0 x1 = Spec.split (Spec.xhat (Spec.flat x0) x1) := by
  funext i
  rw [val_main_v26_apply, v25_eq]
  unfold Spec.split
  refine congrArg _ (funext fun a => Fin.ext ?_)
  have h0 : (i 0).val < 64 := (i 0).isLt
  have h1 : (i 1).val < 8 := (i 1).isLt
  have h2 : (i 2).val < 1024 := (i 2).isLt
  match a with
  | ⟨0, _⟩ => show (((i 0).val * 8 + (i 1).val) * 1024 + (i 2).val) / 1024 = (i 0).val * 8 + (i 1).val; omega
  | ⟨1, _⟩ => show (((i 0).val * 8 + (i 1).val) * 1024 + (i 2).val) % 1024 = (i 2).val; omega

/-- The first layer with its relu. -/
theorem v31_eq : val_main_v31 (F := Ideal) x0 x1 x2 x3 = Spec.hid1 (Spec.split (Spec.xhat (Spec.flat x0) x1)) x2 x3 := by
  funext i
  obtain ⟨n, p, h, rfl⟩ : ∃ (n : Fin 64) (p : Fin 8) (h : Fin 256), i = ix3 n p h := ⟨i 0, i 1, i 2, eq_ix3 i⟩
  have e : idx_main_v28 (idx_main_v29 (ix3 n p h)) = ix2 n h :=
    funext fun a => Fin.ext (by match a with | ⟨0, _⟩ => rfl | ⟨1, _⟩ => rfl)
  rw [val_main_v31_apply, val_main_v30_apply, val_main_v27_apply, val_main_v29_apply, val_main_v28_apply, e,
    val_main_call0_v0_apply, val_main_call0_cst_apply, v26_eq, Spec.hid1_apply, Ideal.maximumf_def, Ideal.addf_def,
    Ideal.ofBits_def, Ideal.ofBits_zero_f32]
  refine congrArg (fun z => max (z + x3 (ix2 n h)) 0) (Finset.sum_congr rfl fun k _ => ?_)
  have el : lidx_main_v27 (ix3 n p h) k = ix3 n p k :=
    funext fun a => Fin.ext (by match a with | ⟨0, _⟩ => rfl | ⟨1, _⟩ => rfl | ⟨2, _⟩ => rfl)
  have er : ridx_main_v27 (ix3 n p h) k = ix3 n k h :=
    funext fun a => Fin.ext (by match a with | ⟨0, _⟩ => rfl | ⟨1, _⟩ => rfl | ⟨2, _⟩ => rfl)
  rw [el, er]

/-- The second layer with its relu. -/
theorem v36_eq : val_main_v36 (F := Ideal) x0 x1 x2 x3 x4 x5
    = Spec.hid2 (Spec.hid1 (Spec.split (Spec.xhat (Spec.flat x0) x1)) x2 x3) x4 x5 := by
  funext i
  obtain ⟨n, p, h, rfl⟩ : ∃ (n : Fin 64) (p : Fin 8) (h : Fin 256), i = ix3 n p h := ⟨i 0, i 1, i 2, eq_ix3 i⟩
  have e : idx_main_v33 (idx_main_v34 (ix3 n p h)) = ix2 n h :=
    funext fun a => Fin.ext (by match a with | ⟨0, _⟩ => rfl | ⟨1, _⟩ => rfl)
  rw [val_main_v36_apply, val_main_v35_apply, val_main_v32_apply, val_main_v34_apply, val_main_v33_apply, e,
    val_main_call1_v0_apply, val_main_call1_cst_apply, v31_eq, Spec.hid2_apply, Ideal.maximumf_def, Ideal.addf_def,
    Ideal.ofBits_def, Ideal.ofBits_zero_f32]
  refine congrArg (fun z => max (z + x5 (ix2 n h)) 0) (Finset.sum_congr rfl fun k _ => ?_)
  have el : lidx_main_v32 (ix3 n p h) k = ix3 n p k :=
    funext fun a => Fin.ext (by match a with | ⟨0, _⟩ => rfl | ⟨1, _⟩ => rfl | ⟨2, _⟩ => rfl)
  have er : ridx_main_v32 (ix3 n p h) k = ix3 n k h :=
    funext fun a => Fin.ext (by match a with | ⟨0, _⟩ => rfl | ⟨1, _⟩ => rfl | ⟨2, _⟩ => rfl)
  rw [el, er]

/-- The third layer: the experts' outputs. -/
theorem v40_eq : val_main_v40 (F := Ideal) x0 x1 x2 x3 x4 x5 x6 x7
    = Spec.mlp (Spec.split (Spec.xhat (Spec.flat x0) x1)) x2 x3 x4 x5 x6 x7 := by
  funext i
  obtain ⟨n, p, d, rfl⟩ : ∃ (n : Fin 64) (p : Fin 8) (d : Fin 1024), i = ix3 n p d := ⟨i 0, i 1, i 2, eq_ix3 i⟩
  have e : idx_main_v38 (idx_main_v39 (ix3 n p d)) = ix2 n d :=
    funext fun a => Fin.ext (by match a with | ⟨0, _⟩ => rfl | ⟨1, _⟩ => rfl)
  unfold Spec.mlp
  rw [val_main_v40_apply, val_main_v37_apply, val_main_v39_apply, val_main_v38_apply, e, v36_eq, Spec.out3_apply,
    Ideal.addf_def]
  refine congrArg (fun z => z + x7 (ix2 n d)) (Finset.sum_congr rfl fun k _ => ?_)
  have el : lidx_main_v37 (ix3 n p d) k = ix3 n p k :=
    funext fun a => Fin.ext (by match a with | ⟨0, _⟩ => rfl | ⟨1, _⟩ => rfl | ⟨2, _⟩ => rfl)
  have er : ridx_main_v37 (ix3 n p d) k = ix3 n k d :=
    funext fun a => Fin.ext (by match a with | ⟨0, _⟩ => rfl | ⟨1, _⟩ => rfl | ⟨2, _⟩ => rfl)
  rw [el, er]

/-- The reshape of the experts' outputs back to slot rows. -/
theorem v41_eq : val_main_v41 (F := Ideal) x0 x1 x2 x3 x4 x5 x6 x7
    = Spec.merge (Spec.mlp (Spec.split (Spec.xhat (Spec.flat x0) x1)) x2 x3 x4 x5 x6 x7) := by
  funext i
  rw [val_main_v41_apply, v40_eq]
  unfold Spec.merge
  refine congrArg _ (funext fun a => Fin.ext ?_)
  have h0 : (i 0).val < 512 := (i 0).isLt
  have h1 : (i 1).val < 1024 := (i 1).isLt
  match a with
  | ⟨0, _⟩ => show ((i 0).val * 1024 + (i 1).val) / 8192 = (i 0).val / 8; omega
  | ⟨1, _⟩ => show ((i 0).val * 1024 + (i 1).val) / 1024 % 8 = (i 0).val % 8; omega
  | ⟨2, _⟩ => show ((i 0).val * 1024 + (i 1).val) % 1024 = (i 1).val; omega

/-! ## The softmax over the slots and the combine -/

/-- The row maximum: the maximum-reduction over the slot axis from -inf, then max with -inf. -/
theorem v15_apply (t : Fin 32768) :
    val_main_v15 (F := Ideal) x0 x1 (ix1 t) = Spec.rowMax (Spec.mat (Spec.flat x0) x1) t := by
  rw [val_main_v15_apply, val_main_v14_apply, val_main_cst_3_apply]
  unfold val_main_v13 val_main_cst_2
  rw [Cert.Lib.MaxReduce.hostMaxReduce_single _ reducesTo_S32768x512_S32768_d1 (by decide) h_S_, v1_eq,
    Ideal.maximumf_def, Ideal.ofBits_def, Cert.Lib.MaxReduce.ofBits_neg_inf_f32, max_eq_right bot_le]
  unfold Spec.rowMax
  refine iSup_congr fun s => congrArg _ (funext fun a => Fin.ext ?_)
  match a with
  | ⟨0, _⟩ => rfl
  | ⟨1, _⟩ => rfl

/-- The exponential of a logit less its row's maximum. -/
theorem v19_apply (t : Fin 32768) (s : Fin 512) :
    val_main_v19 (F := Ideal) x0 x1 (ix2 t s)
      = Ideal.exp (Spec.mat (Spec.flat x0) x1 (ix2 t s) - Spec.rowMax (Spec.mat (Spec.flat x0) x1) t) := by
  have e : idx_main_v16 (idx_main_v17 (ix2 t s)) = ix1 t := funext fun a => Fin.ext (by match a with | ⟨0, _⟩ => rfl)
  rw [val_main_v19_apply, val_main_v18_apply, val_main_v17_apply, val_main_v16_apply, e, v15_apply, v1_eq,
    Ideal.hostUnary_exp_def, Ideal.subf_def]

/-- The row's softmax denominator. -/
theorem v20_apply (t : Fin 32768) :
    val_main_v20 (F := Ideal) x0 x1 (ix1 t) = Spec.rowDen (Spec.mat (Spec.flat x0) x1) t := by
  rw [val_main_v20_apply, val_main_cst_4_apply, Ideal.ofBits_def, Ideal.ofBits_zero_f32, zero_add]
  unfold Spec.rowDen
  refine Finset.sum_congr rfl fun s _ => ?_
  have e : idx_main_v20 (ix1 t) s = ix2 t s := funext fun a => Fin.ext (by match a with | ⟨0, _⟩ => rfl | ⟨1, _⟩ => rfl)
  rw [e, v19_apply]

/-- The softmax over the slots at (t, s) is the combine weight. -/
theorem v23_apply (t : Fin 32768) (s : Fin 512) :
    val_main_v23 (F := Ideal) x0 x1 (ix2 t s) = Spec.combineW (Spec.mat (Spec.flat x0) x1) t s := by
  have e : idx_main_v21 (idx_main_v22 (ix2 t s)) = ix1 t := funext fun a => Fin.ext (by match a with | ⟨0, _⟩ => rfl)
  rw [val_main_v23_apply, val_main_v22_apply, val_main_v21_apply, e, v20_apply, v19_apply, Ideal.hostDivf_def]
  rfl

/-- The combine. -/
theorem v42_eq : val_main_v42 (F := Ideal) x0 x1 x2 x3 x4 x5 x6 x7
    = Spec.comb (Spec.mat (Spec.flat x0) x1)
        (Spec.merge (Spec.mlp (Spec.split (Spec.xhat (Spec.flat x0) x1)) x2 x3 x4 x5 x6 x7)) := by
  funext i
  obtain ⟨t, d, rfl⟩ : ∃ (t : Fin 32768) (d : Fin 1024), i = ix2 t d := ⟨i 0, i 1, eq_ix2 i⟩
  rw [val_main_v42_apply, Spec.comb_apply, v41_eq]
  refine Finset.sum_congr rfl fun s _ => ?_
  have el : lidx_main_v42 (ix2 t d) s = ix2 t s :=
    funext fun a => Fin.ext (by match a with | ⟨0, _⟩ => rfl | ⟨1, _⟩ => rfl)
  have er : ridx_main_v42 (ix2 t d) s = ix2 s d :=
    funext fun a => Fin.ext (by match a with | ⟨0, _⟩ => rfl | ⟨1, _⟩ => rfl)
  rw [el, er, v23_apply]

/-- The last reshape: the reference's result stage is the specification's result. -/
theorem v43_eq : val_main_v43 (F := Ideal) x0 x1 x2 x3 x4 x5 x6 x7 = Spec.result x0 x1 x2 x3 x4 x5 x6 x7 := by
  funext i
  rw [val_main_v43_apply, v42_eq]
  unfold Spec.result Spec.unflat
  refine congrArg _ (funext fun a => Fin.ext ?_)
  have h0 : (i 0).val < 8 := (i 0).isLt
  have h1 : (i 1).val < 4096 := (i 1).isLt
  have h2 : (i 2).val < 1024 := (i 2).isLt
  match a with
  | ⟨0, _⟩ => show (((i 0).val * 4096 + (i 1).val) * 1024 + (i 2).val) / 1024 = (i 0).val * 4096 + (i 1).val; omega
  | ⟨1, _⟩ => show (((i 0).val * 4096 + (i 1).val) * 1024 + (i 2).val) % 1024 = (i 2).val; omega

/-- The reference's run ends with its result buffer at the specification's result of the eight argument arrays. -/
theorem res_out0_eq (m : (ℓ : Loc nD τ sig) → Buf (Elt Ideal) ℓ) (c : Dev nD) :
    Cert.ReferenceIdeal.Value.res_out0 m c
      = Spec.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  (val_main_v43_eq m c).trans (v43_eq _ _ _ _ _ _ _ _)

end Cert.ReferenceIdeal.RefValue

end
-- ==== Proof.Ideal.RefRun.lean ====
/-
  The reference program's run, stated against the specification: every weakly fair execution of the reference ends,
  faultless, with its result buffer holding the soft mixture-of-experts layer of Spec.lean of the eight argument arrays,
  and with the arguments unchanged. The frame claim of the reference is the second half of that.
-/
import proofs.«181279_j10471130267897_2_alg».proof.Defs
import proofs.«181279_j10471130267897_2_alg».proof.Proof.Gen.Pre_finite_inputs
import proofs.«181279_j10471130267897_2_alg».proof.Proof.Ideal.RefIsSpec

noncomputable section

namespace Cert.ReferenceIdeal.RefValue

open Cert.ReferenceIdeal Cert.ReferenceIdeal.Gen Idealize.ShloMosaic Idealize.ShloMosaic.TcCoe Idealize.SL.Sem
  Idealize.ShloMosaic.StableHlo Cert.Hand

/-- The reference's run with its result named by the specification. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43)
          = Spec.result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (defs (F := Ideal)) _ _).mono (fun _ h c => ⟨(h c).1.trans (res_out0_eq m c), (h c).2⟩)
    (Cert.ReferenceIdeal.Value.run (F := Ideal) m ρ)

/-- The reference's frame: it runs and leaves its arguments unchanged (whatever the inputs). -/
theorem frame_ref : Cert.frame_ReferenceIdeal (hReferenceIdeal := Cert.ReferenceIdeal.Gen.facts)
    (hPre_finite_inputs := Cert.Pre_finite_inputs.Gen.facts) :=
  fun m g _ => (θ_run (defs (F := Ideal)) _ _).mono (fun _ h c => (h c).2) (Cert.ReferenceIdeal.Value.run (F := Ideal) m g)

end Cert.ReferenceIdeal.RefValue

end
-- ==== Proof.Ideal.Dispatch.Pieces.lean ====
/- The contents the dispatch kernel (region 0) leaves, per control case, as the payloads of its stores: each case's
   named contents (the pieces its run found, read back) is the payload of the last covering store, with every load
   read at the input blocks, at what the point before left in the scratch operands, or — where the second coordinate
   is 0 — at the reset values just stored. Then the accumulation over the grid as ONE step applied point by point. -/
import proofs.«181279_j10471130267897_2_alg».proof.Proof.Ideal.FrameDispatch
import Idealize.ShloMosaic.Lib.Pipeline.Value

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The literal zero offsets of every access of the body. -/
theorem hz0 : (![0, 0] : Fin 2 → Nat) = fun _ => 0 := funext fun a => by fin_cases a <;> rfl

/-- ONE STEP of the accumulation: from the input blocks `x0`, `x1` and the scratch contents `(M, L, A)` the body
    starts from, what it leaves in the three scratch operands (the payloads of its three last stores). -/
def step0 (x0 : Vec F S2048x1024 .f32) (x1 : Vec F S1024x256 .f32) (M L : Vec F S1x256 .f32) (A : Vec F S256x1024 .f32) :
    Vec F S1x256 .f32 × Vec F S1x256 .f32 × Vec F S256x1024 .f32 :=
  (k0_pay13 x0 x1 M, k0_pay12 x0 x1 M M L, k0_pay1 (k0_pay6 x0) (k0_pay11 x0 x1 M) (k0_pay14 x0 x1 M M) A)

/-! ## Each case's contents as payloads -/

/-! ### Where the second coordinate is 0 -/

/-- What the body leaves in output window 3's buffer where the second coordinate is 0: the payload of its last covering store, its loads
    reading the input blocks and the reset values the body has just stored (its loads after the stores read them back). -/
theorem out0_First_3_eq (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) :
    out0_First_3 c i arg2 harg2 arg3 harg3 arg4 harg4 arg5 harg5 arg6 harg6 arg7 harg7 arg8 harg8 hc0 hc1 x0 x1 = k0_pay8 x0 x1 := by
  unfold out0_First_3
  rw [View.read_writes_eq_canon _ _ _ (cover0_First_3 c i arg2 harg2 arg3 harg3 arg4 harg4 arg5 harg5 arg6 harg6 arg7 harg7 arg8 harg8 hc0 hc1 x0 x1)]
  unfold kernelRun0_First
  dsimp only
  sl_unfold_words
  simp only [View.canon_cons_unit_zero (S := S1x256) hz0, View.canon_cons_unit_zero (S := S256x1024) hz0, View.canon_cons_unit_zero (S := S2048x256) hz0,
    View.readCov_unit_zero (S := S1x256) _ hz0, View.readCov_unit_zero (S := S256x1024) _ hz0,
    View.readAt_eq_ld, harg2.read_unread, harg3.read_unread,
    View.ld_unit_zero (S := S2048x1024) hz0, View.ld_unit_zero (S := S1024x256) hz0, View.ld_unit_zero (S := S1x256) hz0, View.ld_unit_zero (S := S256x1024) hz0]

/-- What the body leaves in scratch operand 0 where the second coordinate is 0: the payload of its last covering store, its loads
    reading the input blocks and the reset values the body has just stored (its loads after the stores read them back). -/
theorem sout0_First_0_eq (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) :
    sout0_First_0 c i arg2 harg2 arg3 harg3 arg4 harg4 arg5 harg5 arg6 harg6 arg7 harg7 arg8 harg8 hc0 hc1 x0 x1 = k0_pay13 x0 x1 (k0_pay3 (F := F)) := by
  unfold sout0_First_0
  rw [View.read_writes_eq_canon _ _ _ (scover0_First_0 c i arg2 harg2 arg3 harg3 arg4 harg4 arg5 harg5 arg6 harg6 arg7 harg7 arg8 harg8 hc0 hc1 x0 x1)]
  unfold kernelRun0_First
  dsimp only
  sl_unfold_words
  simp only [View.canon_cons_unit_zero (S := S1x256) hz0, View.canon_cons_unit_zero (S := S256x1024) hz0, View.canon_cons_unit_zero (S := S2048x256) hz0,
    View.readCov_unit_zero (S := S1x256) _ hz0, View.readCov_unit_zero (S := S256x1024) _ hz0,
    View.readAt_eq_ld, harg2.read_unread, harg3.read_unread,
    View.ld_unit_zero (S := S2048x1024) hz0, View.ld_unit_zero (S := S1024x256) hz0, View.ld_unit_zero (S := S1x256) hz0, View.ld_unit_zero (S := S256x1024) hz0]

/-- What the body leaves in scratch operand 1 where the second coordinate is 0: the payload of its last covering store, its loads
    reading the input blocks and the reset values the body has just stored (its loads after the stores read them back). -/
theorem sout0_First_1_eq (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) :
    sout0_First_1 c i arg2 harg2 arg3 harg3 arg4 harg4 arg5 harg5 arg6 harg6 arg7 harg7 arg8 harg8 hc0 hc1 x0 x1 = k0_pay12 x0 x1 (k0_pay3 (F := F)) (k0_pay3 (F := F)) (k0_pay4 (F := F)) := by
  unfold sout0_First_1
  rw [View.read_writes_eq_canon _ _ _ (scover0_First_1 c i arg2 harg2 arg3 harg3 arg4 harg4 arg5 harg5 arg6 harg6 arg7 harg7 arg8 harg8 hc0 hc1 x0 x1)]
  unfold kernelRun0_First
  dsimp only
  sl_unfold_words
  simp only [View.canon_cons_unit_zero (S := S1x256) hz0, View.canon_cons_unit_zero (S := S256x1024) hz0, View.canon_cons_unit_zero (S := S2048x256) hz0,
    View.readCov_unit_zero (S := S1x256) _ hz0, View.readCov_unit_zero (S := S256x1024) _ hz0,
    View.readAt_eq_ld, harg2.read_unread, harg3.read_unread,
    View.ld_unit_zero (S := S2048x1024) hz0, View.ld_unit_zero (S := S1024x256) hz0, View.ld_unit_zero (S := S1x256) hz0, View.ld_unit_zero (S := S256x1024) hz0]

/-- What the body leaves in scratch operand 2 where the second coordinate is 0: the payload of its last covering store, its loads
    reading the input blocks and the reset values the body has just stored (its loads after the stores read them back). -/
theorem sout0_First_2_eq (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : cond0_0 i) (hc1 : ¬cond0_1 i)
    (x0 : Vec F S2048x1024 .f32) (x1 : Vec F S1024x256 .f32) :
    sout0_First_2 c i arg2 harg2 arg3 harg3 arg4 harg4 arg5 harg5 arg6 harg6 arg7 harg7 arg8 harg8 hc0 hc1 x0 x1 = k0_pay1 (k0_pay6 x0) (k0_pay11 x0 x1 (k0_pay3 (F := F))) (k0_pay14 x0 x1 (k0_pay3 (F := F)) (k0_pay3 (F := F))) (k0_pay5 (F := F)) := by
  unfold sout0_First_2
  rw [View.read_writes_eq_canon _ _ _ (scover0_First_2 c i arg2 harg2 arg3 harg3 arg4 harg4 arg5 harg5 arg6 harg6 arg7 harg7 arg8 harg8 hc0 hc1 x0 x1)]
  unfold kernelRun0_First
  dsimp only
  sl_unfold_words
  simp only [View.canon_cons_unit_zero (S := S1x256) hz0, View.canon_cons_unit_zero (S := S256x1024) hz0, View.canon_cons_unit_zero (S := S2048x256) hz0,
    View.readCov_unit_zero (S := S1x256) _ hz0, View.readCov_unit_zero (S := S256x1024) _ hz0,
    View.readAt_eq_ld, harg2.read_unread, harg3.read_unread,
    View.ld_unit_zero (S := S2048x1024) hz0, View.ld_unit_zero (S := S1024x256) hz0, View.ld_unit_zero (S := S1x256) hz0, View.ld_unit_zero (S := S256x1024) hz0]

/-! ### Where the second coordinate is neither 0 nor 15 -/

/-- What the body leaves in output window 3's buffer where the second coordinate is neither 0 nor 15: the payload of its last covering store, its loads
    reading the input blocks and what the point before left. -/
theorem out0_Mid_3_eq (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) :
    out0_Mid_3 c i arg2 harg2 arg3 harg3 arg4 harg4 arg5 harg5 arg6 harg6 arg7 harg7 arg8 harg8 hc0 hc1 x0 x1 xs0 xs1 xs2 = k0_pay8 x0 x1 := by
  unfold out0_Mid_3
  rw [View.read_writes_eq_canon _ _ _ (cover0_Mid_3 c i arg2 harg2 arg3 harg3 arg4 harg4 arg5 harg5 arg6 harg6 arg7 harg7 arg8 harg8 hc0 hc1 x0 x1 xs0 xs1 xs2)]
  unfold kernelRun0_Mid
  dsimp only
  sl_unfold_words
  simp only [View.canon_cons_unit_zero (S := S1x256) hz0, View.canon_cons_unit_zero (S := S256x1024) hz0, View.canon_cons_unit_zero (S := S2048x256) hz0,
    View.readCov_unit_zero (S := S1x256) _ hz0, View.readCov_unit_zero (S := S256x1024) _ hz0,
    View.readAt_eq_ld, harg2.read_unread, harg3.read_unread, harg6.read_unread, harg7.read_unread, harg8.read_unread,
    View.ld_unit_zero (S := S2048x1024) hz0, View.ld_unit_zero (S := S1024x256) hz0, View.ld_unit_zero (S := S1x256) hz0, View.ld_unit_zero (S := S256x1024) hz0]

/-- What the body leaves in scratch operand 0 where the second coordinate is neither 0 nor 15: the payload of its last covering store, its loads
    reading the input blocks and what the point before left. -/
theorem sout0_Mid_0_eq (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) :
    sout0_Mid_0 c i arg2 harg2 arg3 harg3 arg4 harg4 arg5 harg5 arg6 harg6 arg7 harg7 arg8 harg8 hc0 hc1 x0 x1 xs0 xs1 xs2 = k0_pay13 x0 x1 xs0 := by
  unfold sout0_Mid_0
  rw [View.read_writes_eq_canon _ _ _ (scover0_Mid_0 c i arg2 harg2 arg3 harg3 arg4 harg4 arg5 harg5 arg6 harg6 arg7 harg7 arg8 harg8 hc0 hc1 x0 x1 xs0 xs1 xs2)]
  unfold kernelRun0_Mid
  dsimp only
  sl_unfold_words
  simp only [View.canon_cons_unit_zero (S := S1x256) hz0, View.canon_cons_unit_zero (S := S256x1024) hz0, View.canon_cons_unit_zero (S := S2048x256) hz0,
    View.readCov_unit_zero (S := S1x256) _ hz0, View.readCov_unit_zero (S := S256x1024) _ hz0,
    View.readAt_eq_ld, harg2.read_unread, harg3.read_unread, harg6.read_unread, harg7.read_unread, harg8.read_unread,
    View.ld_unit_zero (S := S2048x1024) hz0, View.ld_unit_zero (S := S1024x256) hz0, View.ld_unit_zero (S := S1x256) hz0, View.ld_unit_zero (S := S256x1024) hz0]

/-- What the body leaves in scratch operand 1 where the second coordinate is neither 0 nor 15: the payload of its last covering store, its loads
    reading the input blocks and what the point before left. -/
theorem sout0_Mid_1_eq (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) :
    sout0_Mid_1 c i arg2 harg2 arg3 harg3 arg4 harg4 arg5 harg5 arg6 harg6 arg7 harg7 arg8 harg8 hc0 hc1 x0 x1 xs0 xs1 xs2 = k0_pay12 x0 x1 xs0 xs0 xs1 := by
  unfold sout0_Mid_1
  rw [View.read_writes_eq_canon _ _ _ (scover0_Mid_1 c i arg2 harg2 arg3 harg3 arg4 harg4 arg5 harg5 arg6 harg6 arg7 harg7 arg8 harg8 hc0 hc1 x0 x1 xs0 xs1 xs2)]
  unfold kernelRun0_Mid
  dsimp only
  sl_unfold_words
  simp only [View.canon_cons_unit_zero (S := S1x256) hz0, View.canon_cons_unit_zero (S := S256x1024) hz0, View.canon_cons_unit_zero (S := S2048x256) hz0,
    View.readCov_unit_zero (S := S1x256) _ hz0, View.readCov_unit_zero (S := S256x1024) _ hz0,
    View.readAt_eq_ld, harg2.read_unread, harg3.read_unread, harg6.read_unread, harg7.read_unread, harg8.read_unread,
    View.ld_unit_zero (S := S2048x1024) hz0, View.ld_unit_zero (S := S1024x256) hz0, View.ld_unit_zero (S := S1x256) hz0, View.ld_unit_zero (S := S256x1024) hz0]

/-- What the body leaves in scratch operand 2 where the second coordinate is neither 0 nor 15: the payload of its last covering store, its loads
    reading the input blocks and what the point before left. -/
theorem sout0_Mid_2_eq (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : ¬cond0_1 i)
    (x0 : Vec F S2048x1024 .f32) (x1 : Vec F S1024x256 .f32) (xs0 : Vec F S1x256 .f32) (xs1 : Vec F S1x256 .f32) (xs2 : Vec F S256x1024 .f32) :
    sout0_Mid_2 c i arg2 harg2 arg3 harg3 arg4 harg4 arg5 harg5 arg6 harg6 arg7 harg7 arg8 harg8 hc0 hc1 x0 x1 xs0 xs1 xs2 = k0_pay1 (k0_pay6 x0) (k0_pay11 x0 x1 xs0) (k0_pay14 x0 x1 xs0 xs0) xs2 := by
  unfold sout0_Mid_2
  rw [View.read_writes_eq_canon _ _ _ (scover0_Mid_2 c i arg2 harg2 arg3 harg3 arg4 harg4 arg5 harg5 arg6 harg6 arg7 harg7 arg8 harg8 hc0 hc1 x0 x1 xs0 xs1 xs2)]
  unfold kernelRun0_Mid
  dsimp only
  sl_unfold_words
  simp only [View.canon_cons_unit_zero (S := S1x256) hz0, View.canon_cons_unit_zero (S := S256x1024) hz0, View.canon_cons_unit_zero (S := S2048x256) hz0,
    View.readCov_unit_zero (S := S1x256) _ hz0, View.readCov_unit_zero (S := S256x1024) _ hz0,
    View.readAt_eq_ld, harg2.read_unread, harg3.read_unread, harg6.read_unread, harg7.read_unread, harg8.read_unread,
    View.ld_unit_zero (S := S2048x1024) hz0, View.ld_unit_zero (S := S1024x256) hz0, View.ld_unit_zero (S := S1x256) hz0, View.ld_unit_zero (S := S256x1024) hz0]

/-! ### Where the second coordinate is 15 -/

/-- What the body leaves in output window 2's buffer where the second coordinate is 15: the payload of its last covering store, its loads
    reading the input blocks and what the point before left. -/
theorem out0_Last_2_eq (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) :
    out0_Last_2 c i arg2 harg2 arg3 harg3 arg4 harg4 arg5 harg5 arg6 harg6 arg7 harg7 arg8 harg8 hc0 hc1 x0 x1 xs0 xs1 xs2 = k0_pay2 (k0_pay12 x0 x1 xs0 xs0 xs1) (k0_pay1 (k0_pay6 x0) (k0_pay11 x0 x1 xs0) (k0_pay14 x0 x1 xs0 xs0) xs2) := by
  unfold out0_Last_2
  rw [View.read_writes_eq_canon _ _ _ (cover0_Last_2 c i arg2 harg2 arg3 harg3 arg4 harg4 arg5 harg5 arg6 harg6 arg7 harg7 arg8 harg8 hc0 hc1 x0 x1 xs0 xs1 xs2)]
  unfold kernelRun0_Last
  dsimp only
  sl_unfold_words
  simp only [View.canon_cons_unit_zero (S := S1x256) hz0, View.canon_cons_unit_zero (S := S256x1024) hz0, View.canon_cons_unit_zero (S := S2048x256) hz0,
    View.readCov_unit_zero (S := S1x256) _ hz0, View.readCov_unit_zero (S := S256x1024) _ hz0,
    View.readAt_eq_ld, harg2.read_unread, harg3.read_unread, harg6.read_unread, harg7.read_unread, harg8.read_unread,
    View.ld_unit_zero (S := S2048x1024) hz0, View.ld_unit_zero (S := S1024x256) hz0, View.ld_unit_zero (S := S1x256) hz0, View.ld_unit_zero (S := S256x1024) hz0]

/-- What the body leaves in output window 3's buffer where the second coordinate is 15: the payload of its last covering store, its loads
    reading the input blocks and what the point before left. -/
theorem out0_Last_3_eq (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) :
    out0_Last_3 c i arg2 harg2 arg3 harg3 arg4 harg4 arg5 harg5 arg6 harg6 arg7 harg7 arg8 harg8 hc0 hc1 x0 x1 xs0 xs1 xs2 = k0_pay8 x0 x1 := by
  unfold out0_Last_3
  rw [View.read_writes_eq_canon _ _ _ (cover0_Last_3 c i arg2 harg2 arg3 harg3 arg4 harg4 arg5 harg5 arg6 harg6 arg7 harg7 arg8 harg8 hc0 hc1 x0 x1 xs0 xs1 xs2)]
  unfold kernelRun0_Last
  dsimp only
  sl_unfold_words
  simp only [View.canon_cons_unit_zero (S := S1x256) hz0, View.canon_cons_unit_zero (S := S256x1024) hz0, View.canon_cons_unit_zero (S := S2048x256) hz0,
    View.readCov_unit_zero (S := S1x256) _ hz0, View.readCov_unit_zero (S := S256x1024) _ hz0,
    View.readAt_eq_ld, harg2.read_unread, harg3.read_unread, harg6.read_unread, harg7.read_unread, harg8.read_unread,
    View.ld_unit_zero (S := S2048x1024) hz0, View.ld_unit_zero (S := S1024x256) hz0, View.ld_unit_zero (S := S1x256) hz0, View.ld_unit_zero (S := S256x1024) hz0]

/-- What the body leaves in scratch operand 0 where the second coordinate is 15: the payload of its last covering store, its loads
    reading the input blocks and what the point before left. -/
theorem sout0_Last_0_eq (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) :
    sout0_Last_0 c i arg2 harg2 arg3 harg3 arg4 harg4 arg5 harg5 arg6 harg6 arg7 harg7 arg8 harg8 hc0 hc1 x0 x1 xs0 xs1 xs2 = k0_pay13 x0 x1 xs0 := by
  unfold sout0_Last_0
  rw [View.read_writes_eq_canon _ _ _ (scover0_Last_0 c i arg2 harg2 arg3 harg3 arg4 harg4 arg5 harg5 arg6 harg6 arg7 harg7 arg8 harg8 hc0 hc1 x0 x1 xs0 xs1 xs2)]
  unfold kernelRun0_Last
  dsimp only
  sl_unfold_words
  simp only [View.canon_cons_unit_zero (S := S1x256) hz0, View.canon_cons_unit_zero (S := S256x1024) hz0, View.canon_cons_unit_zero (S := S2048x256) hz0,
    View.readCov_unit_zero (S := S1x256) _ hz0, View.readCov_unit_zero (S := S256x1024) _ hz0,
    View.readAt_eq_ld, harg2.read_unread, harg3.read_unread, harg6.read_unread, harg7.read_unread, harg8.read_unread,
    View.ld_unit_zero (S := S2048x1024) hz0, View.ld_unit_zero (S := S1024x256) hz0, View.ld_unit_zero (S := S1x256) hz0, View.ld_unit_zero (S := S256x1024) hz0]

/-- What the body leaves in scratch operand 1 where the second coordinate is 15: the payload of its last covering store, its loads
    reading the input blocks and what the point before left. -/
theorem sout0_Last_1_eq (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) :
    sout0_Last_1 c i arg2 harg2 arg3 harg3 arg4 harg4 arg5 harg5 arg6 harg6 arg7 harg7 arg8 harg8 hc0 hc1 x0 x1 xs0 xs1 xs2 = k0_pay12 x0 x1 xs0 xs0 xs1 := by
  unfold sout0_Last_1
  rw [View.read_writes_eq_canon _ _ _ (scover0_Last_1 c i arg2 harg2 arg3 harg3 arg4 harg4 arg5 harg5 arg6 harg6 arg7 harg7 arg8 harg8 hc0 hc1 x0 x1 xs0 xs1 xs2)]
  unfold kernelRun0_Last
  dsimp only
  sl_unfold_words
  simp only [View.canon_cons_unit_zero (S := S1x256) hz0, View.canon_cons_unit_zero (S := S256x1024) hz0, View.canon_cons_unit_zero (S := S2048x256) hz0,
    View.readCov_unit_zero (S := S1x256) _ hz0, View.readCov_unit_zero (S := S256x1024) _ hz0,
    View.readAt_eq_ld, harg2.read_unread, harg3.read_unread, harg6.read_unread, harg7.read_unread, harg8.read_unread,
    View.ld_unit_zero (S := S2048x1024) hz0, View.ld_unit_zero (S := S1024x256) hz0, View.ld_unit_zero (S := S1x256) hz0, View.ld_unit_zero (S := S256x1024) hz0]

/-- What the body leaves in scratch operand 2 where the second coordinate is 15: the payload of its last covering store, its loads
    reading the input blocks and what the point before left. -/
theorem sout0_Last_2_eq (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .f32) (harg8 : arg8.IsWhole) (hc0 : ¬cond0_0 i) (hc1 : cond0_1 i)
    (x0 : Vec F S2048x1024 .f32) (x1 : Vec F S1024x256 .f32) (xs0 : Vec F S1x256 .f32) (xs1 : Vec F S1x256 .f32) (xs2 : Vec F S256x1024 .f32) :
    sout0_Last_2 c i arg2 harg2 arg3 harg3 arg4 harg4 arg5 harg5 arg6 harg6 arg7 harg7 arg8 harg8 hc0 hc1 x0 x1 xs0 xs1 xs2 = k0_pay1 (k0_pay6 x0) (k0_pay11 x0 x1 xs0) (k0_pay14 x0 x1 xs0 xs0) xs2 := by
  unfold sout0_Last_2
  rw [View.read_writes_eq_canon _ _ _ (scover0_Last_2 c i arg2 harg2 arg3 harg3 arg4 harg4 arg5 harg5 arg6 harg6 arg7 harg7 arg8 harg8 hc0 hc1 x0 x1 xs0 xs1 xs2)]
  unfold kernelRun0_Last
  dsimp only
  sl_unfold_words
  simp only [View.canon_cons_unit_zero (S := S1x256) hz0, View.canon_cons_unit_zero (S := S256x1024) hz0, View.canon_cons_unit_zero (S := S2048x256) hz0,
    View.readCov_unit_zero (S := S1x256) _ hz0, View.readCov_unit_zero (S := S256x1024) _ hz0,
    View.readAt_eq_ld, harg2.read_unread, harg3.read_unread, harg6.read_unread, harg7.read_unread, harg8.read_unread,
    View.ld_unit_zero (S := S2048x1024) hz0, View.ld_unit_zero (S := S1024x256) hz0, View.ld_unit_zero (S := S1x256) hz0, View.ld_unit_zero (S := S256x1024) hz0]

section Regions
-- the TensorCore's buffer contents when the region is entered
variable (V : (c : Dev nD) → (b : Ref sig .tc) → Buf (Elt F) ((c : Thread nD τ).loc b))

/-! ## The accumulation as one step, point by point -/

/-- The three scratch operands after the body at position `n`: the scratch components of `outsAt0`. -/
def scr0 (c : Dev nD) (n : ℕ) (hn : n < cfg0.N) : Vec F S1x256 .f32 × Vec F S1x256 .f32 × Vec F S256x1024 .f32 :=
  (outsAt0 V c n hn).2.2

/-- Where the second coordinate is 0 the scratch operands hold one step from the reset values. -/
theorem scr0_first (c : Dev nD) (t : Fin cfg0.N) (h0 : t.val % 16 = 0) :
    scr0 V c t.val t.isLt = step0 (iblk0 V c 0 t) (iblk0 V c 1 t) (k0_pay3 (F := F)) (k0_pay4 (F := F)) (k0_pay5 (F := F)) := by
  have h1 : ¬t.val % 16 = 15 := by omega
  unfold scr0 step0
  rw [outsAt0_First V c t h0 h1]
  exact congrArg₂ Prod.mk (sout0_First_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t))
    (congrArg₂ Prod.mk (sout0_First_1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t))
      (sout0_First_2_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)))

/-- Elsewhere they hold one step from what the point before left. -/
theorem scr0_next (c : Dev nD) (t : Fin cfg0.N) (h0 : ¬t.val % 16 = 0) :
    scr0 V c t.val t.isLt = step0 (iblk0 V c 0 t) (iblk0 V c 1 t) (scr0 V c (t.val - 1) (Nat.lt_of_le_of_lt (Nat.sub_le _ _) t.isLt)).1 (scr0 V c (t.val - 1) (Nat.lt_of_le_of_lt (Nat.sub_le _ _) t.isLt)).2.1 (scr0 V c (t.val - 1) (Nat.lt_of_le_of_lt (Nat.sub_le _ _) t.isLt)).2.2 := by
  unfold scr0 step0
  by_cases h1 : t.val % 16 = 15
  · rw [outsAt0_Last V c t h0 h1]
    exact congrArg₂ Prod.mk (sout0_Last_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2)
      (congrArg₂ Prod.mk (sout0_Last_1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2)
        (sout0_Last_2_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2))
  · rw [outsAt0_Mid V c t h0 h1]
    exact congrArg₂ Prod.mk (sout0_Mid_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2)
      (congrArg₂ Prod.mk (sout0_Mid_1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2)
        (sout0_Mid_2_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2))

/-- Output window 3's buffer after the body at any point: the rounded product of the two input blocks. -/
theorem out3_at (c : Dev nD) (t : Fin cfg0.N) :
    (outsAt0 V c t.val t.isLt).2.1 = k0_pay8 (iblk0 V c 0 t) (iblk0 V c 1 t) := by
  by_cases h0 : t.val % 16 = 0
  · have h1 : ¬t.val % 16 = 15 := by omega
    rw [outsAt0_First V c t h0 h1]; dsimp only
    exact (out0_First_3_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t))
  · by_cases h1 : t.val % 16 = 15
    · rw [outsAt0_Last V c t h0 h1]; dsimp only
      exact (out0_Last_3_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2)
    · rw [outsAt0_Mid V c t h0 h1]; dsimp only
      exact (out0_Mid_3_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2)

/-- Output window 2's buffer after the body where the second coordinate is 15: the quotient of the last two scratch
    operands as that point leaves them. -/
theorem out2_last (c : Dev nD) (t : Fin cfg0.N) (h1 : t.val % 16 = 15) :
    (outsAt0 V c t.val t.isLt).1 = k0_pay2 (scr0 V c t.val t.isLt).2.1 (scr0 V c t.val t.isLt).2.2 := by
  have h0 : ¬t.val % 16 = 0 := by omega
  have es := scr0_next V c t h0
  unfold step0 at es
  rw [es]
  unfold scr0
  rw [outsAt0_Last V c t h0 h1]; dsimp only
  exact (out0_Last_2_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2)

end Regions

end Cert.KernelIdeal.Hand

end
-- ==== Proof.LibOneAxisDot.lean ====
/-
  A matrix product that contracts ONE axis, read at one output index, at the extended reals.

  Whatever the dimension numbers are (which axis of each operand is contracted, in which order the free axes
  appear in the result), once the contraction has a single axis of extent K the product's entry at an output
  index j is a sum over k < K of a left entry times a right entry: the left operand read at the index the
  dimension numbers assign to (j, k), the right operand likewise. The two families of operand indices are
  parameters here; each concrete product supplies them (for x · wᵀ they are (r, k) and (c, k), for x · w they
  are (r, k) and (k, c)). No finiteness is asked of any entry: only the index set of the sum is renamed.
-/
import Idealize.ShloMosaic.PureOps.Ideal.Laws
import Idealize.ShloMosaic.Lib.ValueIdx

noncomputable section

open scoped BigOperators

namespace Cert.Lib.OneAxisDot

open Idealize.ShloMosaic Idealize.ShloMosaic.ValueIdx

/-- The contraction's sum, indexed by the dimension numbers' own one-axis contraction index, is the sum over
    k < K of l(li k) · r(ri k), when li k and ri k are the operand indices at the k-th contraction index. -/
theorem contraction_sum_at {sl sr so : Shape} (d : DotDims sl sr so) (K : Nat) (hr : d.contr.rank = 1)
    (hs : d.contr.size ⟨0, by omega⟩ = K) (l : sl.Idx → EReal) (r : sr.Idx → EReal) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    ∑ q : d.contr.Idx, l (d.lhsIdx j q) * r (d.rhsIdx j q) = ∑ k : Fin K, l (li k) * r (ri k) := by
  rw [← Equiv.sum_comp (contrEquiv1 d K hr hs).symm]
  exact Finset.sum_congr rfl fun k _ => by rw [hl k, hrr k]

/-- A matrix unit's product accumulated into the zero matrix, at output index j: the zero adds nothing, and the
    rest is the contraction's sum. -/
theorem matmul_zero_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    matmul d prec l r (constant so .f32 0x00000000#32) j = ∑ k : Fin K, l (li k) * r (ri k) :=
  (Ideal.matmul_constant_zero_apply d prec l r j).trans (contraction_sum_at d K hr hs l r j li ri hl hrr)

/-- The host's dot_general at output index j: the same sum, with no accumulator. -/
theorem dotGeneral_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    Host.dotGeneral d prec l r j = ∑ k : Fin K, l (li k) * r (ri k) :=
  (Ideal.dotGeneral_apply d prec .single l r j).trans (contraction_sum_at d K hr hs l r j li ri hl hrr)

end Cert.Lib.OneAxisDot

end
-- ==== Proof.LibMaxLane.lean ====
/-
  A lane maximum at the extended reals, for any shapes.

  A kernel's float maximum-reduction over ONE axis started from -inf (the word 0xFF800000), read at a reduced index,
  is the supremum over that axis's coordinates of the operand at the index with the coordinate put back: the mirror,
  for the lane reduction, of the host's maximum and of the lane minimum. It rests on the same two facts: the word
  0xFF800000 denotes -inf, and a fold of max started from the least element over a whole finite range is the supremum.
-/
import Idealize.ShloMosaic.PureOps.Ideal.Laws
import Idealize.ShloMosaic.PureOps.Reduce
import proofs.«181279_j10471130267897_2_alg».proof.Proof.LibMaxReduce

noncomputable section

open scoped BigOperators

namespace Cert.Lib.MaxLane

open Idealize.ShloMosaic

/-- A kernel's lane maximum over one axis started from -inf, at reduced index j: the supremum over that axis's
    coordinates k of the operand at j with k put back (`h.lift j k`). The accumulator's proof is taken as the
    printed program spells it. -/
theorem maxReduce_single {s t : Shape} {a : Fin s.rank} (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j = ⨆ k : Fin (s.size a), src (h.lift j k) := by
  refine (Ideal.multiReduction_maximumf_single src 0xFF800000#32 h hφ hacc j).trans ?_
  show (Finset.univ : Finset (Fin (s.size a))).fold max (Ideal.ofBits .f32 0xFF800000#32) (fun k => src (h.lift j k)) = _
  rw [Cert.Lib.MaxReduce.ofBits_neg_inf_f32]
  exact Cert.Lib.MaxReduce.fold_max_bot_eq_iSup _

end Cert.Lib.MaxLane

end
-- ==== Proof.LibKeepdimsColumn.lean ====
/-
  A per-row quantity carried back to a matrix's shape through a column.

  A reduction along the columns of an [a, b] matrix leaves a vector of a numbers, one per row. To combine it with the
  matrix again it is reshaped to an [a, 1] column and broadcast along the columns to [a, b]. Entry (p, q) of the
  result is the p-th number, whatever q: the reshape keeps the row-major position p, and the broadcast reads the
  column's only entry of row p. Stated for any extents a and b and any element type; nothing is computed.
-/
import Idealize.ShloMosaic.Lib.Pipeline.Value
import Idealize.ShloMosaic.Lib.ValueIdx

noncomputable section

namespace Cert.Lib.KeepdimsColumn

open Idealize.ShloMosaic Idealize.ShloMosaic.ValueIdx

/-- The [a] → [a, 1] reshape, entry (p, 0): the p-th number. -/
theorem column_cast_at {α : Type} {a : Nat} (u : (⟨1, ![a]⟩ : Shape).Idx → α)
    (h : (⟨1, ![a]⟩ : Shape).ShapeCasts ⟨2, ![a, 1]⟩) (p : Fin a) :
    shapeCast ⟨2, ![a, 1]⟩ u h (ix2 (n0 := a) (n1 := 1) p ⟨0, Nat.one_pos⟩) = u (ix1 p) :=
  shapeCast_apply u h _ (ix1 p) (by
    rw [Shape.rowMajor_val_one, Shape.rowMajor_val_two]
    show p.val = p.val * 1 + 0
    omega)

/-- The [a, 1] → [a, b] broadcast, entry (p, q): the column's entry of row p. -/
theorem column_broadcast_at {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 (n0 := a) (n1 := 1) p ⟨0, Nat.one_pos⟩) :=
  broadcastTo_apply v h (ix2 p q) _ (fun d => by
    match d with
    | ⟨0, _⟩ =>
      show p.val = if a = 1 then 0 else p.val
      split
      · have := p.isLt; omega
      · rfl
    | ⟨1, _⟩ =>
      show 0 = if (1 : Nat) = 1 then 0 else q.val
      rw [if_pos rfl])

/-- Both together: a vector of a numbers turned into a column and broadcast along the columns reads, at (p, q), the
    p-th number. -/
theorem column_at {α : Type} {a b : Nat} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) :=
  (column_broadcast_at _ hb p q).trans (column_cast_at u hc p)

end Cert.Lib.KeepdimsColumn

end
-- ==== Proof.Ideal.DispatchStep.lean ====
/-
  One pass of the dispatch body, entry by entry, at the extended reals.

  The body takes a tile x0 of 2048 tokens (1024 features each) and a block x1 of the mixture (1024 features by 256
  slots), and three running quantities per slot: the maximum M so far, the denominator L so far, and for every feature
  the weighted sum A so far. It forms the logits sc = x0 · x1 (a product into zero: a sum over the 1024 features),
  the new maximum m' = max(M, sup over the tile's tokens of sc), the rescaling factor exp(M − m'), the weights
  exp(sc − m'), the new denominator exp(M − m') · L + the sum of the tile's weights, and the new weighted sums
  exp(M − m') · A + (weights)ᵀ · x0. After the last tile it stores A / L, the column of denominators broadcast along
  the features. Narrowing a float is the identity here, a maximum over an axis started from −inf is a supremum, a sum
  over an axis started from 0 a finite sum, and reshapes, broadcasts and the transposition only rename indices.
-/
import proofs.«181279_j10471130267897_2_alg».proof.Proof.Gen.KernelIdeal.Skeleton
import proofs.«181279_j10471130267897_2_alg».proof.Proof.LibOneAxisDot
import proofs.«181279_j10471130267897_2_alg».proof.Proof.LibMaxLane
import proofs.«181279_j10471130267897_2_alg».proof.Proof.LibKeepdimsColumn
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Hand.DispatchStep

open Cert.KernelIdeal Cert.KernelIdeal.Gen
open Idealize.ShloMosaic Idealize.ShloMosaic.ValueIdx

/-! ## Columns of a [2048, 256] matrix -/

/-- Column s of the matrix with the row coordinate r put back is the entry (r, s). -/
theorem lift_col (h : S2048x256.Reduces [0] S256) (s : Fin 256) (r : Fin 2048) : h.lift (ix1 s) r = ix2 r s := by
  funext a
  match a with
  | ⟨0, _⟩ => exact Fin.ext rfl
  | ⟨1, _⟩ => exact Fin.ext rfl

/-! ## The two products' operand indices -/

/-- On an operand's free axis the index is the output's coordinate on the matching axis. -/
theorem lhs1_free (j : S2048x256.Idx) (q : dot_S2048x1024_S1024x256_S2048x256_1_0_0_1_n_n.contr.Idx) :
    (dot_S2048x1024_S1024x256_S2048x256_1_0_0_1_n_n.lhsIdx j q 0).val = (j 0).val := by
  unfold DotDims.lhsIdx
  rw [dif_neg (show ¬(0 : Fin S2048x1024.rank) ∈ dot_S2048x1024_S1024x256_S2048x256_1_0_0_1_n_n.lhsBatch by decide),
    dif_pos (show (0 : Fin S2048x1024.rank) ∈ dot_S2048x1024_S1024x256_S2048x256_1_0_0_1_n_n.lhsNonContracting by decide)]
  rfl

theorem rhs1_free (j : S2048x256.Idx) (q : dot_S2048x1024_S1024x256_S2048x256_1_0_0_1_n_n.contr.Idx) :
    (dot_S2048x1024_S1024x256_S2048x256_1_0_0_1_n_n.rhsIdx j q 1).val = (j 1).val := by
  unfold DotDims.rhsIdx
  rw [dif_neg (show ¬(1 : Fin S1024x256.rank) ∈ dot_S2048x1024_S1024x256_S2048x256_1_0_0_1_n_n.rhsBatch by decide),
    dif_pos (show (1 : Fin S1024x256.rank) ∈ dot_S2048x1024_S1024x256_S2048x256_1_0_0_1_n_n.rhsNonContracting by decide)]
  rfl

theorem lhs2_free (j : S256x1024.Idx) (q : dot_S2048x256_S2048x1024_S256x1024_0_0_1_1_n_n.contr.Idx) :
    (dot_S2048x256_S2048x1024_S256x1024_0_0_1_1_n_n.lhsIdx j q 1).val = (j 0).val := by
  unfold DotDims.lhsIdx
  rw [dif_neg (show ¬(1 : Fin S2048x256.rank) ∈ dot_S2048x256_S2048x1024_S256x1024_0_0_1_1_n_n.lhsBatch by decide),
    dif_pos (show (1 : Fin S2048x256.rank) ∈ dot_S2048x256_S2048x1024_S256x1024_0_0_1_1_n_n.lhsNonContracting by decide)]
  rfl

theorem rhs2_free (j : S256x1024.Idx) (q : dot_S2048x256_S2048x1024_S256x1024_0_0_1_1_n_n.contr.Idx) :
    (dot_S2048x256_S2048x1024_S256x1024_0_0_1_1_n_n.rhsIdx j q 1).val = (j 1).val := by
  unfold DotDims.rhsIdx
  rw [dif_neg (show ¬(1 : Fin S2048x1024.rank) ∈ dot_S2048x256_S2048x1024_S256x1024_0_0_1_1_n_n.rhsBatch by decide),
    dif_pos (show (1 : Fin S2048x1024.rank) ∈ dot_S2048x256_S2048x1024_S256x1024_0_0_1_1_n_n.rhsNonContracting by decide)]
  rfl

/-- Logits: the tile's index at output entry (r, s) and feature k is (r, k). -/
theorem lhs1_at (r : Fin 2048) (s : Fin 256) (k : Fin 1024) :
    dot_S2048x1024_S1024x256_S2048x256_1_0_0_1_n_n.lhsIdx (ix2 r s) ((contrEquiv1 dot_S2048x1024_S1024x256_S2048x256_1_0_0_1_n_n 1024 rfl rfl).symm k) = ix2 r k := by
  funext a
  refine Fin.ext ?_
  match a with
  | ⟨0, _⟩ => exact lhs1_free _ _
  | ⟨1, _⟩ =>
    exact (dot_S2048x1024_S1024x256_S2048x256_1_0_0_1_n_n.lhsIdx_val_of_single rfl _ _).trans (contrEquiv1_symm_val dot_S2048x1024_S1024x256_S2048x256_1_0_0_1_n_n 1024 rfl rfl k)

/-- Logits: the mixture's index at output entry (r, s) and feature k is (k, s). -/
theorem rhs1_at (r : Fin 2048) (s : Fin 256) (k : Fin 1024) :
    dot_S2048x1024_S1024x256_S2048x256_1_0_0_1_n_n.rhsIdx (ix2 r s) ((contrEquiv1 dot_S2048x1024_S1024x256_S2048x256_1_0_0_1_n_n 1024 rfl rfl).symm k) = ix2 k s := by
  funext a
  refine Fin.ext ?_
  match a with
  | ⟨0, _⟩ =>
    exact (dot_S2048x1024_S1024x256_S2048x256_1_0_0_1_n_n.rhsIdx_val_of_single rfl _ _).trans (contrEquiv1_symm_val dot_S2048x1024_S1024x256_S2048x256_1_0_0_1_n_n 1024 rfl rfl k)
  | ⟨1, _⟩ => exact rhs1_free _ _

/-- Weighted sums: the weights' index at output entry (s, d) and token k is (k, s). -/
theorem lhs2_at (s : Fin 256) (d : Fin 1024) (k : Fin 2048) :
    dot_S2048x256_S2048x1024_S256x1024_0_0_1_1_n_n.lhsIdx (ix2 s d) ((contrEquiv1 dot_S2048x256_S2048x1024_S256x1024_0_0_1_1_n_n 2048 rfl rfl).symm k) = ix2 k s := by
  funext a
  refine Fin.ext ?_
  match a with
  | ⟨0, _⟩ =>
    exact (dot_S2048x256_S2048x1024_S256x1024_0_0_1_1_n_n.lhsIdx_val_of_single rfl _ _).trans (contrEquiv1_symm_val dot_S2048x256_S2048x1024_S256x1024_0_0_1_1_n_n 2048 rfl rfl k)
  | ⟨1, _⟩ => exact lhs2_free _ _

/-- Weighted sums: the tile's index at output entry (s, d) and token k is (k, d). -/
theorem rhs2_at (s : Fin 256) (d : Fin 1024) (k : Fin 2048) :
    dot_S2048x256_S2048x1024_S256x1024_0_0_1_1_n_n.rhsIdx (ix2 s d) ((contrEquiv1 dot_S2048x256_S2048x1024_S256x1024_0_0_1_1_n_n 2048 rfl rfl).symm k) = ix2 k d := by
  funext a
  refine Fin.ext ?_
  match a with
  | ⟨0, _⟩ =>
    exact (dot_S2048x256_S2048x1024_S256x1024_0_0_1_1_n_n.rhsIdx_val_of_single rfl _ _).trans (contrEquiv1_symm_val dot_S2048x256_S2048x1024_S256x1024_0_0_1_1_n_n 2048 rfl rfl k)
  | ⟨1, _⟩ => exact rhs2_free _ _

/-! ## The pass, entry by entry -/

variable (x0 : Vec Ideal S2048x1024 .f32) (x1 : Vec Ideal S1024x256 .f32)

/-- The tile narrowed is the tile. -/
theorem tile_eq : (k0_pay6 (F := Ideal) x0 : S2048x1024.Idx → EReal) = x0 := by
  unfold k0_pay6
  rw [shapeCast_self]
  rfl

/-- The logits: entry (r, s) is the sum over the features of token r's feature times the mixture's entry. -/
theorem score_apply (r : Fin 2048) (s : Fin 256) :
    k0_pay7 (F := Ideal) x0 x1 (ix2 r s) = ∑ k : Fin 1024, x0 (ix2 r k) * x1 (ix2 k s) := by
  unfold k0_pay7
  refine (Cert.Lib.OneAxisDot.matmul_zero_apply_at dot_S2048x1024_S1024x256_S2048x256_1_0_0_1_n_n 1024 rfl rfl none _ _ (ix2 r s)
    (fun k => ix2 r k) (fun k => ix2 k s) (fun k => lhs1_at r s k) (fun k => rhs1_at r s k)).trans ?_
  refine Finset.sum_congr rfl fun k _ => ?_
  exact congrArg₂ (fun a b : EReal => a * b) (congrFun (tile_eq x0) (ix2 r k)) rfl

/-- The logits as stored (narrowed) are the logits. -/
theorem stored_score_apply (r : Fin 2048) (s : Fin 256) :
    k0_pay8 (F := Ideal) x0 x1 (ix2 r s) = k0_pay7 (F := Ideal) x0 x1 (ix2 r s) := rfl

variable (M M' L : Vec Ideal S1x256 .f32) (A : Vec Ideal S256x1024 .f32)

/-- The new maximum of slot s: the larger of the maximum so far and the tile's largest logit. -/
theorem newMax_apply (s : Fin 256) :
    k0_pay9 (F := Ideal) x0 x1 M (ix2 (0 : Fin 1) s)
      = max (M (ix2 (0 : Fin 1) s)) (⨆ r : Fin 2048, k0_pay7 (F := Ideal) x0 x1 (ix2 r s)) := by
  unfold k0_pay9
  refine congrArg (max (M (ix2 (0 : Fin 1) s))) ?_
  refine (shapeCast_a_1a_apply _ shapeCasts_S256_S1x256 (0 : Fin 1) s).trans ?_
  refine (Cert.Lib.MaxLane.maxReduce_single (k0_pay7 (F := Ideal) x0 x1) reduces_S2048x256_S256 _ _ (ix1 s)).trans ?_
  exact iSup_congr fun r => congrArg (k0_pay7 (F := Ideal) x0 x1) (lift_col _ s r)

/-- What is stored back as the maximum is the new maximum. -/
theorem storedMax_eq : (k0_pay13 (F := Ideal) x0 x1 M : S1x256.Idx → EReal) = k0_pay9 (F := Ideal) x0 x1 M := by
  unfold k0_pay13
  rw [shapeCast_self]

/-- The rescaling factor of slot s: exp(maximum so far − new maximum). -/
theorem rescale_apply (s : Fin 256) :
    k0_pay10 (F := Ideal) x0 x1 M M' (ix2 (0 : Fin 1) s)
      = Ideal.exp (M' (ix2 (0 : Fin 1) s) - k0_pay9 (F := Ideal) x0 x1 M (ix2 (0 : Fin 1) s)) := rfl

/-- The weight of token r for slot s: exp(logit − new maximum). -/
theorem weight_apply (r : Fin 2048) (s : Fin 256) :
    k0_pay11 (F := Ideal) x0 x1 M (ix2 r s)
      = Ideal.exp (k0_pay7 (F := Ideal) x0 x1 (ix2 r s) - k0_pay9 (F := Ideal) x0 x1 M (ix2 (0 : Fin 1) s)) := by
  unfold k0_pay11
  exact congrArg (fun b : EReal => Ideal.exp (k0_pay7 (F := Ideal) x0 x1 (ix2 r s) - b))
    (broadcastTo_1b_ab_apply _ broadcasts_S1x256_S2048x256 r s)

/-- The new denominator of slot s: the one so far rescaled, plus the tile's weights. -/
theorem newDen_apply (s : Fin 256) :
    k0_pay12 (F := Ideal) x0 x1 M M' L (ix2 (0 : Fin 1) s)
      = Ideal.exp (M' (ix2 (0 : Fin 1) s) - k0_pay9 (F := Ideal) x0 x1 M (ix2 (0 : Fin 1) s)) * L (ix2 (0 : Fin 1) s)
        + ∑ r : Fin 2048, Ideal.exp (k0_pay7 (F := Ideal) x0 x1 (ix2 r s) - k0_pay9 (F := Ideal) x0 x1 M (ix2 (0 : Fin 1) s)) := by
  unfold k0_pay12
  rw [shapeCast_self]
  refine congrArg (fun b : EReal => k0_pay10 (F := Ideal) x0 x1 M M' (ix2 (0 : Fin 1) s) * L (ix2 (0 : Fin 1) s) + b) ?_
  refine (shapeCast_a_1a_apply _ shapeCasts_S256_S1x256 (0 : Fin 1) s).trans ?_
  refine (Ideal.multiReduction_add_single (k0_pay11 (F := Ideal) x0 x1 M) 0x00000000#32 reduces_S2048x256_S256 _ _ (ix1 s)).trans ?_
  refine Finset.sum_congr rfl fun r _ => ?_
  rw [lift_col _ s r]
  exact weight_apply x0 x1 M r s

/-- The new weighted sum of slot s and feature d: the one so far rescaled, plus the tile's weighted features. -/
theorem newNum_apply (s : Fin 256) (d : Fin 1024) :
    k0_pay1 (F := Ideal) (k0_pay6 (F := Ideal) x0) (k0_pay11 (F := Ideal) x0 x1 M) (k0_pay14 (F := Ideal) x0 x1 M M') A (ix2 s d)
      = Ideal.exp (M' (ix2 (0 : Fin 1) s) - k0_pay9 (F := Ideal) x0 x1 M (ix2 (0 : Fin 1) s)) * A (ix2 s d)
        + ∑ r : Fin 2048, Ideal.exp (k0_pay7 (F := Ideal) x0 x1 (ix2 r s) - k0_pay9 (F := Ideal) x0 x1 M (ix2 (0 : Fin 1) s))
            * x0 (ix2 r d) := by
  unfold k0_pay1
  rw [shapeCast_self]
  refine congrArg₂ (fun a b : EReal => a * A (ix2 s d) + b) ?_ ?_
  · refine (Cert.Lib.KeepdimsColumn.column_broadcast_at _ broadcasts_S256x1_S256x1024 s d).trans ?_
    unfold k0_pay14
    exact transpose_ix2_apply _ transposes_S1x256_p1_0_S256x1 s (0 : Fin 1)
  · refine (Cert.Lib.OneAxisDot.matmul_zero_apply_at dot_S2048x256_S2048x1024_S256x1024_0_0_1_1_n_n 2048 rfl rfl none _ _ (ix2 s d)
      (fun k => ix2 k s) (fun k => ix2 k d) (fun k => lhs2_at s d k) (fun k => rhs2_at s d k)).trans ?_
    refine Finset.sum_congr rfl fun r _ => ?_
    exact congrArg₂ (fun a b : EReal => a * b) (weight_apply x0 x1 M r s) (congrFun (tile_eq x0) (ix2 r d))

/-- What is stored after the last tile: the weighted sum divided by the slot's denominator. -/
theorem quotient_apply (l : Vec Ideal S1x256 .f32) (acc : Vec Ideal S256x1024 .f32) (s : Fin 256) (d : Fin 1024) :
    k0_pay2 (F := Ideal) l acc (ix2 s d) = Ideal.div (acc (ix2 s d)) (l (ix2 (0 : Fin 1) s)) := by
  unfold k0_pay2
  refine congrArg (Ideal.div (acc (ix2 s d))) ?_
  refine (Cert.Lib.KeepdimsColumn.column_broadcast_at _ broadcasts_S256x1_S256x1024 s d).trans ?_
  exact transpose_ix2_apply _ transposes_S1x256_p1_0_S256x1 s (0 : Fin 1)

/-! ## Where the first tile starts from -/

/-- The maximum starts at −inf, -/
theorem startMax_apply (i : S1x256.Idx) : k0_pay3 (F := Ideal) i = (⊥ : EReal) := by
  unfold k0_pay3
  rw [shapeCast_self]
  exact Cert.Lib.MaxReduce.ofBits_neg_inf_f32
/-- the denominator at 0, -/
theorem startDen_apply (i : S1x256.Idx) : k0_pay4 (F := Ideal) i = (0 : EReal) := by
  unfold k0_pay4
  rw [shapeCast_self]
  exact Ideal.ofBits_zero_f32
/-- and every weighted sum at 0. -/
theorem startNum_apply (i : S256x1024.Idx) : k0_pay5 (F := Ideal) i = (0 : EReal) := by
  unfold k0_pay5
  rw [shapeCast_self]
  exact Ideal.ofBits_zero_f32

end Cert.Hand.DispatchStep

end
-- ==== Proof.LibOnlineSoftmax.lean ====
import Idealize.ShloMosaic.PureOps.Ideal

/-!
# The online (streaming) softmax recurrence equals the one-shot softmax

For real logits `s : ℕ → ℝ` and real values `v : ℕ → ℝ`, read in the extended reals, define for a prefix
of length `n`

* `runMax s n`   — the maximum of the first `n` logits (`⊥` for `n = 0`),
* `runDen s n`   — `∑_{j<n} exp (s j - runMax s n)`, the softmax denominator relative to that maximum,
* `runNum s v n` — `∑_{j<n} exp (s j - runMax s n) * v j`, the unnormalised weighted sum.

Appending a block of `T` further logits updates the three quantities by the streaming rule

  `m' = max m (block maximum)`,
  `l' = exp (m - m') * l + ∑_block exp (s - m')`,
  `a' = exp (m - m') * a + ∑_block exp (s - m') * v`,

(`runMax_add`, `runDen_add`, `runNum_add`), uniformly in `n` and `T`: from the empty prefix the old maximum
is `⊥`, `exp (⊥ - m') = exp ⊥ = 0` and the old sums are `0`. Normalising the accumulated numerator once
at the end equals summing the normalised weights (`softmax_final`).

For a nonempty prefix every quantity is the coercion of a real number (`runMax_real`, `runDen_pos_real`,
`runNum_real`), and the identities are proved in `ℝ` (`exp (a + b) = exp a * exp b`, distributivity) and
transported along the coercion; the extended reals themselves are not distributive at the infinities.
-/

open Idealize.ShloMosaic
open scoped BigOperators

noncomputable section

namespace LibOnlineSoftmax

/-! ### The coercion `ℝ → EReal` and finite sums, the exponential of a difference of reals -/

/-- The coercion `ℝ → EReal` commutes with finite sums. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The coercion `ℝ → EReal` commutes with `max`. -/
theorem coe_max (a b : ℝ) : ((max a b : ℝ) : EReal) = max (a : EReal) (b : EReal) :=
  EReal.coe_strictMono.monotone.map_max

/-- The extended exponential of a difference of two reals is the real exponential of the difference. -/
theorem exp_coe_sub (a b : ℝ) :
    Ideal.exp ((a : EReal) - (b : EReal)) = ((Real.exp (a - b) : ℝ) : EReal) := by
  rw [← EReal.coe_sub, Ideal.exp_coe]

/-! ### Suprema over `Fin T` and over `Finset.range T` -/

/-- A supremum over all of `Fin T` of a function of the underlying number is the supremum over
    `Finset.range T`. -/
theorem sup_univ_fin_eq_sup_range {α : Type*} [SemilatticeSup α] [OrderBot α] (T : ℕ) (f : ℕ → α) :
    (Finset.univ : Finset (Fin T)).sup (fun j => f j.val) = (Finset.range T).sup f := by
  refine le_antisymm (Finset.sup_le fun j _ => ?_) (Finset.sup_le fun j hj => ?_)
  · exact Finset.le_sup (f := f) (Finset.mem_range.2 j.isLt)
  · exact Finset.le_sup (f := fun j : Fin T => f j.val) (Finset.mem_univ ⟨j, Finset.mem_range.1 hj⟩)

/-- The indexed supremum `⨆ j : Fin T, f j` in a complete lattice is the supremum over `Finset.range T`. -/
theorem iSup_fin_eq_sup_range {α : Type*} [CompleteLattice α] (T : ℕ) (f : ℕ → α) :
    (⨆ j : Fin T, f j.val) = (Finset.range T).sup f :=
  (Finset.sup_univ_eq_iSup (fun j : Fin T => f j.val)).symm.trans (sup_univ_fin_eq_sup_range T f)

/-- The fold of `max` from `⊥` over all of `Fin T` (the form a maximum-reduction over one axis takes)
    is the supremum over `Finset.range T`. -/
theorem fold_max_bot_fin_eq_sup_range (T : ℕ) (f : ℕ → EReal) :
    (Finset.univ : Finset (Fin T)).fold max ⊥ (fun j => f j.val) = (Finset.range T).sup f :=
  sup_univ_fin_eq_sup_range T f

/-! ### The three running quantities -/

/-- The running maximum of the first `n` logits in the extended reals: `⊥` for `n = 0`. -/
def runMax (s : ℕ → ℝ) (n : ℕ) : EReal := (Finset.range n).sup fun j => ((s j : ℝ) : EReal)

/-- The running softmax denominator of the first `n` logits, relative to their maximum:
    `∑_{j<n} exp (s j - runMax s n)`. -/
def runDen (s : ℕ → ℝ) (n : ℕ) : EReal :=
  ∑ j ∈ Finset.range n, Ideal.exp ((s j : EReal) - runMax s n)

/-- The running unnormalised softmax-weighted sum of the first `n` values, relative to the maximum of the
    first `n` logits: `∑_{j<n} exp (s j - runMax s n) * v j`. -/
def runNum (s v : ℕ → ℝ) (n : ℕ) : EReal :=
  ∑ j ∈ Finset.range n, Ideal.exp ((s j : EReal) - runMax s n) * (v j : EReal)

/-- The maximum of no logits is `⊥`. -/
@[simp] theorem runMax_zero (s : ℕ → ℝ) : runMax s 0 = ⊥ := by
  simp [runMax]

/-- The denominator of no logits is `0`. -/
@[simp] theorem runDen_zero (s : ℕ → ℝ) : runDen s 0 = 0 := by
  simp [runDen]

/-- The weighted sum of no values is `0`. -/
@[simp] theorem runNum_zero (s v : ℕ → ℝ) : runNum s v 0 = 0 := by
  simp [runNum]

/-- One more logit: the new maximum is the maximum of the old one and the new logit. -/
theorem runMax_succ (s : ℕ → ℝ) (n : ℕ) : runMax s (n + 1) = max (runMax s n) (s n : EReal) := by
  unfold runMax
  rw [Finset.range_add_one, Finset.sup_insert]
  exact max_comm _ _

/-- Appending a block of `T` logits: the new maximum is the maximum of the old maximum and the block's
    maximum. Holds for every `n` and `T`, the empty prefix and the empty block included. -/
theorem runMax_add (s : ℕ → ℝ) (n T : ℕ) :
    runMax s (n + T) = max (runMax s n) ((Finset.range T).sup fun j => ((s (n + j) : ℝ) : EReal)) := by
  induction T with
  | zero => simp
  | succ T ih =>
    rw [← Nat.add_assoc, runMax_succ, ih, Finset.range_add_one, Finset.sup_insert, max_assoc]
    congr 1
    exact max_comm _ _

/-- The maximum of a nonempty prefix of real logits is a real number. -/
theorem runMax_real (s : ℕ → ℝ) {n : ℕ} (hn : 0 < n) : ∃ M : ℝ, runMax s n = (M : EReal) := by
  induction n with
  | zero => exact absurd hn (lt_irrefl 0)
  | succ k ih =>
    rcases Nat.eq_zero_or_pos k with rfl | hk
    · exact ⟨s 0, by rw [runMax_succ, runMax_zero, max_eq_right bot_le]⟩
    · obtain ⟨M, hM⟩ := ih hk
      exact ⟨max M (s k), by rw [runMax_succ, hM, coe_max]⟩

/-- When the running maximum is the real `M`, the denominator is the coercion of the real sum
    `∑_{j<n} exp (s j - M)`. -/
theorem runDen_of_max (s : ℕ → ℝ) {n : ℕ} {M : ℝ} (h : runMax s n = (M : EReal)) :
    runDen s n = ((∑ j ∈ Finset.range n, Real.exp (s j - M) : ℝ) : EReal) := by
  unfold runDen
  rw [h, coe_finset_sum]
  exact Finset.sum_congr rfl fun j _ => exp_coe_sub _ _

/-- When the running maximum is the real `M`, the weighted sum is the coercion of the real sum
    `∑_{j<n} exp (s j - M) * v j`. -/
theorem runNum_of_max (s v : ℕ → ℝ) {n : ℕ} {M : ℝ} (h : runMax s n = (M : EReal)) :
    runNum s v n = ((∑ j ∈ Finset.range n, Real.exp (s j - M) * v j : ℝ) : EReal) := by
  unfold runNum
  rw [h, coe_finset_sum]
  exact Finset.sum_congr rfl fun j _ => by rw [exp_coe_sub, EReal.coe_mul]

/-- The denominator of a nonempty prefix is a positive real number. -/
theorem runDen_pos_real (s : ℕ → ℝ) {n : ℕ} (hn : 0 < n) :
    ∃ L : ℝ, 0 < L ∧ runDen s n = (L : EReal) := by
  obtain ⟨M, hM⟩ := runMax_real s hn
  refine ⟨_, ?_, runDen_of_max s hM⟩
  exact Finset.sum_pos (fun j _ => Real.exp_pos _) ⟨0, Finset.mem_range.2 hn⟩

/-- The weighted sum over a nonempty prefix is a real number. -/
theorem runNum_real (s v : ℕ → ℝ) {n : ℕ} (hn : 0 < n) : ∃ A : ℝ, runNum s v n = (A : EReal) := by
  obtain ⟨M, hM⟩ := runMax_real s hn
  exact ⟨_, runNum_of_max s v hM⟩

/-! ### One streaming step -/

/-- Appending a block of `T` logits rescales the old denominator by `exp (m - m')` and adds the block's
    terms relative to the new maximum `m'`. For `n = 0` the old maximum is `⊥`, `exp (⊥ - m') = 0` and the
    old denominator is `0`; for `n > 0` this is `exp (m - m') * exp (s j - m) = exp (s j - m')` in `ℝ`. -/
theorem runDen_add (s : ℕ → ℝ) (n T : ℕ) :
    runDen s (n + T) = Ideal.exp (runMax s n - runMax s (n + T)) * runDen s n
      + ∑ j ∈ Finset.range T, Ideal.exp ((s (n + j) : EReal) - runMax s (n + T)) := by
  rcases Nat.eq_zero_or_pos n with rfl | hn
  · rw [runMax_zero, EReal.bot_sub, Ideal.exp_bot, runDen_zero, mul_zero]
    simp only [zero_add]
    rfl
  · obtain ⟨M, hM⟩ := runMax_real s hn
    obtain ⟨M', hM'⟩ := runMax_real s (Nat.add_pos_left hn T)
    rw [runDen_of_max s hM', runDen_of_max s hM, hM, hM']
    simp only [exp_coe_sub]
    rw [← coe_finset_sum, ← EReal.coe_mul, ← EReal.coe_add]
    congr 1
    rw [Finset.sum_range_add, Finset.mul_sum]
    congr 1
    refine Finset.sum_congr rfl fun j _ => ?_
    rw [← Real.exp_add]
    congr 1
    ring

/-- Appending a block of `T` logits and values rescales the old weighted sum by `exp (m - m')` and adds
    the block's weighted terms relative to the new maximum `m'`; the cases are as in `runDen_add`. -/
theorem runNum_add (s v : ℕ → ℝ) (n T : ℕ) :
    runNum s v (n + T) = Ideal.exp (runMax s n - runMax s (n + T)) * runNum s v n
      + ∑ j ∈ Finset.range T,
          Ideal.exp ((s (n + j) : EReal) - runMax s (n + T)) * (v (n + j) : EReal) := by
  rcases Nat.eq_zero_or_pos n with rfl | hn
  · rw [runMax_zero, EReal.bot_sub, Ideal.exp_bot, runNum_zero, mul_zero]
    simp only [zero_add]
    rfl
  · obtain ⟨M, hM⟩ := runMax_real s hn
    obtain ⟨M', hM'⟩ := runMax_real s (Nat.add_pos_left hn T)
    rw [runNum_of_max s v hM', runNum_of_max s v hM, hM, hM']
    simp only [exp_coe_sub, ← EReal.coe_mul]
    rw [← coe_finset_sum, ← EReal.coe_add]
    congr 1
    rw [Finset.sum_range_add, Finset.mul_sum]
    congr 1
    refine Finset.sum_congr rfl fun j _ => ?_
    rw [← mul_assoc, ← Real.exp_add]
    congr 2
    ring

/-! ### The same steps in the forms a block reduction produces: a zero seed, an index in `Fin T` -/

/-- `runDen_add` with the block's sum started from the seed `0`. -/
theorem runDen_add_zero (s : ℕ → ℝ) (n T : ℕ) :
    runDen s (n + T) = Ideal.exp (runMax s n - runMax s (n + T)) * runDen s n
      + (0 + ∑ j ∈ Finset.range T, Ideal.exp ((s (n + j) : EReal) - runMax s (n + T))) := by
  rw [zero_add]; exact runDen_add s n T

/-- `runNum_add` with the block's sum started from the seed `0`. -/
theorem runNum_add_zero (s v : ℕ → ℝ) (n T : ℕ) :
    runNum s v (n + T) = Ideal.exp (runMax s n - runMax s (n + T)) * runNum s v n
      + (0 + ∑ j ∈ Finset.range T,
          Ideal.exp ((s (n + j) : EReal) - runMax s (n + T)) * (v (n + j) : EReal)) := by
  rw [zero_add]; exact runNum_add s v n T

/-- `runMax_add` with the block's maximum taken over `Fin T`. -/
theorem runMax_add_fin (s : ℕ → ℝ) (n T : ℕ) :
    runMax s (n + T)
      = max (runMax s n) ((Finset.univ : Finset (Fin T)).sup fun j => ((s (n + j.val) : ℝ) : EReal)) := by
  rw [sup_univ_fin_eq_sup_range T fun j => ((s (n + j) : ℝ) : EReal)]; exact runMax_add s n T

/-- `runMax_add` with the block's maximum written `⨆ j : Fin T, _`. -/
theorem runMax_add_iSup (s : ℕ → ℝ) (n T : ℕ) :
    runMax s (n + T) = max (runMax s n) (⨆ j : Fin T, ((s (n + j.val) : ℝ) : EReal)) := by
  rw [iSup_fin_eq_sup_range T fun j => ((s (n + j) : ℝ) : EReal)]; exact runMax_add s n T

/-- `runMax_add` with the block's maximum written as the fold of `max` from `⊥` over `Fin T`. -/
theorem runMax_add_fold (s : ℕ → ℝ) (n T : ℕ) :
    runMax s (n + T)
      = max (runMax s n)
          ((Finset.univ : Finset (Fin T)).fold max ⊥ fun j => ((s (n + j.val) : ℝ) : EReal)) := by
  rw [fold_max_bot_fin_eq_sup_range T fun j => ((s (n + j) : ℝ) : EReal)]; exact runMax_add s n T

/-- `runDen_add` with the block's sum taken over `Fin T`. -/
theorem runDen_add_fin (s : ℕ → ℝ) (n T : ℕ) :
    runDen s (n + T) = Ideal.exp (runMax s n - runMax s (n + T)) * runDen s n
      + ∑ j : Fin T, Ideal.exp ((s (n + j.val) : EReal) - runMax s (n + T)) := by
  rw [Fin.sum_univ_eq_sum_range fun j => Ideal.exp ((s (n + j) : EReal) - runMax s (n + T))]
  exact runDen_add s n T

/-- `runDen_add` with the block's sum taken over `Fin T` from the seed `0`. -/
theorem runDen_add_zero_fin (s : ℕ → ℝ) (n T : ℕ) :
    runDen s (n + T) = Ideal.exp (runMax s n - runMax s (n + T)) * runDen s n
      + (0 + ∑ j : Fin T, Ideal.exp ((s (n + j.val) : EReal) - runMax s (n + T))) := by
  rw [zero_add]; exact runDen_add_fin s n T

/-- `runNum_add` with the block's sum taken over `Fin T`. -/
theorem runNum_add_fin (s v : ℕ → ℝ) (n T : ℕ) :
    runNum s v (n + T) = Ideal.exp (runMax s n - runMax s (n + T)) * runNum s v n
      + ∑ j : Fin T, Ideal.exp ((s (n + j.val) : EReal) - runMax s (n + T)) * (v (n + j.val) : EReal) := by
  rw [Fin.sum_univ_eq_sum_range fun j =>
    Ideal.exp ((s (n + j) : EReal) - runMax s (n + T)) * (v (n + j) : EReal)]
  exact runNum_add s v n T

/-- `runNum_add` with the block's sum taken over `Fin T` from the seed `0`. -/
theorem runNum_add_zero_fin (s v : ℕ → ℝ) (n T : ℕ) :
    runNum s v (n + T) = Ideal.exp (runMax s n - runMax s (n + T)) * runNum s v n
      + (0 + ∑ j : Fin T,
          Ideal.exp ((s (n + j.val) : EReal) - runMax s (n + T)) * (v (n + j.val) : EReal)) := by
  rw [zero_add]; exact runNum_add_fin s v n T

/-! ### Normalising once at the end -/

/-- Dividing the accumulated weighted sum by the denominator equals summing the normalised weights
    times the values: `(∑ e_j v_j) / L = ∑ (e_j / L) v_j`. Valid because for a nonempty prefix every `e_j`,
    `v_j` is real and `L` is a positive real, so division by `L` is multiplication by the real `1 / L` and
    distributes over the finite sum. -/
theorem softmax_final (s v : ℕ → ℝ) {n : ℕ} (hn : 0 < n) :
    Ideal.div (runNum s v n) (runDen s n)
      = ∑ j ∈ Finset.range n,
          Ideal.div (Ideal.exp ((s j : EReal) - runMax s n)) (runDen s n) * (v j : EReal) := by
  obtain ⟨M, hM⟩ := runMax_real s hn
  obtain ⟨L, hL, hden⟩ := runDen_pos_real s hn
  rw [hden, runNum_of_max s v hM, hM]
  simp only [Ideal.div_coe hL.ne', exp_coe_sub, ← EReal.coe_mul]
  rw [← coe_finset_sum]
  congr 1
  rw [Finset.sum_mul]
  refine Finset.sum_congr rfl fun j _ => ?_
  ring

end LibOnlineSoftmax

end
-- ==== Proof.Ideal.DispatchMath.lean ====
/-
  The dispatch computed tile by tile equals the dispatch of the specification.

  For one slot s and one feature d, take the 32768 logits mt(t,s) and the 32768 token features X(t,d), in token order,
  all real numbers. The running quantities of the first n tokens are

    runMax n = the largest of the first n logits (-inf for n = 0),
    runDen n = sum over j < n of exp(logit j - runMax n),
    runNum n = sum over j < n of exp(logit j - runMax n) * feature j.

  Taking in the k-th tile of 2048 tokens (tokens 2048 k .. 2048 k + 2047) updates them by the streaming rule

    m' = max m (the tile's largest logit),   l' = exp(m - m') * l + sum over the tile of exp(logit - m'),
    a' = exp(m - m') * a + sum over the tile of exp(logit - m') * feature,

  from m = -inf, l = 0, a = 0; after the sixteenth tile runMax is the column maximum, runDen the softmax denominator,
  and runNum / runDen is the specification's dispatch entry (s, d): dividing the weighted sum once at the end is the
  same as summing the normalised weights, because every term is a real number and the denominator a positive one.
-/
import proofs.«181279_j10471130267897_2_alg».proof.Proof.LibOnlineSoftmax
import proofs.«181279_j10471130267897_2_alg».proof.Proof.Ideal.Spec

noncomputable section

open scoped BigOperators

namespace Cert.Hand.DispatchMath

open Idealize.ShloMosaic Idealize.ShloMosaic.ValueIdx LibOnlineSoftmax Cert.Hand

/-- The logits of slot s in token order, as real numbers (0 past the last token). -/
def logit (mt : (⟨2, ![32768, 512]⟩ : Shape).Idx → EReal) (s : Fin 512) : ℕ → ℝ :=
  fun j => if h : j < 32768 then (mt (ix2 (⟨j, h⟩ : Fin 32768) s)).toReal else 0

/-- Feature d of the tokens in token order, as real numbers (0 past the last token). -/
def feat (X : (⟨2, ![32768, 1024]⟩ : Shape).Idx → EReal) (d : Fin 1024) : ℕ → ℝ :=
  fun j => if h : j < 32768 then (X (ix2 (⟨j, h⟩ : Fin 32768) d)).toReal else 0

/-- Token r of tile k: token 2048 k + r. -/
def tileTok (k : Fin 16) (r : Fin 2048) : Fin 32768 := ⟨k.val * 2048 + r.val, by omega⟩

theorem tileTok_val (k : Fin 16) (r : Fin 2048) : (tileTok k r).val = k.val * 2048 + r.val := rfl

variable {mt : (⟨2, ![32768, 512]⟩ : Shape).Idx → EReal} {X : (⟨2, ![32768, 1024]⟩ : Shape).Idx → EReal}

/-- A real logit is the coercion of its real number. -/
theorem coe_logit (hmt : ∀ i, ∃ r : ℝ, mt i = (r : EReal)) (s : Fin 512) (t : Fin 32768) :
    ((logit mt s t.val : ℝ) : EReal) = mt (ix2 t s) := by
  obtain ⟨r, hr⟩ := hmt (ix2 t s)
  unfold logit
  rw [dif_pos t.isLt]
  show (((mt (ix2 t s)).toReal : ℝ) : EReal) = mt (ix2 t s)
  rw [hr, EReal.toReal_coe]

/-- A real feature is the coercion of its real number. -/
theorem coe_feat (hX : ∀ i, ∃ r : ℝ, X i = (r : EReal)) (d : Fin 1024) (t : Fin 32768) :
    ((feat X d t.val : ℝ) : EReal) = X (ix2 t d) := by
  obtain ⟨r, hr⟩ := hX (ix2 t d)
  unfold feat
  rw [dif_pos t.isLt]
  show (((X (ix2 t d)).toReal : ℝ) : EReal) = X (ix2 t d)
  rw [hr, EReal.toReal_coe]

/-! ## Before the first tile -/

theorem runMax_start (s : Fin 512) : runMax (logit mt s) (0 * 2048) = ⊥ := by rw [Nat.zero_mul]; exact runMax_zero _
theorem runDen_start (s : Fin 512) : runDen (logit mt s) (0 * 2048) = 0 := by rw [Nat.zero_mul]; exact runDen_zero _
theorem runNum_start (s : Fin 512) (d : Fin 1024) : runNum (logit mt s) (feat X d) (0 * 2048) = 0 := by
  rw [Nat.zero_mul]; exact runNum_zero _ _

/-! ## One tile -/

/-- The running maximum after tile k is the maximum of the one before it and the tile's largest logit. -/
theorem runMax_tile (hmt : ∀ i, ∃ r : ℝ, mt i = (r : EReal)) (s : Fin 512) (k : Fin 16) :
    runMax (logit mt s) ((k.val + 1) * 2048)
      = max (runMax (logit mt s) (k.val * 2048)) (⨆ r : Fin 2048, mt (ix2 (tileTok k r) s)) := by
  rw [Nat.succ_mul, runMax_add_iSup]
  exact congrArg _ (iSup_congr fun r => coe_logit hmt s (tileTok k r))

/-- The running denominator after tile k: the one before it rescaled, plus the tile's exponentials. -/
theorem runDen_tile (hmt : ∀ i, ∃ r : ℝ, mt i = (r : EReal)) (s : Fin 512) (k : Fin 16) :
    runDen (logit mt s) ((k.val + 1) * 2048)
      = Ideal.exp (runMax (logit mt s) (k.val * 2048) - runMax (logit mt s) ((k.val + 1) * 2048))
          * runDen (logit mt s) (k.val * 2048)
        + ∑ r : Fin 2048, Ideal.exp (mt (ix2 (tileTok k r) s) - runMax (logit mt s) ((k.val + 1) * 2048)) := by
  rw [Nat.succ_mul, runDen_add_fin]
  refine congrArg _ (Finset.sum_congr rfl fun r _ => ?_)
  rw [← coe_logit hmt s (tileTok k r)]
  rfl

/-- The running weighted sum after tile k: the one before it rescaled, plus the tile's weighted features. -/
theorem runNum_tile (hmt : ∀ i, ∃ r : ℝ, mt i = (r : EReal)) (hX : ∀ i, ∃ r : ℝ, X i = (r : EReal)) (s : Fin 512)
    (d : Fin 1024) (k : Fin 16) :
    runNum (logit mt s) (feat X d) ((k.val + 1) * 2048)
      = Ideal.exp (runMax (logit mt s) (k.val * 2048) - runMax (logit mt s) ((k.val + 1) * 2048))
          * runNum (logit mt s) (feat X d) (k.val * 2048)
        + ∑ r : Fin 2048, Ideal.exp (mt (ix2 (tileTok k r) s) - runMax (logit mt s) ((k.val + 1) * 2048))
            * X (ix2 (tileTok k r) d) := by
  rw [Nat.succ_mul, runNum_add_fin]
  refine congrArg _ (Finset.sum_congr rfl fun r _ => ?_)
  rw [← coe_logit hmt s (tileTok k r), ← coe_feat hX d (tileTok k r)]
  rfl

/-! ## After the last tile -/

/-- The running maximum over all the tokens is the column maximum. -/
theorem runMax_all (hmt : ∀ i, ∃ r : ℝ, mt i = (r : EReal)) (s : Fin 512) :
    runMax (logit mt s) 32768 = Spec.colMax mt s := by
  unfold Spec.colMax runMax
  rw [← iSup_fin_eq_sup_range 32768 fun j => ((logit mt s j : ℝ) : EReal)]
  exact iSup_congr fun t => coe_logit hmt s t

/-- The running denominator over all the tokens is the column's softmax denominator. -/
theorem runDen_all (hmt : ∀ i, ∃ r : ℝ, mt i = (r : EReal)) (s : Fin 512) :
    runDen (logit mt s) 32768 = Spec.colDen mt s := by
  unfold Spec.colDen runDen
  rw [← Fin.sum_univ_eq_sum_range (fun j => Ideal.exp (((logit mt s j : ℝ) : EReal) - runMax (logit mt s) 32768)) 32768,
    runMax_all hmt s]
  exact Finset.sum_congr rfl fun t _ => by rw [coe_logit hmt s t]

/-- Normalising the weighted sum once after the last tile gives the specification's dispatch entry. -/
theorem dispatch_eq (hmt : ∀ i, ∃ r : ℝ, mt i = (r : EReal)) (hX : ∀ i, ∃ r : ℝ, X i = (r : EReal)) (s : Fin 512)
    (d : Fin 1024) :
    Ideal.div (runNum (logit mt s) (feat X d) 32768) (runDen (logit mt s) 32768) = Spec.dispatch mt X (ix2 s d) := by
  rw [softmax_final (logit mt s) (feat X d) (by decide : 0 < 32768), Spec.dispatch_apply,
    ← Fin.sum_univ_eq_sum_range (fun j => Ideal.div (Ideal.exp (((logit mt s j : ℝ) : EReal) - runMax (logit mt s) 32768))
      (runDen (logit mt s) 32768) * ((feat X d j : ℝ) : EReal)) 32768, runMax_all hmt s, runDen_all hmt s]
  exact Finset.sum_congr rfl fun t _ => by rw [coe_logit hmt s t, coe_feat hX d t]; rfl

/-- The same with the last tile's count written as 16 tiles of 2048 tokens. -/
theorem dispatch_eq_tiles (hmt : ∀ i, ∃ r : ℝ, mt i = (r : EReal)) (hX : ∀ i, ∃ r : ℝ, X i = (r : EReal)) (s : Fin 512)
    (d : Fin 1024) :
    Ideal.div (runNum (logit mt s) (feat X d) ((15 + 1) * 2048)) (runDen (logit mt s) ((15 + 1) * 2048))
      = Spec.dispatch mt X (ix2 s d) := dispatch_eq hmt hX s d

/-! ## The streaming rule as a whole -/

/-- Any three sequences of extended reals that start at -inf, 0, 0 and follow the streaming rule through the sixteen
    tiles end with their quotient a / l equal to the specification's dispatch entry (s, d): by induction over the
    tiles they are the running maximum, denominator and weighted sum of the tokens taken in so far. -/
theorem stream_eq (hmt : ∀ i, ∃ r : ℝ, mt i = (r : EReal)) (hX : ∀ i, ∃ r : ℝ, X i = (r : EReal)) (s : Fin 512)
    (d : Fin 1024) (m l a : ℕ → EReal) (hm0 : m 0 = ⊥) (hl0 : l 0 = 0) (ha0 : a 0 = 0)
    (hm : ∀ k : Fin 16, m (k.val + 1) = max (m k.val) (⨆ r : Fin 2048, mt (ix2 (tileTok k r) s)))
    (hl : ∀ k : Fin 16, l (k.val + 1) = Ideal.exp (m k.val - m (k.val + 1)) * l k.val
      + ∑ r : Fin 2048, Ideal.exp (mt (ix2 (tileTok k r) s) - m (k.val + 1)))
    (ha : ∀ k : Fin 16, a (k.val + 1) = Ideal.exp (m k.val - m (k.val + 1)) * a k.val
      + ∑ r : Fin 2048, Ideal.exp (mt (ix2 (tileTok k r) s) - m (k.val + 1)) * X (ix2 (tileTok k r) d)) :
    (∀ k, k ≤ 16 → m k = runMax (logit mt s) (k * 2048) ∧ l k = runDen (logit mt s) (k * 2048)
        ∧ a k = runNum (logit mt s) (feat X d) (k * 2048))
      ∧ Ideal.div (a 16) (l 16) = Spec.dispatch mt X (ix2 s d) := by
  have key : ∀ k, k ≤ 16 → m k = runMax (logit mt s) (k * 2048) ∧ l k = runDen (logit mt s) (k * 2048)
      ∧ a k = runNum (logit mt s) (feat X d) (k * 2048) := by
    intro k
    induction k with
    | zero =>
      intro _
      exact ⟨hm0.trans (runMax_start s).symm, hl0.trans (runDen_start s).symm, ha0.trans (runNum_start s d).symm⟩
    | succ k ih =>
      intro hk
      obtain ⟨im, il, ia⟩ := ih (by omega)
      have hm' : m (k + 1) = max (m k) (⨆ r : Fin 2048, mt (ix2 (tileTok ⟨k, by omega⟩ r) s)) := hm ⟨k, by omega⟩
      have hl' : l (k + 1) = Ideal.exp (m k - m (k + 1)) * l k
          + ∑ r : Fin 2048, Ideal.exp (mt (ix2 (tileTok ⟨k, by omega⟩ r) s) - m (k + 1)) := hl ⟨k, by omega⟩
      have ha' : a (k + 1) = Ideal.exp (m k - m (k + 1)) * a k
          + ∑ r : Fin 2048, Ideal.exp (mt (ix2 (tileTok ⟨k, by omega⟩ r) s) - m (k + 1))
            * X (ix2 (tileTok ⟨k, by omega⟩ r) d) := ha ⟨k, by omega⟩
      have e1 : m (k + 1) = runMax (logit mt s) ((k + 1) * 2048) := by
        rw [hm', im]; exact (runMax_tile hmt s ⟨k, by omega⟩).symm
      refine ⟨e1, ?_, ?_⟩
      · rw [hl', e1, im, il]; exact (runDen_tile hmt s ⟨k, by omega⟩).symm
      · rw [ha', e1, im, ia]; exact (runNum_tile hmt hX s d ⟨k, by omega⟩).symm
  refine ⟨key, ?_⟩
  obtain ⟨_, e2, e3⟩ := key 16 le_rfl
  rw [e3, e2]
  exact dispatch_eq hmt hX s d

/-! ## Every running quantity of a nonempty prefix is a real number (the denominator a positive one) -/

theorem runMax_tile_real (s : Fin 512) (k : Fin 16) : ∃ M : ℝ, runMax (logit mt s) ((k.val + 1) * 2048) = (M : EReal) :=
  runMax_real _ (Nat.mul_pos (Nat.succ_pos _) (by decide))

theorem runDen_tile_pos_real (s : Fin 512) (k : Fin 16) :
    ∃ L : ℝ, 0 < L ∧ runDen (logit mt s) ((k.val + 1) * 2048) = (L : EReal) :=
  runDen_pos_real _ (Nat.mul_pos (Nat.succ_pos _) (by decide))

theorem runNum_tile_real (s : Fin 512) (d : Fin 1024) (k : Fin 16) :
    ∃ A : ℝ, runNum (logit mt s) (feat X d) ((k.val + 1) * 2048) = (A : EReal) :=
  runNum_real _ _ (Nat.mul_pos (Nat.succ_pos _) (by decide))

end Cert.Hand.DispatchMath

end
-- ==== Proof.Ideal.DispatchValue.lean ====
/-
  What the dispatch region leaves in its two output arrays, at the extended reals, at any contents V of the
  TensorCore's buffers when the region is entered whose tokens and mixture are real numbers.

  Grid point t = 16 j + k works on tile k of the tokens (rows 2048 k .. 2048 k + 2047) and on block j of the slots
  (columns 256 j .. 256 j + 255). Its logits block is that block of ONE function of the two arrays, the logits
  matrix, and the thirty-two blocks tile the logits array. The running maximum, denominator and weighted sums it
  keeps per slot are, after tile k, those of the first 2048 (k + 1) tokens; the block it writes after the last tile is
  the weighted sums divided by the denominators, which is the dispatch of the specification, and the two blocks
  (j = 0, 1) tile the slot-input array.
-/
import proofs.«181279_j10471130267897_2_alg».proof.Proof.Ideal.Dispatch.Pieces
import proofs.«181279_j10471130267897_2_alg».proof.Proof.Ideal.DispatchStep
import proofs.«181279_j10471130267897_2_alg».proof.Proof.Ideal.DispatchMath
import proofs.«181279_j10471130267897_2_alg».proof.Proof.Ideal.Spec
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Hand Cert.Hand.DispatchStep Cert.Hand.DispatchMath LibOnlineSoftmax

/-! ## The windows' block indices, decided over the thirty-two grid points -/

/-- The token tile is the point's position modulo 16, the slot block its quotient by 16. -/
theorem idx_facts0 : ∀ t : Fin cfg0.N, win0_0.index t (0 : Fin 2) = t.val % 16 ∧ win0_0.index t (1 : Fin 2) = 0
    ∧ win0_1.index t (0 : Fin 2) = 0 ∧ win0_1.index t (1 : Fin 2) = t.val / 16
    ∧ win0_2.index t (0 : Fin 2) = t.val / 16 ∧ win0_2.index t (1 : Fin 2) = 0
    ∧ win0_3.index t (0 : Fin 2) = t.val % 16 ∧ win0_3.index t (1 : Fin 2) = t.val / 16 :=
  (by decide +kernel : ∀ t : Fin grid0.N, _)

/-- The token that row r of point t's tile is. -/
def tok0 (t : Fin cfg0.N) (r : Fin 2048) : Fin 32768 :=
  ⟨(t.val % 16) * 2048 + r.val, by have := Nat.mod_lt t.val (by decide : 0 < 16); omega⟩
/-- The slot that column s of point t's block is. -/
def slot0 (t : Fin cfg0.N) (s : Fin 256) : Fin 512 :=
  ⟨(t.val / 16) * 256 + s.val, by have ht : t.val < 32 := lt_of_lt_of_eq t.isLt N_0; omega⟩

section
variable (V : (c : Dev nD) → (b : Ref sig .tc) → Buf (Elt Ideal) ((c : Thread nD τ).loc b)) (c : Dev nD)

/-! ## The input blocks -/

/-- Row r of point t's token tile is token `tok0 t r`. -/
theorem tile_read (t : Fin cfg0.N) (r : Fin 2048) (d : Fin 1024) :
    iblk0 V c 0 t (ix2 r d) = V c main_v0 (ix2 (tok0 t r) d) := by
  obtain ⟨e0, e1, e2, e3, e4, e5, e6, e7⟩ := idx_facts0 t
  show V c main_v0 (((cfg0.win 0).blk t).view.emb (ix2 r d)) = V c main_v0 (ix2 (tok0 t r) d)
  refine congrArg (V c main_v0) (funext fun a => Fin.ext ?_)
  match a with
  | ⟨0, _⟩ => show win0_0.index t (0 : Fin 2) * 2048 + 1 * r.val = (t.val % 16) * 2048 + r.val; omega
  | ⟨1, _⟩ => show win0_0.index t (1 : Fin 2) * 1024 + 1 * d.val = d.val; omega

/-- Column s of point t's mixture block is slot `slot0 t s`. -/
theorem mix_read (t : Fin cfg0.N) (d : Fin 1024) (s : Fin 256) :
    iblk0 V c 1 t (ix2 d s) = V c main_arg1 (ix2 d (slot0 t s)) := by
  obtain ⟨e0, e1, e2, e3, e4, e5, e6, e7⟩ := idx_facts0 t
  show V c main_arg1 (((cfg0.win 1).blk t).view.emb (ix2 d s)) = V c main_arg1 (ix2 d (slot0 t s))
  refine congrArg (V c main_arg1) (funext fun a => Fin.ext ?_)
  match a with
  | ⟨0, _⟩ => show win0_1.index t (0 : Fin 2) * 1024 + 1 * d.val = d.val; omega
  | ⟨1, _⟩ => show win0_1.index t (1 : Fin 2) * 256 + 1 * s.val = (t.val / 16) * 256 + s.val; omega

/-- The logits the body forms at point t are the logits matrix's block: entry (r, s) is the logit of token
    `tok0 t r` for slot `slot0 t s`. -/
theorem score_tile (t : Fin cfg0.N) (r : Fin 2048) (s : Fin 256) :
    k0_pay7 (F := Ideal) (iblk0 V c 0 t) (iblk0 V c 1 t) (ix2 r s)
      = Spec.mat (V c main_v0) (V c main_arg1) (ix2 (tok0 t r) (slot0 t s)) := by
  refine (score_apply (iblk0 V c 0 t) (iblk0 V c 1 t) r s).trans ?_
  rw [Spec.mat_apply]
  exact Finset.sum_congr rfl fun k _ => congrArg₂ (fun a b : EReal => a * b) (tile_read V c t r k) (mix_read V c t k s)

/-! ## The logits array -/

/-- Point t writes back its block of the logits matrix of the two arrays as the region finds them. -/
theorem flushed0_3_eq (t : Fin cfg0.N) :
    (dat0 V c).flushed 3 t
      = ((cfg0.win 3).blk t).view.read (Elt Ideal) (Spec.mat (V c main_v0) (V c main_arg1)) := by
  show (cfg0.win 3).cut (grid0.coords t) ((dat0 V c).after 3 t) = _
  rw [after0_3, out3_at]
  obtain ⟨e0, e1, e2, e3, e4, e5, e6, e7⟩ := idx_facts0 t
  funext j
  obtain ⟨r, s, rfl⟩ : ∃ (r : Fin 2048) (s : Fin 256), j = ix2 r s := ⟨j 0, j 1, eq_ix2 j⟩
  show k0_pay8 (F := Ideal) (iblk0 V c 0 t) (iblk0 V c 1 t) (ix2 r s)
    = Spec.mat (V c main_v0) (V c main_arg1) (((cfg0.win 3).blk t).view.emb (ix2 r s))
  refine (score_tile V c t r s).trans ?_
  refine congrArg (Spec.mat (V c main_v0) (V c main_arg1)) (funext fun a => Fin.ext ?_)
  match a with
  | ⟨0, _⟩ => show (t.val % 16) * 2048 + r.val = win0_3.index t (0 : Fin 2) * 2048 + 1 * r.val; omega
  | ⟨1, _⟩ => show (t.val / 16) * 256 + s.val = win0_3.index t (1 : Fin 2) * 256 + 1 * s.val; omega

/-- An index of the logits array is in point t's block iff each coordinate is in the block's range on its axis. -/
theorem mem_blk0_3 (t : Fin cfg0.N) (i : S32768x512.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v1_1).slice (win0_3.rect t)).set ↔ _
  rw [View.set_slice_whole, Rect.mem_set_unit]
  exact Iff.rfl

/-- Entry (R, S) of the logits array is in the block of point 16 (S / 256) + R / 2048, which writes its block back. -/
theorem blocks_cover0_3 (i : S32768x512.Idx) :
    ∃ t : Fin cfg0.N, (cfg0.win 3).flush t = true ∧ i ∈ ((cfg0.win 3).blk t).view.set := by
  have hi0 : (i 0).val < 32768 := (i 0).isLt
  have hi1 : (i 1).val < 512 := (i 1).isLt
  obtain ⟨t, ht⟩ : ∃ t : Fin cfg0.N, t.val = 16 * ((i 1).val / 256) + (i 0).val / 2048 :=
    ⟨⟨16 * ((i 1).val / 256) + (i 0).val / 2048, by rw [show cfg0.N = 32 from N_0]; omega⟩, rfl⟩
  obtain ⟨e0, e1, e2, e3, e4, e5, e6, e7⟩ := idx_facts0 t
  refine ⟨t, flush0_3 t, ?_⟩
  rw [mem_blk0_3]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 256 ≤ (i 1).val ∧ (i 1).val < win0_3.index t (1 : Fin 2) * 256 + 256
    omega

/-- After the pipeline's thirty-two points the logits array holds the logits matrix of the tokens and the mixture
    as the region found them. -/
theorem arrAt0_3 : (dat0 V c).arrAt 3 cfg0.N = Spec.mat (V c main_v0) (V c main_arg1) :=
  (dat0 V c).arrAt_eq_of_cover 3 (Spec.mat (V c main_v0) (V c main_arg1))
    (fun t _ => flushed0_3_eq V c t) blocks_cover0_3

end

/-! ## One step keeps the running quantities -/

section Step

variable {mt : (⟨2, ![32768, 512]⟩ : Shape).Idx → EReal} {X : (⟨2, ![32768, 1024]⟩ : Shape).Idx → EReal}

/-- If before tile k the three quantities of slot S (column s of the block) are those of the first 2048 k tokens, the
    block's logits in column s are slot S's logits of tile k and the tile's rows are its tokens, then after the step
    they are those of the first 2048 (k + 1) tokens. -/
theorem step_inv (hmt : ∀ i, ∃ r : ℝ, mt i = (r : EReal)) (hX : ∀ i, ∃ r : ℝ, X i = (r : EReal))
    (S : Fin 512) (kv : ℕ) (hk : kv < 16) (s : Fin 256)
    (x0 : Vec Ideal S2048x1024 .f32) (x1 : Vec Ideal S1024x256 .f32) (M L : Vec Ideal S1x256 .f32) (A : Vec Ideal S256x1024 .f32)
    (hsc : ∀ r : Fin 2048, k0_pay7 (F := Ideal) x0 x1 (ix2 r s) = mt (ix2 (tileTok ⟨kv, hk⟩ r) S))
    (hx0 : ∀ (r : Fin 2048) (d : Fin 1024), x0 (ix2 r d) = X (ix2 (tileTok ⟨kv, hk⟩ r) d))
    (hM : M (ix2 (0 : Fin 1) s) = runMax (logit mt S) (kv * 2048))
    (hL : L (ix2 (0 : Fin 1) s) = runDen (logit mt S) (kv * 2048))
    (hA : ∀ d : Fin 1024, A (ix2 s d) = runNum (logit mt S) (feat X d) (kv * 2048)) :
    (step0 (F := Ideal) x0 x1 M L A).1 (ix2 (0 : Fin 1) s) = runMax (logit mt S) ((kv + 1) * 2048)
    ∧ (step0 (F := Ideal) x0 x1 M L A).2.1 (ix2 (0 : Fin 1) s) = runDen (logit mt S) ((kv + 1) * 2048)
    ∧ ∀ d : Fin 1024, (step0 (F := Ideal) x0 x1 M L A).2.2 (ix2 s d) = runNum (logit mt S) (feat X d) ((kv + 1) * 2048) := by
  have hnew : k0_pay9 (F := Ideal) x0 x1 M (ix2 (0 : Fin 1) s) = runMax (logit mt S) ((kv + 1) * 2048) := by
    rw [newMax_apply, hM, runMax_tile hmt S ⟨kv, hk⟩]
    exact congrArg _ (iSup_congr fun r => hsc r)
  refine ⟨?_, ?_, fun d => ?_⟩
  · show k0_pay13 (F := Ideal) x0 x1 M (ix2 (0 : Fin 1) s) = _
    exact (congrFun (storedMax_eq x0 x1 M) _).trans hnew
  · show k0_pay12 (F := Ideal) x0 x1 M M L (ix2 (0 : Fin 1) s) = _
    rw [newDen_apply, hnew, hM, hL, runDen_tile hmt S ⟨kv, hk⟩]
    exact congrArg _ (Finset.sum_congr rfl fun r _ => by rw [hsc r])
  · show k0_pay1 (F := Ideal) (k0_pay6 (F := Ideal) x0) (k0_pay11 (F := Ideal) x0 x1 M) (k0_pay14 (F := Ideal) x0 x1 M M) A (ix2 s d) = _
    rw [newNum_apply, hnew, hM, hA d, runNum_tile hmt hX S d ⟨kv, hk⟩]
    exact congrArg _ (Finset.sum_congr rfl fun r _ => by rw [hsc r, hx0 r d])

end Step

section
variable (V : (c : Dev nD) → (b : Ref sig .tc) → Buf (Elt Ideal) ((c : Thread nD τ).loc b)) (c : Dev nD)
variable (hX : ∀ i, ∃ r : ℝ, (V c main_v0 : S32768x1024.Idx → EReal) i = (r : EReal))
  (hmt : ∀ i, ∃ r : ℝ, Spec.mat (V c main_v0) (V c main_arg1) i = (r : EReal))

/-! ## The running quantities after every point -/

/-- What the invariant says at position n, for column s of the point's slot block. -/
def RunsAt (s : Fin 256) (n : ℕ) (hn : n < cfg0.N) : Prop :=
  (scr0 V c n hn).1 (ix2 (0 : Fin 1) s)
      = runMax (logit (Spec.mat (V c main_v0) (V c main_arg1)) (slot0 ⟨n, hn⟩ s)) ((n % 16 + 1) * 2048)
  ∧ (scr0 V c n hn).2.1 (ix2 (0 : Fin 1) s)
      = runDen (logit (Spec.mat (V c main_v0) (V c main_arg1)) (slot0 ⟨n, hn⟩ s)) ((n % 16 + 1) * 2048)
  ∧ ∀ d : Fin 1024, (scr0 V c n hn).2.2 (ix2 s d)
      = runNum (logit (Spec.mat (V c main_v0) (V c main_arg1)) (slot0 ⟨n, hn⟩ s)) (feat (V c main_v0) d) ((n % 16 + 1) * 2048)

include hX hmt in
/-- At a point where a new slot block starts the quantities are one step from −inf, 0, 0: those of the first tile. -/
theorem runs_first (s : Fin 256) (t : Fin cfg0.N) (h0 : t.val % 16 = 0) : RunsAt V c s t.val t.isLt := by
  unfold RunsAt
  rw [scr0_first V c t h0]
  refine step_inv hmt hX (slot0 t s) (t.val % 16) (Nat.mod_lt _ (by decide)) s (iblk0 V c 0 t) (iblk0 V c 1 t) _ _ _
    (fun r => score_tile V c t r s) (fun r d => tile_read V c t r d) ?_ ?_ (fun d => ?_)
  · rw [h0, Nat.zero_mul, runMax_zero]; exact startMax_apply _
  · rw [h0, Nat.zero_mul, runDen_zero]; exact startDen_apply _
  · rw [h0, Nat.zero_mul, runNum_zero]; exact startNum_apply _

include hX hmt in
/-- Elsewhere they are one step from the point before, which worked on the tile before of the same slot block. -/
theorem runs_next (s : Fin 256) (t : Fin cfg0.N) (h0 : ¬t.val % 16 = 0)
    (ih : RunsAt V c s (t.val - 1) (Nat.lt_of_le_of_lt (Nat.sub_le _ _) t.isLt)) : RunsAt V c s t.val t.isLt := by
  unfold RunsAt at ih ⊢
  obtain ⟨ihM, ihL, ihA⟩ := ih
  have hslot : slot0 ⟨t.val - 1, Nat.lt_of_le_of_lt (Nat.sub_le _ _) t.isLt⟩ s = slot0 t s := by
    refine Fin.ext ?_
    show (t.val - 1) / 16 * 256 + s.val = t.val / 16 * 256 + s.val
    omega
  have hk : (t.val - 1) % 16 + 1 = t.val % 16 := by omega
  rw [hslot, hk] at ihM ihL ihA
  rw [scr0_next V c t h0]
  exact step_inv hmt hX (slot0 t s) (t.val % 16) (Nat.mod_lt _ (by decide)) s (iblk0 V c 0 t) (iblk0 V c 1 t) _ _ _
    (fun r => score_tile V c t r s) (fun r d => tile_read V c t r d) ihM ihL ihA

include hX hmt in
/-- After every point the three scratch buffers hold the running maximum, denominator and weighted sums of the
    tokens of the tiles worked so far for the point's slot block. -/
theorem runs_all (s : Fin 256) : ∀ (n : ℕ) (hn : n < cfg0.N), RunsAt V c s n hn := by
  intro n
  induction n with
  | zero => intro hn; exact runs_first V c hX hmt s ⟨0, hn⟩ rfl
  | succ n ih =>
    intro hn
    by_cases h0 : (n + 1) % 16 = 0
    · exact runs_first V c hX hmt s ⟨n + 1, hn⟩ h0
    · exact runs_next V c hX hmt s ⟨n + 1, hn⟩ h0 (ih (Nat.lt_of_succ_lt hn))

/-! ## The slot-input array -/

include hX hmt in
/-- A point that ends a slot block writes back its block of any array G whose entries are the specification's
    dispatch of the logits and the tokens as the region finds them. -/
theorem flushed0_2_of (G : S512x1024.Idx → EReal)
    (hG : ∀ (S : Fin 512) (d : Fin 1024),
      G (ix2 S d) = Spec.dispatch (Spec.mat (V c main_v0) (V c main_arg1)) (V c main_v0) (ix2 S d))
    (t : Fin cfg0.N) (h15 : t.val % 16 = 15) :
    (dat0 V c).flushed 2 t = ((cfg0.win 2).blk t).view.read (Elt Ideal) G := by
  show (cfg0.win 2).cut (grid0.coords t) ((dat0 V c).after 2 t) = _
  rw [after0_2, out2_last V c t h15]
  obtain ⟨e0, e1, e2, e3, e4, e5, e6, e7⟩ := idx_facts0 t
  have hruns := fun s : Fin 256 => runs_all V c hX hmt s t.val t.isLt
  unfold RunsAt at hruns
  -- the two scratch buffers the quotient is taken of, as variables
  generalize (scr0 V c t.val t.isLt).2.1 = Lq at hruns ⊢
  generalize (scr0 V c t.val t.isLt).2.2 = Aq at hruns ⊢
  funext j
  obtain ⟨s, d, rfl⟩ : ∃ (s : Fin 256) (d : Fin 1024), j = ix2 s d := ⟨j 0, j 1, eq_ix2 j⟩
  show k0_pay2 (F := Ideal) Lq Aq (ix2 s d) = G (((cfg0.win 2).blk t).view.emb (ix2 s d))
  refine (quotient_apply Lq Aq s d).trans ?_
  obtain ⟨-, hL, hA⟩ := hruns s
  rw [hA d, hL, h15]
  refine (dispatch_eq_tiles hmt hX (slot0 t s) d).trans ?_
  refine (hG (slot0 t s) d).symm.trans ?_
  refine congrArg G (funext fun a => Fin.ext ?_)
  match a with
  | ⟨0, _⟩ => show (t.val / 16) * 256 + s.val = win0_2.index t (0 : Fin 2) * 256 + 1 * s.val; omega
  | ⟨1, _⟩ => show d.val = win0_2.index t (1 : Fin 2) * 1024 + 1 * d.val; omega

/-- An index of the slot-input array is in point t's block iff each coordinate is in the block's range on its axis. -/
theorem mem_blk0_2 (t : Fin cfg0.N) (i : S512x1024.Idx) :
    i ∈ ((cfg0.win 2).blk t).view.set ↔ ∀ a : Fin 2, win0_2.index t a * S256x1024.size a ≤ (i a).val
      ∧ (i a).val < win0_2.index t a * S256x1024.size a + S256x1024.size a := by
  show i ∈ ((View.whole main_v1_0).slice (win0_2.rect t)).set ↔ _
  rw [View.set_slice_whole, Rect.mem_set_unit]
  exact Iff.rfl

/-- Row R of the slot-input array is in the block of the point that ends slot block R / 256, which writes it back. -/
theorem blocks_cover0_2 (i : S512x1024.Idx) :
    ∃ t : Fin cfg0.N, (cfg0.win 2).flush t = true ∧ i ∈ ((cfg0.win 2).blk t).view.set := by
  have hi0 : (i 0).val < 512 := (i 0).isLt
  have hi1 : (i 1).val < 1024 := (i 1).isLt
  obtain ⟨t, ht⟩ : ∃ t : Fin cfg0.N, t.val = 16 * ((i 0).val / 256) + 15 :=
    ⟨⟨16 * ((i 0).val / 256) + 15, by rw [show cfg0.N = 32 from N_0]; omega⟩, rfl⟩
  obtain ⟨e0, e1, e2, e3, e4, e5, e6, e7⟩ := idx_facts0 t
  refine ⟨t, (flush0_2 t).mpr (by omega), ?_⟩
  rw [mem_blk0_2]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 1024 ≤ (i 1).val ∧ (i 1).val < win0_2.index t (1 : Fin 2) * 1024 + 1024
    omega

include hX hmt in
/-- After the pipeline's thirty-two points the slot-input array holds the specification's dispatch of the tokens and
    the mixture as the region found them. -/
theorem arrAt0_2 : (dat0 V c).arrAt 2 cfg0.N = Spec.xhat (V c main_v0) (V c main_arg1) :=
  (dat0 V c).arrAt_eq_of_cover 2 (Spec.xhat (V c main_v0) (V c main_arg1))
    (fun t ht => flushed0_2_of V c hX hmt (Spec.xhat (V c main_v0) (V c main_arg1)) (fun _ _ => rfl) t ((flush0_2 t).mp ht))
    blocks_cover0_2

end

end Cert.KernelIdeal.Hand

end
-- ==== Proof.Ideal.ValueMlp.lean ====
/-
  The expert kernel's stored value, at the extended reals.

  The kernel takes a block of eight experts: their [8, 8, 1024] slot inputs, three weight arrays [8, 1024, 256],
  [8, 256, 256], [8, 256, 1024] and three bias rows [8, 256], [8, 256], [8, 1024]. Per expert g and slot p it applies
  three dense layers, each a product over the contracted axis plus the expert's bias row, with a maximum against 0
  after the first two. At the extended reals the narrowing conversions before each product are the identity, and a
  product accumulated into zero is the sum of products over the contracted axis. So what is stored is

      out3b (hid2b (hid1b x W1 b1) W2 b2) W3 b3,

  the three layers below, which are the whole layer's three stages restricted to a block of eight experts.
-/
import proofs.«181279_j10471130267897_2_alg».proof.Proof.Gen.KernelIdeal.Skeleton
import proofs.«181279_j10471130267897_2_alg».proof.Proof.LibOneAxisDot
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Hand.ValueMlp

open Cert.KernelIdeal Cert.KernelIdeal.Gen
open Idealize.ShloMosaic Idealize.ShloMosaic.ValueIdx

/-! ## The three layers on a block of eight experts -/

/-- First layer: max(sum over d of xs(g,p,d) * W1(g,d,h) + b1(g,h), 0). -/
def hid1b (xs : (⟨3, ![8, 8, 1024]⟩ : Shape).Idx → EReal) (W1 : (⟨3, ![8, 1024, 256]⟩ : Shape).Idx → EReal)
    (b1 : (⟨2, ![8, 256]⟩ : Shape).Idx → EReal) : (⟨3, ![8, 8, 256]⟩ : Shape).Idx → EReal :=
  fun i => max ((∑ d : Fin 1024, xs (ix3 (⟨(i 0).val, (i 0).isLt⟩ : Fin 8) (⟨(i 1).val, (i 1).isLt⟩ : Fin 8) d)
      * W1 (ix3 (⟨(i 0).val, (i 0).isLt⟩ : Fin 8) d (⟨(i 2).val, (i 2).isLt⟩ : Fin 256)))
    + b1 (ix2 (⟨(i 0).val, (i 0).isLt⟩ : Fin 8) (⟨(i 2).val, (i 2).isLt⟩ : Fin 256))) 0

/-- Second layer: max(sum over h of h1(g,p,h) * W2(g,h,k) + b2(g,k), 0). -/
def hid2b (h1 : (⟨3, ![8, 8, 256]⟩ : Shape).Idx → EReal) (W2 : (⟨3, ![8, 256, 256]⟩ : Shape).Idx → EReal)
    (b2 : (⟨2, ![8, 256]⟩ : Shape).Idx → EReal) : (⟨3, ![8, 8, 256]⟩ : Shape).Idx → EReal :=
  fun i => max ((∑ h : Fin 256, h1 (ix3 (⟨(i 0).val, (i 0).isLt⟩ : Fin 8) (⟨(i 1).val, (i 1).isLt⟩ : Fin 8) h)
      * W2 (ix3 (⟨(i 0).val, (i 0).isLt⟩ : Fin 8) h (⟨(i 2).val, (i 2).isLt⟩ : Fin 256)))
    + b2 (ix2 (⟨(i 0).val, (i 0).isLt⟩ : Fin 8) (⟨(i 2).val, (i 2).isLt⟩ : Fin 256))) 0

/-- Third layer: sum over k of h2(g,p,k) * W3(g,k,d) + b3(g,d). -/
def out3b (h2 : (⟨3, ![8, 8, 256]⟩ : Shape).Idx → EReal) (W3 : (⟨3, ![8, 256, 1024]⟩ : Shape).Idx → EReal)
    (b3 : (⟨2, ![8, 1024]⟩ : Shape).Idx → EReal) : (⟨3, ![8, 8, 1024]⟩ : Shape).Idx → EReal :=
  fun i => (∑ k : Fin 256, h2 (ix3 (⟨(i 0).val, (i 0).isLt⟩ : Fin 8) (⟨(i 1).val, (i 1).isLt⟩ : Fin 8) k)
      * W3 (ix3 (⟨(i 0).val, (i 0).isLt⟩ : Fin 8) k (⟨(i 2).val, (i 2).isLt⟩ : Fin 1024)))
    + b3 (ix2 (⟨(i 0).val, (i 0).isLt⟩ : Fin 8) (⟨(i 2).val, (i 2).isLt⟩ : Fin 1024))

theorem hid1b_apply (xs : (⟨3, ![8, 8, 1024]⟩ : Shape).Idx → EReal) (W1 : (⟨3, ![8, 1024, 256]⟩ : Shape).Idx → EReal)
    (b1 : (⟨2, ![8, 256]⟩ : Shape).Idx → EReal) (g p : Fin 8) (h : Fin 256) :
    hid1b xs W1 b1 (ix3 g p h) = max ((∑ d : Fin 1024, xs (ix3 g p d) * W1 (ix3 g d h)) + b1 (ix2 g h)) 0 := rfl

theorem hid2b_apply (h1 : (⟨3, ![8, 8, 256]⟩ : Shape).Idx → EReal) (W2 : (⟨3, ![8, 256, 256]⟩ : Shape).Idx → EReal)
    (b2 : (⟨2, ![8, 256]⟩ : Shape).Idx → EReal) (g p : Fin 8) (k : Fin 256) :
    hid2b h1 W2 b2 (ix3 g p k) = max ((∑ h : Fin 256, h1 (ix3 g p h) * W2 (ix3 g h k)) + b2 (ix2 g k)) 0 := rfl

theorem out3b_apply (h2 : (⟨3, ![8, 8, 256]⟩ : Shape).Idx → EReal) (W3 : (⟨3, ![8, 256, 1024]⟩ : Shape).Idx → EReal)
    (b3 : (⟨2, ![8, 1024]⟩ : Shape).Idx → EReal) (g p : Fin 8) (d : Fin 1024) :
    out3b h2 W3 b3 (ix3 g p d) = (∑ k : Fin 256, h2 (ix3 g p k) * W3 (ix3 g k d)) + b3 (ix2 g d) := rfl

/-! ## A bias row carried to every slot: [a, c] regrouped to [a, 1, c] and broadcast to [a, b, c] -/

/-- The [a, c] → [a, 1, c] regrouping, entry (g, 0, q): entry (g, q). -/
theorem biasRow_cast_at {α : Type} {a c : Nat} (u : (⟨2, ![a, c]⟩ : Shape).Idx → α)
    (h : (⟨2, ![a, c]⟩ : Shape).ShapeCasts ⟨3, ![a, 1, c]⟩) (g : Fin a) (q : Fin c) :
    shapeCast ⟨3, ![a, 1, c]⟩ u h (ix3 (n0 := a) (n1 := 1) (n2 := c) g ⟨0, Nat.one_pos⟩ q) = u (ix2 g q) :=
  shapeCast_apply u h _ (ix2 g q) (by
    rw [Shape.rowMajor_val_two, Shape.rowMajor_val_three]
    show g.val * c + q.val = (g.val * 1 + 0) * c + q.val
    rw [Nat.mul_one, Nat.add_zero])

/-- The [a, 1, c] → [a, b, c] broadcast, entry (g, p, q): entry (g, 0, q). -/
theorem biasRow_broadcast_at {α : Type} {a b c : Nat} (v : (⟨3, ![a, 1, c]⟩ : Shape).Idx → α)
    (h : (⟨3, ![a, 1, c]⟩ : Shape).Broadcasts ⟨3, ![a, b, c]⟩) (g : Fin a) (p : Fin b) (q : Fin c) :
    broadcastTo ⟨3, ![a, b, c]⟩ v h (ix3 g p q) = v (ix3 (n0 := a) (n1 := 1) (n2 := c) g ⟨0, Nat.one_pos⟩ q) :=
  broadcastTo_apply v h (ix3 g p q) _ (fun d => by
    match d with
    | ⟨0, _⟩ =>
      show g.val = if a = 1 then 0 else g.val
      split
      · have := g.isLt; omega
      · rfl
    | ⟨1, _⟩ =>
      show 0 = if (1 : Nat) = 1 then 0 else p.val
      rw [if_pos rfl]
    | ⟨2, _⟩ =>
      show q.val = if c = 1 then 0 else q.val
      split
      · have := q.isLt; omega
      · rfl)

/-- Both together: the bias row read at (g, p, q) is its entry (g, q), whatever the slot p. -/
theorem biasRow_at {α : Type} {a b c : Nat} (u : (⟨2, ![a, c]⟩ : Shape).Idx → α)
    (hc : (⟨2, ![a, c]⟩ : Shape).ShapeCasts ⟨3, ![a, 1, c]⟩) (hb : (⟨3, ![a, 1, c]⟩ : Shape).Broadcasts ⟨3, ![a, b, c]⟩)
    (g : Fin a) (p : Fin b) (q : Fin c) :
    broadcastTo ⟨3, ![a, b, c]⟩ (shapeCast ⟨3, ![a, 1, c]⟩ u hc) hb (ix3 g p q) = u (ix2 g q) :=
  (biasRow_broadcast_at _ hb g p q).trans (biasRow_cast_at u hc g q)

/-! ## The three products' operand indices -/

/-! ### Product 1: [8, 8, 1024] by [8, 1024, 256], batched over the expert axis, contracting the axis of extent 1024 -/

theorem lhs1_0 (j : S8x8x256.Idx) (q : dot_S8x8x1024_S8x1024x256_S8x8x256_2_1_1_2_0_0.contr.Idx) : (dot_S8x8x1024_S8x1024x256_S8x8x256_2_1_1_2_0_0.lhsIdx j q 0).val = (j 0).val := by
  unfold DotDims.lhsIdx
  rw [dif_pos (show (0 : Fin S8x8x1024.rank) ∈ dot_S8x8x1024_S8x1024x256_S8x8x256_2_1_1_2_0_0.lhsBatch by decide)]
  rfl
theorem lhs1_1 (j : S8x8x256.Idx) (q : dot_S8x8x1024_S8x1024x256_S8x8x256_2_1_1_2_0_0.contr.Idx) : (dot_S8x8x1024_S8x1024x256_S8x8x256_2_1_1_2_0_0.lhsIdx j q 1).val = (j 1).val := by
  unfold DotDims.lhsIdx
  rw [dif_neg (show ¬(1 : Fin S8x8x1024.rank) ∈ dot_S8x8x1024_S8x1024x256_S8x8x256_2_1_1_2_0_0.lhsBatch by decide),
    dif_pos (show (1 : Fin S8x8x1024.rank) ∈ dot_S8x8x1024_S8x1024x256_S8x8x256_2_1_1_2_0_0.lhsNonContracting by decide)]
  rfl
theorem rhs1_0 (j : S8x8x256.Idx) (q : dot_S8x8x1024_S8x1024x256_S8x8x256_2_1_1_2_0_0.contr.Idx) : (dot_S8x8x1024_S8x1024x256_S8x8x256_2_1_1_2_0_0.rhsIdx j q 0).val = (j 0).val := by
  unfold DotDims.rhsIdx
  rw [dif_pos (show (0 : Fin S8x1024x256.rank) ∈ dot_S8x8x1024_S8x1024x256_S8x8x256_2_1_1_2_0_0.rhsBatch by decide)]
  rfl
theorem rhs1_2 (j : S8x8x256.Idx) (q : dot_S8x8x1024_S8x1024x256_S8x8x256_2_1_1_2_0_0.contr.Idx) : (dot_S8x8x1024_S8x1024x256_S8x8x256_2_1_1_2_0_0.rhsIdx j q 2).val = (j 2).val := by
  unfold DotDims.rhsIdx
  rw [dif_neg (show ¬(2 : Fin S8x1024x256.rank) ∈ dot_S8x8x1024_S8x1024x256_S8x8x256_2_1_1_2_0_0.rhsBatch by decide),
    dif_pos (show (2 : Fin S8x1024x256.rank) ∈ dot_S8x8x1024_S8x1024x256_S8x8x256_2_1_1_2_0_0.rhsNonContracting by decide)]
  rfl

/-- The left operand's index at output entry (g, p, h) and contraction position k is (g, p, k). -/
theorem lhs1_at (g p : Fin 8) (h : Fin 256) (k : Fin 1024) :
    dot_S8x8x1024_S8x1024x256_S8x8x256_2_1_1_2_0_0.lhsIdx (ix3 g p h) ((contrEquiv1 dot_S8x8x1024_S8x1024x256_S8x8x256_2_1_1_2_0_0 1024 rfl rfl).symm k) = ix3 g p k := by
  funext a
  refine Fin.ext ?_
  match a with
  | ⟨0, _⟩ => exact lhs1_0 _ _
  | ⟨1, _⟩ => exact lhs1_1 _ _
  | ⟨2, _⟩ => exact (dot_S8x8x1024_S8x1024x256_S8x8x256_2_1_1_2_0_0.lhsIdx_val_of_single rfl _ _).trans (contrEquiv1_symm_val dot_S8x8x1024_S8x1024x256_S8x8x256_2_1_1_2_0_0 1024 rfl rfl k)

/-- The right operand's index at output entry (g, p, h) and contraction position k is (g, k, h). -/
theorem rhs1_at (g p : Fin 8) (h : Fin 256) (k : Fin 1024) :
    dot_S8x8x1024_S8x1024x256_S8x8x256_2_1_1_2_0_0.rhsIdx (ix3 g p h) ((contrEquiv1 dot_S8x8x1024_S8x1024x256_S8x8x256_2_1_1_2_0_0 1024 rfl rfl).symm k) = ix3 g k h := by
  funext a
  refine Fin.ext ?_
  match a with
  | ⟨0, _⟩ => exact rhs1_0 _ _
  | ⟨1, _⟩ => exact (dot_S8x8x1024_S8x1024x256_S8x8x256_2_1_1_2_0_0.rhsIdx_val_of_single rfl _ _).trans (contrEquiv1_symm_val dot_S8x8x1024_S8x1024x256_S8x8x256_2_1_1_2_0_0 1024 rfl rfl k)
  | ⟨2, _⟩ => exact rhs1_2 _ _

/-- The product accumulated into zero, at entry (g, p, h): the sum over k of left(g, p, k) times right(g, k, h). -/
theorem prod1_at (x : FVec Ideal S8x8x1024 .bf16) (w : FVec Ideal S8x1024x256 .bf16) (g p : Fin 8) (h : Fin 256) :
    matmul dot_S8x8x1024_S8x1024x256_S8x8x256_2_1_1_2_0_0 none x w (constant S8x8x256 .f32 0x00000000#32) (ix3 g p h)
      = ∑ k : Fin 1024, x (ix3 g p k) * w (ix3 g k h) :=
  Cert.Lib.OneAxisDot.matmul_zero_apply_at dot_S8x8x1024_S8x1024x256_S8x8x256_2_1_1_2_0_0 1024 rfl rfl none x w (ix3 g p h)
    (fun k => ix3 g p k) (fun k => ix3 g k h) (fun k => lhs1_at g p h k) (fun k => rhs1_at g p h k)

/-! ### Product 2: [8, 8, 256] by [8, 256, 256], batched over the expert axis, contracting the axis of extent 256 -/

theorem lhs2_0 (j : S8x8x256.Idx) (q : dot_S8x8x256_S8x256x256_S8x8x256_2_1_1_2_0_0.contr.Idx) : (dot_S8x8x256_S8x256x256_S8x8x256_2_1_1_2_0_0.lhsIdx j q 0).val = (j 0).val := by
  unfold DotDims.lhsIdx
  rw [dif_pos (show (0 : Fin S8x8x256.rank) ∈ dot_S8x8x256_S8x256x256_S8x8x256_2_1_1_2_0_0.lhsBatch by decide)]
  rfl
theorem lhs2_1 (j : S8x8x256.Idx) (q : dot_S8x8x256_S8x256x256_S8x8x256_2_1_1_2_0_0.contr.Idx) : (dot_S8x8x256_S8x256x256_S8x8x256_2_1_1_2_0_0.lhsIdx j q 1).val = (j 1).val := by
  unfold DotDims.lhsIdx
  rw [dif_neg (show ¬(1 : Fin S8x8x256.rank) ∈ dot_S8x8x256_S8x256x256_S8x8x256_2_1_1_2_0_0.lhsBatch by decide),
    dif_pos (show (1 : Fin S8x8x256.rank) ∈ dot_S8x8x256_S8x256x256_S8x8x256_2_1_1_2_0_0.lhsNonContracting by decide)]
  rfl
theorem rhs2_0 (j : S8x8x256.Idx) (q : dot_S8x8x256_S8x256x256_S8x8x256_2_1_1_2_0_0.contr.Idx) : (dot_S8x8x256_S8x256x256_S8x8x256_2_1_1_2_0_0.rhsIdx j q 0).val = (j 0).val := by
  unfold DotDims.rhsIdx
  rw [dif_pos (show (0 : Fin S8x256x256.rank) ∈ dot_S8x8x256_S8x256x256_S8x8x256_2_1_1_2_0_0.rhsBatch by decide)]
  rfl
theorem rhs2_2 (j : S8x8x256.Idx) (q : dot_S8x8x256_S8x256x256_S8x8x256_2_1_1_2_0_0.contr.Idx) : (dot_S8x8x256_S8x256x256_S8x8x256_2_1_1_2_0_0.rhsIdx j q 2).val = (j 2).val := by
  unfold DotDims.rhsIdx
  rw [dif_neg (show ¬(2 : Fin S8x256x256.rank) ∈ dot_S8x8x256_S8x256x256_S8x8x256_2_1_1_2_0_0.rhsBatch by decide),
    dif_pos (show (2 : Fin S8x256x256.rank) ∈ dot_S8x8x256_S8x256x256_S8x8x256_2_1_1_2_0_0.rhsNonContracting by decide)]
  rfl

/-- The left operand's index at output entry (g, p, h) and contraction position k is (g, p, k). -/
theorem lhs2_at (g p : Fin 8) (h : Fin 256) (k : Fin 256) :
    dot_S8x8x256_S8x256x256_S8x8x256_2_1_1_2_0_0.lhsIdx (ix3 g p h) ((contrEquiv1 dot_S8x8x256_S8x256x256_S8x8x256_2_1_1_2_0_0 256 rfl rfl).symm k) = ix3 g p k := by
  funext a
  refine Fin.ext ?_
  match a with
  | ⟨0, _⟩ => exact lhs2_0 _ _
  | ⟨1, _⟩ => exact lhs2_1 _ _
  | ⟨2, _⟩ => exact (dot_S8x8x256_S8x256x256_S8x8x256_2_1_1_2_0_0.lhsIdx_val_of_single rfl _ _).trans (contrEquiv1_symm_val dot_S8x8x256_S8x256x256_S8x8x256_2_1_1_2_0_0 256 rfl rfl k)

/-- The right operand's index at output entry (g, p, h) and contraction position k is (g, k, h). -/
theorem rhs2_at (g p : Fin 8) (h : Fin 256) (k : Fin 256) :
    dot_S8x8x256_S8x256x256_S8x8x256_2_1_1_2_0_0.rhsIdx (ix3 g p h) ((contrEquiv1 dot_S8x8x256_S8x256x256_S8x8x256_2_1_1_2_0_0 256 rfl rfl).symm k) = ix3 g k h := by
  funext a
  refine Fin.ext ?_
  match a with
  | ⟨0, _⟩ => exact rhs2_0 _ _
  | ⟨1, _⟩ => exact (dot_S8x8x256_S8x256x256_S8x8x256_2_1_1_2_0_0.rhsIdx_val_of_single rfl _ _).trans (contrEquiv1_symm_val dot_S8x8x256_S8x256x256_S8x8x256_2_1_1_2_0_0 256 rfl rfl k)
  | ⟨2, _⟩ => exact rhs2_2 _ _

/-- The product accumulated into zero, at entry (g, p, h): the sum over k of left(g, p, k) times right(g, k, h). -/
theorem prod2_at (x : FVec Ideal S8x8x256 .bf16) (w : FVec Ideal S8x256x256 .bf16) (g p : Fin 8) (h : Fin 256) :
    matmul dot_S8x8x256_S8x256x256_S8x8x256_2_1_1_2_0_0 none x w (constant S8x8x256 .f32 0x00000000#32) (ix3 g p h)
      = ∑ k : Fin 256, x (ix3 g p k) * w (ix3 g k h) :=
  Cert.Lib.OneAxisDot.matmul_zero_apply_at dot_S8x8x256_S8x256x256_S8x8x256_2_1_1_2_0_0 256 rfl rfl none x w (ix3 g p h)
    (fun k => ix3 g p k) (fun k => ix3 g k h) (fun k => lhs2_at g p h k) (fun k => rhs2_at g p h k)

/-! ### Product 3: [8, 8, 256] by [8, 256, 1024], batched over the expert axis, contracting the axis of extent 256 -/

theorem lhs3_0 (j : S8x8x1024.Idx) (q : dot_S8x8x256_S8x256x1024_S8x8x1024_2_1_1_2_0_0.contr.Idx) : (dot_S8x8x256_S8x256x1024_S8x8x1024_2_1_1_2_0_0.lhsIdx j q 0).val = (j 0).val := by
  unfold DotDims.lhsIdx
  rw [dif_pos (show (0 : Fin S8x8x256.rank) ∈ dot_S8x8x256_S8x256x1024_S8x8x1024_2_1_1_2_0_0.lhsBatch by decide)]
  rfl
theorem lhs3_1 (j : S8x8x1024.Idx) (q : dot_S8x8x256_S8x256x1024_S8x8x1024_2_1_1_2_0_0.contr.Idx) : (dot_S8x8x256_S8x256x1024_S8x8x1024_2_1_1_2_0_0.lhsIdx j q 1).val = (j 1).val := by
  unfold DotDims.lhsIdx
  rw [dif_neg (show ¬(1 : Fin S8x8x256.rank) ∈ dot_S8x8x256_S8x256x1024_S8x8x1024_2_1_1_2_0_0.lhsBatch by decide),
    dif_pos (show (1 : Fin S8x8x256.rank) ∈ dot_S8x8x256_S8x256x1024_S8x8x1024_2_1_1_2_0_0.lhsNonContracting by decide)]
  rfl
theorem rhs3_0 (j : S8x8x1024.Idx) (q : dot_S8x8x256_S8x256x1024_S8x8x1024_2_1_1_2_0_0.contr.Idx) : (dot_S8x8x256_S8x256x1024_S8x8x1024_2_1_1_2_0_0.rhsIdx j q 0).val = (j 0).val := by
  unfold DotDims.rhsIdx
  rw [dif_pos (show (0 : Fin S8x256x1024.rank) ∈ dot_S8x8x256_S8x256x1024_S8x8x1024_2_1_1_2_0_0.rhsBatch by decide)]
  rfl
theorem rhs3_2 (j : S8x8x1024.Idx) (q : dot_S8x8x256_S8x256x1024_S8x8x1024_2_1_1_2_0_0.contr.Idx) : (dot_S8x8x256_S8x256x1024_S8x8x1024_2_1_1_2_0_0.rhsIdx j q 2).val = (j 2).val := by
  unfold DotDims.rhsIdx
  rw [dif_neg (show ¬(2 : Fin S8x256x1024.rank) ∈ dot_S8x8x256_S8x256x1024_S8x8x1024_2_1_1_2_0_0.rhsBatch by decide),
    dif_pos (show (2 : Fin S8x256x1024.rank) ∈ dot_S8x8x256_S8x256x1024_S8x8x1024_2_1_1_2_0_0.rhsNonContracting by decide)]
  rfl

/-- The left operand's index at output entry (g, p, h) and contraction position k is (g, p, k). -/
theorem lhs3_at (g p : Fin 8) (h : Fin 1024) (k : Fin 256) :
    dot_S8x8x256_S8x256x1024_S8x8x1024_2_1_1_2_0_0.lhsIdx (ix3 g p h) ((contrEquiv1 dot_S8x8x256_S8x256x1024_S8x8x1024_2_1_1_2_0_0 256 rfl rfl).symm k) = ix3 g p k := by
  funext a
  refine Fin.ext ?_
  match a with
  | ⟨0, _⟩ => exact lhs3_0 _ _
  | ⟨1, _⟩ => exact lhs3_1 _ _
  | ⟨2, _⟩ => exact (dot_S8x8x256_S8x256x1024_S8x8x1024_2_1_1_2_0_0.lhsIdx_val_of_single rfl _ _).trans (contrEquiv1_symm_val dot_S8x8x256_S8x256x1024_S8x8x1024_2_1_1_2_0_0 256 rfl rfl k)

/-- The right operand's index at output entry (g, p, h) and contraction position k is (g, k, h). -/
theorem rhs3_at (g p : Fin 8) (h : Fin 1024) (k : Fin 256) :
    dot_S8x8x256_S8x256x1024_S8x8x1024_2_1_1_2_0_0.rhsIdx (ix3 g p h) ((contrEquiv1 dot_S8x8x256_S8x256x1024_S8x8x1024_2_1_1_2_0_0 256 rfl rfl).symm k) = ix3 g k h := by
  funext a
  refine Fin.ext ?_
  match a with
  | ⟨0, _⟩ => exact rhs3_0 _ _
  | ⟨1, _⟩ => exact (dot_S8x8x256_S8x256x1024_S8x8x1024_2_1_1_2_0_0.rhsIdx_val_of_single rfl _ _).trans (contrEquiv1_symm_val dot_S8x8x256_S8x256x1024_S8x8x1024_2_1_1_2_0_0 256 rfl rfl k)
  | ⟨2, _⟩ => exact rhs3_2 _ _

/-- The product accumulated into zero, at entry (g, p, h): the sum over k of left(g, p, k) times right(g, k, h). -/
theorem prod3_at (x : FVec Ideal S8x8x256 .bf16) (w : FVec Ideal S8x256x1024 .bf16) (g p : Fin 8) (h : Fin 1024) :
    matmul dot_S8x8x256_S8x256x1024_S8x8x1024_2_1_1_2_0_0 none x w (constant S8x8x1024 .f32 0x00000000#32) (ix3 g p h)
      = ∑ k : Fin 256, x (ix3 g p k) * w (ix3 g k h) :=
  Cert.Lib.OneAxisDot.matmul_zero_apply_at dot_S8x8x256_S8x256x1024_S8x8x1024_2_1_1_2_0_0 256 rfl rfl none x w (ix3 g p h)
    (fun k => ix3 g p k) (fun k => ix3 g k h) (fun k => lhs3_at g p h k) (fun k => rhs3_at g p h k)

/-! ## The kernel's layers are the block layers -/

/-- The zero the kernel takes the maximum against is the extended real 0. -/
theorem zero_splat_at {s : Shape} (i : s.Idx) :
    (broadcast s (Scalar.ofBits (F := Ideal) .f32 0x00000000#32) : FVec Ideal s .f32) i = 0 :=
  Ideal.ofBits_zero_f32

/-- The kernel's first layer (product, bias row, maximum against 0) is `hid1b`. -/
theorem layer1_eq (x : FVec Ideal S8x8x1024 .bf16) (w : FVec Ideal S8x1024x256 .bf16) (b : FVec Ideal S8x256 .f32) :
    maximumf
        (addf (matmul dot_S8x8x1024_S8x1024x256_S8x8x256_2_1_1_2_0_0 none x w (constant S8x8x256 .f32 0x00000000#32))
          (broadcastTo S8x8x256 (shapeCast S8x1x256 b shapeCasts_S8x256_S8x1x256) broadcasts_S8x1x256_S8x8x256))
        (broadcast S8x8x256 (Scalar.ofBits .f32 0x00000000#32))
      = hid1b x w b := by
  funext j
  obtain ⟨g, p, h, rfl⟩ : ∃ (g p : Fin 8) (h : Fin 256), j = ix3 g p h := ⟨j 0, j 1, j 2, eq_ix3 j⟩
  refine Eq.trans ?_ (hid1b_apply x w b g p h).symm
  exact congrArg₂ (fun u v : EReal => max u v)
    (congrArg₂ (fun u v : EReal => u + v) (prod1_at x w g p h)
      (biasRow_at b shapeCasts_S8x256_S8x1x256 broadcasts_S8x1x256_S8x8x256 g p h))
    (zero_splat_at _)

/-- The kernel's second layer is `hid2b`. -/
theorem layer2_eq (x : FVec Ideal S8x8x256 .bf16) (w : FVec Ideal S8x256x256 .bf16) (b : FVec Ideal S8x256 .f32) :
    maximumf
        (addf (matmul dot_S8x8x256_S8x256x256_S8x8x256_2_1_1_2_0_0 none x w (constant S8x8x256 .f32 0x00000000#32))
          (broadcastTo S8x8x256 (shapeCast S8x1x256 b shapeCasts_S8x256_S8x1x256) broadcasts_S8x1x256_S8x8x256))
        (broadcast S8x8x256 (Scalar.ofBits .f32 0x00000000#32))
      = hid2b x w b := by
  funext j
  obtain ⟨g, p, h, rfl⟩ : ∃ (g p : Fin 8) (h : Fin 256), j = ix3 g p h := ⟨j 0, j 1, j 2, eq_ix3 j⟩
  refine Eq.trans ?_ (hid2b_apply x w b g p h).symm
  exact congrArg₂ (fun u v : EReal => max u v)
    (congrArg₂ (fun u v : EReal => u + v) (prod2_at x w g p h)
      (biasRow_at b shapeCasts_S8x256_S8x1x256 broadcasts_S8x1x256_S8x8x256 g p h))
    (zero_splat_at _)

/-- The kernel's third layer (product and bias row) is `out3b`. -/
theorem layer3_eq (x : FVec Ideal S8x8x256 .bf16) (w : FVec Ideal S8x256x1024 .bf16) (b : FVec Ideal S8x1024 .f32) :
    addf (matmul dot_S8x8x256_S8x256x1024_S8x8x1024_2_1_1_2_0_0 none x w (constant S8x8x1024 .f32 0x00000000#32))
        (broadcastTo S8x8x1024 (shapeCast S8x1x1024 b shapeCasts_S8x1024_S8x1x1024) broadcasts_S8x1x1024_S8x8x1024)
      = out3b x w b := by
  funext j
  obtain ⟨g, p, d, rfl⟩ : ∃ (g p : Fin 8) (d : Fin 1024), j = ix3 g p d := ⟨j 0, j 1, j 2, eq_ix3 j⟩
  refine Eq.trans ?_ (out3b_apply x w b g p d).symm
  exact congrArg₂ (fun u v : EReal => u + v) (prod3_at x w g p d)
    (biasRow_at b shapeCasts_S8x1024_S8x1x1024 broadcasts_S8x1x1024_S8x8x1024 g p d)

/-! ## The stored value -/

/-- What the expert kernel stores, from the blocks it loads: the three block layers in a row. -/
theorem k1_pay1_eq (v0 : Vec Ideal S8x8x1024 .f32) (v3 : Vec Ideal S8x1024x256 .f32) (v6 : Vec Ideal S8x256 .f32)
    (v12 : Vec Ideal S8x256x256 .f32) (v16 : Vec Ideal S8x256 .f32) (v22 : Vec Ideal S8x256x1024 .f32)
    (v26 : Vec Ideal S8x1024 .f32) :
    k1_pay1 (F := Ideal) v0 v3 v6 v12 v16 v22 v26 = out3b (hid2b (hid1b v0 v3 v6) v12 v16) v22 v26 := by
  unfold k1_pay1
  refine (layer3_eq _ _ _).trans ?_
  refine congrArg (fun y => out3b y v22 v26) ?_
  refine (layer2_eq _ _ _).trans ?_
  refine congrArg (fun y => hid2b y v12 v16) ?_
  refine (layer1_eq _ _ _).trans ?_
  refine congrArg (fun y => hid1b y v3 v6) ?_
  exact shapeCast_self v0 shapeCasts_S8x8x1024_S8x8x1024

/-- The same at an entry (g, p, d). -/
theorem k1_pay1_apply (v0 : Vec Ideal S8x8x1024 .f32) (v3 : Vec Ideal S8x1024x256 .f32) (v6 : Vec Ideal S8x256 .f32)
    (v12 : Vec Ideal S8x256x256 .f32) (v16 : Vec Ideal S8x256 .f32) (v22 : Vec Ideal S8x256x1024 .f32)
    (v26 : Vec Ideal S8x1024 .f32) (g p : Fin 8) (d : Fin 1024) :
    k1_pay1 (F := Ideal) v0 v3 v6 v12 v16 v22 v26 (ix3 g p d)
      = (∑ k : Fin 256, hid2b (hid1b v0 v3 v6) v12 v16 (ix3 g p k) * v22 (ix3 g k d)) + v26 (ix2 g d) :=
  (congrFun (k1_pay1_eq v0 v3 v6 v12 v16 v22 v26) (ix3 g p d)).trans (out3b_apply _ v22 v26 g p d)

end Cert.Hand.ValueMlp

end
-- ==== Proof.Ideal.ArrMlp.lean ====
/-
  The second pallas_call's output array after its pipeline has run, at the extended reals and at any contents `V` of
  the TensorCore's buffers when the region is entered: the experts' three layers, applied to the slot-input array, the
  three weight arrays and the three bias arrays as the region finds them.

  Grid point t works on experts 8 t .. 8 t + 7 of every array. What it writes back is its block of ONE function of the
  seven arrays (the three layers), because an expert's outputs depend on that expert's inputs, weights and biases only;
  the eight blocks tile the output array.
-/
import proofs.«181279_j10471130267897_2_alg».proof.Proof.Ideal.FrameMlp
import proofs.«181279_j10471130267897_2_alg».proof.Proof.Ideal.ValueMlp
import proofs.«181279_j10471130267897_2_alg».proof.Proof.Ideal.Spec
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Hand Cert.Hand.ValueMlp

/-! ## The three layers on a block of eight experts -/

/-- If seven blocks hold, at their expert g, what the seven arrays hold at expert `up g`, then the three block layers
    at (g, p, d) are the three layers of the arrays at (up g, p, d). -/
theorem mlp_block (xs : (⟨3, ![64, 8, 1024]⟩ : Shape).Idx → EReal)
    (W1 : (⟨3, ![64, 1024, 256]⟩ : Shape).Idx → EReal) (b1 : (⟨2, ![64, 256]⟩ : Shape).Idx → EReal)
    (W2 : (⟨3, ![64, 256, 256]⟩ : Shape).Idx → EReal) (b2 : (⟨2, ![64, 256]⟩ : Shape).Idx → EReal)
    (W3 : (⟨3, ![64, 256, 1024]⟩ : Shape).Idx → EReal) (b3 : (⟨2, ![64, 1024]⟩ : Shape).Idx → EReal)
    (up : Fin 8 → Fin 64)
    (x0 : (⟨3, ![8, 8, 1024]⟩ : Shape).Idx → EReal)
    (x1 : (⟨3, ![8, 1024, 256]⟩ : Shape).Idx → EReal) (x2 : (⟨2, ![8, 256]⟩ : Shape).Idx → EReal)
    (x3 : (⟨3, ![8, 256, 256]⟩ : Shape).Idx → EReal) (x4 : (⟨2, ![8, 256]⟩ : Shape).Idx → EReal)
    (x5 : (⟨3, ![8, 256, 1024]⟩ : Shape).Idx → EReal) (x6 : (⟨2, ![8, 1024]⟩ : Shape).Idx → EReal)
    (h0 : ∀ (g p : Fin 8) (d : Fin 1024), x0 (ix3 g p d) = xs (ix3 (up g) p d))
    (h1 : ∀ (g : Fin 8) (d : Fin 1024) (h : Fin 256), x1 (ix3 g d h) = W1 (ix3 (up g) d h))
    (h2 : ∀ (g : Fin 8) (h : Fin 256), x2 (ix2 g h) = b1 (ix2 (up g) h))
    (h3 : ∀ (g : Fin 8) (h k : Fin 256), x3 (ix3 g h k) = W2 (ix3 (up g) h k))
    (h4 : ∀ (g : Fin 8) (k : Fin 256), x4 (ix2 g k) = b2 (ix2 (up g) k))
    (h5 : ∀ (g : Fin 8) (k : Fin 256) (d : Fin 1024), x5 (ix3 g k d) = W3 (ix3 (up g) k d))
    (h6 : ∀ (g : Fin 8) (d : Fin 1024), x6 (ix2 g d) = b3 (ix2 (up g) d))
    (g p : Fin 8) (d : Fin 1024) :
    out3b (hid2b (hid1b x0 x1 x2) x3 x4) x5 x6 (ix3 g p d) = Spec.mlp xs W1 b1 W2 b2 W3 b3 (ix3 (up g) p d) := by
  have H1 : ∀ (g p : Fin 8) (h : Fin 256), hid1b x0 x1 x2 (ix3 g p h) = Spec.hid1 xs W1 b1 (ix3 (up g) p h) :=
    fun g p h => by rw [hid1b_apply, Spec.hid1_apply]; simp only [h0, h1, h2]
  have H2 : ∀ (g p : Fin 8) (k : Fin 256),
      hid2b (hid1b x0 x1 x2) x3 x4 (ix3 g p k) = Spec.hid2 (Spec.hid1 xs W1 b1) W2 b2 (ix3 (up g) p k) :=
    fun g p k => by rw [hid2b_apply, Spec.hid2_apply]; simp only [H1, h3, h4]
  unfold Spec.mlp
  rw [out3b_apply, Spec.out3_apply]
  simp only [H2, h5, h6]

/-! ## The windows' block indices, decided over the eight grid points -/

theorem hz3 : (![0, 0, 0] : Fin 3 → Nat) = fun _ => 0 := funext fun a => by fin_cases a <;> rfl
theorem hz2' : (![0, 0] : Fin 2 → Nat) = fun _ => 0 := funext fun a => by fin_cases a <;> rfl

/-- Every window's expert-block index is the point; every other block index is 0. -/
theorem idx_facts1 : ∀ t : Fin cfg1.N, win1_0.index t (0 : Fin 3) = t.val
    ∧ win1_0.index t (1 : Fin 3) = 0
    ∧ win1_0.index t (2 : Fin 3) = 0
    ∧ win1_1.index t (0 : Fin 3) = t.val
    ∧ win1_1.index t (1 : Fin 3) = 0
    ∧ win1_1.index t (2 : Fin 3) = 0
    ∧ win1_2.index t (0 : Fin 2) = t.val
    ∧ win1_2.index t (1 : Fin 2) = 0
    ∧ win1_3.index t (0 : Fin 3) = t.val
    ∧ win1_3.index t (1 : Fin 3) = 0
    ∧ win1_3.index t (2 : Fin 3) = 0
    ∧ win1_4.index t (0 : Fin 2) = t.val
    ∧ win1_4.index t (1 : Fin 2) = 0
    ∧ win1_5.index t (0 : Fin 3) = t.val
    ∧ win1_5.index t (1 : Fin 3) = 0
    ∧ win1_5.index t (2 : Fin 3) = 0
    ∧ win1_6.index t (0 : Fin 2) = t.val
    ∧ win1_6.index t (1 : Fin 2) = 0
    ∧ win1_7.index t (0 : Fin 3) = t.val
    ∧ win1_7.index t (1 : Fin 3) = 0
    ∧ win1_7.index t (2 : Fin 3) = 0 :=
  (by decide +kernel : ∀ t : Fin grid1.N, _)

/-- The expert that expert g of point t's blocks is. -/
def row1 (t : Fin cfg1.N) (g : Fin 8) : Fin 64 :=
  ⟨t.val * 8 + g.val, by have ht : t.val < 8 := lt_of_lt_of_eq t.isLt N_1; omega⟩

section
variable (V : (c : Dev nD) → (b : Ref sig .tc) → Buf (Elt Ideal) ((c : Thread nD τ).loc b))

/-! ## What a point writes back -/

/-- Point t writes back its block of the three layers of the seven arrays as the region finds them. -/
theorem flushed1_7_eq (c : Dev nD) (t : Fin cfg1.N) :
    (dat1 V c).flushed 7 t
      = ((cfg1.win 7).blk t).view.read (Elt Ideal)
          (Spec.mlp (V c main_v2) (V c main_arg2) (V c main_arg3) (V c main_arg4) (V c main_arg5) (V c main_arg6) (V c main_arg7)) := by
  show (cfg1.win 7).cut (grid1.coords t) ((dat1 V c).after 7 t) = _
  rw [after1_7]
  unfold out1_7
  rw [View.canon_unit_zero hz3]
  simp only [View.ld_unit_zero (S := S8x8x1024) hz3, View.ld_unit_zero (S := S8x1024x256) hz3,
    View.ld_unit_zero (S := S8x256) hz2', View.ld_unit_zero (S := S8x256x256) hz3,
    View.ld_unit_zero (S := S8x256x1024) hz3, View.ld_unit_zero (S := S8x1024) hz2']
  obtain ⟨e0_0, e0_1, e0_2, e1_0, e1_1, e1_2, e2_0, e2_1, e3_0, e3_1, e3_2, e4_0, e4_1, e5_0, e5_1, e5_2, e6_0, e6_1, e7_0, e7_1, e7_2⟩ := idx_facts1 t
  funext j
  obtain ⟨g, p, d, rfl⟩ : ∃ (g p : Fin 8) (d : Fin 1024), j = ix3 g p d := ⟨j 0, j 1, j 2, eq_ix3 j⟩
  show k1_pay1 (F := Ideal) (iblk1 V c 0 t) (iblk1 V c 1 t) (iblk1 V c 2 t) (iblk1 V c 3 t) (iblk1 V c 4 t) (iblk1 V c 5 t)
      (iblk1 V c 6 t) (ix3 g p d)
    = Spec.mlp (V c main_v2) (V c main_arg2) (V c main_arg3) (V c main_arg4) (V c main_arg5) (V c main_arg6) (V c main_arg7)
        (((cfg1.win 7).blk t).view.emb (ix3 g p d))
  refine (congrFun (k1_pay1_eq _ _ _ _ _ _ _) (ix3 g p d)).trans ?_
  refine (mlp_block (V c main_v2) (V c main_arg2) (V c main_arg3) (V c main_arg4) (V c main_arg5) (V c main_arg6) (V c main_arg7)
    (row1 t) _ _ _ _ _ _ _ (fun g p d => ?_) (fun g d h => ?_) (fun g h => ?_) (fun g h k => ?_) (fun g k => ?_)
    (fun g k d => ?_) (fun g d => ?_) g p d).trans ?_
  · show V c main_v2 (((cfg1.win 0).blk t).view.emb (ix3 g p d)) = V c main_v2 (ix3 (row1 t g) p d)
    refine congrArg (V c main_v2) (funext fun a => Fin.ext ?_)
    match a with
    | ⟨0, _⟩ => show win1_0.index t (0 : Fin 3) * 8 + 1 * g.val = t.val * 8 + g.val; omega
    | ⟨1, _⟩ => show win1_0.index t (1 : Fin 3) * 8 + 1 * p.val = p.val; omega
    | ⟨2, _⟩ => show win1_0.index t (2 : Fin 3) * 1024 + 1 * d.val = d.val; omega
  · show V c main_arg2 (((cfg1.win 1).blk t).view.emb (ix3 g d h)) = V c main_arg2 (ix3 (row1 t g) d h)
    refine congrArg (V c main_arg2) (funext fun a => Fin.ext ?_)
    match a with
    | ⟨0, _⟩ => show win1_1.index t (0 : Fin 3) * 8 + 1 * g.val = t.val * 8 + g.val; omega
    | ⟨1, _⟩ => show win1_1.index t (1 : Fin 3) * 1024 + 1 * d.val = d.val; omega
    | ⟨2, _⟩ => show win1_1.index t (2 : Fin 3) * 256 + 1 * h.val = h.val; omega
  · show V c main_arg3 (((cfg1.win 2).blk t).view.emb (ix2 g h)) = V c main_arg3 (ix2 (row1 t g) h)
    refine congrArg (V c main_arg3) (funext fun a => Fin.ext ?_)
    match a with
    | ⟨0, _⟩ => show win1_2.index t (0 : Fin 2) * 8 + 1 * g.val = t.val * 8 + g.val; omega
    | ⟨1, _⟩ => show win1_2.index t (1 : Fin 2) * 256 + 1 * h.val = h.val; omega
  · show V c main_arg4 (((cfg1.win 3).blk t).view.emb (ix3 g h k)) = V c main_arg4 (ix3 (row1 t g) h k)
    refine congrArg (V c main_arg4) (funext fun a => Fin.ext ?_)
    match a with
    | ⟨0, _⟩ => show win1_3.index t (0 : Fin 3) * 8 + 1 * g.val = t.val * 8 + g.val; omega
    | ⟨1, _⟩ => show win1_3.index t (1 : Fin 3) * 256 + 1 * h.val = h.val; omega
    | ⟨2, _⟩ => show win1_3.index t (2 : Fin 3) * 256 + 1 * k.val = k.val; omega
  · show V c main_arg5 (((cfg1.win 4).blk t).view.emb (ix2 g k)) = V c main_arg5 (ix2 (row1 t g) k)
    refine congrArg (V c main_arg5) (funext fun a => Fin.ext ?_)
    match a with
    | ⟨0, _⟩ => show win1_4.index t (0 : Fin 2) * 8 + 1 * g.val = t.val * 8 + g.val; omega
    | ⟨1, _⟩ => show win1_4.index t (1 : Fin 2) * 256 + 1 * k.val = k.val; omega
  · show V c main_arg6 (((cfg1.win 5).blk t).view.emb (ix3 g k d)) = V c main_arg6 (ix3 (row1 t g) k d)
    refine congrArg (V c main_arg6) (funext fun a => Fin.ext ?_)
    match a with
    | ⟨0, _⟩ => show win1_5.index t (0 : Fin 3) * 8 + 1 * g.val = t.val * 8 + g.val; omega
    | ⟨1, _⟩ => show win1_5.index t (1 : Fin 3) * 256 + 1 * k.val = k.val; omega
    | ⟨2, _⟩ => show win1_5.index t (2 : Fin 3) * 1024 + 1 * d.val = d.val; omega
  · show V c main_arg7 (((cfg1.win 6).blk t).view.emb (ix2 g d)) = V c main_arg7 (ix2 (row1 t g) d)
    refine congrArg (V c main_arg7) (funext fun a => Fin.ext ?_)
    match a with
    | ⟨0, _⟩ => show win1_6.index t (0 : Fin 2) * 8 + 1 * g.val = t.val * 8 + g.val; omega
    | ⟨1, _⟩ => show win1_6.index t (1 : Fin 2) * 1024 + 1 * d.val = d.val; omega
  · refine congrArg (Spec.mlp (V c main_v2) (V c main_arg2) (V c main_arg3) (V c main_arg4) (V c main_arg5) (V c main_arg6) (V c main_arg7))
      (funext fun a => Fin.ext ?_)
    match a with
    | ⟨0, _⟩ => show t.val * 8 + g.val = win1_7.index t (0 : Fin 3) * 8 + 1 * g.val; omega
    | ⟨1, _⟩ => show p.val = win1_7.index t (1 : Fin 3) * 8 + 1 * p.val; omega
    | ⟨2, _⟩ => show d.val = win1_7.index t (2 : Fin 3) * 1024 + 1 * d.val; omega

/-! ## The blocks tile the output array -/

/-- An index of the output array is in point t's block iff each coordinate is in the block's range on its axis. -/
theorem mem_blk1_7 (t : Fin cfg1.N) (i : S64x8x1024.Idx) :
    i ∈ ((cfg1.win 7).blk t).view.set ↔ ∀ a : Fin 3, win1_7.index t a * S8x8x1024.size a ≤ (i a).val
      ∧ (i a).val < win1_7.index t a * S8x8x1024.size a + S8x8x1024.size a := by
  show i ∈ ((View.whole main_v3).slice (win1_7.rect t)).set ↔ _
  rw [View.set_slice_whole, Rect.mem_set_unit]
  exact Iff.rfl

/-- Expert i of the output array is in the block of point i / 8, which writes its block back. -/
theorem blocks_cover1 (i : S64x8x1024.Idx) :
    ∃ t : Fin cfg1.N, (cfg1.win 7).flush t = true ∧ i ∈ ((cfg1.win 7).blk t).view.set := by
  have hi0 : (i 0).val < 64 := (i 0).isLt
  have hi1 : (i 1).val < 8 := (i 1).isLt
  have hi2 : (i 2).val < 1024 := (i 2).isLt
  obtain ⟨t, ht⟩ : ∃ t : Fin cfg1.N, t.val = (i 0).val / 8 :=
    ⟨⟨(i 0).val / 8, by rw [show cfg1.N = 8 from N_1]; omega⟩, rfl⟩
  obtain ⟨e0_0, e0_1, e0_2, e1_0, e1_1, e1_2, e2_0, e2_1, e3_0, e3_1, e3_2, e4_0, e4_1, e5_0, e5_1, e5_2, e6_0, e6_1, e7_0, e7_1, e7_2⟩ := idx_facts1 t
  refine ⟨t, flush1_7 t, ?_⟩
  rw [mem_blk1_7]
  intro a
  match a with
  | ⟨0, _⟩ =>
    show win1_7.index t (0 : Fin 3) * 8 ≤ (i 0).val ∧ (i 0).val < win1_7.index t (0 : Fin 3) * 8 + 8
    omega
  | ⟨1, _⟩ =>
    show win1_7.index t (1 : Fin 3) * 8 ≤ (i 1).val ∧ (i 1).val < win1_7.index t (1 : Fin 3) * 8 + 8
    omega
  | ⟨2, _⟩ =>
    show win1_7.index t (2 : Fin 3) * 1024 ≤ (i 2).val ∧ (i 2).val < win1_7.index t (2 : Fin 3) * 1024 + 1024
    omega

/-! ## The output array after the run -/

/-- After the pipeline's eight points the output array holds the experts' three layers of the seven arrays as the
    region found them. -/
theorem arrAt1_7 (c : Dev nD) :
    (dat1 V c).arrAt 7 cfg1.N
      = Spec.mlp (V c main_v2) (V c main_arg2) (V c main_arg3) (V c main_arg4) (V c main_arg5) (V c main_arg6) (V c main_arg7) :=
  (dat1 V c).arrAt_eq_of_cover 7
    (Spec.mlp (V c main_v2) (V c main_arg2) (V c main_arg3) (V c main_arg4) (V c main_arg5) (V c main_arg6) (V c main_arg7))
    (fun t _ => flushed1_7_eq V c t) blocks_cover1

end

end Cert.KernelIdeal.Hand

end
-- ==== Proof.Ideal.ValueCombine.lean ====
/-
  The combine kernel's stored value, read at one entry, at the extended reals.

  The kernel takes a [2048, 512] block of logits (stored as 16-bit floats, widened on load) and the whole [512, 1024]
  matrix of slot outputs. Along each row of the block it takes the maximum, subtracts it, exponentiates, divides by
  the row's sum of exponentials, and multiplies the resulting weights into the slot outputs. At the extended reals
  the widening and narrowing conversions are the identity, a maximum over an axis started from -inf is a supremum, a
  sum over an axis started from 0 is a finite sum, and a matrix product accumulated into zero is the sum of products
  over the contracted axis. So entry (r, d) of what is stored is

      sum over s < 512 of ( exp(x(r,s) - sup_s' x(r,s')) / sum_s' exp(x(r,s') - sup_s'' x(r,s'')) ) * y(s,d).
-/
import proofs.«181279_j10471130267897_2_alg».proof.Proof.Gen.KernelIdeal.Skeleton
import proofs.«181279_j10471130267897_2_alg».proof.Proof.LibOneAxisDot
import proofs.«181279_j10471130267897_2_alg».proof.Proof.LibMaxLane
import proofs.«181279_j10471130267897_2_alg».proof.Proof.LibKeepdimsColumn
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Hand.ValueCombine

open Cert.KernelIdeal Cert.KernelIdeal.Gen
open Idealize.ShloMosaic Idealize.ShloMosaic.ValueIdx

/-! ## Rows of a [2048, 512] matrix -/

/-- Row r of the matrix with the column coordinate k put back is the entry (r, k). -/
theorem lift_row (h : S2048x512.Reduces [1] S2048) (r : Fin 2048) (k : Fin 512) : h.lift (ix1 r) k = ix2 r k := by
  funext a
  match a with
  | ⟨0, _⟩ => exact Fin.ext rfl
  | ⟨1, _⟩ => exact Fin.ext rfl

/-- A row's maximum, taken along the columns from -inf, turned into a column and broadcast back along the columns:
    entry (r, s) is the supremum of row r. -/
theorem rowMax_at (x : FVec Ideal S2048x512 .f32) (hφ : FKind.Formats .f32)
    (hacc : (0xFF800000#32 : BitVec 32) = FKind.maximumf.neutral .f32 hφ) (r : Fin 2048) (s : Fin 512) :
    broadcastTo S2048x512 (shapeCast S2048x1 (multiReduction .maximumf [1] S2048 x 0xFF800000#32 reduces_S2048x512_S2048 hφ hacc)
        shapeCasts_S2048_S2048x1) broadcasts_S2048x1_S2048x512 (ix2 r s)
      = ⨆ k : Fin 512, x (ix2 r k) := by
  refine (Cert.Lib.KeepdimsColumn.column_at _ shapeCasts_S2048_S2048x1 broadcasts_S2048x1_S2048x512 r s).trans ?_
  refine (Cert.Lib.MaxLane.maxReduce_single x reduces_S2048x512_S2048 hφ hacc (ix1 r)).trans ?_
  exact iSup_congr fun k => congrArg x (lift_row _ r k)

/-- A row's sum, taken along the columns from 0, turned into a column and broadcast back along the columns:
    entry (r, s) is the sum of row r. -/
theorem rowSum_at (x : FVec Ideal S2048x512 .f32) (hφ : FKind.Formats .f32)
    (hacc : (0x00000000#32 : BitVec 32) = FKind.add.neutral .f32 hφ) (r : Fin 2048) (s : Fin 512) :
    broadcastTo S2048x512 (shapeCast S2048x1 (multiReduction .add [1] S2048 x 0x00000000#32 reduces_S2048x512_S2048 hφ hacc)
        shapeCasts_S2048_S2048x1) broadcasts_S2048x1_S2048x512 (ix2 r s)
      = ∑ k : Fin 512, x (ix2 r k) := by
  refine (Cert.Lib.KeepdimsColumn.column_at _ shapeCasts_S2048_S2048x1 broadcasts_S2048x1_S2048x512 r s).trans ?_
  refine (Ideal.multiReduction_add_single x 0x00000000#32 reduces_S2048x512_S2048 hφ hacc (ix1 r)).trans ?_
  exact Finset.sum_congr rfl fun k _ => congrArg x (lift_row _ r k)

/-- The softmax of each row, as the kernel computes it, at entry (r, s): exp(x(r,s) - the row's supremum) divided by
    the row's sum of those exponentials. -/
theorem softmaxRow_at (x : FVec Ideal S2048x512 .f32) (hφ₁ : FKind.Formats .f32)
    (hacc₁ : (0xFF800000#32 : BitVec 32) = FKind.maximumf.neutral .f32 hφ₁) (hφ₂ : FKind.Formats .f32)
    (hacc₂ : (0x00000000#32 : BitVec 32) = FKind.add.neutral .f32 hφ₂) (r : Fin 2048) (s : Fin 512) :
    divf
        (exp (subf x (broadcastTo S2048x512 (shapeCast S2048x1
          (multiReduction .maximumf [1] S2048 x 0xFF800000#32 reduces_S2048x512_S2048 hφ₁ hacc₁) shapeCasts_S2048_S2048x1)
          broadcasts_S2048x1_S2048x512)))
        (broadcastTo S2048x512 (shapeCast S2048x1
          (multiReduction .add [1] S2048
            (exp (subf x (broadcastTo S2048x512 (shapeCast S2048x1
              (multiReduction .maximumf [1] S2048 x 0xFF800000#32 reduces_S2048x512_S2048 hφ₁ hacc₁) shapeCasts_S2048_S2048x1)
              broadcasts_S2048x1_S2048x512)))
            0x00000000#32 reduces_S2048x512_S2048 hφ₂ hacc₂) shapeCasts_S2048_S2048x1)
          broadcasts_S2048x1_S2048x512)
        (ix2 r s)
      = Ideal.div (Ideal.exp (x (ix2 r s) - ⨆ k : Fin 512, x (ix2 r k)))
          (∑ k : Fin 512, Ideal.exp (x (ix2 r k) - ⨆ k' : Fin 512, x (ix2 r k'))) := by
  refine congrArg₂ Ideal.div (congrArg Ideal.exp (congrArg (fun b : EReal => x (ix2 r s) - b) (rowMax_at x hφ₁ hacc₁ r s))) ?_
  refine (rowSum_at _ hφ₂ hacc₂ r s).trans ?_
  exact Finset.sum_congr rfl fun k _ =>
    congrArg Ideal.exp (congrArg (fun b : EReal => x (ix2 r k) - b) (rowMax_at x hφ₁ hacc₁ r k))

/-! ## The product's operand indices -/

/-- On the weights' row axis the index is the output's row. -/
theorem lhs_row (j : S2048x1024.Idx) (q : dot_S2048x512_S512x1024_S2048x1024_1_0_0_1_n_n.contr.Idx) :
    (dot_S2048x512_S512x1024_S2048x1024_1_0_0_1_n_n.lhsIdx j q 0).val = (j 0).val := by
  unfold DotDims.lhsIdx
  rw [dif_neg (show ¬(0 : Fin S2048x512.rank) ∈ dot_S2048x512_S512x1024_S2048x1024_1_0_0_1_n_n.lhsBatch by decide),
    dif_pos (show (0 : Fin S2048x512.rank) ∈ dot_S2048x512_S512x1024_S2048x1024_1_0_0_1_n_n.lhsNonContracting by decide)]
  rfl

/-- On the slot outputs' column axis the index is the output's column. -/
theorem rhs_col (j : S2048x1024.Idx) (q : dot_S2048x512_S512x1024_S2048x1024_1_0_0_1_n_n.contr.Idx) :
    (dot_S2048x512_S512x1024_S2048x1024_1_0_0_1_n_n.rhsIdx j q 1).val = (j 1).val := by
  unfold DotDims.rhsIdx
  rw [dif_neg (show ¬(1 : Fin S512x1024.rank) ∈ dot_S2048x512_S512x1024_S2048x1024_1_0_0_1_n_n.rhsBatch by decide),
    dif_pos (show (1 : Fin S512x1024.rank) ∈ dot_S2048x512_S512x1024_S2048x1024_1_0_0_1_n_n.rhsNonContracting by decide)]
  rfl

/-- The weights' index at output entry (r, d) and contraction position k is (r, k). -/
theorem lhs_at (r : Fin 2048) (d : Fin 1024) (k : Fin 512) :
    dot_S2048x512_S512x1024_S2048x1024_1_0_0_1_n_n.lhsIdx (ix2 r d)
        ((contrEquiv1 dot_S2048x512_S512x1024_S2048x1024_1_0_0_1_n_n 512 rfl rfl).symm k) = ix2 r k := by
  funext a
  refine Fin.ext ?_
  match a with
  | ⟨0, _⟩ => exact lhs_row _ _
  | ⟨1, _⟩ =>
    exact (dot_S2048x512_S512x1024_S2048x1024_1_0_0_1_n_n.lhsIdx_val_of_single rfl _ _).trans
      (contrEquiv1_symm_val dot_S2048x512_S512x1024_S2048x1024_1_0_0_1_n_n 512 rfl rfl k)

/-- The slot outputs' index at output entry (r, d) and contraction position k is (k, d). -/
theorem rhs_at (r : Fin 2048) (d : Fin 1024) (k : Fin 512) :
    dot_S2048x512_S512x1024_S2048x1024_1_0_0_1_n_n.rhsIdx (ix2 r d)
        ((contrEquiv1 dot_S2048x512_S512x1024_S2048x1024_1_0_0_1_n_n 512 rfl rfl).symm k) = ix2 k d := by
  funext a
  refine Fin.ext ?_
  match a with
  | ⟨0, _⟩ =>
    exact (dot_S2048x512_S512x1024_S2048x1024_1_0_0_1_n_n.rhsIdx_val_of_single rfl _ _).trans
      (contrEquiv1_symm_val dot_S2048x512_S512x1024_S2048x1024_1_0_0_1_n_n 512 rfl rfl k)
  | ⟨1, _⟩ => exact rhs_col _ _

/-! ## The stored value at an entry -/

/-- Entry (r, d) of what the combine kernel stores, from the logits block v0 and the slot outputs v13. -/
theorem k2_pay1_apply (v0 : Vec Ideal S2048x512 .bf16) (v13 : Vec Ideal S512x1024 .f32) (r : Fin 2048) (d : Fin 1024) :
    k2_pay1 (F := Ideal) v0 v13 (ix2 r d)
      = ∑ s : Fin 512, Ideal.div (Ideal.exp (v0 (ix2 r s) - ⨆ s' : Fin 512, v0 (ix2 r s')))
          (∑ s' : Fin 512, Ideal.exp (v0 (ix2 r s') - ⨆ s'' : Fin 512, v0 (ix2 r s''))) * v13 (ix2 s d) := by
  have hX : (extf .f32 (shapeCast S2048x512 v0 shapeCasts_S2048x512_S2048x512) bitsLt_bf16_f32 : FVec Ideal S2048x512 .f32) = v0 := by
    rw [shapeCast_self]; rfl
  have hY : (truncf .bf16 (shapeCast S512x1024 v13 shapeCasts_S512x1024_S512x1024) bitsLt_bf16_f32 : FVec Ideal S512x1024 .bf16) = v13 := by
    rw [shapeCast_self]; rfl
  unfold k2_pay1
  refine (Cert.Lib.OneAxisDot.matmul_zero_apply_at dot_S2048x512_S512x1024_S2048x1024_1_0_0_1_n_n 512 rfl rfl none _ _ (ix2 r d)
    (fun k => ix2 r k) (fun k => ix2 k d) (fun k => lhs_at r d k) (fun k => rhs_at r d k)).trans ?_
  refine Finset.sum_congr rfl fun s _ => ?_
  refine congrArg₂ (fun a b : EReal => a * b) ?_ (congrFun hY (ix2 s d))
  refine (softmaxRow_at _ _ _ _ _ r s).trans ?_
  rw [hX]

end Cert.Hand.ValueCombine

end
-- ==== Proof.Ideal.ArrCombine.lean ====
/-
  The third pallas_call's output array after its pipeline has run, at the extended reals and at any contents `V` of
  the TensorCore's buffers when the region is entered: the combine stage of the layer, applied to the logits array and
  the slot-output array as the region finds them.

  Grid point t works on rows 2048 t .. 2048 t + 2047 of the logits and of the output, and on the whole slot-output
  array. What it writes back is its block of ONE function of the two arrays (the combine stage), because each output
  row depends on the same row of the logits only; the sixteen blocks tile the output array.
-/
import proofs.«181279_j10471130267897_2_alg».proof.Proof.Ideal.FrameCombine
import proofs.«181279_j10471130267897_2_alg».proof.Proof.Ideal.ValueCombine
import proofs.«181279_j10471130267897_2_alg».proof.Proof.Ideal.Spec
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Hand

/-! ## The combine stage on a block of rows -/

/-- If a [2048, 512] block x0 holds, in its row r, row R of the logits mt, and x1 agrees with the slot outputs yh in
    column d, then the kernel's value at (r, d) — the softmax of row r of x0 against column d of x1 — is the combine
    stage of mt and yh at (R, d). -/
theorem comb_block (mt : (⟨2, ![32768, 512]⟩ : Shape).Idx → EReal) (yh : (⟨2, ![512, 1024]⟩ : Shape).Idx → EReal)
    (R : Fin 32768) (r : Fin 2048) (d : Fin 1024)
    (x0 : (⟨2, ![2048, 512]⟩ : Shape).Idx → EReal) (x1 : (⟨2, ![512, 1024]⟩ : Shape).Idx → EReal)
    (h0 : ∀ s : Fin 512, x0 (ix2 r s) = mt (ix2 R s)) (h1 : ∀ s : Fin 512, x1 (ix2 s d) = yh (ix2 s d)) :
    (∑ s : Fin 512, Ideal.div (Ideal.exp (x0 (ix2 r s) - ⨆ s' : Fin 512, x0 (ix2 r s')))
        (∑ s' : Fin 512, Ideal.exp (x0 (ix2 r s') - ⨆ s'' : Fin 512, x0 (ix2 r s''))) * x1 (ix2 s d))
      = Spec.comb mt yh (ix2 R d) := by
  rw [Spec.comb_apply]
  unfold Spec.combineW Spec.rowDen Spec.rowMax
  simp only [h0, h1]

/-! ## The windows' block indices, decided over the sixteen grid points -/

theorem hz2 : (![0, 0] : Fin 2 → Nat) = fun _ => 0 := funext fun a => by fin_cases a <;> rfl

/-- The logits' and the output's row-block index is the point; every other block index is 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The array row that row r of point t's blocks is. -/
def row2 (t : Fin cfg2.N) (r : Fin 2048) : Fin 32768 :=
  ⟨t.val * 2048 + r.val, by have ht : t.val < 16 := lt_of_lt_of_eq t.isLt N_2; omega⟩

section
variable (V : (c : Dev nD) → (b : Ref sig .tc) → Buf (Elt Ideal) ((c : Thread nD τ).loc b))

/-! ## What a point writes back -/

/-- Point t writes back its block of the combine stage of the two arrays as the region finds them. -/
theorem flushed2_2_eq (c : Dev nD) (t : Fin cfg2.N) :
    (dat2 V c).flushed 2 t
      = ((cfg2.win 2).blk t).view.read (Elt Ideal) (Spec.comb (V c main_v1_1) (V c main_v4)) := by
  show (cfg2.win 2).cut (grid2.coords t) ((dat2 V c).after 2 t) = _
  rw [after2_2]
  unfold out2_2
  rw [View.canon_unit_zero hz2]
  simp only [View.ld_unit_zero (S := S2048x512) hz2, View.ld_unit_zero (S := S512x1024) hz2]
  obtain ⟨e0, e1, e2, e3, e4, e5⟩ := idx_facts2 t
  funext j
  obtain ⟨r, d, rfl⟩ : ∃ (r : Fin 2048) (d : Fin 1024), j = ix2 r d := ⟨j 0, j 1, eq_ix2 j⟩
  show k2_pay1 (F := Ideal) (iblk2 V c 0 t) (iblk2 V c 1 t) (ix2 r d)
    = Spec.comb (V c main_v1_1) (V c main_v4) (((cfg2.win 2).blk t).view.emb (ix2 r d))
  refine (ValueCombine.k2_pay1_apply _ _ r d).trans ?_
  refine (comb_block (V c main_v1_1) (V c main_v4) (row2 t r) r d _ _ (fun s => ?_) (fun s => ?_)).trans ?_
  · show V c main_v1_1 (((cfg2.win 0).blk t).view.emb (ix2 r s)) = V c main_v1_1 (ix2 (row2 t r) s)
    refine congrArg (V c main_v1_1) (funext fun a => Fin.ext ?_)
    match a with
    | ⟨0, _⟩ => show win2_0.index t (0 : Fin 2) * 2048 + 1 * r.val = t.val * 2048 + r.val; omega
    | ⟨1, _⟩ => show win2_0.index t (1 : Fin 2) * 512 + 1 * s.val = s.val; omega
  · show V c main_v4 (((cfg2.win 1).blk t).view.emb (ix2 s d)) = V c main_v4 (ix2 s d)
    refine congrArg (V c main_v4) (funext fun a => Fin.ext ?_)
    match a with
    | ⟨0, _⟩ => show win2_1.index t (0 : Fin 2) * 512 + 1 * s.val = s.val; omega
    | ⟨1, _⟩ => show win2_1.index t (1 : Fin 2) * 1024 + 1 * d.val = d.val; omega
  · refine congrArg (Spec.comb (V c main_v1_1) (V c main_v4)) (funext fun a => Fin.ext ?_)
    match a with
    | ⟨0, _⟩ => show t.val * 2048 + r.val = win2_2.index t (0 : Fin 2) * 2048 + 1 * r.val; omega
    | ⟨1, _⟩ => show d.val = win2_2.index t (1 : Fin 2) * 1024 + 1 * d.val; omega

/-! ## The blocks tile the output array -/

/-- An index of the output array is in point t's block iff each coordinate is in the block's range on its axis. -/
theorem mem_blk2_2 (t : Fin cfg2.N) (i : S32768x1024.Idx) :
    i ∈ ((cfg2.win 2).blk t).view.set ↔ ∀ a : Fin 2, win2_2.index t a * S2048x1024.size a ≤ (i a).val
      ∧ (i a).val < win2_2.index t a * S2048x1024.size a + S2048x1024.size a := by
  show i ∈ ((View.whole main_v5).slice (win2_2.rect t)).set ↔ _
  rw [View.set_slice_whole, Rect.mem_set_unit]
  exact Iff.rfl

/-- Row i of the output array is in the block of point i / 2048, which writes its block back. -/
theorem blocks_cover2 (i : S32768x1024.Idx) :
    ∃ t : Fin cfg2.N, (cfg2.win 2).flush t = true ∧ i ∈ ((cfg2.win 2).blk t).view.set := by
  have hi0 : (i 0).val < 32768 := (i 0).isLt
  have hi1 : (i 1).val < 1024 := (i 1).isLt
  obtain ⟨t, ht⟩ : ∃ t : Fin cfg2.N, t.val = (i 0).val / 2048 :=
    ⟨⟨(i 0).val / 2048, by rw [show cfg2.N = 16 from N_2]; omega⟩, rfl⟩
  obtain ⟨e0, e1, e2, e3, e4, e5⟩ := idx_facts2 t
  refine ⟨t, flush2_2 t, ?_⟩
  rw [mem_blk2_2]
  intro a
  match a with
  | ⟨0, _⟩ =>
    show win2_2.index t (0 : Fin 2) * 2048 ≤ (i 0).val ∧ (i 0).val < win2_2.index t (0 : Fin 2) * 2048 + 2048
    omega
  | ⟨1, _⟩ =>
    show win2_2.index t (1 : Fin 2) * 1024 ≤ (i 1).val ∧ (i 1).val < win2_2.index t (1 : Fin 2) * 1024 + 1024
    omega

/-! ## The output array after the run -/

/-- After the pipeline's sixteen points the output array holds the combine stage of the logits array and the
    slot-output array as the region found them. -/
theorem arrAt2_2 (c : Dev nD) :
    (dat2 V c).arrAt 2 cfg2.N = Spec.comb (V c main_v1_1) (V c main_v4) :=
  (dat2 V c).arrAt_eq_of_cover 2 (Spec.comb (V c main_v1_1) (V c main_v4))
    (fun t _ => flushed2_2_eq V c t) blocks_cover2

end

end Cert.KernelIdeal.Hand

end
-- ==== Proof.Ideal.Reshapes.lean ====
/-
  The four row-major regroupings of the specification are shape casts: a shape cast keeps every entry's row-major
  position, and each regrouping of Spec.lean reads its operand at the index with the same row-major position
  (row 4096 b + t of [32768,1024] is entry (b,t) of [8,4096,1024]; row 8 n + p of [512,1024] is entry (n,p) of
  [64,8,1024]). Stated for any proof of the shape relation, over the literal shapes.
-/
import Idealize.ShloMosaic.Lib.Pipeline.Value
import proofs.«181279_j10471130267897_2_alg».proof.Proof.Ideal.Spec

noncomputable section

namespace Cert.Hand.Reshapes

open Idealize.ShloMosaic Idealize.ShloMosaic.ValueIdx Cert.Hand

/-- [8,4096,1024] cast to [32768,1024] is the flattening of the tokens. -/
theorem shapeCast_flat (tok : (⟨3, ![8, 4096, 1024]⟩ : Shape).Idx → EReal)
    (h : (⟨3, ![8, 4096, 1024]⟩ : Shape).ShapeCasts ⟨2, ![32768, 1024]⟩) :
    shapeCast (⟨2, ![32768, 1024]⟩ : Shape) tok h = Spec.flat tok := by
  funext i
  unfold Spec.flat
  refine shapeCast_apply tok h i _ ?_
  rewrite [Shape.rowMajor_val_three, Shape.rowMajor_val_two]
  have h0 : (i 0).val < 32768 := (i 0).isLt
  have h1 : (i 1).val < 1024 := (i 1).isLt
  show ((i 0).val / 4096 * 4096 + (i 0).val % 4096) * 1024 + (i 1).val = (i 0).val * 1024 + (i 1).val
  omega

/-- [512,1024] cast to [64,8,1024] groups the slot rows by expert. -/
theorem shapeCast_split (x : (⟨2, ![512, 1024]⟩ : Shape).Idx → EReal)
    (h : (⟨2, ![512, 1024]⟩ : Shape).ShapeCasts ⟨3, ![64, 8, 1024]⟩) :
    shapeCast (⟨3, ![64, 8, 1024]⟩ : Shape) x h = Spec.split x := by
  funext i
  unfold Spec.split
  refine shapeCast_apply x h i _ ?_
  rewrite [Shape.rowMajor_val_three, Shape.rowMajor_val_two]
  show ((i 0).val * 8 + (i 1).val) * 1024 + (i 2).val = ((i 0).val * 8 + (i 1).val) * 1024 + (i 2).val
  rfl

/-- [64,8,1024] cast to [512,1024] lays the experts' outputs out as slot rows. -/
theorem shapeCast_merge (y : (⟨3, ![64, 8, 1024]⟩ : Shape).Idx → EReal)
    (h : (⟨3, ![64, 8, 1024]⟩ : Shape).ShapeCasts ⟨2, ![512, 1024]⟩) :
    shapeCast (⟨2, ![512, 1024]⟩ : Shape) y h = Spec.merge y := by
  funext i
  unfold Spec.merge
  refine shapeCast_apply y h i _ ?_
  rewrite [Shape.rowMajor_val_three, Shape.rowMajor_val_two]
  have h0 : (i 0).val < 512 := (i 0).isLt
  have h1 : (i 1).val < 1024 := (i 1).isLt
  show ((i 0).val / 8 * 8 + (i 0).val % 8) * 1024 + (i 1).val = (i 0).val * 1024 + (i 1).val
  omega

/-- [32768,1024] cast to [8,4096,1024] regroups the rows by batch. -/
theorem shapeCast_unflat (y : (⟨2, ![32768, 1024]⟩ : Shape).Idx → EReal)
    (h : (⟨2, ![32768, 1024]⟩ : Shape).ShapeCasts ⟨3, ![8, 4096, 1024]⟩) :
    shapeCast (⟨3, ![8, 4096, 1024]⟩ : Shape) y h = Spec.unflat y := by
  funext i
  unfold Spec.unflat
  refine shapeCast_apply y h i _ ?_
  rewrite [Shape.rowMajor_val_three, Shape.rowMajor_val_two]
  show ((i 0).val * 4096 + (i 1).val) * 1024 + (i 2).val = ((i 0).val * 4096 + (i 1).val) * 1024 + (i 2).val
  rfl

end Cert.Hand.Reshapes

end
-- ==== Proof.LibRealEntries.lean ====
/-
  Arrays of extended reals all of whose entries are real numbers.

  The property passes through everything a chain of dense layers is made of: reading an array at
  re-arranged indices (transposes, slices, reshapes, broadcasts are all of the form j ↦ x (f j)), entrywise
  sums, and a dot_general, whose entry is a finite sum of products of entries.  It is what a precondition
  "every input is finite" gives for the inputs: an entry whose absolute value is below +∞ is neither +∞ nor −∞.
-/
import Idealize.ShloMosaic.PureOps.Ideal.Laws
import Idealize.ShloMosaic.Lib.ReduceAll
import Idealize.ShloMosaic.Lib.ValueIdx

noncomputable section

namespace RealEntries

open Idealize.ShloMosaic

/-- Every entry of the array is a real number (neither infinity). -/
def IsReal {ι : Type} (v : ι → EReal) : Prop := ∀ i, ∃ r : ℝ, v i = (r : EReal)

/-- Reading a real-valued array at re-arranged indices gives a real-valued array. -/
theorem IsReal.comp {ι κ : Type} {v : ι → EReal} (h : IsReal v) (f : κ → ι) : IsReal (fun j => v (f j)) :=
  fun j => h (f j)

/-- The entrywise sum of two real-valued arrays is real-valued. -/
theorem IsReal.add {ι : Type} {v w : ι → EReal} (hv : IsReal v) (hw : IsReal w) : IsReal (fun i => v i + w i) := fun i => by
  obtain ⟨a, ha⟩ := hv i
  obtain ⟨b, hb⟩ := hw i
  exact ⟨a + b, by show v i + w i = _; rw [ha, hb, EReal.coe_add]⟩

/-- A finite sum of real numbers read in the extended reals is a real number. -/
theorem exists_real_sum {κ : Type} (s : Finset κ) (f : κ → EReal) (h : ∀ k, ∃ r : ℝ, f k = (r : EReal)) :
    ∃ r : ℝ, ∑ k ∈ s, f k = (r : EReal) := by
  classical
  refine Finset.induction_on s ⟨0, by simp⟩ ?_
  intro a s ha ⟨r, hr⟩
  obtain ⟨b, hb⟩ := h a
  exact ⟨b + r, by rw [Finset.sum_insert ha, hr, hb, EReal.coe_add]⟩

/-- An array whose entry at i is a finite sum over k of products of entries of two real-valued arrays is real-valued. -/
theorem isReal_sum_mul {ι κ α β : Type} [Fintype κ] {l : α → EReal} {r : β → EReal} (hl : IsReal l) (hr : IsReal r)
    (f : ι → κ → α) (g : ι → κ → β) : IsReal (fun i => ∑ k, l (f i k) * r (g i k)) := fun i =>
  exists_real_sum _ _ fun k => by
    obtain ⟨a, ha⟩ := hl (f i k)
    obtain ⟨b, hb⟩ := hr (g i k)
    exact ⟨a * b, by show l (f i k) * r (g i k) = _; rw [ha, hb, EReal.coe_mul]⟩

variable {s t : Shape} {φ : FTy}

theorem IsReal.addf {v w : FVec Ideal s φ} (hv : IsReal v) (hw : IsReal w) : IsReal (addf v w) := hv.add hw

theorem IsReal.transpose {v : s.Idx → EReal} (hv : IsReal v) (perm : List (Fin s.rank)) (h : s.Transposes perm t) :
    IsReal (transpose t perm v h) := fun j => hv _

theorem IsReal.broadcastInDim {v : s.Idx → EReal} (hv : IsReal v) (dims : Fin s.rank → Fin t.rank) (h : s.BroadcastsInDim t dims) :
    IsReal (broadcastInDim t dims h v) := fun j => hv _

theorem IsReal.extractStridedSlice {v : s.Idx → EReal} (hv : IsReal v) (off : Fin s.rank → Nat) (h : s.Slices off t) :
    IsReal (extractStridedSlice t off v h) := fun j => hv _

theorem IsReal.shapeCast {v : s.Idx → EReal} (hv : IsReal v) (h : s.ShapeCasts t) : IsReal (shapeCast t v h) := fun j => hv _

/-- The host's dot_general of two real-valued arrays is real-valued: each entry is the sum, over the contracted
    index set, of products of entries. -/
theorem IsReal.dotGeneral {sl sr so : Shape} {φ₁ φ₂ : FTy} (d : DotDims sl sr so) (prec : Option ContractPrecision)
    {l : FVec Ideal sl φ₁} {r : FVec Ideal sr φ₂} (hl : IsReal l) (hr : IsReal r) :
    IsReal (Host.dotGeneral d prec l r : FVec Ideal so φ₁) := fun j => by
  simp only [Host.dotGeneral]
  rw [Ideal.dotGeneral_apply]
  exact isReal_sum_mul hl hr (fun j k => d.lhsIdx j k) (fun j k => d.rhsIdx j k) j

/-- An extended real whose absolute value is below +∞ is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- One conjunct of a "finite inputs" precondition: where the reduction by `and` of the entrywise comparison
    |x| < +∞ (the word 0x7F800000 broadcast from a scalar) is 1, every entry of x is a real number. -/
theorem isReal_of_all_lt_inf {axes : List (Fin s.rank)} {u : Shape} [Subsingleton t.Idx] (x : FVec Ideal s .f32)
    (bound : FVec Ideal s .f32) (hb : ∀ i, bound i = Ideal.ofBits .f32 0x7F800000#32)
    (init : u.Idx → BitVec 1) (h : s.ReducesTo axes t) (hu : 0 < u.numel) (j : t.Idx)
    (e : Host.reduce IntOp.andi (cmpf .olt (Host.absf x) bound) init h hu j = 1#1) : IsReal x := fun i => by
  have hi := Host.reduce_andi_all _ init h hu j e i
  have htop : Ideal.ofBits .f32 0x7F800000#32 = ⊤ := by simp [Ideal.ofBits, Ideal.ieee]
  rw [ValueIdx.cmpf_apply, hb i, htop] at hi
  apply exists_real_of_abs_lt_top
  have h2 : Ideal.cmp .olt (max (x i) (-(x i))) ⊤ = 1#1 := hi
  by_contra hne
  simp [Ideal.cmp, hne] at h2

end RealEntries

end
-- ==== Proof.Ideal.Finite.lean ====
/-
  From the precondition "every input is finite" to real numbers.

  The precondition is the conjunction, over the eight argument arrays, of "all entries have absolute value below
  +inf"; where it holds, every entry of every argument is a real number (neither infinity). Real entries are kept by
  the row-major regrouping of the tokens, and a logit, a finite sum of products of real numbers, is a real number.
-/
import proofs.«181279_j10471130267897_2_alg».proof.Pre_finite_inputs
import proofs.«181279_j10471130267897_2_alg».proof.Proof.LibRealEntries
import proofs.«181279_j10471130267897_2_alg».proof.Proof.Ideal.Spec

noncomputable section

open scoped BigOperators

namespace Cert.Hand.Finite

open Idealize.ShloMosaic Idealize.ShloMosaic.ValueIdx RealEntries Cert.Hand

/-- The scalar shape has one index. -/
instance subsingleton_scalar_idx : Subsingleton (⟨0, ![]⟩ : Shape).Idx := ⟨fun a b => funext fun d => d.elim0⟩

/-- Where the "finite inputs" predicate of the eight argument arrays is all ones, every entry of each array is a
    real number: the predicate is a chain of "and"s of eight reductions by "and" of the entrywise comparison
    |x| < +inf, so each reduction is 1, so each comparison holds at every index. -/
theorem isReal_of_pre [Cert.Pre_finite_inputs.Facts]
    (a0 : FVec Ideal Cert.Pre_finite_inputs.S8x4096x1024 .f32) (a1 : FVec Ideal Cert.Pre_finite_inputs.S1024x512 .f32)
    (a2 : FVec Ideal Cert.Pre_finite_inputs.S64x1024x256 .f32) (a3 : FVec Ideal Cert.Pre_finite_inputs.S64x256 .f32)
    (a4 : FVec Ideal Cert.Pre_finite_inputs.S64x256x256 .f32) (a5 : FVec Ideal Cert.Pre_finite_inputs.S64x256 .f32)
    (a6 : FVec Ideal Cert.Pre_finite_inputs.S64x256x1024 .f32) (a7 : FVec Ideal Cert.Pre_finite_inputs.S64x1024 .f32)
    (h : Cert.Pre_finite_inputs.fn (F := Ideal) a0 a1 a2 a3 a4 a5 a6 a7 = fun _ => 1#1) :
    IsReal a0 ∧ IsReal a1 ∧ IsReal a2 ∧ IsReal a3 ∧ IsReal a4 ∧ IsReal a5 ∧ IsReal a6 ∧ IsReal a7 := by
  have h0 := congrFun h ix0
  dsimp only [Cert.Pre_finite_inputs.fn, Cert.Pre_finite_inputs.fn_part1, Cert.Pre_finite_inputs.fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all_lt_inf a0 _ (fun _ => rfl) _ _ _ _ e0, isReal_of_all_lt_inf a1 _ (fun _ => rfl) _ _ _ _ e1,
    isReal_of_all_lt_inf a2 _ (fun _ => rfl) _ _ _ _ e2, isReal_of_all_lt_inf a3 _ (fun _ => rfl) _ _ _ _ e3,
    isReal_of_all_lt_inf a4 _ (fun _ => rfl) _ _ _ _ e4, isReal_of_all_lt_inf a5 _ (fun _ => rfl) _ _ _ _ e5,
    isReal_of_all_lt_inf a6 _ (fun _ => rfl) _ _ _ _ e6, isReal_of_all_lt_inf a7 _ (fun _ => rfl) _ _ _ _ e7⟩

/-- The flattened tokens have real entries when the tokens do. -/
theorem isReal_flat {tok : (⟨3, ![8, 4096, 1024]⟩ : Shape).Idx → EReal} (h : IsReal tok) : IsReal (Spec.flat tok) :=
  fun _ => h _

/-- Every logit is a real number when the tokens' and the mixture matrix's entries are. -/
theorem isReal_mat {X : (⟨2, ![32768, 1024]⟩ : Shape).Idx → EReal} {M : (⟨2, ![1024, 512]⟩ : Shape).Idx → EReal}
    (hX : IsReal X) (hM : IsReal M) : IsReal (Spec.mat X M) :=
  isReal_sum_mul hX hM (fun i d => ix2 (⟨(i 0).val, idx2_lt0 i⟩ : Fin 32768) d)
    (fun i d => ix2 d (⟨(i 1).val, idx2_lt1 i⟩ : Fin 512))

end Cert.Hand.Finite

end
-- ==== Proof.Ideal.Algebraic.lean ====
/-
  The two idealized programs compute one function of the arguments.

  The kernel program's result buffer ends at the regrouping [32768,1024] → [8,4096,1024] of what its last region
  leaves, which is the combine stage of the logits array its first region wrote and of the regrouped output of its
  second region; that output is the experts' three layers of the regrouped slot inputs, which the first region wrote
  as the dispatch of the flattened tokens and the mixture. Under the precondition every token and mixture entry is a
  real number, hence so is every logit: that is what the first region's streaming softmax needs to agree with the
  one-shot softmax of the specification. The reference's run ends at the same specification of its arguments, which
  agree with the kernel program's.
-/
import proofs.«181279_j10471130267897_2_alg».proof.Defs
import proofs.«181279_j10471130267897_2_alg».proof.Proof.Gen.KernelIdeal
import proofs.«181279_j10471130267897_2_alg».proof.Proof.Gen.ReferenceIdeal
import proofs.«181279_j10471130267897_2_alg».proof.Proof.Gen.Pre_finite_inputs
import proofs.«181279_j10471130267897_2_alg».proof.Proof.Ideal.Instance
import proofs.«181279_j10471130267897_2_alg».proof.Proof.Ideal.ReadBack
import proofs.«181279_j10471130267897_2_alg».proof.Proof.Ideal.DispatchValue
import proofs.«181279_j10471130267897_2_alg».proof.Proof.Ideal.ArrMlp
import proofs.«181279_j10471130267897_2_alg».proof.Proof.Ideal.ArrCombine
import proofs.«181279_j10471130267897_2_alg».proof.Proof.Ideal.Reshapes
import proofs.«181279_j10471130267897_2_alg».proof.Proof.Ideal.Finite
import proofs.«181279_j10471130267897_2_alg».proof.Proof.Ideal.RefRun

set_option maxRecDepth 16384

noncomputable section

namespace Cert.KernelIdeal.Hand

open Idealize.ShloMosaic Idealize.ShloMosaic.TcCoe Idealize.SL.Sem
open Cert.KernelIdeal Cert.KernelIdeal.Gen
open Cert.Hand

variable (m : (ℓ : Loc nD τ sig) → Buf (Elt Ideal) ℓ) (c : Dev nD)

/-- Under the precondition the kernel program's result is the specification of its arguments. -/
theorem kernel_result
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1) :
    (W7 (theData m) c (Proc.devRef .tc main_v6) : S8x4096x1024.Idx → EReal)
      = Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  obtain ⟨h0, h1, -⟩ := Finite.isReal_of_pre _ _ _ _ _ _ _ _ hpre
  -- what region 0 is entered at: the flattened tokens and the mixture
  have eX : (V1 (theData m) c main_v0 : S32768x1024.Idx → EReal) = Spec.flat (m ((c.tc : Thread nD τ).loc main_arg0)) :=
    (V1_main_v0 (theData m) c).trans (Reshapes.shapeCast_flat _ _)
  have eM : V1 (theData m) c main_arg1 = m ((c.tc : Thread nD τ).loc main_arg1) := V1_main_arg1 (theData m) c
  have hX : ∀ i, ∃ r : ℝ, (V1 (theData m) c main_v0 : S32768x1024.Idx → EReal) i = (r : EReal) := by
    rw [eX]; exact Finite.isReal_flat h0
  have hmt : ∀ i, ∃ r : ℝ, Spec.mat (V1 (theData m) c main_v0) (V1 (theData m) c main_arg1) i = (r : EReal) := by
    rw [eX, eM]; exact Finite.isReal_mat (Finite.isReal_flat h0) h1
  -- the chain of boundary contents and array values, last item first
  have e6 : (W7 (theData m) c (Proc.devRef .tc main_v6) : S8x4096x1024.Idx → EReal)
      = Spec.unflat ((dat2 (V5 (theData m)) c).arrAt 2 cfg2.N) :=
    (W7_main_v6 (theData m) c).trans (Reshapes.shapeCast_unflat _ _)
  have e5 : (dat2 (V5 (theData m)) c).arrAt 2 cfg2.N = Spec.comb (V5 (theData m) c main_v1_1) (V5 (theData m) c main_v4) :=
    arrAt2_2 (V5 (theData m)) c
  have e4a : V5 (theData m) c main_v1_1 = (dat0 (V1 (theData m)) c).arrAt 3 cfg0.N := V5_main_v1_1 (theData m) c
  have e4b : (V5 (theData m) c main_v4 : S512x1024.Idx → EReal) = Spec.merge ((dat1 (V3 (theData m)) c).arrAt 7 cfg1.N) :=
    (V5_main_v4 (theData m) c).trans (Reshapes.shapeCast_merge _ _)
  have e3 : (dat1 (V3 (theData m)) c).arrAt 7 cfg1.N
      = Spec.mlp (V3 (theData m) c main_v2) (V3 (theData m) c main_arg2) (V3 (theData m) c main_arg3) (V3 (theData m) c main_arg4) (V3 (theData m) c main_arg5) (V3 (theData m) c main_arg6) (V3 (theData m) c main_arg7) :=
    arrAt1_7 (V3 (theData m)) c
  have e2 : (V3 (theData m) c main_v2 : S64x8x1024.Idx → EReal) = Spec.split ((dat0 (V1 (theData m)) c).arrAt 2 cfg0.N) :=
    (V3_main_v2 (theData m) c).trans (Reshapes.shapeCast_split _ _)
  have e1a : (dat0 (V1 (theData m)) c).arrAt 3 cfg0.N = Spec.mat (V1 (theData m) c main_v0) (V1 (theData m) c main_arg1) :=
    arrAt0_3 (V1 (theData m)) c
  have e1b : (dat0 (V1 (theData m)) c).arrAt 2 cfg0.N = Spec.xhat (V1 (theData m) c main_v0) (V1 (theData m) c main_arg1) :=
    arrAt0_2 (V1 (theData m)) c hX hmt
  rw [e6, e5, e4a, e4b, e3, e2, e1a, e1b, eX, eM,
    V3_main_arg2 (theData m) c, V3_main_arg3 (theData m) c, V3_main_arg4 (theData m) c, V3_main_arg5 (theData m) c, V3_main_arg6 (theData m) c, V3_main_arg7 (theData m) c]
  rfl

end Cert.KernelIdeal.Hand

namespace Cert.Proof.Hand

open Idealize.ShloMosaic Idealize.ShloMosaic.TcCoe Idealize.SL.Sem

/-- From memories agreeing on the arguments both idealized programs run, end with equal results — the specification
    of the arguments — and leave the arguments as launched. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W7 (Cert.KernelIdeal.Hand.theData m) c (Proc.devRef .tc Cert.KernelIdeal.main_v6),
    Cert.KernelIdeal.Hand.run_named m ρ, ?_⟩
  refine (θ_run Cert.ReferenceIdeal.defs _ _).mono (fun r h c => ⟨(h c).1.trans ?_, (h c).2⟩)
    (Cert.ReferenceIdeal.RefValue.run_spec m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.KernelIdeal.Hand.kernel_result m c (hpre c)).symm

end Cert.Proof.Hand

end
-- ==== Proof.lean ====
/-
  A soft mixture-of-experts layer computed by three kernels against its plain reference.

  The kernel program flattens the tokens; its first kernel forms the token-slot logits tile by tile, writes them
  out, and accumulates the dispatch (the softmax over the tokens, transposed, times the tokens) by the streaming rule:
  a running maximum, a running denominator and running weighted sums per slot, rescaled when the maximum grows, and
  divided once after the last tile; its second kernel applies each expert's three dense layers to that expert's slots;
  its third takes the softmax of the logits over the slots and multiplies it into the experts' outputs. The reference
  computes the same four stages with whole-array operations.

  Frames: each of the three programs runs to the end from any memory, faults nowhere and leaves its argument arrays as
  launched; for the kernel program, read at words or at extended reals, this is the run of its three regions among
  the four reshapes, each region's proof data given. Nothing was rewritten between the kernel program and its
  idealization. At the extended reals, under the precondition that every input is finite, every token, mixture entry
  and logit is a real number, the streaming dispatch equals the one-shot softmax dispatch, and the remaining stages are
  the reference's formulas entry by entry: both programs end at one specification of the arguments.
-/
import proofs.«181279_j10471130267897_2_alg».proof.Defs
import proofs.«181279_j10471130267897_2_alg».proof.Proof.Gen.Kernel
import proofs.«181279_j10471130267897_2_alg».proof.Proof.Gen.KernelIdeal
import proofs.«181279_j10471130267897_2_alg».proof.Proof.Gen.ReferenceIdeal
import proofs.«181279_j10471130267897_2_alg».proof.Proof.Gen.Pre_finite_inputs
import proofs.«181279_j10471130267897_2_alg».proof.Proof.Bits.Instance
import proofs.«181279_j10471130267897_2_alg».proof.Proof.Ideal.Instance
import proofs.«181279_j10471130267897_2_alg».proof.Proof.Ideal.RefRun
import proofs.«181279_j10471130267897_2_alg».proof.Proof.Ideal.Algebraic
import Idealize.ShloMosaic.Adequacy
import Idealize.ShloMosaic.Init

noncomputable section

namespace Cert.Proof

open Idealize.ShloMosaic Idealize.SL.Sem

/-- The five claims: the three frames, the (empty) list of rewrites between the kernel program and its idealization,
    and the equality of the two idealized programs' results. -/
theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.ReferenceIdeal.RefValue.frame_ref,
  trivial,
  Cert.Proof.Hand.algebraic⟩

end Cert.Proof

end
